-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v65)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v65) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v120) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x3072 : Shape := ⟨2, ![8192, 3072]⟩
abbrev S3072x8192 : Shape := ⟨2, ![3072, 8192]⟩
abbrev S8192 : Shape := ⟨1, ![8192]⟩
abbrev S8192x8192 : Shape := ⟨2, ![8192, 8192]⟩
abbrev S8192x10 : Shape := ⟨2, ![8192, 10]⟩
abbrev S10 : Shape := ⟨1, ![10]⟩
abbrev S_ : Shape := ⟨0, ![]⟩

class Facts : Prop where
  bcast_S_S8192x3072 : S_.BroadcastsInDim S8192x3072 (![] : Fin 0 → Fin S8192x3072.rank)
  reducesTo_S8192x3072_S_d0_1 : S8192x3072.ReducesTo [0, 1] S_
  h_S_ : 0 < S_.numel
  bcast_S_S3072x8192 : S_.BroadcastsInDim S3072x8192 (![] : Fin 0 → Fin S3072x8192.rank)
  reducesTo_S3072x8192_S_d0_1 : S3072x8192.ReducesTo [0, 1] S_
  bcast_S_S8192 : S_.BroadcastsInDim S8192 (![] : Fin 0 → Fin S8192.rank)
  reducesTo_S8192_S_d0 : S8192.ReducesTo [0] S_
  bcast_S_S8192x8192 : S_.BroadcastsInDim S8192x8192 (![] : Fin 0 → Fin S8192x8192.rank)
  reducesTo_S8192x8192_S_d0_1 : S8192x8192.ReducesTo [0, 1] S_
  bcast_S_S8192x10 : S_.BroadcastsInDim S8192x10 (![] : Fin 0 → Fin S8192x10.rank)
  reducesTo_S8192x10_S_d0_1 : S8192x10.ReducesTo [0, 1] S_
  bcast_S_S10 : S_.BroadcastsInDim S10 (![] : Fin 0 → Fin S10.rank)
  reducesTo_S10_S_d0 : S10.ReducesTo [0] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg11 : FVec F S8192x10 .f32) (main_arg12 : FVec F S10 .f32) (main_arg13 : FVec F S10 .f32) (main_v48 : IVec S_ 1) (main_v49 : FVec F S8192 .f32) (main_v50 : FVec F S8192 .f32) : IVec S_ 1 :=
  let main_v51 : IVec S8192 1 := cmpf .olt main_v49 main_v50
  let main_c_19 : IVec S_ 1 := constantI S_ 1 1#1
  let main_v52 : IVec S_ 1 := (fun x v => Host.reduce IntOp.andi x v reducesTo_S8192_S_d0 h_S_) main_v51 main_c_19
  let main_v53 : IVec S_ 1 := andi main_v48 main_v52
  let main_v54 : FVec F S8192x10 .f32 := Host.absf main_arg11
  let main_cst_20 : FVec F S_ .f32 := constant S_ .f32 0x7F800000#32
  let main_v55 : FVec F S8192x10 .f32 := broadcastInDim S8192x10 ![] bcast_S_S8192x10 main_cst_20
  let main_v56 : IVec S8192x10 1 := cmpf .olt main_v54 main_v55
  let main_c_21 : IVec S_ 1 := constantI S_ 1 1#1
  let main_v57 : IVec S_ 1 := (fun x v => Host.reduce IntOp.andi x v reducesTo_S8192x10_S_d0_1 h_S_) main_v56 main_c_21
  let main_v58 : IVec S_ 1 := andi main_v53 main_v57
  let main_v59 : FVec F S10 .f32 := Host.absf main_arg12
  let main_cst_22 : FVec F S_ .f32 := constant S_ .f32 0x7F800000#32
  let main_v60 : FVec F S10 .f32 := broadcastInDim S10 ![] bcast_S_S10 main_cst_22
  let main_v61 : IVec S10 1 := cmpf .olt main_v59 main_v60
  let main_c_23 : IVec S_ 1 := constantI S_ 1 1#1
  let main_v62 : IVec S_ 1 := (fun x v => Host.reduce IntOp.andi x v reducesTo_S10_S_d0 h_S_) main_v61 main_c_23
  let main_v63 : IVec S_ 1 := andi main_v58 main_v62
  let main_v64 : FVec F S10 .f32 := Host.absf main_arg13
  let main_cst_24 : FVec F S_ .f32 := constant S_ .f32 0x7F800000#32
  let main_v65 : FVec F S10 .f32 := broadcastInDim S10 ![] bcast_S_S10 main_cst_24
  let main_v66 : IVec S10 1 := cmpf .olt main_v64 main_v65
  let main_c_25 : IVec S_ 1 := constantI S_ 1 1#1
  let main_v67 : IVec S_ 1 := (fun x v => Host.reduce IntOp.andi x v reducesTo_S10_S_d0 h_S_) main_v66 main_c_25
  fn_part4 (F := F) main_v63 main_v67

def fn_part2 {F : FTy → Type} [FloatOps F] (main_arg7 : FVec F S8192 .f32) (main_arg8 : FVec F S8192 .f32) (main_arg9 : FVec F S8192 .f32) (main_arg10 : FVec F S8192 .f32) (main_arg11 : FVec F S8192x10 .f32) (main_arg12 : FVec F S10 .f32) (main_arg13 : FVec F S10 .f32) (main_v33 : IVec S_ 1) : IVec S_ 1 :=
  let main_v34 : FVec F S8192 .f32 := Host.absf main_arg7
  let main_cst_12 : FVec F S_ .f32 := constant S_ .f32 0x7F800000#32
  let main_v35 : FVec F S8192 .f32 := broadcastInDim S8192 ![] bcast_S_S8192 main_cst_12
  let main_v36 : IVec S8192 1 := cmpf .olt main_v34 main_v35
  let main_c_13 : IVec S_ 1 := constantI S_ 1 1#1
  let main_v37 : IVec S_ 1 := (fun x v => Host.reduce IntOp.andi x v reducesTo_S8192_S_d0 h_S_) main_v36 main_c_13
  let main_v38 : IVec S_ 1 := andi main_v33 main_v37
  let main_v39 : FVec F S8192 .f32 := Host.absf main_arg8
  let main_cst_14 : FVec F S_ .f32 := constant S_ .f32 0x7F800000#32
  let main_v40 : FVec F S8192 .f32 := broadcastInDim S8192 ![] bcast_S_S8192 main_cst_14
  let main_v41 : IVec S8192 1 := cmpf .olt main_v39 main_v40
  let main_c_15 : IVec S_ 1 := constantI S_ 1 1#1
  let main_v42 : IVec S_ 1 := (fun x v => Host.reduce IntOp.andi x v reducesTo_S8192_S_d0 h_S_) main_v41 main_c_15
  let main_v43 : IVec S_ 1 := andi main_v38 main_v42
  let main_v44 : FVec F S8192 .f32 := Host.absf main_arg9
  let main_cst_16 : FVec F S_ .f32 := constant S_ .f32 0x7F800000#32
  let main_v45 : FVec F S8192 .f32 := broadcastInDim S8192 ![] bcast_S_S8192 main_cst_16
  let main_v46 : IVec S8192 1 := cmpf .olt main_v44 main_v45
  let main_c_17 : IVec S_ 1 := constantI S_ 1 1#1
  let main_v47 : IVec S_ 1 := (fun x v => Host.reduce IntOp.andi x v reducesTo_S8192_S_d0 h_S_) main_v46 main_c_17
  let main_v48 : IVec S_ 1 := andi main_v43 main_v47
  let main_v49 : FVec F S8192 .f32 := Host.absf main_arg10
  let main_cst_18 : FVec F S_ .f32 := constant S_ .f32 0x7F800000#32
  let main_v50 : FVec F S8192 .f32 := broadcastInDim S8192 ![] bcast_S_S8192 main_cst_18
  fn_part3 (F := F) main_arg11 main_arg12 main_arg13 main_v48 main_v49 main_v50

def fn_part1 {F : FTy → Type} [FloatOps F] (main_arg4 : FVec F S8192 .f32) (main_arg5 : FVec F S8192 .f32) (main_arg6 : FVec F S8192x8192 .f32) (main_arg7 : FVec F S8192 .f32) (main_arg8 : FVec F S8192 .f32) (main_arg9 : FVec F S8192 .f32) (main_arg10 : FVec F S8192 .f32) (main_arg11 : FVec F S8192x10 .f32) (main_arg12 : FVec F S10 .f32) (main_arg13 : FVec F S10 .f32) (main_v13 : IVec S_ 1) (main_v16 : IVec S8192 1) : IVec S_ 1 :=
  let main_c_5 : IVec S_ 1 := constantI S_ 1 1#1
  let main_v17 : IVec S_ 1 := (fun x v => Host.reduce IntOp.andi x v reducesTo_S8192_S_d0 h_S_) main_v16 main_c_5
  let main_v18 : IVec S_ 1 := andi main_v13 main_v17
  let main_v19 : FVec F S8192 .f32 := Host.absf main_arg4
  let main_cst_6 : FVec F S_ .f32 := constant S_ .f32 0x7F800000#32
  let main_v20 : FVec F S8192 .f32 := broadcastInDim S8192 ![] bcast_S_S8192 main_cst_6
  let main_v21 : IVec S8192 1 := cmpf .olt main_v19 main_v20
  let main_c_7 : IVec S_ 1 := constantI S_ 1 1#1
  let main_v22 : IVec S_ 1 := (fun x v => Host.reduce IntOp.andi x v reducesTo_S8192_S_d0 h_S_) main_v21 main_c_7
  let main_v23 : IVec S_ 1 := andi main_v18 main_v22
  let main_v24 : FVec F S8192 .f32 := Host.absf main_arg5
  let main_cst_8 : FVec F S_ .f32 := constant S_ .f32 0x7F800000#32
  let main_v25 : FVec F S8192 .f32 := broadcastInDim S8192 ![] bcast_S_S8192 main_cst_8
  let main_v26 : IVec S8192 1 := cmpf .olt main_v24 main_v25
  let main_c_9 : IVec S_ 1 := constantI S_ 1 1#1
  let main_v27 : IVec S_ 1 := (fun x v => Host.reduce IntOp.andi x v reducesTo_S8192_S_d0 h_S_) main_v26 main_c_9
  let main_v28 : IVec S_ 1 := andi main_v23 main_v27
  let main_v29 : FVec F S8192x8192 .f32 := Host.absf main_arg6
  let main_cst_10 : FVec F S_ .f32 := constant S_ .f32 0x7F800000#32
  let main_v30 : FVec F S8192x8192 .f32 := broadcastInDim S8192x8192 ![] bcast_S_S8192x8192 main_cst_10
  let main_v31 : IVec S8192x8192 1 := cmpf .olt main_v29 main_v30
  let main_c_11 : IVec S_ 1 := constantI S_ 1 1#1
  let main_v32 : IVec S_ 1 := (fun x v => Host.reduce IntOp.andi x v reducesTo_S8192x8192_S_d0_1 h_S_) main_v31 main_c_11
  let main_v33 : IVec S_ 1 := andi main_v28 main_v32
  fn_part2 (F := F) main_arg7 main_arg8 main_arg9 main_arg10 main_arg11 main_arg12 main_arg13 main_v33

def fn {F : FTy → Type} [FloatOps F] (main_arg0 : FVec F S8192x3072 .f32) (main_arg1 : FVec F S3072x8192 .f32) (main_arg2 : FVec F S8192 .f32) (main_arg3 : FVec F S8192 .f32) (main_arg4 : FVec F S8192 .f32) (main_arg5 : FVec F S8192 .f32) (main_arg6 : FVec F S8192x8192 .f32) (main_arg7 : FVec F S8192 .f32) (main_arg8 : FVec F S8192 .f32) (main_arg9 : FVec F S8192 .f32) (main_arg10 : FVec F S8192 .f32) (main_arg11 : FVec F S8192x10 .f32) (main_arg12 : FVec F S10 .f32) (main_arg13 : FVec F S10 .f32) : IVec S_ 1 :=
  let main_v0 : FVec F S8192x3072 .f32 := Host.absf main_arg0
  let main_cst : FVec F S_ .f32 := constant S_ .f32 0x7F800000#32
  let main_v1 : FVec F S8192x3072 .f32 := broadcastInDim S8192x3072 ![] bcast_S_S8192x3072 main_cst
  let main_v2 : IVec S8192x3072 1 := cmpf .olt main_v0 main_v1
  let main_c : IVec S_ 1 := constantI S_ 1 1#1
  let main_v3 : IVec S_ 1 := (fun x v => Host.reduce IntOp.andi x v reducesTo_S8192x3072_S_d0_1 h_S_) main_v2 main_c
  let main_v4 : FVec F S3072x8192 .f32 := Host.absf main_arg1
  let main_cst_0 : FVec F S_ .f32 := constant S_ .f32 0x7F800000#32
  let main_v5 : FVec F S3072x8192 .f32 := broadcastInDim S3072x8192 ![] bcast_S_S3072x8192 main_cst_0
  let main_v6 : IVec S3072x8192 1 := cmpf .olt main_v4 main_v5
  let main_c_1 : IVec S_ 1 := constantI S_ 1 1#1
  let main_v7 : IVec S_ 1 := (fun x v => Host.reduce IntOp.andi x v reducesTo_S3072x8192_S_d0_1 h_S_) main_v6 main_c_1
  let main_v8 : IVec S_ 1 := andi main_v3 main_v7
  let main_v9 : FVec F S8192 .f32 := Host.absf main_arg2
  let main_cst_2 : FVec F S_ .f32 := constant S_ .f32 0x7F800000#32
  let main_v10 : FVec F S8192 .f32 := broadcastInDim S8192 ![] bcast_S_S8192 main_cst_2
  let main_v11 : IVec S8192 1 := cmpf .olt main_v9 main_v10
  let main_c_3 : IVec S_ 1 := constantI S_ 1 1#1
  let main_v12 : IVec S_ 1 := (fun x v => Host.reduce IntOp.andi x v reducesTo_S8192_S_d0 h_S_) main_v11 main_c_3
  let main_v13 : IVec S_ 1 := andi main_v8 main_v12
  let main_v14 : FVec F S8192 .f32 := Host.absf main_arg3
  let main_cst_4 : FVec F S_ .f32 := constant S_ .f32 0x7F800000#32
  let main_v15 : FVec F S8192 .f32 := broadcastInDim S8192 ![] bcast_S_S8192 main_cst_4
  let main_v16 : IVec S8192 1 := cmpf .olt main_v14 main_v15
  fn_part1 (F := F) main_arg4 main_arg5 main_arg6 main_arg7 main_arg8 main_arg9 main_arg10 main_arg11 main_arg12 main_arg13 main_v13 main_v16
-- ==== Kernel.lean ====
abbrev S8192x3072 : Shape := ⟨2, ![8192, 3072]⟩
abbrev S3072x8192 : Shape := ⟨2, ![3072, 8192]⟩
abbrev S8192 : Shape := ⟨1, ![8192]⟩
abbrev S8192x8192 : Shape := ⟨2, ![8192, 8192]⟩
abbrev S8192x10 : Shape := ⟨2, ![8192, 10]⟩
abbrev S10 : Shape := ⟨1, ![10]⟩
abbrev S_ : Shape := ⟨0, ![]⟩
abbrev S1x8192 : Shape := ⟨2, ![1, 8192]⟩
abbrev S1024x512 : Shape := ⟨2, ![1024, 512]⟩
abbrev S512x1024 : Shape := ⟨2, ![512, 1024]⟩
abbrev S1x1024 : Shape := ⟨2, ![1, 1024]⟩
abbrev S1024x1024 : Shape := ⟨2, ![1024, 1024]⟩
abbrev S128x8192 : Shape := ⟨2, ![128, 8192]⟩
abbrev S128 : Shape := ⟨1, ![128]⟩
abbrev S128x1 : Shape := ⟨2, ![128, 1]⟩
abbrev S1x10 : Shape := ⟨2, ![1, 10]⟩
abbrev S128x10 : Shape := ⟨2, ![128, 10]⟩

abbrev nBuf : Space → Nat
  | .hbm => 100
  | .vmem => 39
  | .smem => 0
  | _ => 0

abbrev bufTy : (tb : Table) → Fin (tcTables nBuf tb) → BufTy
  | .hbm, ⟨0, _⟩ => ⟨S8192x3072, .f32⟩
  | .hbm, ⟨1, _⟩ => ⟨S3072x8192, .f32⟩
  | .hbm, ⟨2, _⟩ => ⟨S8192, .f32⟩
  | .hbm, ⟨3, _⟩ => ⟨S8192, .f32⟩
  | .hbm, ⟨4, _⟩ => ⟨S8192, .f32⟩
  | .hbm, ⟨5, _⟩ => ⟨S8192, .f32⟩
  | .hbm, ⟨6, _⟩ => ⟨S8192x8192, .f32⟩
  | .hbm, ⟨7, _⟩ => ⟨S8192, .f32⟩
  | .hbm, ⟨8, _⟩ => ⟨S8192, .f32⟩
  | .hbm, ⟨9, _⟩ => ⟨S8192, .f32⟩
  | .hbm, ⟨10, _⟩ => ⟨S8192, .f32⟩
  | .hbm, ⟨11, _⟩ => ⟨S8192x10, .f32⟩
  | .hbm, ⟨12, _⟩ => ⟨S10, .f32⟩
  | .hbm, ⟨13, _⟩ => ⟨S10, .f32⟩
  | .hbm, ⟨14, _⟩ => ⟨S_, .f32⟩
  | .hbm, ⟨15, _⟩ => ⟨S3072x8192, .f32⟩
  | .hbm, ⟨16, _⟩ => ⟨S3072x8192, .f32⟩
  | .hbm, ⟨17, _⟩ => ⟨S_, .f32⟩
  | .hbm, ⟨18, _⟩ => ⟨S3072x8192, .f32⟩
  | .hbm, ⟨19, _⟩ => ⟨S3072x8192, .f32⟩
  | .hbm, ⟨20, _⟩ => ⟨S_, .f32⟩
  | .hbm, ⟨21, _⟩ => ⟨S3072x8192, .f32⟩
  | .hbm, ⟨22, _⟩ => ⟨S3072x8192, .f32⟩
  | .hbm, ⟨23, _⟩ => ⟨S3072x8192, .f32⟩
  | .hbm, ⟨24, _⟩ => ⟨S3072x8192, .f32⟩
  | .hbm, ⟨25, _⟩ => ⟨S_, .f32⟩
  | .hbm, ⟨26, _⟩ => ⟨S3072x8192, .f32⟩
  | .hbm, ⟨27, _⟩ => ⟨S3072x8192, .f32⟩
  | .hbm, ⟨28, _⟩ => ⟨S_, .f32⟩
  | .hbm, ⟨29, _⟩ => ⟨S3072x8192, .f32⟩
  | .hbm, ⟨30, _⟩ => ⟨S3072x8192, .f32⟩
  | .hbm, ⟨31, _⟩ => ⟨S_, .f32⟩
  | .hbm, ⟨32, _⟩ => ⟨S3072x8192, .f32⟩
  | .hbm, ⟨33, _⟩ => ⟨S3072x8192, .f32⟩
  | .hbm, ⟨34, _⟩ => ⟨S_, .f32⟩
  | .hbm, ⟨35, _⟩ => ⟨S3072x8192, .f32⟩
  | .hbm, ⟨36, _⟩ => ⟨S3072x8192, .f32⟩
  | .hbm, ⟨37, _⟩ => ⟨S_, .f32⟩
  | .hbm, ⟨38, _⟩ => ⟨S3072x8192, .f32⟩
  | .hbm, ⟨39, _⟩ => ⟨S3072x8192, .f32⟩
  | .hbm, ⟨40, _⟩ => ⟨S3072x8192, .f32⟩
  | .hbm, ⟨41, _⟩ => ⟨S3072x8192, .bf16⟩
  | .hbm, ⟨42, _⟩ => ⟨S_, .f32⟩
  | .hbm, ⟨43, _⟩ => ⟨S8192x8192, .f32⟩
  | .hbm, ⟨44, _⟩ => ⟨S8192x8192, .f32⟩
  | .hbm, ⟨45, _⟩ => ⟨S_, .f32⟩
  | .hbm, ⟨46, _⟩ => ⟨S8192x8192, .f32⟩
  | .hbm, ⟨47, _⟩ => ⟨S8192x8192, .f32⟩
  | .hbm, ⟨48, _⟩ => ⟨S_, .f32⟩
  | .hbm, ⟨49, _⟩ => ⟨S8192x8192, .f32⟩
  | .hbm, ⟨50, _⟩ => ⟨S8192x8192, .f32⟩
  | .hbm, ⟨51, _⟩ => ⟨S8192x8192, .f32⟩
  | .hbm, ⟨52, _⟩ => ⟨S8192x8192, .f32⟩
  | .hbm, ⟨53, _⟩ => ⟨S_, .f32⟩
  | .hbm, ⟨54, _⟩ => ⟨S8192x8192, .f32⟩
  | .hbm, ⟨55, _⟩ => ⟨S8192x8192, .f32⟩
  | .hbm, ⟨56, _⟩ => ⟨S_, .f32⟩
  | .hbm, ⟨57, _⟩ => ⟨S8192x8192, .f32⟩
  | .hbm, ⟨58, _⟩ => ⟨S8192x8192, .f32⟩
  | .hbm, ⟨59, _⟩ => ⟨S_, .f32⟩
  | .hbm, ⟨60, _⟩ => ⟨S8192x8192, .f32⟩
  | .hbm, ⟨61, _⟩ => ⟨S8192x8192, .f32⟩
  | .hbm, ⟨62, _⟩ => ⟨S8192x8192, .f32⟩
  | .hbm, ⟨63, _⟩ => ⟨S8192x8192, .bf16⟩
  | .hbm, ⟨64, _⟩ => ⟨S_, .f32⟩
  | .hbm, ⟨65, _⟩ => ⟨S8192x10, .f32⟩
  | .hbm, ⟨66, _⟩ => ⟨S8192x10, .f32⟩
  | .hbm, ⟨67, _⟩ => ⟨S_, .f32⟩
  | .hbm, ⟨68, _⟩ => ⟨S8192x10, .f32⟩
  | .hbm, ⟨69, _⟩ => ⟨S8192x10, .f32⟩
  | .hbm, ⟨70, _⟩ => ⟨S_, .f32⟩
  | .hbm, ⟨71, _⟩ => ⟨S8192x10, .f32⟩
  | .hbm, ⟨72, _⟩ => ⟨S8192x10, .f32⟩
  | .hbm, ⟨73, _⟩ => ⟨S8192x10, .f32⟩
  | .hbm, ⟨74, _⟩ => ⟨S8192x10, .f32⟩
  | .hbm, ⟨75, _⟩ => ⟨S_, .f32⟩
  | .hbm, ⟨76, _⟩ => ⟨S8192x10, .f32⟩
  | .hbm, ⟨77, _⟩ => ⟨S8192x10, .f32⟩
  | .hbm, ⟨78, _⟩ => ⟨S_, .f32⟩
  | .hbm, ⟨79, _⟩ => ⟨S8192x10, .f32⟩
  | .hbm, ⟨80, _⟩ => ⟨S8192x10, .f32⟩
  | .hbm, ⟨81, _⟩ => ⟨S_, .f32⟩
  | .hbm, ⟨82, _⟩ => ⟨S8192x10, .f32⟩
  | .hbm, ⟨83, _⟩ => ⟨S8192x10, .f32⟩
  | .hbm, ⟨84, _⟩ => ⟨S8192x10, .f32⟩
  | .hbm, ⟨85, _⟩ => ⟨S8192x10, .bf16⟩
  | .hbm, ⟨86, _⟩ => ⟨S1x8192, .f32⟩
  | .hbm, ⟨87, _⟩ => ⟨S1x8192, .f32⟩
  | .hbm, ⟨88, _⟩ => ⟨S8192x8192, .bf16⟩
  | .hbm, ⟨89, _⟩ => ⟨S1x8192, .f32⟩
  | .hbm, ⟨90, _⟩ => ⟨S1x8192, .f32⟩
  | .hbm, ⟨91, _⟩ => ⟨S8192x8192, .f32⟩
  | .hbm, ⟨92, _⟩ => ⟨S1x8192, .f32⟩
  | .hbm, ⟨93, _⟩ => ⟨S1x8192, .f32⟩
  | .hbm, ⟨94, _⟩ => ⟨S8192x8192, .f32⟩
  | .hbm, ⟨95, _⟩ => ⟨S1x8192, .f32⟩
  | .hbm, ⟨96, _⟩ => ⟨S1x8192, .f32⟩
  | .hbm, ⟨97, _⟩ => ⟨S1x10, .f32⟩
  | .hbm, ⟨98, _⟩ => ⟨S1x10, .f32⟩
  | .hbm, ⟨99, _⟩ => ⟨S8192x10, .f32⟩
  | .local _ .vmem, ⟨0, _⟩ => ⟨S1024x512, .f32⟩
  | .local _ .vmem, ⟨1, _⟩ => ⟨S1024x512, .f32⟩
  | .local _ .vmem, ⟨2, _⟩ => ⟨S512x1024, .bf16⟩
  | .local _ .vmem, ⟨3, _⟩ => ⟨S512x1024, .bf16⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S1024x1024, .bf16⟩
  | .local _ .vmem, ⟨9, _⟩ => ⟨S1024x1024, .bf16⟩
  | .local _ .vmem, ⟨10, _⟩ => ⟨S1024x1024, .f32⟩
  | .local _ .vmem, ⟨11, _⟩ => ⟨S128x8192, .bf16⟩
  | .local _ .vmem, ⟨12, _⟩ => ⟨S128x8192, .bf16⟩
  | .local _ .vmem, ⟨13, _⟩ => ⟨S1x8192, .f32⟩
  | .local _ .vmem, ⟨14, _⟩ => ⟨S1x8192, .f32⟩
  | .local _ .vmem, ⟨15, _⟩ => ⟨S128x8192, .f32⟩
  | .local _ .vmem, ⟨16, _⟩ => ⟨S128x8192, .f32⟩
  | .local _ .vmem, ⟨17, _⟩ => ⟨S1024x512, .f32⟩
  | .local _ .vmem, ⟨18, _⟩ => ⟨S1024x512, .f32⟩
  | .local _ .vmem, ⟨19, _⟩ => ⟨S512x1024, .bf16⟩
  | .local _ .vmem, ⟨20, _⟩ => ⟨S512x1024, .bf16⟩
  | .local _ .vmem, ⟨21, _⟩ => ⟨S1x1024, .f32⟩
  | .local _ .vmem, ⟨22, _⟩ => ⟨S1x1024, .f32⟩
  | .local _ .vmem, ⟨23, _⟩ => ⟨S1x1024, .f32⟩
  | .local _ .vmem, ⟨24, _⟩ => ⟨S1x1024, .f32⟩
  | .local _ .vmem, ⟨25, _⟩ => ⟨S1024x1024, .f32⟩
  | .local _ .vmem, ⟨26, _⟩ => ⟨S1024x1024, .f32⟩
  | .local _ .vmem, ⟨27, _⟩ => ⟨S1024x1024, .f32⟩
  | .local _ .vmem, ⟨28, _⟩ => ⟨S1024x1024, .f32⟩
  | .local _ .vmem, ⟨29, _⟩ => ⟨S1024x1024, .f32⟩
  | .local _ .vmem, ⟨30, _⟩ => ⟨S128x8192, .f32⟩
  | .local _ .vmem, ⟨31, _⟩ => ⟨S128x8192, .f32⟩
  | .local _ .vmem, ⟨32, _⟩ => ⟨S1x8192, .f32⟩
  | .local _ .vmem, ⟨33, _⟩ => ⟨S1x8192, .f32⟩
  | .local _ .vmem, ⟨34, _⟩ => ⟨S8192x10, .bf16⟩
  | .local _ .vmem, ⟨35, _⟩ => ⟨S1x10, .f32⟩
  | .local _ .vmem, ⟨36, _⟩ => ⟨S1x10, .f32⟩
  | .local _ .vmem, ⟨37, _⟩ => ⟨S128x10, .f32⟩
  | .local _ .vmem, ⟨38, _⟩ => ⟨S128x10, .f32⟩
  | _, _ => ⟨S8192x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | _, _ => false

abbrev semScoped : Fin 0 → Bool
  | ⟨_, h⟩ => absurd h (Nat.not_lt_zero _)

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  ofTc nBuf bufTy 0 37 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_cst : Ref sig .tc := ⟨.hbm, 14, rfl⟩
abbrev main_v0 : Ref sig .tc := ⟨.hbm, 15, rfl⟩
abbrev main_v1 : Ref sig .tc := ⟨.hbm, 16, rfl⟩
abbrev main_cst_0 : Ref sig .tc := ⟨.hbm, 17, rfl⟩
abbrev main_v2 : Ref sig .tc := ⟨.hbm, 18, rfl⟩
abbrev main_v3 : Ref sig .tc := ⟨.hbm, 19, rfl⟩
abbrev main_cst_1 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_cst_2 : Ref sig .tc := ⟨.hbm, 25, rfl⟩
abbrev main_v8 : Ref sig .tc := ⟨.hbm, 26, rfl⟩
abbrev main_v9 : Ref sig .tc := ⟨.hbm, 27, rfl⟩
abbrev main_cst_3 : Ref sig .tc := ⟨.hbm, 28, rfl⟩
abbrev main_v10 : Ref sig .tc := ⟨.hbm, 29, rfl⟩
abbrev main_v11 : Ref sig .tc := ⟨.hbm, 30, rfl⟩
abbrev main_cst_4 : Ref sig .tc := ⟨.hbm, 31, rfl⟩
abbrev main_v12 : Ref sig .tc := ⟨.hbm, 32, rfl⟩
abbrev main_v13 : Ref sig .tc := ⟨.hbm, 33, rfl⟩
abbrev main_cst_5 : Ref sig .tc := ⟨.hbm, 34, rfl⟩
abbrev main_v14 : Ref sig .tc := ⟨.hbm, 35, rfl⟩
abbrev main_v15 : Ref sig .tc := ⟨.hbm, 36, rfl⟩
abbrev main_cst_6 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_cst_7 : Ref sig .tc := ⟨.hbm, 42, rfl⟩
abbrev main_v20 : Ref sig .tc := ⟨.hbm, 43, rfl⟩
abbrev main_v21 : Ref sig .tc := ⟨.hbm, 44, rfl⟩
abbrev main_cst_8 : Ref sig .tc := ⟨.hbm, 45, rfl⟩
abbrev main_v22 : Ref sig .tc := ⟨.hbm, 46, rfl⟩
abbrev main_v23 : Ref sig .tc := ⟨.hbm, 47, rfl⟩
abbrev main_cst_9 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_cst_10 : Ref sig .tc := ⟨.hbm, 53, rfl⟩
abbrev main_v28 : Ref sig .tc := ⟨.hbm, 54, rfl⟩
abbrev main_v29 : Ref sig .tc := ⟨.hbm, 55, rfl⟩
abbrev main_cst_11 : Ref sig .tc := ⟨.hbm, 56, rfl⟩
abbrev main_v30 : Ref sig .tc := ⟨.hbm, 57, rfl⟩
abbrev main_v31 : Ref sig .tc := ⟨.hbm, 58, rfl⟩
abbrev main_cst_12 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_cst_13 : Ref sig .tc := ⟨.hbm, 64, rfl⟩
abbrev main_v36 : Ref sig .tc := ⟨.hbm, 65, rfl⟩
abbrev main_v37 : Ref sig .tc := ⟨.hbm, 66, rfl⟩
abbrev main_cst_14 : Ref sig .tc := ⟨.hbm, 67, rfl⟩
abbrev main_v38 : Ref sig .tc := ⟨.hbm, 68, rfl⟩
abbrev main_v39 : Ref sig .tc := ⟨.hbm, 69, rfl⟩
abbrev main_cst_15 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_cst_16 : Ref sig .tc := ⟨.hbm, 75, rfl⟩
abbrev main_v44 : Ref sig .tc := ⟨.hbm, 76, rfl⟩
abbrev main_v45 : Ref sig .tc := ⟨.hbm, 77, rfl⟩
abbrev main_cst_17 : Ref sig .tc := ⟨.hbm, 78, rfl⟩
abbrev main_v46 : Ref sig .tc := ⟨.hbm, 79, rfl⟩
abbrev main_v47 : Ref sig .tc := ⟨.hbm, 80, rfl⟩
abbrev main_cst_18 : Ref sig .tc := ⟨.hbm, 81, rfl⟩
abbrev main_v48 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg3_1 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg1_1 : Ref sig .tc := ⟨.vmem, 20, rfl⟩
abbrev cc2_stg2_0 : Ref sig .tc := ⟨.vmem, 21, rfl⟩
abbrev cc2_stg2_1 : Ref sig .tc := ⟨.vmem, 22, rfl⟩
abbrev cc2_stg3_0 : Ref sig .tc := ⟨.vmem, 23, rfl⟩
abbrev cc2_stg3_1 : Ref sig .tc := ⟨.vmem, 24, rfl⟩
abbrev cc2_stg4_0 : Ref sig .tc := ⟨.vmem, 25, rfl⟩
abbrev cc2_stg4_1 : Ref sig .tc := ⟨.vmem, 26, rfl⟩
abbrev cc2_stg5_0 : Ref sig .tc := ⟨.vmem, 27, rfl⟩
abbrev cc2_stg5_1 : Ref sig .tc := ⟨.vmem, 28, rfl⟩
abbrev cc2_scratch0 : Ref sig .tc := ⟨.vmem, 29, rfl⟩
abbrev cc3_stg0_0 : Ref sig .tc := ⟨.vmem, 30, rfl⟩
abbrev cc3_stg0_1 : Ref sig .tc := ⟨.vmem, 31, rfl⟩
abbrev cc3_stg1_0 : Ref sig .tc := ⟨.vmem, 32, rfl⟩
abbrev cc3_stg2_0 : Ref sig .tc := ⟨.vmem, 33, rfl⟩
abbrev cc3_stg3_0 : Ref sig .tc := ⟨.vmem, 34, rfl⟩
abbrev cc3_stg4_0 : Ref sig .tc := ⟨.vmem, 35, rfl⟩
abbrev cc3_stg5_0 : Ref sig .tc := ⟨.vmem, 36, rfl⟩
abbrev cc3_stg6_0 : Ref sig .tc := ⟨.vmem, 37, rfl⟩
abbrev cc3_stg6_1 : Ref sig .tc := ⟨.vmem, 38, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem3_0 : DmaSem sig := 14
abbrev cc1_sem3_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem2_1 : DmaSem sig := 21
abbrev cc2_sem3_0 : DmaSem sig := 22
abbrev cc2_sem3_1 : DmaSem sig := 23
abbrev cc2_sem4_0 : DmaSem sig := 24
abbrev cc2_sem4_1 : DmaSem sig := 25
abbrev cc2_sem5_0 : DmaSem sig := 26
abbrev cc2_sem5_1 : DmaSem sig := 27
abbrev cc3_sem0_0 : DmaSem sig := 28
abbrev cc3_sem0_1 : DmaSem sig := 29
abbrev cc3_sem1_0 : DmaSem sig := 30
abbrev cc3_sem2_0 : DmaSem sig := 31
abbrev cc3_sem3_0 : DmaSem sig := 32
abbrev cc3_sem4_0 : DmaSem sig := 33
abbrev cc3_sem5_0 : DmaSem sig := 34
abbrev cc3_sem6_0 : DmaSem sig := 35
abbrev cc3_sem6_1 : DmaSem sig := 36

abbrev nD : Nat := 1
abbrev τ : Topo := Topo.v7x

variable {F : FTy → Type} [FloatOps F]

abbrev grid0 : Pipeline.Grid := ⟨3, ![8, 8, 6], ![false, false, false]⟩

def k0_cond2 (i : grid0.Coords) : BitVec 1 :=
  let arg2 : BitVec 32 := BitVec.ofNat 32 (i 2).val
  let c5_i32 : BitVec 32 := 5#32
  let v13 : BitVec 1 := Scalar.cmpi .eq arg2 c5_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev grid1 : Pipeline.Grid := ⟨1, ![64], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S128x8192 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x8192 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x8192 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S128x8192 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨3, ![8, 8, 16], ![false, false, false]⟩

def k2_cond2 (i : grid2.Coords) : BitVec 1 :=
  let arg2 : BitVec 32 := BitVec.ofNat 32 (i 2).val
  let c15_i32 : BitVec 32 := 15#32
  let v14 : BitVec 1 := Scalar.cmpi .eq arg2 c15_i32
  let v15 : BitVec 32 := Scalar.extui v14
  let c0_i32_8 : BitVec 32 := 0#32
  let v16 : BitVec 1 := Scalar.cmpi .ne v15 c0_i32_8
  v16

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc2_transform_3 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc2_transform_4 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc2_transform_5 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 2 → Memref sig .tc .vmem S1024x512 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 2 → Memref sig .tc .vmem S512x1024 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true, true]

abbrev stage2_2 : Fin 2 → Memref sig .tc .vmem S1x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![false, true, false]

abbrev stage2_3 : Fin 2 → Memref sig .tc .vmem S1x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![false, true, false]

abbrev stage2_4 : Fin 2 → Memref sig .tc .vmem S1024x1024 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, true, false]

abbrev stage2_5 : Fin 2 → Memref sig .tc .vmem S1024x1024 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, true, false]

abbrev grid3 : Pipeline.Grid := ⟨1, ![64], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S128x8192 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x8192 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x8192 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S8192x10 .bf16 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x10 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x10 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S128x10 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

class Facts₀ : Prop where
  bcast_S_S3072x8192 : S_.BroadcastsInDim S3072x8192 (![] : Fin 0 → Fin S3072x8192.rank)
  bitsLt_bf16_f32 : FTy.bits .bf16 < FTy.bits .f32
  bcast_S_S8192x8192 : S_.BroadcastsInDim S8192x8192 (![] : Fin 0 → Fin S8192x8192.rank)
  bcast_S_S8192x10 : S_.BroadcastsInDim S8192x10 (![] : Fin 0 → Fin S8192x10.rank)
  shapeCasts_S8192_S1x8192 : S8192.ShapeCasts S1x8192
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x512_S1024x512_0_0 : ∀ a, (![0, 0] : Fin 2 → Nat) a + S1024x512.size a ≤ S1024x512.size a
  h_S1024x512 : 0 < S1024x512.numel
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  packedbf16_S1024x1024_S1024x1024_0_0 : (Rect.unit (s := S1024x1024) ![0, 0] S1024x1024.size inb_S1024x1024_S1024x1024_0_0).PackedRows (EltTy.packing .bf16)
  inb_S128x8192_S128x8192_0_0 : ∀ a, (![0, 0] : Fin 2 → Nat) a + S128x8192.size a ≤ S128x8192.size a
  h_S128x8192 : 0 < S128x8192.numel
  shapeCasts_S128x8192_S128x8192 : S128x8192.ShapeCasts S128x8192
  reduces_S128x8192_S128 : S128x8192.Reduces [1] S128
  shapeCasts_S128_S128x1 : S128.ShapeCasts S128x1
  broadcasts_S128x1_S128x8192 : S128x1.Broadcasts S128x8192
  inb_S1x8192_S1x8192_0_0 : ∀ a, (![0, 0] : Fin 2 → Nat) a + S1x8192.size a ≤ S1x8192.size a
  h_S1x8192 : 0 < S1x8192.numel
  shapeCasts_S1x8192_S1x8192 : S1x8192.ShapeCasts S1x8192
  broadcasts_S1x8192_S128x8192 : S1x8192.Broadcasts S128x8192
  shapeCasts_S1024x512_S1024x512 : S1024x512.ShapeCasts S1024x512
  shapeCasts_S10_S1x10 : S10.ShapeCasts S1x10
  inb_S8192x10_S8192x10_0_0 : ∀ a, (![0, 0] : Fin 2 → Nat) a + S8192x10.size a ≤ S8192x10.size a
  h_S8192x10 : 0 < S8192x10.numel
  shapeCasts_S8192x10_S8192x10 : S8192x10.ShapeCasts S8192x10
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S128x10 : S1x10.Broadcasts S128x10
  inb_S128x10_S128x10_0_0 : ∀ a, (![0, 0] : Fin 2 → Nat) a + S128x10.size a ≤ S128x10.size a
  h_S128x10 : 0 < S128x10.numel
  dot_S1024x512_S512x1024_S1024x1024_1_0_0_1_n_n_wf : DotDims.WF S1024x512 S512x1024 S1024x1024 [1] [0] [0] [1] [] []
  dot_S128x8192_S8192x10_S128x10_1_0_0_1_n_n_wf : DotDims.WF S128x8192 S8192x10 S128x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S8192x3072.size a
  hwx0_0 : ∀ i : grid0.Coords, EltTy.bits .f32 = 32 ∨ (Rect.block (s := S8192x3072) S1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S3072x8192.size a
  hwx0_1 : ∀ i : grid0.Coords, EltTy.bits .bf16 = 32 ∨ (Rect.block (s := S3072x8192) S512x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x8192.size a
  hwx0_2 : ∀ i : grid0.Coords, EltTy.bits .f32 = 32 ∨ (Rect.block (s := S1x8192) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x8192.size a
  hwx0_3 : ∀ i : grid0.Coords, EltTy.bits .f32 = 32 ∨ (Rect.block (s := S1x8192) S1x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S8192x8192.size a
  hwx0_4 : ∀ i : grid0.Coords, EltTy.bits .bf16 = 32 ∨ (Rect.block (s := S8192x8192) S1024x1024.size (cc0_transform_4 i) (hinb0_4 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S128x8192.size a ≤ S8192x8192.size a
  hwx1_0 : ∀ i : grid1.Coords, EltTy.bits .bf16 = 32 ∨ (Rect.block (s := S8192x8192) S128x8192.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x8192.size a ≤ S1x8192.size a
  hwx1_1 : ∀ i : grid1.Coords, EltTy.bits .f32 = 32 ∨ (Rect.block (s := S1x8192) S1x8192.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x8192.size a ≤ S1x8192.size a
  hwx1_2 : ∀ i : grid1.Coords, EltTy.bits .f32 = 32 ∨ (Rect.block (s := S1x8192) S1x8192.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S128x8192.size a ≤ S8192x8192.size a
  hwx1_3 : ∀ i : grid1.Coords, EltTy.bits .f32 = 32 ∨ (Rect.block (s := S8192x8192) S128x8192.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x512.size a ≤ S8192x8192.size a
  hwx2_0 : ∀ i : grid2.Coords, EltTy.bits .f32 = 32 ∨ (Rect.block (s := S8192x8192) S1024x512.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S512x1024.size a ≤ S8192x8192.size a
  hwx2_1 : ∀ i : grid2.Coords, EltTy.bits .bf16 = 32 ∨ (Rect.block (s := S8192x8192) S512x1024.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1x1024.size a ≤ S1x8192.size a
  hwx2_2 : ∀ i : grid2.Coords, EltTy.bits .f32 = 32 ∨ (Rect.block (s := S1x8192) S1x1024.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1x1024.size a ≤ S1x8192.size a
  hwx2_3 : ∀ i : grid2.Coords, EltTy.bits .f32 = 32 ∨ (Rect.block (s := S1x8192) S1x1024.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S1024x1024.size a ≤ S8192x8192.size a
  hwx2_4 : ∀ i : grid2.Coords, EltTy.bits .f32 = 32 ∨ (Rect.block (s := S8192x8192) S1024x1024.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S1024x1024.size a ≤ S8192x8192.size a
  hwx2_5 : ∀ i : grid2.Coords, EltTy.bits .f32 = 32 ∨ (Rect.block (s := S8192x8192) S1024x1024.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S128x8192.size a ≤ S8192x8192.size a
  hwx3_0 : ∀ i : grid3.Coords, EltTy.bits .f32 = 32 ∨ (Rect.block (s := S8192x8192) S128x8192.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x8192.size a ≤ S1x8192.size a
  hwx3_1 : ∀ i : grid3.Coords, EltTy.bits .f32 = 32 ∨ (Rect.block (s := S1x8192) S1x8192.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x8192.size a ≤ S1x8192.size a
  hwx3_2 : ∀ i : grid3.Coords, EltTy.bits .f32 = 32 ∨ (Rect.block (s := S1x8192) S1x8192.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S8192x10.size a ≤ S8192x10.size a
  hwx3_3 : ∀ i : grid3.Coords, EltTy.bits .bf16 = 32 ∨ (Rect.block (s := S8192x10) S8192x10.size (cc3_transform_3 i) (hinb3_3 i)).WholeWords (EltTy.packing .bf16)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x10.size a ≤ S1x10.size a
  hwx3_4 : ∀ i : grid3.Coords, EltTy.bits .f32 = 32 ∨ (Rect.block (s := S1x10) S1x10.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x10.size a ≤ S1x10.size a
  hwx3_5 : ∀ i : grid3.Coords, EltTy.bits .f32 = 32 ∨ (Rect.block (s := S1x10) S1x10.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S128x10.size a ≤ S8192x10.size a
  hwx3_6 : ∀ i : grid3.Coords, EltTy.bits .f32 = 32 ∨ (Rect.block (s := S8192x10) S128x10.size (cc3_transform_6 i) (hinb3_6 i)).WholeWords (EltTy.packing .f32)

variable [Facts₀]

def dot_S1024x512_S512x1024_S1024x1024_1_0_0_1_n_n : DotDims S1024x512 S512x1024 S1024x1024 where
  lhsContracting := [1]
  rhsContracting := [0]
  lhsNonContracting := [0]
  rhsNonContracting := [1]
  lhsBatch := []
  rhsBatch := []
  wf := dot_S1024x512_S512x1024_S1024x1024_1_0_0_1_n_n_wf
def dot_S128x8192_S8192x10_S128x10_1_0_0_1_n_n : DotDims S128x8192 S8192x10 S128x10 where
  lhsContracting := [1]
  rhsContracting := [0]
  lhsNonContracting := [0]
  rhsNonContracting := [1]
  lhsBatch := []
  rhsBatch := []
  wf := dot_S128x8192_S8192x10_S128x10_1_0_0_1_n_n_wf

abbrev win0_0 : Pipeline.Window sig grid0 :=
  Pipeline.Window.ofSpec (Memref.whole main_arg0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v19) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v52) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v53) S1x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v54) S1024x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

abbrev win1_0 : Pipeline.Window sig grid1 :=
  Pipeline.Window.ofSpec (Memref.whole main_v54) S128x8192.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v55) S1x8192.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v56) S1x8192.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v57) S128x8192.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v57) S1024x512.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v35) S512x1024.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v58) S1x1024.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v59) S1x1024.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v57) S1024x1024.size cc2_transform_4 reads2_4 false false 2 stage2_4 sem2_4
    hrank2 hreads2_4 hinb2_4 nbuf2_4 (Memref.isWhole_whole _) hwx2_4 hstage2_4

abbrev win2_5 : Pipeline.Window sig grid2 :=
  Pipeline.Window.ofSpec (Memref.whole main_v60) S1024x1024.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev idle2 : Fin 6 → grid2.Coords → Bool := fun | 0 => fun _ => false | 1 => fun _ => false | 2 => fun _ => false | 3 => fun _ => false | 4 => fun _ => false | 5 => fun i => !(k2_cond2 i == 1#1) | ⟨_ + 6, h⟩ => absurd h (Nat.not_lt.2 (Nat.le_add_left _ _))

abbrev win3_0 : Pipeline.Window sig grid3 :=
  Pipeline.Window.ofSpec (Memref.whole main_v60) S128x8192.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v61) S1x8192.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v62) S1x8192.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v51) S8192x10.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v63) S1x10.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v64) S1x10.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v65) S128x10.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

class Facts : Prop extends Facts₀ where

variable [Facts]
-- ==== ReferenceIdeal.lean ====
abbrev S8192x3072 : Shape := ⟨2, ![8192, 3072]⟩
abbrev S3072x8192 : Shape := ⟨2, ![3072, 8192]⟩
abbrev S8192 : Shape := ⟨1, ![8192]⟩
abbrev S8192x8192 : Shape := ⟨2, ![8192, 8192]⟩
abbrev S8192x10 : Shape := ⟨2, ![8192, 10]⟩
abbrev S10 : Shape := ⟨1, ![10]⟩
abbrev S_ : Shape := ⟨0, ![]⟩
abbrev S1x8192 : Shape := ⟨2, ![1, 8192]⟩
abbrev S8192x1 : Shape := ⟨2, ![8192, 1]⟩
abbrev S1x10 : Shape := ⟨2, ![1, 10]⟩

abbrev nBuf : Space → Nat
  | .hbm => 169
  | .vmem => 0
  | .smem => 0
  | _ => 0

abbrev hbmTy0_0 (i : Nat) : BufTy := match i % 128 with
  | 0 => ⟨S8192x3072, .f32⟩
  | 1 => ⟨S3072x8192, .f32⟩
  | 2 => ⟨S8192, .f32⟩
  | 3 => ⟨S8192, .f32⟩
  | 4 => ⟨S8192, .f32⟩
  | 5 => ⟨S8192, .f32⟩
  | 6 => ⟨S8192x8192, .f32⟩
  | 7 => ⟨S8192, .f32⟩
  | 8 => ⟨S8192, .f32⟩
  | 9 => ⟨S8192, .f32⟩
  | 10 => ⟨S8192, .f32⟩
  | 11 => ⟨S8192x10, .f32⟩
  | 12 => ⟨S10, .f32⟩
  | 13 => ⟨S10, .f32⟩
  | 14 => ⟨S_, .f32⟩
  | 15 => ⟨S3072x8192, .f32⟩
  | 16 => ⟨S3072x8192, .f32⟩
  | 17 => ⟨S_, .f32⟩
  | 18 => ⟨S3072x8192, .f32⟩
  | 19 => ⟨S3072x8192, .f32⟩
  | 20 => ⟨S_, .f32⟩
  | 21 => ⟨S3072x8192, .f32⟩
  | 22 => ⟨S3072x8192, .f32⟩
  | 23 => ⟨S3072x8192, .f32⟩
  | 24 => ⟨S3072x8192, .f32⟩
  | 25 => ⟨S_, .f32⟩
  | 26 => ⟨S3072x8192, .f32⟩
  | 27 => ⟨S3072x8192, .f32⟩
  | 28 => ⟨S_, .f32⟩
  | 29 => ⟨S3072x8192, .f32⟩
  | 30 => ⟨S3072x8192, .f32⟩
  | 31 => ⟨S_, .f32⟩
  | 32 => ⟨S3072x8192, .f32⟩
  | 33 => ⟨S3072x8192, .f32⟩
  | 34 => ⟨S_, .f32⟩
  | 35 => ⟨S3072x8192, .f32⟩
  | 36 => ⟨S3072x8192, .f32⟩
  | 37 => ⟨S_, .f32⟩
  | 38 => ⟨S3072x8192, .f32⟩
  | 39 => ⟨S3072x8192, .f32⟩
  | 40 => ⟨S3072x8192, .f32⟩
  | 41 => ⟨S8192x8192, .f32⟩
  | 42 => ⟨S1x8192, .f32⟩
  | 43 => ⟨S8192x8192, .f32⟩
  | 44 => ⟨S8192x8192, .f32⟩
  | 45 => ⟨S1x8192, .f32⟩
  | 46 => ⟨S8192x8192, .f32⟩
  | 47 => ⟨S8192x8192, .f32⟩
  | 48 => ⟨S_, .f32⟩
  | 49 => ⟨S8192x8192, .f32⟩
  | 50 => ⟨S8192x8192, .f32⟩
  | 51 => ⟨S_, .f32⟩
  | 52 => ⟨S8192, .f32⟩
  | 53 => ⟨S8192x1, .f32⟩
  | 54 => ⟨S_, .f32⟩
  | 55 => ⟨S8192x1, .f32⟩
  | 56 => ⟨S8192x1, .f32⟩
  | 57 => ⟨S8192x8192, .f32⟩
  | 58 => ⟨S8192x8192, .f32⟩
  | 59 => ⟨S8192x8192, .f32⟩
  | 60 => ⟨S_, .f32⟩
  | 61 => ⟨S8192, .f32⟩
  | 62 => ⟨S8192x1, .f32⟩
  | 63 => ⟨S_, .f32⟩
  | 64 => ⟨S8192x1, .f32⟩
  | 65 => ⟨S8192x1, .f32⟩
  | 66 => ⟨S8192x8192, .f32⟩
  | 67 => ⟨S8192x8192, .f32⟩
  | 68 => ⟨S_, .f32⟩
  | 69 => ⟨S8192x1, .f32⟩
  | 70 => ⟨S8192x1, .f32⟩
  | 71 => ⟨S8192x1, .f32⟩
  | 72 => ⟨S8192x8192, .f32⟩
  | 73 => ⟨S8192x8192, .f32⟩
  | 74 => ⟨S1x8192, .f32⟩
  | 75 => ⟨S8192x8192, .f32⟩
  | 76 => ⟨S8192x8192, .f32⟩
  | 77 => ⟨S1x8192, .f32⟩
  | 78 => ⟨S8192x8192, .f32⟩
  | 79 => ⟨S8192x8192, .f32⟩
  | 80 => ⟨S_, .f32⟩
  | 81 => ⟨S8192x8192, .f32⟩
  | 82 => ⟨S8192x8192, .f32⟩
  | 83 => ⟨S_, .f32⟩
  | 84 => ⟨S8192x8192, .f32⟩
  | 85 => ⟨S8192x8192, .f32⟩
  | 86 => ⟨S_, .f32⟩
  | 87 => ⟨S8192x8192, .f32⟩
  | 88 => ⟨S8192x8192, .f32⟩
  | 89 => ⟨S8192x8192, .f32⟩
  | 90 => ⟨S8192x8192, .f32⟩
  | 91 => ⟨S_, .f32⟩
  | 92 => ⟨S8192x8192, .f32⟩
  | 93 => ⟨S8192x8192, .f32⟩
  | 94 => ⟨S_, .f32⟩
  | 95 => ⟨S8192x8192, .f32⟩
  | 96 => ⟨S8192x8192, .f32⟩
  | 97 => ⟨S_, .f32⟩
  | 98 => ⟨S8192x8192, .f32⟩
  | 99 => ⟨S8192x8192, .f32⟩
  | 100 => ⟨S8192x8192, .f32⟩
  | 101 => ⟨S8192x8192, .f32⟩
  | 102 => ⟨S1x8192, .f32⟩
  | 103 => ⟨S8192x8192, .f32⟩
  | 104 => ⟨S8192x8192, .f32⟩
  | 105 => ⟨S1x8192, .f32⟩
  | 106 => ⟨S8192x8192, .f32⟩
  | 107 => ⟨S8192x8192, .f32⟩
  | 108 => ⟨S_, .f32⟩
  | 109 => ⟨S8192x8192, .f32⟩
  | 110 => ⟨S8192x8192, .f32⟩
  | 111 => ⟨S8192x8192, .f32⟩
  | 112 => ⟨S_, .f32⟩
  | 113 => ⟨S8192, .f32⟩
  | 114 => ⟨S8192x1, .f32⟩
  | 115 => ⟨S_, .f32⟩
  | 116 => ⟨S8192x1, .f32⟩
  | 117 => ⟨S8192x1, .f32⟩
  | 118 => ⟨S8192x8192, .f32⟩
  | 119 => ⟨S8192x8192, .f32⟩
  | 120 => ⟨S8192x8192, .f32⟩
  | 121 => ⟨S_, .f32⟩
  | 122 => ⟨S8192, .f32⟩
  | 123 => ⟨S8192x1, .f32⟩
  | 124 => ⟨S_, .f32⟩
  | 125 => ⟨S8192x1, .f32⟩
  | 126 => ⟨S8192x1, .f32⟩
  | 127 => ⟨S8192x8192, .f32⟩
  | _ => ⟨S8192x3072, .f32⟩

abbrev hbmTy0_1 (i : Nat) : BufTy := match i % 128 with
  | 0 => ⟨S8192x8192, .f32⟩
  | 1 => ⟨S_, .f32⟩
  | 2 => ⟨S8192x1, .f32⟩
  | 3 => ⟨S8192x1, .f32⟩
  | 4 => ⟨S8192x1, .f32⟩
  | 5 => ⟨S8192x8192, .f32⟩
  | 6 => ⟨S8192x8192, .f32⟩
  | 7 => ⟨S1x8192, .f32⟩
  | 8 => ⟨S8192x8192, .f32⟩
  | 9 => ⟨S8192x8192, .f32⟩
  | 10 => ⟨S1x8192, .f32⟩
  | 11 => ⟨S8192x8192, .f32⟩
  | 12 => ⟨S8192x8192, .f32⟩
  | 13 => ⟨S_, .f32⟩
  | 14 => ⟨S8192x10, .f32⟩
  | 15 => ⟨S8192x10, .f32⟩
  | 16 => ⟨S_, .f32⟩
  | 17 => ⟨S8192x10, .f32⟩
  | 18 => ⟨S8192x10, .f32⟩
  | 19 => ⟨S_, .f32⟩
  | 20 => ⟨S8192x10, .f32⟩
  | 21 => ⟨S8192x10, .f32⟩
  | 22 => ⟨S8192x10, .f32⟩
  | 23 => ⟨S8192x10, .f32⟩
  | 24 => ⟨S_, .f32⟩
  | 25 => ⟨S8192x10, .f32⟩
  | 26 => ⟨S8192x10, .f32⟩
  | 27 => ⟨S_, .f32⟩
  | 28 => ⟨S8192x10, .f32⟩
  | 29 => ⟨S8192x10, .f32⟩
  | 30 => ⟨S_, .f32⟩
  | 31 => ⟨S8192x10, .f32⟩
  | 32 => ⟨S8192x10, .f32⟩
  | 33 => ⟨S8192x10, .f32⟩
  | 34 => ⟨S8192x10, .f32⟩
  | 35 => ⟨S1x10, .f32⟩
  | 36 => ⟨S8192x10, .f32⟩
  | 37 => ⟨S8192x10, .f32⟩
  | 38 => ⟨S1x10, .f32⟩
  | 39 => ⟨S8192x10, .f32⟩
  | 40 => ⟨S8192x10, .f32⟩
  | _ => ⟨S8192x3072, .f32⟩

abbrev hbmTy (i : Nat) : BufTy := match i / 128 with
  | 0 => hbmTy0_0 i
  | 1 => hbmTy0_1 i
  | _ => ⟨S8192x3072, .f32⟩

abbrev bufTy : (tb : Table) → Fin (tcTables nBuf tb) → BufTy
  | .hbm, ⟨i, _⟩ => hbmTy i
  | _, _ => ⟨S8192x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_cst : Ref sig .tc := ⟨.hbm, 14, rfl⟩
abbrev main_v0 : Ref sig .tc := ⟨.hbm, 15, rfl⟩
abbrev main_v1 : Ref sig .tc := ⟨.hbm, 16, rfl⟩
abbrev main_cst_0 : Ref sig .tc := ⟨.hbm, 17, rfl⟩
abbrev main_v2 : Ref sig .tc := ⟨.hbm, 18, rfl⟩
abbrev main_v3 : Ref sig .tc := ⟨.hbm, 19, rfl⟩
abbrev main_cst_1 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_cst_2 : Ref sig .tc := ⟨.hbm, 25, rfl⟩
abbrev main_v8 : Ref sig .tc := ⟨.hbm, 26, rfl⟩
abbrev main_v9 : Ref sig .tc := ⟨.hbm, 27, rfl⟩
abbrev main_cst_3 : Ref sig .tc := ⟨.hbm, 28, rfl⟩
abbrev main_v10 : Ref sig .tc := ⟨.hbm, 29, rfl⟩
abbrev main_v11 : Ref sig .tc := ⟨.hbm, 30, rfl⟩
abbrev main_cst_4 : Ref sig .tc := ⟨.hbm, 31, rfl⟩
abbrev main_v12 : Ref sig .tc := ⟨.hbm, 32, rfl⟩
abbrev main_v13 : Ref sig .tc := ⟨.hbm, 33, rfl⟩
abbrev main_cst_5 : Ref sig .tc := ⟨.hbm, 34, rfl⟩
abbrev main_v14 : Ref sig .tc := ⟨.hbm, 35, rfl⟩
abbrev main_v15 : Ref sig .tc := ⟨.hbm, 36, rfl⟩
abbrev main_cst_6 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_call0_cst : Ref sig .tc := ⟨.hbm, 48, rfl⟩
abbrev main_call0_v0 : Ref sig .tc := ⟨.hbm, 49, rfl⟩
abbrev main_v26 : Ref sig .tc := ⟨.hbm, 50, rfl⟩
abbrev main_cst_7 : Ref sig .tc := ⟨.hbm, 51, rfl⟩
abbrev main_v27 : Ref sig .tc := ⟨.hbm, 52, rfl⟩
abbrev main_v28 : Ref sig .tc := ⟨.hbm, 53, rfl⟩
abbrev main_cst_8 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_cst_9 : Ref sig .tc := ⟨.hbm, 60, rfl⟩
abbrev main_v34 : Ref sig .tc := ⟨.hbm, 61, rfl⟩
abbrev main_v35 : Ref sig .tc := ⟨.hbm, 62, rfl⟩
abbrev main_cst_10 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_cst_11 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_cst_12 : Ref sig .tc := ⟨.hbm, 80, rfl⟩
abbrev main_v51 : Ref sig .tc := ⟨.hbm, 81, rfl⟩
abbrev main_v52 : Ref sig .tc := ⟨.hbm, 82, rfl⟩
abbrev main_cst_13 : Ref sig .tc := ⟨.hbm, 83, rfl⟩
abbrev main_v53 : Ref sig .tc := ⟨.hbm, 84, rfl⟩
abbrev main_v54 : Ref sig .tc := ⟨.hbm, 85, rfl⟩
abbrev main_cst_14 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_cst_15 : Ref sig .tc := ⟨.hbm, 91, rfl⟩
abbrev main_v59 : Ref sig .tc := ⟨.hbm, 92, rfl⟩
abbrev main_v60 : Ref sig .tc := ⟨.hbm, 93, rfl⟩
abbrev main_cst_16 : Ref sig .tc := ⟨.hbm, 94, rfl⟩
abbrev main_v61 : Ref sig .tc := ⟨.hbm, 95, rfl⟩
abbrev main_v62 : Ref sig .tc := ⟨.hbm, 96, rfl⟩
abbrev main_cst_17 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_call1_cst : Ref sig .tc := ⟨.hbm, 108, rfl⟩
abbrev main_call1_v0 : Ref sig .tc := ⟨.hbm, 109, rfl⟩
abbrev main_v73 : Ref sig .tc := ⟨.hbm, 110, rfl⟩
abbrev main_v74 : Ref sig .tc := ⟨.hbm, 111, rfl⟩
abbrev main_cst_18 : Ref sig .tc := ⟨.hbm, 112, rfl⟩
abbrev main_v75 : Ref sig .tc := ⟨.hbm, 113, rfl⟩
abbrev main_v76 : Ref sig .tc := ⟨.hbm, 114, rfl⟩
abbrev main_cst_19 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_cst_20 : Ref sig .tc := ⟨.hbm, 121, rfl⟩
abbrev main_v82 : Ref sig .tc := ⟨.hbm, 122, rfl⟩
abbrev main_v83 : Ref sig .tc := ⟨.hbm, 123, rfl⟩
abbrev main_cst_21 : Ref sig .tc := ⟨.hbm, 124, rfl⟩
abbrev main_v84 : Ref sig .tc := ⟨.hbm, 125, rfl⟩
abbrev main_v85 : Ref sig .tc := ⟨.hbm, 126, rfl⟩
abbrev main_v86 : Ref sig .tc := ⟨.hbm, 127, rfl⟩
abbrev main_v87 : Ref sig .tc := ⟨.hbm, 128, rfl⟩
abbrev main_cst_22 : Ref sig .tc := ⟨.hbm, 129, rfl⟩
abbrev main_v88 : Ref sig .tc := ⟨.hbm, 130, rfl⟩
abbrev main_v89 : Ref sig .tc := ⟨.hbm, 131, rfl⟩
abbrev main_v90 : Ref sig .tc := ⟨.hbm, 132, rfl⟩
abbrev main_v91 : Ref sig .tc := ⟨.hbm, 133, rfl⟩
abbrev main_v92 : Ref sig .tc := ⟨.hbm, 134, rfl⟩
abbrev main_v93 : Ref sig .tc := ⟨.hbm, 135, rfl⟩
abbrev main_v94 : Ref sig .tc := ⟨.hbm, 136, rfl⟩
abbrev main_v95 : Ref sig .tc := ⟨.hbm, 137, rfl⟩
abbrev main_v96 : Ref sig .tc := ⟨.hbm, 138, rfl⟩
abbrev main_v97 : Ref sig .tc := ⟨.hbm, 139, rfl⟩
abbrev main_v98 : Ref sig .tc := ⟨.hbm, 140, rfl⟩
abbrev main_cst_23 : Ref sig .tc := ⟨.hbm, 141, rfl⟩
abbrev main_v99 : Ref sig .tc := ⟨.hbm, 142, rfl⟩
abbrev main_v100 : Ref sig .tc := ⟨.hbm, 143, rfl⟩
abbrev main_cst_24 : Ref sig .tc := ⟨.hbm, 144, rfl⟩
abbrev main_v101 : Ref sig .tc := ⟨.hbm, 145, rfl⟩
abbrev main_v102 : Ref sig .tc := ⟨.hbm, 146, rfl⟩
abbrev main_cst_25 : Ref sig .tc := ⟨.hbm, 147, rfl⟩
abbrev main_v103 : Ref sig .tc := ⟨.hbm, 148, rfl⟩
abbrev main_v104 : Ref sig .tc := ⟨.hbm, 149, rfl⟩
abbrev main_v105 : Ref sig .tc := ⟨.hbm, 150, rfl⟩
abbrev main_v106 : Ref sig .tc := ⟨.hbm, 151, rfl⟩
abbrev main_cst_26 : Ref sig .tc := ⟨.hbm, 152, rfl⟩
abbrev main_v107 : Ref sig .tc := ⟨.hbm, 153, rfl⟩
abbrev main_v108 : Ref sig .tc := ⟨.hbm, 154, rfl⟩
abbrev main_cst_27 : Ref sig .tc := ⟨.hbm, 155, rfl⟩
abbrev main_v109 : Ref sig .tc := ⟨.hbm, 156, rfl⟩
abbrev main_v110 : Ref sig .tc := ⟨.hbm, 157, rfl⟩
abbrev main_cst_28 : Ref sig .tc := ⟨.hbm, 158, rfl⟩
abbrev main_v111 : Ref sig .tc := ⟨.hbm, 159, rfl⟩
abbrev main_v112 : Ref sig .tc := ⟨.hbm, 160, rfl⟩
abbrev main_v113 : Ref sig .tc := ⟨.hbm, 161, rfl⟩
abbrev main_v114 : Ref sig .tc := ⟨.hbm, 162, rfl⟩
abbrev main_v115 : Ref sig .tc := ⟨.hbm, 163, rfl⟩
abbrev main_v116 : Ref sig .tc := ⟨.hbm, 164, rfl⟩
abbrev main_v117 : Ref sig .tc := ⟨.hbm, 165, rfl⟩
abbrev main_v118 : Ref sig .tc := ⟨.hbm, 166, rfl⟩
abbrev main_v119 : Ref sig .tc := ⟨.hbm, 167, rfl⟩
abbrev main_v120 : Ref sig .tc := ⟨.hbm, 168, rfl⟩

abbrev nD : Nat := 1
abbrev τ : Topo := Topo.v7x

variable {F : FTy → Type} [FloatOps F]

class Facts₀ : Prop where
  bcast_S_S3072x8192 : S_.BroadcastsInDim S3072x8192 (![] : Fin 0 → Fin S3072x8192.rank)
  bcast_S8192_S1x8192_1 : S8192.BroadcastsInDim S1x8192 (![1] : Fin 1 → Fin S1x8192.rank)
  bcast_S1x8192_S8192x8192_0_1 : S1x8192.BroadcastsInDim S8192x8192 (![0, 1] : Fin 2 → Fin S8192x8192.rank)
  bcast_S_S8192x8192 : S_.BroadcastsInDim S8192x8192 (![] : Fin 0 → Fin S8192x8192.rank)
  reducesTo_S8192x8192_S8192_d1 : S8192x8192.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x8192_0_1 : S8192x1.BroadcastsInDim S8192x8192 (![0, 1] : Fin 2 → Fin S8192x8192.rank)
  bcast_S_S8192x10 : S_.BroadcastsInDim S8192x10 (![] : Fin 0 → Fin S8192x10.rank)
  bcast_S10_S1x10_1 : S10.BroadcastsInDim S1x10 (![1] : Fin 1 → Fin S1x10.rank)
  bcast_S1x10_S8192x10_0_1 : S1x10.BroadcastsInDim S8192x10 (![0, 1] : Fin 2 → Fin S8192x10.rank)
  dot_S8192x3072_S3072x8192_S8192x8192_1_0_0_1_n_n_wf : DotDims.WF S8192x3072 S3072x8192 S8192x8192 [1] [0] [0] [1] [] []
  dot_S8192x8192_S8192x8192_S8192x8192_1_0_0_1_n_n_wf : DotDims.WF S8192x8192 S8192x8192 S8192x8192 [1] [0] [0] [1] [] []
  dot_S8192x8192_S8192x10_S8192x10_1_0_0_1_n_n_wf : DotDims.WF S8192x8192 S8192x10 S8192x10 [1] [0] [0] [1] [] []

variable [Facts₀]

def dot_S8192x3072_S3072x8192_S8192x8192_1_0_0_1_n_n : DotDims S8192x3072 S3072x8192 S8192x8192 where
  lhsContracting := [1]
  rhsContracting := [0]
  lhsNonContracting := [0]
  rhsNonContracting := [1]
  lhsBatch := []
  rhsBatch := []
  wf := dot_S8192x3072_S3072x8192_S8192x8192_1_0_0_1_n_n_wf
def dot_S8192x8192_S8192x8192_S8192x8192_1_0_0_1_n_n : DotDims S8192x8192 S8192x8192 S8192x8192 where
  lhsContracting := [1]
  rhsContracting := [0]
  lhsNonContracting := [0]
  rhsNonContracting := [1]
  lhsBatch := []
  rhsBatch := []
  wf := dot_S8192x8192_S8192x8192_S8192x8192_1_0_0_1_n_n_wf
def dot_S8192x8192_S8192x10_S8192x10_1_0_0_1_n_n : DotDims S8192x8192 S8192x10 S8192x10 where
  lhsContracting := [1]
  rhsContracting := [0]
  lhsNonContracting := [0]
  rhsNonContracting := [1]
  lhsBatch := []
  rhsBatch := []
  wf := dot_S8192x8192_S8192x10_S8192x10_1_0_0_1_n_n_wf

class Facts : Prop extends Facts₀ where

variable [Facts]
-- ==== Proof.B_R0.lean ====
/-
  Region 0 of the program: the first layer's matrix product, one 1024x1024 output block per pair of leading grid
  coordinates, accumulated over the six steps of the contraction axis in a buffer of the kernel's own, and at the last
  step scaled, biased, clipped at zero and stored. At any contents V of the buffers on entry: the body's three cases,
  what the accumulator and the output block hold after each grid point, the proof data and the body obligation.
-/
import proofs.«159875_j41042707481000_2_alg».proof.Proof.Gen.Kernel.Launch
import proofs.«159875_j41042707481000_2_alg».proof.Proof.Gen.Kernel.Skeleton
import proofs.«159875_j41042707481000_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ
variable (V : (c : Dev nD) → (b : Ref sig .tc) → Buf (Elt F) ((c : Thread nD τ).loc b))

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- An input window's current staging buffer holds its block at every point, fetched there or not. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- An input window's current staging buffer holds its block at every point, fetched there or not. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- An input window's current staging buffer holds its block at every point, fetched there or not. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

abbrev ms0_0 (t : Fin cfg0.N) : Memref sig .tc .vmem S1024x512 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x1024 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1024 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x1024 .bf16 := win0_4.stage (cfg0.slots t 4)
abbrev hs0_4 (t : Fin cfg0.N) : (ms0_4 t).IsWhole := hstage0_4 ((cfg0.slots t 4).cast nbuf0_4)

/-! ## The body's two conditionals, decided over the grid -/

/-- "This is the first step of the contraction axis": the grid's last coordinate is 0. -/
abbrev cond0_0 (i : grid0.Coords) : Prop := (Scalar.cmpi .ne (Scalar.extui (Scalar.cmpi .eq (BitVec.ofNat 32 (i 2).val) 0#32)) 0#32) = 1#1
theorem hcond0_0 : ∀ t : Fin cfg0.N, cond0_0 (grid0.coords t) ↔ t.val % 6 = 0 :=
  (by decide +kernel : ∀ t : Fin grid0.N, cond0_0 (grid0.coords t) ↔ t.val % 6 = 0)
/-- "This is the last step of the contraction axis": the grid's last coordinate is 5. -/
abbrev cond0_1 (i : grid0.Coords) : Prop := k0_cond2 i = 1#1
theorem hcond0_1 : ∀ t : Fin cfg0.N, cond0_1 (grid0.coords t) ↔ t.val % 6 = 5 :=
  (by decide +kernel : ∀ t : Fin grid0.N, cond0_1 (grid0.coords t) ↔ t.val % 6 = 5)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
/-- Off the last step the output window is idle and not written back; at the last step it is live. -/
theorem idleAt0_A : ∀ t : Fin cfg0.N, cond0_0 (grid0.coords t) → ¬cond0_1 (grid0.coords t) → cfg0.idle 4 (grid0.coords t) = true := by decide +kernel
theorem noFlush0_A : ∀ t : Fin cfg0.N, cond0_0 (grid0.coords t) → ¬cond0_1 (grid0.coords t) → (cfg0.win 4).flush t = false := by decide +kernel
theorem idleAt0_B : ∀ t : Fin cfg0.N, ¬cond0_0 (grid0.coords t) → ¬cond0_1 (grid0.coords t) → cfg0.idle 4 (grid0.coords t) = true := by decide +kernel
theorem noFlush0_B : ∀ t : Fin cfg0.N, ¬cond0_0 (grid0.coords t) → ¬cond0_1 (grid0.coords t) → (cfg0.win 4).flush t = false := by decide +kernel
theorem liveAt0_C : ∀ t : Fin cfg0.N, ¬cond0_0 (grid0.coords t) → cond0_1 (grid0.coords t) → cfg0.idle 4 (grid0.coords t) = false := by decide +kernel

/-! ## The staging memrefs and the accumulator -/

abbrev VO0 : View sig .tc .vmem S1024x1024 .bf16 := (Memref.whole cc0_stg4_0 : Memref sig .tc .vmem S1024x1024 .bf16).view
/-- The accumulator: a whole scoped buffer of the kernel's own, carried from grid point to grid point. -/
abbrev scM0 : Memref sig .tc .vmem S1024x1024 .f32 := Memref.whole cc0_scratch0
abbrev VS0 : View sig .tc .vmem S1024x1024 .f32 := (scM0).view
/-- The scoped buffers no window stages, the accumulator apart. -/
abbrev restBut0 (c : Dev nD) : sProp 𝕄 := Pipeline.scopedRestBut (Ix := Unit) (Name := ℕ) (U := UR sig nD τ) (Lvl := ℕ) (Val := Elt F) spec0 c [cc0_scratch0]

/-- The class invariant with the accumulator owned at some contents. -/
theorem PhiA0_eq (c : Dev nD) :
    (Pipeline.ΦA spec0 c : sProp 𝕄)
      = iprop(iprop(iprop((∃ d, owns (c : Thread nD τ) scM0 fullShare d)) ∗ restBut0 (F := F) c) ∗ (∃ r, prngReg c r)) := by
  unfold Pipeline.ΦA; rw [scopedRest0_split]; simp only [scM0, owns_whole]; try rfl

/-! ## The body, case by case -/

set_option maxHeartbeats 2000000 in
/-- The body in case A (first step of the contraction axis: the accumulator is zeroed, then one partial product added) on whole staging
    memrefs: the pieces the accumulator (and, in case C, the output block) ends with are the witness the run finds. -/
noncomputable def kernelRun0_A (c : Dev nD) (i : grid0.Coords) (arg3 : Memref sig .tc .vmem S1024x512 .f32) (harg3 : arg3.IsWhole) (arg4 : Memref sig .tc .vmem S512x1024 .bf16) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1024x1024 .f32) (harg8 : arg8.IsWhole) (hc0 : cond0_0 i) (hc1 : ¬cond0_1 i)
    (x0 : Vec F S1024x512 .f32) (x1 : Vec F S512x1024 .bf16) (x2 : Vec F S1x1024 .f32) (x3 : Vec F S1x1024 .f32) :
    Σ' (LO : List (View.Piece (Elt F) S1024x1024 .bf16)), { LS : List (View.Piece (Elt F) S1024x1024 .f32) //
      ∀ (xi : Vec F S1024x1024 .bf16) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi ∗ (∃ d, owns (c : Thread nD τ) arg8 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi ∗ (∃ f, arg8.view.loc (c : Thread nD τ) ↦[arg8.view.set]{fullShare} arg8.view.writes (Elt F) f LS)) -∗ K ⟨⟩))
          ⊢ wp frame (wpE (defs₀ (F := F)) Variants.none c none) E (cc0__mm1_kernel i arg3 harg3 arg4 harg4 arg5 harg5 arg6 harg6 arg7 harg7 arg8 harg8) K } := by
  refine ⟨[], ?_, fun xi E K => ?run⟩
  case run =>
    simp only [cc0__mm1_kernel_eq_skeleton]; unfold cc0__mm1_kernel_skel
    unfold owns
    iintro ⟨⟨%f0, %hf0, H0⟩, ⟨%f1, %hf1, H1⟩, ⟨%f2, %hf2, H2⟩, ⟨%f3, %hf3, H3⟩, ⟨%fo, %hfo, HO⟩, ⟨%ds0, %fs0, -, HS0⟩, Hk⟩
    obtain rfl := harg3.eq_unread hf0; obtain rfl := harg4.eq_unread hf1; obtain rfl := harg5.eq_unread hf2; obtain rfl := harg6.eq_unread hf3; obtain rfl := harg7.eq_unread hfo
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HO]
    · iexists _; isplitr; · ipureintro; exact harg7.read_unread _
      iexact HO
    iexists _; iexact HS0

set_option maxHeartbeats 2000000 in
/-- The body in case B (a middle step: one partial product added to the accumulator) on whole staging
    memrefs: the pieces the accumulator (and, in case C, the output block) ends with are the witness the run finds. -/
noncomputable def kernelRun0_B (c : Dev nD) (i : grid0.Coords) (arg3 : Memref sig .tc .vmem S1024x512 .f32) (harg3 : arg3.IsWhole) (arg4 : Memref sig .tc .vmem S512x1024 .bf16) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1024x1024 .f32) (harg8 : arg8.IsWhole) (hc0 : ¬cond0_0 i) (hc1 : ¬cond0_1 i)
    (x0 : Vec F S1024x512 .f32) (x1 : Vec F S512x1024 .bf16) (x2 : Vec F S1x1024 .f32) (x3 : Vec F S1x1024 .f32) (xs0 : Vec F S1024x1024 .f32) :
    Σ' (LO : List (View.Piece (Elt F) S1024x1024 .bf16)), { LS : List (View.Piece (Elt F) S1024x1024 .f32) //
      ∀ (xi : Vec F S1024x1024 .bf16) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi ∗ owns (c : Thread nD τ) arg8 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi ∗ (∃ f, arg8.view.loc (c : Thread nD τ) ↦[arg8.view.set]{fullShare} arg8.view.writes (Elt F) f LS)) -∗ K ⟨⟩))
          ⊢ wp frame (wpE (defs₀ (F := F)) Variants.none c none) E (cc0__mm1_kernel i arg3 harg3 arg4 harg4 arg5 harg5 arg6 harg6 arg7 harg7 arg8 harg8) K } := by
  refine ⟨[], ?_, fun xi E K => ?run⟩
  case run =>
    simp only [cc0__mm1_kernel_eq_skeleton]; unfold cc0__mm1_kernel_skel
    unfold owns
    iintro ⟨⟨%f0, %hf0, H0⟩, ⟨%f1, %hf1, H1⟩, ⟨%f2, %hf2, H2⟩, ⟨%f3, %hf3, H3⟩, ⟨%fo, %hfo, HO⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hfo; obtain rfl := harg8.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HO]
    · iexists _; isplitr; · ipureintro; exact harg7.read_unread _
      iexact HO
    iexists _; iexact HS0

set_option maxHeartbeats 2000000 in
/-- The body in case C (last step: one partial product added, then the scaled, biased, clipped block stored) on whole staging
    memrefs: the pieces the accumulator (and, in case C, the output block) ends with are the witness the run finds. -/
noncomputable def kernelRun0_C (c : Dev nD) (i : grid0.Coords) (arg3 : Memref sig .tc .vmem S1024x512 .f32) (harg3 : arg3.IsWhole) (arg4 : Memref sig .tc .vmem S512x1024 .bf16) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1024x1024 .f32) (harg8 : arg8.IsWhole) (hc0 : ¬cond0_0 i) (hc1 : cond0_1 i)
    (x0 : Vec F S1024x512 .f32) (x1 : Vec F S512x1024 .bf16) (x2 : Vec F S1x1024 .f32) (x3 : Vec F S1x1024 .f32) (xs0 : Vec F S1024x1024 .f32) :
    Σ' (LO : List (View.Piece (Elt F) S1024x1024 .bf16)), { LS : List (View.Piece (Elt F) S1024x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d) ∗ owns (c : Thread nD τ) arg8 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ (∃ f, arg7.view.loc (c : Thread nD τ) ↦[arg7.view.set]{fullShare} arg7.view.writes (Elt F) f LO) ∗ (∃ f, arg8.view.loc (c : Thread nD τ) ↦[arg8.view.set]{fullShare} arg8.view.writes (Elt F) f LS)) -∗ K ⟨⟩))
          ⊢ wp frame (wpE (defs₀ (F := F)) Variants.none c none) E (cc0__mm1_kernel i arg3 harg3 arg4 harg4 arg5 harg5 arg6 harg6 arg7 harg7 arg8 harg8) K } := by
  refine ⟨?_, ?_, fun E K => ?run⟩
  case run =>
    simp only [cc0__mm1_kernel_eq_skeleton]; unfold cc0__mm1_kernel_skel
    unfold owns
    iintro ⟨⟨%f0, %hf0, H0⟩, ⟨%f1, %hf1, H1⟩, ⟨%f2, %hf2, H2⟩, ⟨%f3, %hf3, H3⟩, ⟨%dO, %fo, -, HO⟩, ⟨%fs0, %hfs0, HS0⟩, Hk⟩
    obtain rfl := harg3.eq_unread hf0; obtain rfl := harg4.eq_unread hf1; obtain rfl := harg5.eq_unread hf2; obtain rfl := harg6.eq_unread hf3; obtain rfl := harg8.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HO]; · iexists _; iexact HO
    iexists _; iexact HS0

/-! ## What each case leaves -/

/-- What case A leaves in the output's staging buffer: its pieces read back (none: a placeholder nothing consults, the window being idle and not written back at these points). -/
def out0_A (c : Dev nD) (i : grid0.Coords) (arg3 : Memref sig .tc .vmem S1024x512 .f32) (harg3 : arg3.IsWhole) (arg4 : Memref sig .tc .vmem S512x1024 .bf16) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1024x1024 .f32) (harg8 : arg8.IsWhole) (hc0 : cond0_0 i) (hc1 : ¬cond0_1 i)
    (x0 : Vec F S1024x512 .f32) (x1 : Vec F S512x1024 .bf16) (x2 : Vec F S1x1024 .f32) (x3 : Vec F S1x1024 .f32) : Vec F S1024x1024 .bf16 :=
  VO0.read (Elt F) (VO0.writes (Elt F) VO0.junk (kernelRun0_A c i arg3 harg3 arg4 harg4 arg5 harg5 arg6 harg6 arg7 harg7 arg8 harg8 hc0 hc1 x0 x1 x2 x3).1)

/-- Case A's pieces for the accumulator tile it, so they cover it. -/
theorem scover0_A (c : Dev nD) (i : grid0.Coords) (arg3 : Memref sig .tc .vmem S1024x512 .f32) (harg3 : arg3.IsWhole) (arg4 : Memref sig .tc .vmem S512x1024 .bf16) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1024x1024 .f32) (harg8 : arg8.IsWhole) (hc0 : cond0_0 i) (hc1 : ¬cond0_1 i)
    (x0 : Vec F S1024x512 .f32) (x1 : Vec F S512x1024 .bf16) (x2 : Vec F S1x1024 .f32) (x3 : Vec F S1x1024 .f32) (y : S1024x1024.Idx) :
    ∃ pc ∈ (kernelRun0_A c i arg3 harg3 arg4 harg4 arg5 harg5 arg6 harg6 arg7 harg7 arg8 harg8 hc0 hc1 x0 x1 x2 x3).2.1, y ∈ pc.1.set :=
  View.cover_of_tiledL (kernelRun0_A c i arg3 harg3 arg4 harg4 arg5 harg5 arg6 harg6 arg7 harg7 arg8 harg8 hc0 hc1 x0 x1 x2 x3).2.1 S1024x1024.size (by sl_kernel_rfl) y

/-- What case A leaves in the accumulator: its pieces read back. -/
def sout0_A (c : Dev nD) (i : grid0.Coords) (arg3 : Memref sig .tc .vmem S1024x512 .f32) (harg3 : arg3.IsWhole) (arg4 : Memref sig .tc .vmem S512x1024 .bf16) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1024x1024 .f32) (harg8 : arg8.IsWhole) (hc0 : cond0_0 i) (hc1 : ¬cond0_1 i)
    (x0 : Vec F S1024x512 .f32) (x1 : Vec F S512x1024 .bf16) (x2 : Vec F S1x1024 .f32) (x3 : Vec F S1x1024 .f32) : Vec F S1024x1024 .f32 :=
  VS0.read (Elt F) (VS0.writes (Elt F) VS0.junk (kernelRun0_A c i arg3 harg3 arg4 harg4 arg5 harg5 arg6 harg6 arg7 harg7 arg8 harg8 hc0 hc1 x0 x1 x2 x3).2.1)

/-- What case B leaves in the output's staging buffer: its pieces read back (none: a placeholder nothing consults, the window being idle and not written back at these points). -/
def out0_B (c : Dev nD) (i : grid0.Coords) (arg3 : Memref sig .tc .vmem S1024x512 .f32) (harg3 : arg3.IsWhole) (arg4 : Memref sig .tc .vmem S512x1024 .bf16) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1024x1024 .f32) (harg8 : arg8.IsWhole) (hc0 : ¬cond0_0 i) (hc1 : ¬cond0_1 i)
    (x0 : Vec F S1024x512 .f32) (x1 : Vec F S512x1024 .bf16) (x2 : Vec F S1x1024 .f32) (x3 : Vec F S1x1024 .f32) (xs0 : Vec F S1024x1024 .f32) : Vec F S1024x1024 .bf16 :=
  VO0.read (Elt F) (VO0.writes (Elt F) VO0.junk (kernelRun0_B c i arg3 harg3 arg4 harg4 arg5 harg5 arg6 harg6 arg7 harg7 arg8 harg8 hc0 hc1 x0 x1 x2 x3 xs0).1)

/-- Case B's pieces for the accumulator tile it, so they cover it. -/
theorem scover0_B (c : Dev nD) (i : grid0.Coords) (arg3 : Memref sig .tc .vmem S1024x512 .f32) (harg3 : arg3.IsWhole) (arg4 : Memref sig .tc .vmem S512x1024 .bf16) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1024x1024 .f32) (harg8 : arg8.IsWhole) (hc0 : ¬cond0_0 i) (hc1 : ¬cond0_1 i)
    (x0 : Vec F S1024x512 .f32) (x1 : Vec F S512x1024 .bf16) (x2 : Vec F S1x1024 .f32) (x3 : Vec F S1x1024 .f32) (xs0 : Vec F S1024x1024 .f32) (y : S1024x1024.Idx) :
    ∃ pc ∈ (kernelRun0_B c i arg3 harg3 arg4 harg4 arg5 harg5 arg6 harg6 arg7 harg7 arg8 harg8 hc0 hc1 x0 x1 x2 x3 xs0).2.1, y ∈ pc.1.set :=
  View.cover_of_tiledL (kernelRun0_B c i arg3 harg3 arg4 harg4 arg5 harg5 arg6 harg6 arg7 harg7 arg8 harg8 hc0 hc1 x0 x1 x2 x3 xs0).2.1 S1024x1024.size (by sl_kernel_rfl) y

/-- What case B leaves in the accumulator: its pieces read back. -/
def sout0_B (c : Dev nD) (i : grid0.Coords) (arg3 : Memref sig .tc .vmem S1024x512 .f32) (harg3 : arg3.IsWhole) (arg4 : Memref sig .tc .vmem S512x1024 .bf16) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1024x1024 .f32) (harg8 : arg8.IsWhole) (hc0 : ¬cond0_0 i) (hc1 : ¬cond0_1 i)
    (x0 : Vec F S1024x512 .f32) (x1 : Vec F S512x1024 .bf16) (x2 : Vec F S1x1024 .f32) (x3 : Vec F S1x1024 .f32) (xs0 : Vec F S1024x1024 .f32) : Vec F S1024x1024 .f32 :=
  VS0.read (Elt F) (VS0.writes (Elt F) VS0.junk (kernelRun0_B c i arg3 harg3 arg4 harg4 arg5 harg5 arg6 harg6 arg7 harg7 arg8 harg8 hc0 hc1 x0 x1 x2 x3 xs0).2.1)

/-- Case C's pieces for the output block tile it, so they cover it. -/
theorem cover0_C (c : Dev nD) (i : grid0.Coords) (arg3 : Memref sig .tc .vmem S1024x512 .f32) (harg3 : arg3.IsWhole) (arg4 : Memref sig .tc .vmem S512x1024 .bf16) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1024x1024 .f32) (harg8 : arg8.IsWhole) (hc0 : ¬cond0_0 i) (hc1 : cond0_1 i)
    (x0 : Vec F S1024x512 .f32) (x1 : Vec F S512x1024 .bf16) (x2 : Vec F S1x1024 .f32) (x3 : Vec F S1x1024 .f32) (xs0 : Vec F S1024x1024 .f32) (y : S1024x1024.Idx) :
    ∃ pc ∈ (kernelRun0_C c i arg3 harg3 arg4 harg4 arg5 harg5 arg6 harg6 arg7 harg7 arg8 harg8 hc0 hc1 x0 x1 x2 x3 xs0).1, y ∈ pc.1.set :=
  View.cover_of_tiledL (kernelRun0_C c i arg3 harg3 arg4 harg4 arg5 harg5 arg6 harg6 arg7 harg7 arg8 harg8 hc0 hc1 x0 x1 x2 x3 xs0).1 S1024x1024.size (by sl_kernel_rfl) y

/-- What case C leaves in the output's staging buffer: its pieces read back. -/
def out0_C (c : Dev nD) (i : grid0.Coords) (arg3 : Memref sig .tc .vmem S1024x512 .f32) (harg3 : arg3.IsWhole) (arg4 : Memref sig .tc .vmem S512x1024 .bf16) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1024x1024 .f32) (harg8 : arg8.IsWhole) (hc0 : ¬cond0_0 i) (hc1 : cond0_1 i)
    (x0 : Vec F S1024x512 .f32) (x1 : Vec F S512x1024 .bf16) (x2 : Vec F S1x1024 .f32) (x3 : Vec F S1x1024 .f32) (xs0 : Vec F S1024x1024 .f32) : Vec F S1024x1024 .bf16 :=
  VO0.read (Elt F) (VO0.writes (Elt F) VO0.junk (kernelRun0_C c i arg3 harg3 arg4 harg4 arg5 harg5 arg6 harg6 arg7 harg7 arg8 harg8 hc0 hc1 x0 x1 x2 x3 xs0).1)

/-- Case C's pieces for the accumulator tile it, so they cover it. -/
theorem scover0_C (c : Dev nD) (i : grid0.Coords) (arg3 : Memref sig .tc .vmem S1024x512 .f32) (harg3 : arg3.IsWhole) (arg4 : Memref sig .tc .vmem S512x1024 .bf16) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1024x1024 .f32) (harg8 : arg8.IsWhole) (hc0 : ¬cond0_0 i) (hc1 : cond0_1 i)
    (x0 : Vec F S1024x512 .f32) (x1 : Vec F S512x1024 .bf16) (x2 : Vec F S1x1024 .f32) (x3 : Vec F S1x1024 .f32) (xs0 : Vec F S1024x1024 .f32) (y : S1024x1024.Idx) :
    ∃ pc ∈ (kernelRun0_C c i arg3 harg3 arg4 harg4 arg5 harg5 arg6 harg6 arg7 harg7 arg8 harg8 hc0 hc1 x0 x1 x2 x3 xs0).2.1, y ∈ pc.1.set :=
  View.cover_of_tiledL (kernelRun0_C c i arg3 harg3 arg4 harg4 arg5 harg5 arg6 harg6 arg7 harg7 arg8 harg8 hc0 hc1 x0 x1 x2 x3 xs0).2.1 S1024x1024.size (by sl_kernel_rfl) y

/-- What case C leaves in the accumulator: its pieces read back. -/
def sout0_C (c : Dev nD) (i : grid0.Coords) (arg3 : Memref sig .tc .vmem S1024x512 .f32) (harg3 : arg3.IsWhole) (arg4 : Memref sig .tc .vmem S512x1024 .bf16) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1024x1024 .f32) (harg8 : arg8.IsWhole) (hc0 : ¬cond0_0 i) (hc1 : cond0_1 i)
    (x0 : Vec F S1024x512 .f32) (x1 : Vec F S512x1024 .bf16) (x2 : Vec F S1x1024 .f32) (x3 : Vec F S1x1024 .f32) (xs0 : Vec F S1024x1024 .f32) : Vec F S1024x1024 .f32 :=
  VS0.read (Elt F) (VS0.writes (Elt F) VS0.junk (kernelRun0_C c i arg3 harg3 arg4 harg4 arg5 harg5 arg6 harg6 arg7 harg7 arg8 harg8 hc0 hc1 x0 x1 x2 x3 xs0).2.1)

/-! ## What the output block and the accumulator hold after each grid point -/

/-- After position `n`: (the output's staging buffer, the accumulator) — the case the point is in, run at the point's
    memrefs and input blocks, over the accumulator as the point before left it. -/
def outsAt0 (c : Dev nD) : (n : ℕ) → n < cfg0.N → Vec F S1024x1024 .bf16 × Vec F S1024x1024 .f32
  | 0, hn => (out0_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩), sout0_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩))
  | n + 1, hn =>
    if h0 : (n + 1) % 6 = 0 then
      if h1 : (n + 1) % 6 = 5 then
        False.elim (by omega)
      else
        (out0_A c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩), sout0_A c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩))
    else
      if h1 : (n + 1) % 6 = 5 then
        (out0_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2, sout0_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2)
      else
        (out0_B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2, sout0_B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2)

theorem outsAt0_A (c : Dev nD) (t : Fin cfg0.N) (h0 : t.val % 6 = 0) (h1 : ¬t.val % 6 = 5) :
    outsAt0 V c t.val t.isLt = (out0_A c (grid0.coords t) (ms0_0 t) (hs0_0 t) (ms0_1 t) (hs0_1 t) (ms0_2 t) (hs0_2 t) (ms0_3 t) (hs0_3 t) (ms0_4 t) (hs0_4 t) scM0 (Memref.isWhole_whole _) ((hcond0_0 t).mpr h0) (fun h => h1 ((hcond0_1 t).mp h)) (iblk0 V c 0 t) (iblk0 V c 1 t) (iblk0 V c 2 t) (iblk0 V c 3 t), sout0_A c (grid0.coords t) (ms0_0 t) (hs0_0 t) (ms0_1 t) (hs0_1 t) (ms0_2 t) (hs0_2 t) (ms0_3 t) (hs0_3 t) (ms0_4 t) (hs0_4 t) scM0 (Memref.isWhole_whole _) ((hcond0_0 t).mpr h0) (fun h => h1 ((hcond0_1 t).mp h)) (iblk0 V c 0 t) (iblk0 V c 1 t) (iblk0 V c 2 t) (iblk0 V c 3 t)) := by
  obtain ⟨n, hn⟩ := t
  cases n with
  | zero => exact rfl
  | succ n => exact (dif_pos h0).trans ((dif_neg h1).trans rfl)

theorem outsAt0_B (c : Dev nD) (t : Fin cfg0.N) (h0 : ¬t.val % 6 = 0) (h1 : ¬t.val % 6 = 5) :
    outsAt0 V c t.val t.isLt = (out0_B c (grid0.coords t) (ms0_0 t) (hs0_0 t) (ms0_1 t) (hs0_1 t) (ms0_2 t) (hs0_2 t) (ms0_3 t) (hs0_3 t) (ms0_4 t) (hs0_4 t) scM0 (Memref.isWhole_whole _) (fun h => h0 ((hcond0_0 t).mp h)) (fun h => h1 ((hcond0_1 t).mp h)) (iblk0 V c 0 t) (iblk0 V c 1 t) (iblk0 V c 2 t) (iblk0 V c 3 t) (outsAt0 V c (t.val - 1) (Nat.lt_of_le_of_lt (Nat.sub_le _ _) t.isLt)).2, sout0_B c (grid0.coords t) (ms0_0 t) (hs0_0 t) (ms0_1 t) (hs0_1 t) (ms0_2 t) (hs0_2 t) (ms0_3 t) (hs0_3 t) (ms0_4 t) (hs0_4 t) scM0 (Memref.isWhole_whole _) (fun h => h0 ((hcond0_0 t).mp h)) (fun h => h1 ((hcond0_1 t).mp h)) (iblk0 V c 0 t) (iblk0 V c 1 t) (iblk0 V c 2 t) (iblk0 V c 3 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 6 = 0) (h1 : t.val % 6 = 5) :
    outsAt0 V c t.val t.isLt = (out0_C c (grid0.coords t) (ms0_0 t) (hs0_0 t) (ms0_1 t) (hs0_1 t) (ms0_2 t) (hs0_2 t) (ms0_3 t) (hs0_3 t) (ms0_4 t) (hs0_4 t) scM0 (Memref.isWhole_whole _) (fun h => h0 ((hcond0_0 t).mp h)) ((hcond0_1 t).mpr h1) (iblk0 V c 0 t) (iblk0 V c 1 t) (iblk0 V c 2 t) (iblk0 V c 3 t) (outsAt0 V c (t.val - 1) (Nat.lt_of_le_of_lt (Nat.sub_le _ _) t.isLt)).2, sout0_C c (grid0.coords t) (ms0_0 t) (hs0_0 t) (ms0_1 t) (hs0_1 t) (ms0_2 t) (hs0_2 t) (ms0_3 t) (hs0_3 t) (ms0_4 t) (hs0_4 t) scM0 (Memref.isWhole_whole _) (fun h => h0 ((hcond0_0 t).mp h)) ((hcond0_1 t).mpr h1) (iblk0 V c 0 t) (iblk0 V c 1 t) (iblk0 V c 2 t) (iblk0 V c 3 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region's invariant before position `n`: before the first point the class's (the accumulator at anything);
    afterwards the accumulator at what the point before left in it, the other scoped buffers untouched, the generator
    register at some state. -/
def PhiS0 (c : Dev nD) : (n : ℕ) → n ≤ cfg0.N → sProp 𝕄
  | 0, _ => Pipeline.ΦA spec0 c
  | n + 1, hn => iprop(iprop(owns (c : Thread nD τ) scM0 fullShare ((outsAt0 V c n hn).2) ∗ restBut0 (F := F) c) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(owns (c : Thread nD τ) scM0 fullShare ((outsAt0 V c n hn).2) ∗ restBut0 (F := F) c) ∗ (∃ r, prngReg c r)) := rfl

theorem PhiS0_pos (c : Dev nD) (n : ℕ) (h : n ≤ cfg0.N) (hz : n ≠ 0) :
    PhiS0 V c n h = iprop(iprop(owns (c : Thread nD τ) scM0 fullShare ((outsAt0 V c (n - 1) (by omega)).2) ∗ restBut0 (F := F) c) ∗ (∃ r, prngReg c r)) := by
  cases n with
  | zero => exact absurd rfl hz
  | succ n => rfl

/-! ## The pipeline's proof data -/

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => (outsAt0 V c t.val t.isLt).1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = (outsAt0 V c t.val t.isLt).1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t)

set_option maxHeartbeats 8000000 in
/-- The body at any point: the inputs' memrefs hold their blocks; the closed forms say which case the point is in; the
    invariant hands the body the accumulator at what the point before left (at anything at the very first point) and
    takes it back at this point's contents; off the last step the output's buffer is handed back as found. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).owesAt () t.succ = (dat0 V c).owesAt () t.castSucc from rfl]
  rw [show (dat0 V c).Φ t.succ = PhiS0 V c (t.val + 1) t.isLt from rfl, PhiS0_succ]
  have hN : t.val < 384 := lt_of_lt_of_eq t.isLt (show cfg0.N = 384 from N_0)
  by_cases h0 : t.val % 6 = 0
  · by_cases h1 : t.val % 6 = 5
    · exfalso; omega
    ·
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [Dat.leavesExact_idle (dat0 V c) 4 t (idleAt0_A t ((hcond0_0 t).mpr h0) (fun h => h1 ((hcond0_1 t).mp h))) (noFlush0_A t ((hcond0_0 t).mpr h0) (fun h => h1 ((hcond0_1 t).mp h)))]
      rw [outsAt0_A V c t h0 h1]
      unfold sout0_A; (try dsimp only)
      by_cases hz : t.val = 0
      ·
        rw [PhiS0_castSucc V c t, PhiS0_zero V c _ _ hz, PhiA0_eq]
        iintro ⟨⟨⟨HS0, HRB⟩, Hg⟩, Ho, ⟨%d0, H0⟩, ⟨%d1, H1⟩, ⟨%d2, H2⟩, ⟨%d3, H3⟩, ⟨%d4, H4⟩⟩
        iapply ((kernelRun0_A c (grid0.coords t) _ _ _ _ _ _ _ _ _ _ _ _ ((hcond0_0 t).mpr h0) (fun h => h1 ((hcond0_1 t).mp h)) (iblk0 V c 0 t) (iblk0 V c 1 t) (iblk0 V c 2 t) (iblk0 V c 3 t)).2.2 _ Set.univ _)
        isplitl [H0]; · iexact H0
        isplitl [H1]; · iexact H1
        isplitl [H2]; · iexact H2
        isplitl [H3]; · iexact H3
        isplitl [H4]; · iexact H4
        isplitl [HS0]; · iexact HS0
        iintro ⟨H0, H1, H2, H3, H4, ⟨%es0, HS0⟩⟩
        isplitl [HS0 HRB Hg]
        · isplitl [HS0 HRB]
          · isplitl [HS0]
            · unfold owns; iexists _; isplitr
              swap; · iexact HS0
              ipureintro; exact View.read_writes_of_cover _ _ _ _ _ (scover0_A c _ _ _ _ _ _ _ _ _ _ _ _ _ _ _ _ _ _ _)
            iexact HRB
          iexact Hg
        isplitl [Ho]; · iexact Ho
        isplitl [H0]; · iexact H0
        isplitl [H1]; · iexact H1
        isplitl [H2]; · iexact H2
        isplitl [H3]; · iexact H3
        iexists _; iexact H4
      ·
        rw [PhiS0_castSucc V c t, PhiS0_pos V c _ _ hz]
        iintro ⟨⟨⟨HS0, HRB⟩, Hg⟩, Ho, ⟨%d0, H0⟩, ⟨%d1, H1⟩, ⟨%d2, H2⟩, ⟨%d3, H3⟩, ⟨%d4, H4⟩⟩
        iapply ((kernelRun0_A c (grid0.coords t) _ _ _ _ _ _ _ _ _ _ _ _ ((hcond0_0 t).mpr h0) (fun h => h1 ((hcond0_1 t).mp h)) (iblk0 V c 0 t) (iblk0 V c 1 t) (iblk0 V c 2 t) (iblk0 V c 3 t)).2.2 _ Set.univ _)
        isplitl [H0]; · iexact H0
        isplitl [H1]; · iexact H1
        isplitl [H2]; · iexact H2
        isplitl [H3]; · iexact H3
        isplitl [H4]; · iexact H4
        isplitl [HS0]; · iexists _; iexact HS0
        iintro ⟨H0, H1, H2, H3, H4, ⟨%es0, HS0⟩⟩
        isplitl [HS0 HRB Hg]
        · isplitl [HS0 HRB]
          · isplitl [HS0]
            · unfold owns; iexists _; isplitr
              swap; · iexact HS0
              ipureintro; exact View.read_writes_of_cover _ _ _ _ _ (scover0_A c _ _ _ _ _ _ _ _ _ _ _ _ _ _ _ _ _ _ _)
            iexact HRB
          iexact Hg
        isplitl [Ho]; · iexact Ho
        isplitl [H0]; · iexact H0
        isplitl [H1]; · iexact H1
        isplitl [H2]; · iexact H2
        isplitl [H3]; · iexact H3
        iexists _; iexact H4
  · by_cases h1 : t.val % 6 = 5
    ·
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [show (dat0 V c).leavesExact 4 t = owns (c : Thread nD τ) (ms0_4 t) fullShare ((dat0 V c).after 4 t) from by
        unfold Dat.leavesExact; rw [liveAt0_C t (fun h => h0 ((hcond0_0 t).mp h)) ((hcond0_1 t).mpr h1)], after0_4]
      rw [outsAt0_C V c t h0 h1]
      unfold out0_C sout0_C; (try dsimp only)
      by_cases hz : t.val = 0
      · exfalso; omega
      ·
        rw [PhiS0_castSucc V c t, PhiS0_pos V c _ _ hz]
        iintro ⟨⟨⟨HS0, HRB⟩, Hg⟩, Ho, ⟨%d0, H0⟩, ⟨%d1, H1⟩, ⟨%d2, H2⟩, ⟨%d3, H3⟩, ⟨%d4, H4⟩⟩
        iapply ((kernelRun0_C c (grid0.coords t) _ _ _ _ _ _ _ _ _ _ _ _ (fun h => h0 ((hcond0_0 t).mp h)) ((hcond0_1 t).mpr h1) (iblk0 V c 0 t) (iblk0 V c 1 t) (iblk0 V c 2 t) (iblk0 V c 3 t) _).2.2 Set.univ _)
        isplitl [H0]; · iexact H0
        isplitl [H1]; · iexact H1
        isplitl [H2]; · iexact H2
        isplitl [H3]; · iexact H3
        isplitl [H4]; · iexists _; iexact H4
        isplitl [HS0]; · iexact HS0
        iintro ⟨H0, H1, H2, H3, ⟨%e4, H4⟩, ⟨%es0, HS0⟩⟩
        isplitl [HS0 HRB Hg]
        · isplitl [HS0 HRB]
          · isplitl [HS0]
            · unfold owns; iexists _; isplitr
              swap; · iexact HS0
              ipureintro; exact View.read_writes_of_cover _ _ _ _ _ (scover0_C c _ _ _ _ _ _ _ _ _ _ _ _ _ _ _ _ _ _ _ _)
            iexact HRB
          iexact Hg
        isplitl [Ho]; · iexact Ho
        isplitl [H0]; · iexact H0
        isplitl [H1]; · iexact H1
        isplitl [H2]; · iexact H2
        isplitl [H3]; · iexact H3
        unfold owns; iexists _; isplitr
        swap; · iexact H4
        ipureintro; exact View.read_writes_of_cover _ _ _ _ _ (cover0_C c _ _ _ _ _ _ _ _ _ _ _ _ _ _ _ _ _ _ _ _)
    ·
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [Dat.leavesExact_idle (dat0 V c) 4 t (idleAt0_B t (fun h => h0 ((hcond0_0 t).mp h)) (fun h => h1 ((hcond0_1 t).mp h))) (noFlush0_B t (fun h => h0 ((hcond0_0 t).mp h)) (fun h => h1 ((hcond0_1 t).mp h)))]
      rw [outsAt0_B V c t h0 h1]
      unfold sout0_B; (try dsimp only)
      by_cases hz : t.val = 0
      · exfalso; omega
      ·
        rw [PhiS0_castSucc V c t, PhiS0_pos V c _ _ hz]
        iintro ⟨⟨⟨HS0, HRB⟩, Hg⟩, Ho, ⟨%d0, H0⟩, ⟨%d1, H1⟩, ⟨%d2, H2⟩, ⟨%d3, H3⟩, ⟨%d4, H4⟩⟩
        iapply ((kernelRun0_B c (grid0.coords t) _ _ _ _ _ _ _ _ _ _ _ _ (fun h => h0 ((hcond0_0 t).mp h)) (fun h => h1 ((hcond0_1 t).mp h)) (iblk0 V c 0 t) (iblk0 V c 1 t) (iblk0 V c 2 t) (iblk0 V c 3 t) _).2.2 _ Set.univ _)
        isplitl [H0]; · iexact H0
        isplitl [H1]; · iexact H1
        isplitl [H2]; · iexact H2
        isplitl [H3]; · iexact H3
        isplitl [H4]; · iexact H4
        isplitl [HS0]; · iexact HS0
        iintro ⟨H0, H1, H2, H3, H4, ⟨%es0, HS0⟩⟩
        isplitl [HS0 HRB Hg]
        · isplitl [HS0 HRB]
          · isplitl [HS0]
            · unfold owns; iexists _; isplitr
              swap; · iexact HS0
              ipureintro; exact View.read_writes_of_cover _ _ _ _ _ (scover0_B c _ _ _ _ _ _ _ _ _ _ _ _ _ _ _ _ _ _ _ _)
            iexact HRB
          iexact Hg
        isplitl [Ho]; · iexact Ho
        isplitl [H0]; · iexact H0
        isplitl [H1]; · iexact H1
        isplitl [H2]; · iexact H2
        isplitl [H3]; · iexact H3
        iexists _; iexact H4

theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After the last point the invariant gives the class's back: the accumulator's contents are forgotten. -/
theorem hout0 (c : Dev nD) : (dat0 V c).Φ (Fin.last cfg0.N) ⊢ Pipeline.ΦA spec0 c := by
  have ht : (Fin.last cfg0.N).val ≠ 0 := by rw [Fin.val_last]; have : cfg0.N = 384 := N_0; omega
  rw [show (dat0 V c).Φ (Fin.last cfg0.N) = PhiS0 V c (Fin.last cfg0.N).val (Nat.le_of_lt_succ (Fin.last cfg0.N).isLt) from rfl, PhiS0_pos V c _ _ ht, PhiA0_eq]
  iintro ⟨⟨HS0, HRB⟩, Hg⟩
  isplitl [HS0 HRB]
  · isplitl [HS0]
    · iexists _; iexact HS0
    iexact HRB
  iexact Hg

end Cert.Kernel.Hand

end
-- ==== Proof.B_R1.lean ====
/-
  Region 1 of the program: the row normalisation of the first layer's output, 128 rows per grid point.
  At any contents V of the buffers on entry: what the body leaves in the output block at each grid point (the pieces
  its one store writes, found by running the body), the pipeline's proof data over them, and the body obligation.
-/
import proofs.«159875_j41042707481000_2_alg».proof.Proof.Gen.Kernel.Launch
import proofs.«159875_j41042707481000_2_alg».proof.Proof.Gen.Kernel.Skeleton
import proofs.«159875_j41042707481000_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ
variable (V : (c : Dev nD) → (b : Ref sig .tc) → Buf (Elt F) ((c : Thread nD τ).loc b))

/-- Window `w`'s block at grid point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- An input window's current staging buffer holds its block at every point, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- An input window's current staging buffer holds its block at every point, fetched there or not. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

abbrev ms1_0 (t : Fin cfg1.N) : Memref sig .tc .vmem S128x8192 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x8192 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x8192 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S128x8192 .f32 := win1_3.stage (cfg1.slots t 3)
abbrev hs1_3 (t : Fin cfg1.N) : (ms1_3 t).IsWhole := hstage1_3 ((cfg1.slots t 3).cast nbuf1_3)

/-- One staging buffer of the output window, through which its contents are stated. -/
abbrev VO1_3 : View sig .tc .vmem S128x8192 .f32 := (Memref.whole cc1_stg3_0 : Memref sig .tc .vmem S128x8192 .f32).view

set_option maxHeartbeats 1000000 in
/-- The body on whole staging memrefs — the inputs' at their contents, the output's at anything — runs to the
    continuation with the inputs' as they were and the output's buffer with the body's stores written: the pieces are
    the witness the run finds. -/
noncomputable def kernelRun1 (c : Dev nD) (i : grid1.Coords) (arg1 : Memref sig .tc .vmem S128x8192 .bf16) (harg1 : arg1.IsWhole) (arg2 : Memref sig .tc .vmem S1x8192 .f32) (harg2 : arg2.IsWhole) (arg3 : Memref sig .tc .vmem S1x8192 .f32) (harg3 : arg3.IsWhole) (arg4 : Memref sig .tc .vmem S128x8192 .f32) (harg4 : arg4.IsWhole)
    (x0 : Vec F S128x8192 .bf16) (x1 : Vec F S1x8192 .f32) (x2 : Vec F S1x8192 .f32) :
    { L : List (View.Piece (Elt F) S128x8192 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d)
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L)) -∗ K ⟨⟩))
          ⊢ wp frame (wpE (defs₀ (F := F)) Variants.none c none) E (cc1__ln1_kernel i arg1 harg1 arg2 harg2 arg3 harg3 arg4 harg4) K } := by
  refine ⟨?_, fun E K => ?run⟩
  case run =>
    simp only [cc1__ln1_kernel_eq_skeleton]; unfold cc1__ln1_kernel_skel
    unfold owns
    iintro ⟨⟨%f0, %hf0, H0⟩, ⟨%f1, %hf1, H1⟩, ⟨%f2, %hf2, H2⟩, ⟨%d3, %f3, -, H3⟩, Hk⟩
    obtain rfl := harg1.eq_unread hf0; obtain rfl := harg2.eq_unread hf1; obtain rfl := harg3.eq_unread hf2
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact H3

/-- The run's pieces tile the output block, so they cover it. -/
theorem cover1 (c : Dev nD) (i : grid1.Coords) (arg1 : Memref sig .tc .vmem S128x8192 .bf16) (harg1 : arg1.IsWhole) (arg2 : Memref sig .tc .vmem S1x8192 .f32) (harg2 : arg2.IsWhole) (arg3 : Memref sig .tc .vmem S1x8192 .f32) (harg3 : arg3.IsWhole) (arg4 : Memref sig .tc .vmem S128x8192 .f32) (harg4 : arg4.IsWhole)
    (x0 : Vec F S128x8192 .bf16) (x1 : Vec F S1x8192 .f32) (x2 : Vec F S1x8192 .f32) (y : S128x8192.Idx) :
    ∃ pc ∈ (kernelRun1 c i arg1 harg1 arg2 harg2 arg3 harg3 arg4 harg4 x0 x1 x2).1, y ∈ pc.1.set :=
  View.cover_of_tiledL (kernelRun1 c i arg1 harg1 arg2 harg2 arg3 harg3 arg4 harg4 x0 x1 x2).1 S128x8192.size (by sl_kernel_rfl) y

/-- What the run leaves in the output's staging buffer: its pieces read back. -/
def out1 (c : Dev nD) (i : grid1.Coords) (arg1 : Memref sig .tc .vmem S128x8192 .bf16) (harg1 : arg1.IsWhole) (arg2 : Memref sig .tc .vmem S1x8192 .f32) (harg2 : arg2.IsWhole) (arg3 : Memref sig .tc .vmem S1x8192 .f32) (harg3 : arg3.IsWhole) (arg4 : Memref sig .tc .vmem S128x8192 .f32) (harg4 : arg4.IsWhole)
    (x0 : Vec F S128x8192 .bf16) (x1 : Vec F S1x8192 .f32) (x2 : Vec F S1x8192 .f32) : Vec F S128x8192 .f32 :=
  VO1_3.read (Elt F) (VO1_3.writes (Elt F) VO1_3.junk (kernelRun1 c i arg1 harg1 arg2 harg2 arg3 harg3 arg4 harg4 x0 x1 x2).1)

/-- The output's staging buffer after the body at point `t`: the run at the point's memrefs and input blocks. -/
def outsAt1 (c : Dev nD) (t : Fin cfg1.N) : Vec F S128x8192 .f32 :=
  out1 c (grid1.coords t) (ms1_0 t) (hs1_0 t) (ms1_1 t) (hs1_1 t) (ms1_2 t) (hs1_2 t) (ms1_3 t) (hs1_3 t) (iblk1 V c 0 t) (iblk1 V c 1 t) (iblk1 V c 2 t)

/-- The proof data of this pipeline on core `c`: the arrays as the region finds them; after the body each input's
    buffer at its block and the output's at the run's contents; the invariant the scoped rest and the generator
    register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => outsAt1 V c t
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = outsAt1 V c t := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t))

set_option maxHeartbeats 4000000 in
/-- The body at any point: the inputs' memrefs hold their blocks, so the run applies; the invariant and the core's
    `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  unfold outsAt1 out1
  iintro ⟨HΦ, Ho, ⟨%d0, H0⟩, ⟨%d1, H1⟩, ⟨%d2, H2⟩, ⟨%d3, H3⟩⟩
  iapply ((kernelRun1 c (grid1.coords t) _ _ _ _ _ _ _ _ (iblk1 V c 0 t) (iblk1 V c 1 t) (iblk1 V c 2 t)).2 Set.univ _)
  isplitl [H0]; · iexact H0
  isplitl [H1]; · iexact H1
  isplitl [H2]; · iexact H2
  isplitl [H3]; · iexists _; iexact H3
  iintro ⟨H0, H1, H2, ⟨%e3, H3⟩⟩
  isplitl [HΦ]; · iexact HΦ
  isplitl [Ho]; · iexact Ho
  isplitl [H0]; · iexact H0
  isplitl [H1]; · iexact H1
  isplitl [H2]; · iexact H2
  unfold owns; iexists _; isplitr
  swap; · iexact H3
  ipureintro; exact View.read_writes_of_cover _ _ _ _ _ (cover1 c _ _ _ _ _ _ _ _ _ _ _ _)

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.B_R2.lean ====
/-
  Region 2 of the program: the second layer's matrix product, one 1024x1024 output block per pair of leading grid
  coordinates, accumulated over the sixteen steps of the contraction axis in a buffer of the kernel's own, and at the
  last step scaled, biased, clipped at zero, added to the residual block and stored. At any contents V of the buffers
  on entry: the body's three cases, what the accumulator and the output block hold after each grid point, the proof
  data and the body obligation. Windows 0 and 4 read one array (the first normalised activation, as the left operand
  and as the residual): the proof data give them the two halves of that array's share.
-/
import proofs.«159875_j41042707481000_2_alg».proof.Proof.Gen.Kernel.Launch
import proofs.«159875_j41042707481000_2_alg».proof.Proof.Gen.Kernel.Skeleton
import proofs.«159875_j41042707481000_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ
variable (V : (c : Dev nD) → (b : Ref sig .tc) → Buf (Elt F) ((c : Thread nD τ).loc b))

/-- Window `w`'s block at grid point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- An input window's current staging buffer holds its block at every point, fetched there or not. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- An input window's current staging buffer holds its block at every point, fetched there or not. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- An input window's current staging buffer holds its block at every point, fetched there or not. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- An input window's current staging buffer holds its block at every point, fetched there or not. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

abbrev ms2_0 (t : Fin cfg2.N) : Memref sig .tc .vmem S1024x512 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S512x1024 .bf16 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1x1024 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1x1024 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S1024x1024 .f32 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S1024x1024 .f32 := win2_5.stage (cfg2.slots t 5)
abbrev hs2_5 (t : Fin cfg2.N) : (ms2_5 t).IsWhole := hstage2_5 ((cfg2.slots t 5).cast nbuf2_5)

/-! ## The body's two conditionals, decided over the grid -/

/-- "This is the first step of the contraction axis": the grid's last coordinate is 0. -/
abbrev cond2_0 (i : grid2.Coords) : Prop := (Scalar.cmpi .ne (Scalar.extui (Scalar.cmpi .eq (BitVec.ofNat 32 (i 2).val) 0#32)) 0#32) = 1#1
theorem hcond2_0 : ∀ t : Fin cfg2.N, cond2_0 (grid2.coords t) ↔ t.val % 16 = 0 :=
  (by decide +kernel : ∀ t : Fin grid2.N, cond2_0 (grid2.coords t) ↔ t.val % 16 = 0)
/-- "This is the last step of the contraction axis": the grid's last coordinate is 15. -/
abbrev cond2_1 (i : grid2.Coords) : Prop := k2_cond2 i = 1#1
theorem hcond2_1 : ∀ t : Fin cfg2.N, cond2_1 (grid2.coords t) ↔ t.val % 16 = 15 :=
  (by decide +kernel : ∀ t : Fin grid2.N, cond2_1 (grid2.coords t) ↔ t.val % 16 = 15)

/-! ## Where the windows are idle -/

theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
theorem liveAt2_3 : ∀ t : Fin cfg2.N, cfg2.idle 3 (grid2.coords t) = false := by decide +kernel
theorem liveAt2_4 : ∀ t : Fin cfg2.N, cfg2.idle 4 (grid2.coords t) = false := by decide +kernel
/-- Off the last step the output window is idle and not written back; at the last step it is live. -/
theorem idleAt2_A : ∀ t : Fin cfg2.N, cond2_0 (grid2.coords t) → ¬cond2_1 (grid2.coords t) → cfg2.idle 5 (grid2.coords t) = true := by decide +kernel
theorem noFlush2_A : ∀ t : Fin cfg2.N, cond2_0 (grid2.coords t) → ¬cond2_1 (grid2.coords t) → (cfg2.win 5).flush t = false := by decide +kernel
theorem idleAt2_B : ∀ t : Fin cfg2.N, ¬cond2_0 (grid2.coords t) → ¬cond2_1 (grid2.coords t) → cfg2.idle 5 (grid2.coords t) = true := by decide +kernel
theorem noFlush2_B : ∀ t : Fin cfg2.N, ¬cond2_0 (grid2.coords t) → ¬cond2_1 (grid2.coords t) → (cfg2.win 5).flush t = false := by decide +kernel
theorem liveAt2_C : ∀ t : Fin cfg2.N, ¬cond2_0 (grid2.coords t) → cond2_1 (grid2.coords t) → cfg2.idle 5 (grid2.coords t) = false := by decide +kernel

/-! ## The staging memrefs and the accumulator -/

abbrev VO2 : View sig .tc .vmem S1024x1024 .f32 := (Memref.whole cc2_stg5_0 : Memref sig .tc .vmem S1024x1024 .f32).view
/-- The accumulator: a whole scoped buffer of the kernel's own, carried from grid point to grid point. -/
abbrev scM2 : Memref sig .tc .vmem S1024x1024 .f32 := Memref.whole cc2_scratch0
abbrev VS2 : View sig .tc .vmem S1024x1024 .f32 := (scM2).view
/-- The scoped buffers no window stages, the accumulator apart. -/
abbrev restBut2 (c : Dev nD) : sProp 𝕄 := Pipeline.scopedRestBut (Ix := Unit) (Name := ℕ) (U := UR sig nD τ) (Lvl := ℕ) (Val := Elt F) spec2 c [cc2_scratch0]

/-- The class invariant with the accumulator owned at some contents. -/
theorem PhiA2_eq (c : Dev nD) :
    (Pipeline.ΦA spec2 c : sProp 𝕄)
      = iprop(iprop(iprop((∃ d, owns (c : Thread nD τ) scM2 fullShare d)) ∗ restBut2 (F := F) c) ∗ (∃ r, prngReg c r)) := by
  unfold Pipeline.ΦA; rw [scopedRest2_split]; simp only [scM2, owns_whole]; try rfl

/-! ## The body, case by case -/

set_option maxHeartbeats 2000000 in
/-- The body in case A (first step of the contraction axis: the accumulator is zeroed, then one partial product added) on whole staging
    memrefs: the pieces the accumulator (and, in case C, the output block) ends with are the witness the run finds. -/
noncomputable def kernelRun2_A (c : Dev nD) (i : grid2.Coords) (arg3 : Memref sig .tc .vmem S1024x512 .f32) (harg3 : arg3.IsWhole) (arg4 : Memref sig .tc .vmem S512x1024 .bf16) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x1024 .f32) (harg7 : arg7.IsWhole) (arg8 : Memref sig .tc .vmem S1024x1024 .f32) (harg8 : arg8.IsWhole) (arg9 : Memref sig .tc .vmem S1024x1024 .f32) (harg9 : arg9.IsWhole) (hc0 : cond2_0 i) (hc1 : ¬cond2_1 i)
    (x0 : Vec F S1024x512 .f32) (x1 : Vec F S512x1024 .bf16) (x2 : Vec F S1x1024 .f32) (x3 : Vec F S1x1024 .f32) (x4 : Vec F S1024x1024 .f32) :
    Σ' (LO : List (View.Piece (Elt F) S1024x1024 .f32)), { LS : List (View.Piece (Elt F) S1024x1024 .f32) //
      ∀ (xi : Vec F S1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi ∗ (∃ d, owns (c : Thread nD τ) arg9 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi ∗ (∃ f, arg9.view.loc (c : Thread nD τ) ↦[arg9.view.set]{fullShare} arg9.view.writes (Elt F) f LS)) -∗ K ⟨⟩))
          ⊢ wp frame (wpE (defs₀ (F := F)) Variants.none c none) E (cc2__mm2_kernel i arg3 harg3 arg4 harg4 arg5 harg5 arg6 harg6 arg7 harg7 arg8 harg8 arg9 harg9) K } := by
  refine ⟨[], ?_, fun xi E K => ?run⟩
  case run =>
    simp only [cc2__mm2_kernel_eq_skeleton]; unfold cc2__mm2_kernel_skel
    unfold owns
    iintro ⟨⟨%f0, %hf0, H0⟩, ⟨%f1, %hf1, H1⟩, ⟨%f2, %hf2, H2⟩, ⟨%f3, %hf3, H3⟩, ⟨%f4, %hf4, H4⟩, ⟨%fo, %hfo, HO⟩, ⟨%ds0, %fs0, -, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hfo
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [HO]
    · iexists _; isplitr; · ipureintro; exact harg8.read_unread _
      iexact HO
    iexists _; iexact HS0

set_option maxHeartbeats 2000000 in
/-- The body in case B (a middle step: one partial product added to the accumulator) on whole staging
    memrefs: the pieces the accumulator (and, in case C, the output block) ends with are the witness the run finds. -/
noncomputable def kernelRun2_B (c : Dev nD) (i : grid2.Coords) (arg3 : Memref sig .tc .vmem S1024x512 .f32) (harg3 : arg3.IsWhole) (arg4 : Memref sig .tc .vmem S512x1024 .bf16) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x1024 .f32) (harg7 : arg7.IsWhole) (arg8 : Memref sig .tc .vmem S1024x1024 .f32) (harg8 : arg8.IsWhole) (arg9 : Memref sig .tc .vmem S1024x1024 .f32) (harg9 : arg9.IsWhole) (hc0 : ¬cond2_0 i) (hc1 : ¬cond2_1 i)
    (x0 : Vec F S1024x512 .f32) (x1 : Vec F S512x1024 .bf16) (x2 : Vec F S1x1024 .f32) (x3 : Vec F S1x1024 .f32) (x4 : Vec F S1024x1024 .f32) (xs0 : Vec F S1024x1024 .f32) :
    Σ' (LO : List (View.Piece (Elt F) S1024x1024 .f32)), { LS : List (View.Piece (Elt F) S1024x1024 .f32) //
      ∀ (xi : Vec F S1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi ∗ owns (c : Thread nD τ) arg9 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi ∗ (∃ f, arg9.view.loc (c : Thread nD τ) ↦[arg9.view.set]{fullShare} arg9.view.writes (Elt F) f LS)) -∗ K ⟨⟩))
          ⊢ wp frame (wpE (defs₀ (F := F)) Variants.none c none) E (cc2__mm2_kernel i arg3 harg3 arg4 harg4 arg5 harg5 arg6 harg6 arg7 harg7 arg8 harg8 arg9 harg9) K } := by
  refine ⟨[], ?_, fun xi E K => ?run⟩
  case run =>
    simp only [cc2__mm2_kernel_eq_skeleton]; unfold cc2__mm2_kernel_skel
    unfold owns
    iintro ⟨⟨%f0, %hf0, H0⟩, ⟨%f1, %hf1, H1⟩, ⟨%f2, %hf2, H2⟩, ⟨%f3, %hf3, H3⟩, ⟨%f4, %hf4, H4⟩, ⟨%fo, %hfo, HO⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hfo; obtain rfl := harg9.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [HO]
    · iexists _; isplitr; · ipureintro; exact harg8.read_unread _
      iexact HO
    iexists _; iexact HS0

set_option maxHeartbeats 2000000 in
/-- The body in case C (last step: one partial product added, then the scaled, biased, clipped block stored) on whole staging
    memrefs: the pieces the accumulator (and, in case C, the output block) ends with are the witness the run finds. -/
noncomputable def kernelRun2_C (c : Dev nD) (i : grid2.Coords) (arg3 : Memref sig .tc .vmem S1024x512 .f32) (harg3 : arg3.IsWhole) (arg4 : Memref sig .tc .vmem S512x1024 .bf16) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x1024 .f32) (harg7 : arg7.IsWhole) (arg8 : Memref sig .tc .vmem S1024x1024 .f32) (harg8 : arg8.IsWhole) (arg9 : Memref sig .tc .vmem S1024x1024 .f32) (harg9 : arg9.IsWhole) (hc0 : ¬cond2_0 i) (hc1 : cond2_1 i)
    (x0 : Vec F S1024x512 .f32) (x1 : Vec F S512x1024 .bf16) (x2 : Vec F S1x1024 .f32) (x3 : Vec F S1x1024 .f32) (x4 : Vec F S1024x1024 .f32) (xs0 : Vec F S1024x1024 .f32) :
    Σ' (LO : List (View.Piece (Elt F) S1024x1024 .f32)), { LS : List (View.Piece (Elt F) S1024x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ owns (c : Thread nD τ) arg9 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ f, arg8.view.loc (c : Thread nD τ) ↦[arg8.view.set]{fullShare} arg8.view.writes (Elt F) f LO) ∗ (∃ f, arg9.view.loc (c : Thread nD τ) ↦[arg9.view.set]{fullShare} arg9.view.writes (Elt F) f LS)) -∗ K ⟨⟩))
          ⊢ wp frame (wpE (defs₀ (F := F)) Variants.none c none) E (cc2__mm2_kernel i arg3 harg3 arg4 harg4 arg5 harg5 arg6 harg6 arg7 harg7 arg8 harg8 arg9 harg9) K } := by
  refine ⟨?_, ?_, fun E K => ?run⟩
  case run =>
    simp only [cc2__mm2_kernel_eq_skeleton]; unfold cc2__mm2_kernel_skel
    unfold owns
    iintro ⟨⟨%f0, %hf0, H0⟩, ⟨%f1, %hf1, H1⟩, ⟨%f2, %hf2, H2⟩, ⟨%f3, %hf3, H3⟩, ⟨%f4, %hf4, H4⟩, ⟨%dO, %fo, -, HO⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg9.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [HO]; · iexists _; iexact HO
    iexists _; iexact HS0

/-! ## What each case leaves -/

/-- What case A leaves in the output's staging buffer: its pieces read back (none: a placeholder nothing consults, the window being idle and not written back at these points). -/
def out2_A (c : Dev nD) (i : grid2.Coords) (arg3 : Memref sig .tc .vmem S1024x512 .f32) (harg3 : arg3.IsWhole) (arg4 : Memref sig .tc .vmem S512x1024 .bf16) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x1024 .f32) (harg7 : arg7.IsWhole) (arg8 : Memref sig .tc .vmem S1024x1024 .f32) (harg8 : arg8.IsWhole) (arg9 : Memref sig .tc .vmem S1024x1024 .f32) (harg9 : arg9.IsWhole) (hc0 : cond2_0 i) (hc1 : ¬cond2_1 i)
    (x0 : Vec F S1024x512 .f32) (x1 : Vec F S512x1024 .bf16) (x2 : Vec F S1x1024 .f32) (x3 : Vec F S1x1024 .f32) (x4 : Vec F S1024x1024 .f32) : Vec F S1024x1024 .f32 :=
  VO2.read (Elt F) (VO2.writes (Elt F) VO2.junk (kernelRun2_A c i arg3 harg3 arg4 harg4 arg5 harg5 arg6 harg6 arg7 harg7 arg8 harg8 arg9 harg9 hc0 hc1 x0 x1 x2 x3 x4).1)

/-- Case A's pieces for the accumulator tile it, so they cover it. -/
theorem scover2_A (c : Dev nD) (i : grid2.Coords) (arg3 : Memref sig .tc .vmem S1024x512 .f32) (harg3 : arg3.IsWhole) (arg4 : Memref sig .tc .vmem S512x1024 .bf16) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x1024 .f32) (harg7 : arg7.IsWhole) (arg8 : Memref sig .tc .vmem S1024x1024 .f32) (harg8 : arg8.IsWhole) (arg9 : Memref sig .tc .vmem S1024x1024 .f32) (harg9 : arg9.IsWhole) (hc0 : cond2_0 i) (hc1 : ¬cond2_1 i)
    (x0 : Vec F S1024x512 .f32) (x1 : Vec F S512x1024 .bf16) (x2 : Vec F S1x1024 .f32) (x3 : Vec F S1x1024 .f32) (x4 : Vec F S1024x1024 .f32) (y : S1024x1024.Idx) :
    ∃ pc ∈ (kernelRun2_A c i arg3 harg3 arg4 harg4 arg5 harg5 arg6 harg6 arg7 harg7 arg8 harg8 arg9 harg9 hc0 hc1 x0 x1 x2 x3 x4).2.1, y ∈ pc.1.set :=
  View.cover_of_tiledL (kernelRun2_A c i arg3 harg3 arg4 harg4 arg5 harg5 arg6 harg6 arg7 harg7 arg8 harg8 arg9 harg9 hc0 hc1 x0 x1 x2 x3 x4).2.1 S1024x1024.size (by sl_kernel_rfl) y

/-- What case A leaves in the accumulator: its pieces read back. -/
def sout2_A (c : Dev nD) (i : grid2.Coords) (arg3 : Memref sig .tc .vmem S1024x512 .f32) (harg3 : arg3.IsWhole) (arg4 : Memref sig .tc .vmem S512x1024 .bf16) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x1024 .f32) (harg7 : arg7.IsWhole) (arg8 : Memref sig .tc .vmem S1024x1024 .f32) (harg8 : arg8.IsWhole) (arg9 : Memref sig .tc .vmem S1024x1024 .f32) (harg9 : arg9.IsWhole) (hc0 : cond2_0 i) (hc1 : ¬cond2_1 i)
    (x0 : Vec F S1024x512 .f32) (x1 : Vec F S512x1024 .bf16) (x2 : Vec F S1x1024 .f32) (x3 : Vec F S1x1024 .f32) (x4 : Vec F S1024x1024 .f32) : Vec F S1024x1024 .f32 :=
  VS2.read (Elt F) (VS2.writes (Elt F) VS2.junk (kernelRun2_A c i arg3 harg3 arg4 harg4 arg5 harg5 arg6 harg6 arg7 harg7 arg8 harg8 arg9 harg9 hc0 hc1 x0 x1 x2 x3 x4).2.1)

/-- What case B leaves in the output's staging buffer: its pieces read back (none: a placeholder nothing consults, the window being idle and not written back at these points). -/
def out2_B (c : Dev nD) (i : grid2.Coords) (arg3 : Memref sig .tc .vmem S1024x512 .f32) (harg3 : arg3.IsWhole) (arg4 : Memref sig .tc .vmem S512x1024 .bf16) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x1024 .f32) (harg7 : arg7.IsWhole) (arg8 : Memref sig .tc .vmem S1024x1024 .f32) (harg8 : arg8.IsWhole) (arg9 : Memref sig .tc .vmem S1024x1024 .f32) (harg9 : arg9.IsWhole) (hc0 : ¬cond2_0 i) (hc1 : ¬cond2_1 i)
    (x0 : Vec F S1024x512 .f32) (x1 : Vec F S512x1024 .bf16) (x2 : Vec F S1x1024 .f32) (x3 : Vec F S1x1024 .f32) (x4 : Vec F S1024x1024 .f32) (xs0 : Vec F S1024x1024 .f32) : Vec F S1024x1024 .f32 :=
  VO2.read (Elt F) (VO2.writes (Elt F) VO2.junk (kernelRun2_B c i arg3 harg3 arg4 harg4 arg5 harg5 arg6 harg6 arg7 harg7 arg8 harg8 arg9 harg9 hc0 hc1 x0 x1 x2 x3 x4 xs0).1)

/-- Case B's pieces for the accumulator tile it, so they cover it. -/
theorem scover2_B (c : Dev nD) (i : grid2.Coords) (arg3 : Memref sig .tc .vmem S1024x512 .f32) (harg3 : arg3.IsWhole) (arg4 : Memref sig .tc .vmem S512x1024 .bf16) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x1024 .f32) (harg7 : arg7.IsWhole) (arg8 : Memref sig .tc .vmem S1024x1024 .f32) (harg8 : arg8.IsWhole) (arg9 : Memref sig .tc .vmem S1024x1024 .f32) (harg9 : arg9.IsWhole) (hc0 : ¬cond2_0 i) (hc1 : ¬cond2_1 i)
    (x0 : Vec F S1024x512 .f32) (x1 : Vec F S512x1024 .bf16) (x2 : Vec F S1x1024 .f32) (x3 : Vec F S1x1024 .f32) (x4 : Vec F S1024x1024 .f32) (xs0 : Vec F S1024x1024 .f32) (y : S1024x1024.Idx) :
    ∃ pc ∈ (kernelRun2_B c i arg3 harg3 arg4 harg4 arg5 harg5 arg6 harg6 arg7 harg7 arg8 harg8 arg9 harg9 hc0 hc1 x0 x1 x2 x3 x4 xs0).2.1, y ∈ pc.1.set :=
  View.cover_of_tiledL (kernelRun2_B c i arg3 harg3 arg4 harg4 arg5 harg5 arg6 harg6 arg7 harg7 arg8 harg8 arg9 harg9 hc0 hc1 x0 x1 x2 x3 x4 xs0).2.1 S1024x1024.size (by sl_kernel_rfl) y

/-- What case B leaves in the accumulator: its pieces read back. -/
def sout2_B (c : Dev nD) (i : grid2.Coords) (arg3 : Memref sig .tc .vmem S1024x512 .f32) (harg3 : arg3.IsWhole) (arg4 : Memref sig .tc .vmem S512x1024 .bf16) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x1024 .f32) (harg7 : arg7.IsWhole) (arg8 : Memref sig .tc .vmem S1024x1024 .f32) (harg8 : arg8.IsWhole) (arg9 : Memref sig .tc .vmem S1024x1024 .f32) (harg9 : arg9.IsWhole) (hc0 : ¬cond2_0 i) (hc1 : ¬cond2_1 i)
    (x0 : Vec F S1024x512 .f32) (x1 : Vec F S512x1024 .bf16) (x2 : Vec F S1x1024 .f32) (x3 : Vec F S1x1024 .f32) (x4 : Vec F S1024x1024 .f32) (xs0 : Vec F S1024x1024 .f32) : Vec F S1024x1024 .f32 :=
  VS2.read (Elt F) (VS2.writes (Elt F) VS2.junk (kernelRun2_B c i arg3 harg3 arg4 harg4 arg5 harg5 arg6 harg6 arg7 harg7 arg8 harg8 arg9 harg9 hc0 hc1 x0 x1 x2 x3 x4 xs0).2.1)

/-- Case C's pieces for the output block tile it, so they cover it. -/
theorem cover2_C (c : Dev nD) (i : grid2.Coords) (arg3 : Memref sig .tc .vmem S1024x512 .f32) (harg3 : arg3.IsWhole) (arg4 : Memref sig .tc .vmem S512x1024 .bf16) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x1024 .f32) (harg7 : arg7.IsWhole) (arg8 : Memref sig .tc .vmem S1024x1024 .f32) (harg8 : arg8.IsWhole) (arg9 : Memref sig .tc .vmem S1024x1024 .f32) (harg9 : arg9.IsWhole) (hc0 : ¬cond2_0 i) (hc1 : cond2_1 i)
    (x0 : Vec F S1024x512 .f32) (x1 : Vec F S512x1024 .bf16) (x2 : Vec F S1x1024 .f32) (x3 : Vec F S1x1024 .f32) (x4 : Vec F S1024x1024 .f32) (xs0 : Vec F S1024x1024 .f32) (y : S1024x1024.Idx) :
    ∃ pc ∈ (kernelRun2_C c i arg3 harg3 arg4 harg4 arg5 harg5 arg6 harg6 arg7 harg7 arg8 harg8 arg9 harg9 hc0 hc1 x0 x1 x2 x3 x4 xs0).1, y ∈ pc.1.set :=
  View.cover_of_tiledL (kernelRun2_C c i arg3 harg3 arg4 harg4 arg5 harg5 arg6 harg6 arg7 harg7 arg8 harg8 arg9 harg9 hc0 hc1 x0 x1 x2 x3 x4 xs0).1 S1024x1024.size (by sl_kernel_rfl) y

/-- What case C leaves in the output's staging buffer: its pieces read back. -/
def out2_C (c : Dev nD) (i : grid2.Coords) (arg3 : Memref sig .tc .vmem S1024x512 .f32) (harg3 : arg3.IsWhole) (arg4 : Memref sig .tc .vmem S512x1024 .bf16) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x1024 .f32) (harg7 : arg7.IsWhole) (arg8 : Memref sig .tc .vmem S1024x1024 .f32) (harg8 : arg8.IsWhole) (arg9 : Memref sig .tc .vmem S1024x1024 .f32) (harg9 : arg9.IsWhole) (hc0 : ¬cond2_0 i) (hc1 : cond2_1 i)
    (x0 : Vec F S1024x512 .f32) (x1 : Vec F S512x1024 .bf16) (x2 : Vec F S1x1024 .f32) (x3 : Vec F S1x1024 .f32) (x4 : Vec F S1024x1024 .f32) (xs0 : Vec F S1024x1024 .f32) : Vec F S1024x1024 .f32 :=
  VO2.read (Elt F) (VO2.writes (Elt F) VO2.junk (kernelRun2_C c i arg3 harg3 arg4 harg4 arg5 harg5 arg6 harg6 arg7 harg7 arg8 harg8 arg9 harg9 hc0 hc1 x0 x1 x2 x3 x4 xs0).1)

/-- Case C's pieces for the accumulator tile it, so they cover it. -/
theorem scover2_C (c : Dev nD) (i : grid2.Coords) (arg3 : Memref sig .tc .vmem S1024x512 .f32) (harg3 : arg3.IsWhole) (arg4 : Memref sig .tc .vmem S512x1024 .bf16) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x1024 .f32) (harg7 : arg7.IsWhole) (arg8 : Memref sig .tc .vmem S1024x1024 .f32) (harg8 : arg8.IsWhole) (arg9 : Memref sig .tc .vmem S1024x1024 .f32) (harg9 : arg9.IsWhole) (hc0 : ¬cond2_0 i) (hc1 : cond2_1 i)
    (x0 : Vec F S1024x512 .f32) (x1 : Vec F S512x1024 .bf16) (x2 : Vec F S1x1024 .f32) (x3 : Vec F S1x1024 .f32) (x4 : Vec F S1024x1024 .f32) (xs0 : Vec F S1024x1024 .f32) (y : S1024x1024.Idx) :
    ∃ pc ∈ (kernelRun2_C c i arg3 harg3 arg4 harg4 arg5 harg5 arg6 harg6 arg7 harg7 arg8 harg8 arg9 harg9 hc0 hc1 x0 x1 x2 x3 x4 xs0).2.1, y ∈ pc.1.set :=
  View.cover_of_tiledL (kernelRun2_C c i arg3 harg3 arg4 harg4 arg5 harg5 arg6 harg6 arg7 harg7 arg8 harg8 arg9 harg9 hc0 hc1 x0 x1 x2 x3 x4 xs0).2.1 S1024x1024.size (by sl_kernel_rfl) y

/-- What case C leaves in the accumulator: its pieces read back. -/
def sout2_C (c : Dev nD) (i : grid2.Coords) (arg3 : Memref sig .tc .vmem S1024x512 .f32) (harg3 : arg3.IsWhole) (arg4 : Memref sig .tc .vmem S512x1024 .bf16) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x1024 .f32) (harg7 : arg7.IsWhole) (arg8 : Memref sig .tc .vmem S1024x1024 .f32) (harg8 : arg8.IsWhole) (arg9 : Memref sig .tc .vmem S1024x1024 .f32) (harg9 : arg9.IsWhole) (hc0 : ¬cond2_0 i) (hc1 : cond2_1 i)
    (x0 : Vec F S1024x512 .f32) (x1 : Vec F S512x1024 .bf16) (x2 : Vec F S1x1024 .f32) (x3 : Vec F S1x1024 .f32) (x4 : Vec F S1024x1024 .f32) (xs0 : Vec F S1024x1024 .f32) : Vec F S1024x1024 .f32 :=
  VS2.read (Elt F) (VS2.writes (Elt F) VS2.junk (kernelRun2_C c i arg3 harg3 arg4 harg4 arg5 harg5 arg6 harg6 arg7 harg7 arg8 harg8 arg9 harg9 hc0 hc1 x0 x1 x2 x3 x4 xs0).2.1)

/-! ## What the output block and the accumulator hold after each grid point -/

/-- After position `n`: (the output's staging buffer, the accumulator) — the case the point is in, run at the point's
    memrefs and input blocks, over the accumulator as the point before left it. -/
def outsAt2 (c : Dev nD) : (n : ℕ) → n < cfg2.N → Vec F S1024x1024 .f32 × Vec F S1024x1024 .f32
  | 0, hn => (out2_A c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) scM2 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩) (iblk2 V c 3 ⟨0, hn⟩) (iblk2 V c 4 ⟨0, hn⟩), sout2_A c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) scM2 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩) (iblk2 V c 3 ⟨0, hn⟩) (iblk2 V c 4 ⟨0, hn⟩))
  | n + 1, hn =>
    if h0 : (n + 1) % 16 = 0 then
      if h1 : (n + 1) % 16 = 15 then
        False.elim (by omega)
      else
        (out2_A c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) scM2 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩), sout2_A c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) scM2 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩))
    else
      if h1 : (n + 1) % 16 = 15 then
        (out2_C c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) scM2 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (outsAt2 c n (Nat.lt_of_succ_lt hn)).2, sout2_C c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) scM2 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (outsAt2 c n (Nat.lt_of_succ_lt hn)).2)
      else
        (out2_B c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) scM2 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (outsAt2 c n (Nat.lt_of_succ_lt hn)).2, sout2_B c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) scM2 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (outsAt2 c n (Nat.lt_of_succ_lt hn)).2)

theorem outsAt2_A (c : Dev nD) (t : Fin cfg2.N) (h0 : t.val % 16 = 0) (h1 : ¬t.val % 16 = 15) :
    outsAt2 V c t.val t.isLt = (out2_A c (grid2.coords t) (ms2_0 t) (hs2_0 t) (ms2_1 t) (hs2_1 t) (ms2_2 t) (hs2_2 t) (ms2_3 t) (hs2_3 t) (ms2_4 t) (hs2_4 t) (ms2_5 t) (hs2_5 t) scM2 (Memref.isWhole_whole _) ((hcond2_0 t).mpr h0) (fun h => h1 ((hcond2_1 t).mp h)) (iblk2 V c 0 t) (iblk2 V c 1 t) (iblk2 V c 2 t) (iblk2 V c 3 t) (iblk2 V c 4 t), sout2_A c (grid2.coords t) (ms2_0 t) (hs2_0 t) (ms2_1 t) (hs2_1 t) (ms2_2 t) (hs2_2 t) (ms2_3 t) (hs2_3 t) (ms2_4 t) (hs2_4 t) (ms2_5 t) (hs2_5 t) scM2 (Memref.isWhole_whole _) ((hcond2_0 t).mpr h0) (fun h => h1 ((hcond2_1 t).mp h)) (iblk2 V c 0 t) (iblk2 V c 1 t) (iblk2 V c 2 t) (iblk2 V c 3 t) (iblk2 V c 4 t)) := by
  obtain ⟨n, hn⟩ := t
  cases n with
  | zero => exact rfl
  | succ n => exact (dif_pos h0).trans ((dif_neg h1).trans rfl)

theorem outsAt2_B (c : Dev nD) (t : Fin cfg2.N) (h0 : ¬t.val % 16 = 0) (h1 : ¬t.val % 16 = 15) :
    outsAt2 V c t.val t.isLt = (out2_B c (grid2.coords t) (ms2_0 t) (hs2_0 t) (ms2_1 t) (hs2_1 t) (ms2_2 t) (hs2_2 t) (ms2_3 t) (hs2_3 t) (ms2_4 t) (hs2_4 t) (ms2_5 t) (hs2_5 t) scM2 (Memref.isWhole_whole _) (fun h => h0 ((hcond2_0 t).mp h)) (fun h => h1 ((hcond2_1 t).mp h)) (iblk2 V c 0 t) (iblk2 V c 1 t) (iblk2 V c 2 t) (iblk2 V c 3 t) (iblk2 V c 4 t) (outsAt2 V c (t.val - 1) (Nat.lt_of_le_of_lt (Nat.sub_le _ _) t.isLt)).2, sout2_B c (grid2.coords t) (ms2_0 t) (hs2_0 t) (ms2_1 t) (hs2_1 t) (ms2_2 t) (hs2_2 t) (ms2_3 t) (hs2_3 t) (ms2_4 t) (hs2_4 t) (ms2_5 t) (hs2_5 t) scM2 (Memref.isWhole_whole _) (fun h => h0 ((hcond2_0 t).mp h)) (fun h => h1 ((hcond2_1 t).mp h)) (iblk2 V c 0 t) (iblk2 V c 1 t) (iblk2 V c 2 t) (iblk2 V c 3 t) (iblk2 V c 4 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt2_C (c : Dev nD) (t : Fin cfg2.N) (h0 : ¬t.val % 16 = 0) (h1 : t.val % 16 = 15) :
    outsAt2 V c t.val t.isLt = (out2_C c (grid2.coords t) (ms2_0 t) (hs2_0 t) (ms2_1 t) (hs2_1 t) (ms2_2 t) (hs2_2 t) (ms2_3 t) (hs2_3 t) (ms2_4 t) (hs2_4 t) (ms2_5 t) (hs2_5 t) scM2 (Memref.isWhole_whole _) (fun h => h0 ((hcond2_0 t).mp h)) ((hcond2_1 t).mpr h1) (iblk2 V c 0 t) (iblk2 V c 1 t) (iblk2 V c 2 t) (iblk2 V c 3 t) (iblk2 V c 4 t) (outsAt2 V c (t.val - 1) (Nat.lt_of_le_of_lt (Nat.sub_le _ _) t.isLt)).2, sout2_C c (grid2.coords t) (ms2_0 t) (hs2_0 t) (ms2_1 t) (hs2_1 t) (ms2_2 t) (hs2_2 t) (ms2_3 t) (hs2_3 t) (ms2_4 t) (hs2_4 t) (ms2_5 t) (hs2_5 t) scM2 (Memref.isWhole_whole _) (fun h => h0 ((hcond2_0 t).mp h)) ((hcond2_1 t).mpr h1) (iblk2 V c 0 t) (iblk2 V c 1 t) (iblk2 V c 2 t) (iblk2 V c 3 t) (iblk2 V c 4 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region's invariant before position `n`: before the first point the class's (the accumulator at anything);
    afterwards the accumulator at what the point before left in it, the other scoped buffers untouched, the generator
    register at some state. -/
def PhiS2 (c : Dev nD) : (n : ℕ) → n ≤ cfg2.N → sProp 𝕄
  | 0, _ => Pipeline.ΦA spec2 c
  | n + 1, hn => iprop(iprop(owns (c : Thread nD τ) scM2 fullShare ((outsAt2 V c n hn).2) ∗ restBut2 (F := F) c) ∗ (∃ r, prngReg c r))

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop(iprop(owns (c : Thread nD τ) scM2 fullShare ((outsAt2 V c n hn).2) ∗ restBut2 (F := F) c) ∗ (∃ r, prngReg c r)) := rfl

theorem PhiS2_pos (c : Dev nD) (n : ℕ) (h : n ≤ cfg2.N) (hz : n ≠ 0) :
    PhiS2 V c n h = iprop(iprop(owns (c : Thread nD τ) scM2 fullShare ((outsAt2 V c (n - 1) (by omega)).2) ∗ restBut2 (F := F) c) ∗ (∃ r, prngReg c r)) := by
  cases n with
  | zero => exact absurd rfl hz
  | succ n => rfl

/-! ## The pipeline's proof data -/

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => (outsAt2 V c t.val t.isLt).1
  Φ t := PhiS2 V c t.val (Nat.le_of_lt_succ t.isLt)
  q w := match w with
    | ⟨0, _⟩ => PosShare.left fullShare
    | ⟨1, _⟩ => fullShare
    | ⟨2, _⟩ => fullShare
    | ⟨3, _⟩ => fullShare
    | ⟨4, _⟩ => PosShare.right fullShare
    | ⟨5, _⟩ => fullShare
  owed _ := 0

theorem A_eq2 (c : Dev nD) (w : Fin cfg2.W) : (dat2 V c).A w = V c (Pipeline.arrRef spec2 w) := by
  dsimp only [dat2]

theorem PhiS2_castSucc (c : Dev nD) (t : Fin cfg2.N) :
    (dat2 V c).Φ t.castSucc = PhiS2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = (outsAt2 V c t.val t.isLt).1 := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

/-! ## The body obligation, at a generic point -/

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t)

set_option maxHeartbeats 8000000 in
/-- The body at any point: the inputs' memrefs hold their blocks; the closed forms say which case the point is in; the
    invariant hands the body the accumulator at what the point before left (at anything at the very first point) and
    takes it back at this point's contents; off the last step the output's buffer is handed back as found. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).owesAt () t.succ = (dat2 V c).owesAt () t.castSucc from rfl]
  rw [show (dat2 V c).Φ t.succ = PhiS2 V c (t.val + 1) t.isLt from rfl, PhiS2_succ]
  have hN : t.val < 1024 := lt_of_lt_of_eq t.isLt (show cfg2.N = 1024 from N_2)
  by_cases h0 : t.val % 16 = 0
  · by_cases h1 : t.val % 16 = 15
    · exfalso; omega
    ·
      rw [show (dat2 V c).leavesExact 0 t = owns (c : Thread nD τ) (ms2_0 t) fullShare ((dat2 V c).after 0 t) from by
        unfold Dat.leavesExact; rw [liveAt2_0 t], after2_0]
      rw [show (dat2 V c).leavesExact 1 t = owns (c : Thread nD τ) (ms2_1 t) fullShare ((dat2 V c).after 1 t) from by
        unfold Dat.leavesExact; rw [liveAt2_1 t], after2_1]
      rw [show (dat2 V c).leavesExact 2 t = owns (c : Thread nD τ) (ms2_2 t) fullShare ((dat2 V c).after 2 t) from by
        unfold Dat.leavesExact; rw [liveAt2_2 t], after2_2]
      rw [show (dat2 V c).leavesExact 3 t = owns (c : Thread nD τ) (ms2_3 t) fullShare ((dat2 V c).after 3 t) from by
        unfold Dat.leavesExact; rw [liveAt2_3 t], after2_3]
      rw [show (dat2 V c).leavesExact 4 t = owns (c : Thread nD τ) (ms2_4 t) fullShare ((dat2 V c).after 4 t) from by
        unfold Dat.leavesExact; rw [liveAt2_4 t], after2_4]
      rw [Dat.leavesExact_idle (dat2 V c) 5 t (idleAt2_A t ((hcond2_0 t).mpr h0) (fun h => h1 ((hcond2_1 t).mp h))) (noFlush2_A t ((hcond2_0 t).mpr h0) (fun h => h1 ((hcond2_1 t).mp h)))]
      rw [outsAt2_A V c t h0 h1]
      unfold sout2_A; (try dsimp only)
      by_cases hz : t.val = 0
      ·
        rw [PhiS2_castSucc V c t, PhiS2_zero V c _ _ hz, PhiA2_eq]
        iintro ⟨⟨⟨HS0, HRB⟩, Hg⟩, Ho, ⟨%d0, H0⟩, ⟨%d1, H1⟩, ⟨%d2, H2⟩, ⟨%d3, H3⟩, ⟨%d4, H4⟩, ⟨%d5, H5⟩⟩
        iapply ((kernelRun2_A c (grid2.coords t) _ _ _ _ _ _ _ _ _ _ _ _ _ _ ((hcond2_0 t).mpr h0) (fun h => h1 ((hcond2_1 t).mp h)) (iblk2 V c 0 t) (iblk2 V c 1 t) (iblk2 V c 2 t) (iblk2 V c 3 t) (iblk2 V c 4 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        iintro ⟨H0, H1, H2, H3, H4, H5, ⟨%es0, HS0⟩⟩
        isplitl [HS0 HRB Hg]
        · isplitl [HS0 HRB]
          · isplitl [HS0]
            · unfold owns; iexists _; isplitr
              swap; · iexact HS0
              ipureintro; exact View.read_writes_of_cover _ _ _ _ _ (scover2_A c _ _ _ _ _ _ _ _ _ _ _ _ _ _ _ _ _ _ _ _ _ _)
            iexact HRB
          iexact Hg
        isplitl [Ho]; · iexact Ho
        isplitl [H0]; · iexact H0
        isplitl [H1]; · iexact H1
        isplitl [H2]; · iexact H2
        isplitl [H3]; · iexact H3
        isplitl [H4]; · iexact H4
        iexists _; iexact H5
      ·
        rw [PhiS2_castSucc V c t, PhiS2_pos V c _ _ hz]
        iintro ⟨⟨⟨HS0, HRB⟩, Hg⟩, Ho, ⟨%d0, H0⟩, ⟨%d1, H1⟩, ⟨%d2, H2⟩, ⟨%d3, H3⟩, ⟨%d4, H4⟩, ⟨%d5, H5⟩⟩
        iapply ((kernelRun2_A c (grid2.coords t) _ _ _ _ _ _ _ _ _ _ _ _ _ _ ((hcond2_0 t).mpr h0) (fun h => h1 ((hcond2_1 t).mp h)) (iblk2 V c 0 t) (iblk2 V c 1 t) (iblk2 V c 2 t) (iblk2 V c 3 t) (iblk2 V c 4 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexists _; iexact HS0
        iintro ⟨H0, H1, H2, H3, H4, H5, ⟨%es0, HS0⟩⟩
        isplitl [HS0 HRB Hg]
        · isplitl [HS0 HRB]
          · isplitl [HS0]
            · unfold owns; iexists _; isplitr
              swap; · iexact HS0
              ipureintro; exact View.read_writes_of_cover _ _ _ _ _ (scover2_A c _ _ _ _ _ _ _ _ _ _ _ _ _ _ _ _ _ _ _ _ _ _)
            iexact HRB
          iexact Hg
        isplitl [Ho]; · iexact Ho
        isplitl [H0]; · iexact H0
        isplitl [H1]; · iexact H1
        isplitl [H2]; · iexact H2
        isplitl [H3]; · iexact H3
        isplitl [H4]; · iexact H4
        iexists _; iexact H5
  · by_cases h1 : t.val % 16 = 15
    ·
      rw [show (dat2 V c).leavesExact 0 t = owns (c : Thread nD τ) (ms2_0 t) fullShare ((dat2 V c).after 0 t) from by
        unfold Dat.leavesExact; rw [liveAt2_0 t], after2_0]
      rw [show (dat2 V c).leavesExact 1 t = owns (c : Thread nD τ) (ms2_1 t) fullShare ((dat2 V c).after 1 t) from by
        unfold Dat.leavesExact; rw [liveAt2_1 t], after2_1]
      rw [show (dat2 V c).leavesExact 2 t = owns (c : Thread nD τ) (ms2_2 t) fullShare ((dat2 V c).after 2 t) from by
        unfold Dat.leavesExact; rw [liveAt2_2 t], after2_2]
      rw [show (dat2 V c).leavesExact 3 t = owns (c : Thread nD τ) (ms2_3 t) fullShare ((dat2 V c).after 3 t) from by
        unfold Dat.leavesExact; rw [liveAt2_3 t], after2_3]
      rw [show (dat2 V c).leavesExact 4 t = owns (c : Thread nD τ) (ms2_4 t) fullShare ((dat2 V c).after 4 t) from by
        unfold Dat.leavesExact; rw [liveAt2_4 t], after2_4]
      rw [show (dat2 V c).leavesExact 5 t = owns (c : Thread nD τ) (ms2_5 t) fullShare ((dat2 V c).after 5 t) from by
        unfold Dat.leavesExact; rw [liveAt2_C t (fun h => h0 ((hcond2_0 t).mp h)) ((hcond2_1 t).mpr h1)], after2_5]
      rw [outsAt2_C V c t h0 h1]
      unfold out2_C sout2_C; (try dsimp only)
      by_cases hz : t.val = 0
      · exfalso; omega
      ·
        rw [PhiS2_castSucc V c t, PhiS2_pos V c _ _ hz]
        iintro ⟨⟨⟨HS0, HRB⟩, Hg⟩, Ho, ⟨%d0, H0⟩, ⟨%d1, H1⟩, ⟨%d2, H2⟩, ⟨%d3, H3⟩, ⟨%d4, H4⟩, ⟨%d5, H5⟩⟩
        iapply ((kernelRun2_C c (grid2.coords t) _ _ _ _ _ _ _ _ _ _ _ _ _ _ (fun h => h0 ((hcond2_0 t).mp h)) ((hcond2_1 t).mpr h1) (iblk2 V c 0 t) (iblk2 V c 1 t) (iblk2 V c 2 t) (iblk2 V c 3 t) (iblk2 V c 4 t) _).2.2 Set.univ _)
        isplitl [H0]; · iexact H0
        isplitl [H1]; · iexact H1
        isplitl [H2]; · iexact H2
        isplitl [H3]; · iexact H3
        isplitl [H4]; · iexact H4
        isplitl [H5]; · iexists _; iexact H5
        isplitl [HS0]; · iexact HS0
        iintro ⟨H0, H1, H2, H3, H4, ⟨%e5, H5⟩, ⟨%es0, HS0⟩⟩
        isplitl [HS0 HRB Hg]
        · isplitl [HS0 HRB]
          · isplitl [HS0]
            · unfold owns; iexists _; isplitr
              swap; · iexact HS0
              ipureintro; exact View.read_writes_of_cover _ _ _ _ _ (scover2_C c _ _ _ _ _ _ _ _ _ _ _ _ _ _ _ _ _ _ _ _ _ _ _)
            iexact HRB
          iexact Hg
        isplitl [Ho]; · iexact Ho
        isplitl [H0]; · iexact H0
        isplitl [H1]; · iexact H1
        isplitl [H2]; · iexact H2
        isplitl [H3]; · iexact H3
        isplitl [H4]; · iexact H4
        unfold owns; iexists _; isplitr
        swap; · iexact H5
        ipureintro; exact View.read_writes_of_cover _ _ _ _ _ (cover2_C c _ _ _ _ _ _ _ _ _ _ _ _ _ _ _ _ _ _ _ _ _ _ _)
    ·
      rw [show (dat2 V c).leavesExact 0 t = owns (c : Thread nD τ) (ms2_0 t) fullShare ((dat2 V c).after 0 t) from by
        unfold Dat.leavesExact; rw [liveAt2_0 t], after2_0]
      rw [show (dat2 V c).leavesExact 1 t = owns (c : Thread nD τ) (ms2_1 t) fullShare ((dat2 V c).after 1 t) from by
        unfold Dat.leavesExact; rw [liveAt2_1 t], after2_1]
      rw [show (dat2 V c).leavesExact 2 t = owns (c : Thread nD τ) (ms2_2 t) fullShare ((dat2 V c).after 2 t) from by
        unfold Dat.leavesExact; rw [liveAt2_2 t], after2_2]
      rw [show (dat2 V c).leavesExact 3 t = owns (c : Thread nD τ) (ms2_3 t) fullShare ((dat2 V c).after 3 t) from by
        unfold Dat.leavesExact; rw [liveAt2_3 t], after2_3]
      rw [show (dat2 V c).leavesExact 4 t = owns (c : Thread nD τ) (ms2_4 t) fullShare ((dat2 V c).after 4 t) from by
        unfold Dat.leavesExact; rw [liveAt2_4 t], after2_4]
      rw [Dat.leavesExact_idle (dat2 V c) 5 t (idleAt2_B t (fun h => h0 ((hcond2_0 t).mp h)) (fun h => h1 ((hcond2_1 t).mp h))) (noFlush2_B t (fun h => h0 ((hcond2_0 t).mp h)) (fun h => h1 ((hcond2_1 t).mp h)))]
      rw [outsAt2_B V c t h0 h1]
      unfold sout2_B; (try dsimp only)
      by_cases hz : t.val = 0
      · exfalso; omega
      ·
        rw [PhiS2_castSucc V c t, PhiS2_pos V c _ _ hz]
        iintro ⟨⟨⟨HS0, HRB⟩, Hg⟩, Ho, ⟨%d0, H0⟩, ⟨%d1, H1⟩, ⟨%d2, H2⟩, ⟨%d3, H3⟩, ⟨%d4, H4⟩, ⟨%d5, H5⟩⟩
        iapply ((kernelRun2_B c (grid2.coords t) _ _ _ _ _ _ _ _ _ _ _ _ _ _ (fun h => h0 ((hcond2_0 t).mp h)) (fun h => h1 ((hcond2_1 t).mp h)) (iblk2 V c 0 t) (iblk2 V c 1 t) (iblk2 V c 2 t) (iblk2 V c 3 t) (iblk2 V c 4 t) _).2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        iintro ⟨H0, H1, H2, H3, H4, H5, ⟨%es0, HS0⟩⟩
        isplitl [HS0 HRB Hg]
        · isplitl [HS0 HRB]
          · isplitl [HS0]
            · unfold owns; iexists _; isplitr
              swap; · iexact HS0
              ipureintro; exact View.read_writes_of_cover _ _ _ _ _ (scover2_B c _ _ _ _ _ _ _ _ _ _ _ _ _ _ _ _ _ _ _ _ _ _ _)
            iexact HRB
          iexact Hg
        isplitl [Ho]; · iexact Ho
        isplitl [H0]; · iexact H0
        isplitl [H1]; · iexact H1
        isplitl [H2]; · iexact H2
        isplitl [H3]; · iexact H3
        isplitl [H4]; · iexact H4
        iexists _; iexact H5

theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After the last point the invariant gives the class's back: the accumulator's contents are forgotten. -/
theorem hout2 (c : Dev nD) : (dat2 V c).Φ (Fin.last cfg2.N) ⊢ Pipeline.ΦA spec2 c := by
  have ht : (Fin.last cfg2.N).val ≠ 0 := by rw [Fin.val_last]; have : cfg2.N = 1024 := N_2; omega
  rw [show (dat2 V c).Φ (Fin.last cfg2.N) = PhiS2 V c (Fin.last cfg2.N).val (Nat.le_of_lt_succ (Fin.last cfg2.N).isLt) from rfl, PhiS2_pos V c _ _ ht, PhiA2_eq]
  iintro ⟨⟨HS0, HRB⟩, Hg⟩
  isplitl [HS0 HRB]
  · isplitl [HS0]
    · iexists _; iexact HS0
    iexact HRB
  iexact Hg

end Cert.Kernel.Hand

end
-- ==== Proof.B_R3.lean ====
/-
  Region 3 of the program: the row normalisation of the second layer's output followed by the head product, 128 rows
  per grid point. At any contents V of the buffers on entry: what the body leaves in the output block at each grid
  point (the pieces its one store writes, found by running the body), the pipeline's proof data, the body obligation.
-/
import proofs.«159875_j41042707481000_2_alg».proof.Proof.Gen.Kernel.Launch
import proofs.«159875_j41042707481000_2_alg».proof.Proof.Gen.Kernel.Skeleton
import proofs.«159875_j41042707481000_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ
variable (V : (c : Dev nD) → (b : Ref sig .tc) → Buf (Elt F) ((c : Thread nD τ).loc b))

/-- Window `w`'s block at grid point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input window's current staging buffer holds its block at every point, fetched there or not. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- An input window's current staging buffer holds its block at every point, fetched there or not. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- An input window's current staging buffer holds its block at every point, fetched there or not. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- An input window's current staging buffer holds its block at every point, fetched there or not. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-- An input window's current staging buffer holds its block at every point, fetched there or not. -/
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

/-- An input window's current staging buffer holds its block at every point, fetched there or not. -/
theorem before3_5_of {c : Dev nD} (dat : Dat τ (Elt F) Unit ℕ (UR sig nD τ) ℕ cfg3 c) (hA : dat.A 5 = V c (Pipeline.arrRef spec3 5))
    (hafter : ∀ t, dat.after 5 t = iblk3 V c 5 t) (t : Fin cfg3.N) (d) : dat.before 5 t d = iblk3 V c 5 t :=
  (dat.before_in_eq_fetched 5 rfl (fun _ => rfl) (fun _ _ _ => rfl) (fun t => by rw [hafter]; unfold Dat.blockOf iblk3; rw [hA]; try rfl) t d).trans
    (by unfold Dat.fetched Dat.blockOf iblk3; rw [hA]; try rfl)

abbrev ms3_0 (t : Fin cfg3.N) : Memref sig .tc .vmem S128x8192 .f32 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S1x8192 .f32 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S1x8192 .f32 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S8192x10 .bf16 := win3_3.stage (cfg3.slots t 3)
abbrev hs3_3 (t : Fin cfg3.N) : (ms3_3 t).IsWhole := hstage3_3 ((cfg3.slots t 3).cast nbuf3_3)
abbrev ms3_4 (t : Fin cfg3.N) : Memref sig .tc .vmem S1x10 .f32 := win3_4.stage (cfg3.slots t 4)
abbrev hs3_4 (t : Fin cfg3.N) : (ms3_4 t).IsWhole := hstage3_4 ((cfg3.slots t 4).cast nbuf3_4)
abbrev ms3_5 (t : Fin cfg3.N) : Memref sig .tc .vmem S1x10 .f32 := win3_5.stage (cfg3.slots t 5)
abbrev hs3_5 (t : Fin cfg3.N) : (ms3_5 t).IsWhole := hstage3_5 ((cfg3.slots t 5).cast nbuf3_5)
abbrev ms3_6 (t : Fin cfg3.N) : Memref sig .tc .vmem S128x10 .f32 := win3_6.stage (cfg3.slots t 6)
abbrev hs3_6 (t : Fin cfg3.N) : (ms3_6 t).IsWhole := hstage3_6 ((cfg3.slots t 6).cast nbuf3_6)

/-- One staging buffer of the output window, through which its contents are stated. -/
abbrev VO3_6 : View sig .tc .vmem S128x10 .f32 := (Memref.whole cc3_stg6_0 : Memref sig .tc .vmem S128x10 .f32).view

set_option maxHeartbeats 1000000 in
/-- The body on whole staging memrefs — the inputs' at their contents, the output's at anything — runs to the
    continuation with the inputs' as they were and the output's buffer with the body's stores written: the pieces are
    the witness the run finds. -/
noncomputable def kernelRun3 (c : Dev nD) (i : grid3.Coords) (arg1 : Memref sig .tc .vmem S128x8192 .f32) (harg1 : arg1.IsWhole) (arg2 : Memref sig .tc .vmem S1x8192 .f32) (harg2 : arg2.IsWhole) (arg3 : Memref sig .tc .vmem S1x8192 .f32) (harg3 : arg3.IsWhole) (arg4 : Memref sig .tc .vmem S8192x10 .bf16) (harg4 : arg4.IsWhole) (arg5 : Memref sig .tc .vmem S1x10 .f32) (harg5 : arg5.IsWhole) (arg6 : Memref sig .tc .vmem S1x10 .f32) (harg6 : arg6.IsWhole) (arg7 : Memref sig .tc .vmem S128x10 .f32) (harg7 : arg7.IsWhole)
    (x0 : Vec F S128x8192 .f32) (x1 : Vec F S1x8192 .f32) (x2 : Vec F S1x8192 .f32) (x3 : Vec F S8192x10 .bf16) (x4 : Vec F S1x10 .f32) (x5 : Vec F S1x10 .f32) :
    { L : List (View.Piece (Elt F) S128x10 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L)) -∗ K ⟨⟩))
          ⊢ wp frame (wpE (defs₀ (F := F)) Variants.none c none) E (cc3__ln2_head_kernel i arg1 harg1 arg2 harg2 arg3 harg3 arg4 harg4 arg5 harg5 arg6 harg6 arg7 harg7) K } := by
  refine ⟨?_, fun E K => ?run⟩
  case run =>
    simp only [cc3__ln2_head_kernel_eq_skeleton]; unfold cc3__ln2_head_kernel_skel
    simp only [k3_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    iexists _; iexact H6

/-- The run's pieces tile the output block, so they cover it. -/
theorem cover3 (c : Dev nD) (i : grid3.Coords) (arg1 : Memref sig .tc .vmem S128x8192 .f32) (harg1 : arg1.IsWhole) (arg2 : Memref sig .tc .vmem S1x8192 .f32) (harg2 : arg2.IsWhole) (arg3 : Memref sig .tc .vmem S1x8192 .f32) (harg3 : arg3.IsWhole) (arg4 : Memref sig .tc .vmem S8192x10 .bf16) (harg4 : arg4.IsWhole) (arg5 : Memref sig .tc .vmem S1x10 .f32) (harg5 : arg5.IsWhole) (arg6 : Memref sig .tc .vmem S1x10 .f32) (harg6 : arg6.IsWhole) (arg7 : Memref sig .tc .vmem S128x10 .f32) (harg7 : arg7.IsWhole)
    (x0 : Vec F S128x8192 .f32) (x1 : Vec F S1x8192 .f32) (x2 : Vec F S1x8192 .f32) (x3 : Vec F S8192x10 .bf16) (x4 : Vec F S1x10 .f32) (x5 : Vec F S1x10 .f32) (y : S128x10.Idx) :
    ∃ pc ∈ (kernelRun3 c i arg1 harg1 arg2 harg2 arg3 harg3 arg4 harg4 arg5 harg5 arg6 harg6 arg7 harg7 x0 x1 x2 x3 x4 x5).1, y ∈ pc.1.set :=
  View.cover_of_tiledL (kernelRun3 c i arg1 harg1 arg2 harg2 arg3 harg3 arg4 harg4 arg5 harg5 arg6 harg6 arg7 harg7 x0 x1 x2 x3 x4 x5).1 S128x10.size (by sl_kernel_rfl) y

/-- What the run leaves in the output's staging buffer: its pieces read back. -/
def out3 (c : Dev nD) (i : grid3.Coords) (arg1 : Memref sig .tc .vmem S128x8192 .f32) (harg1 : arg1.IsWhole) (arg2 : Memref sig .tc .vmem S1x8192 .f32) (harg2 : arg2.IsWhole) (arg3 : Memref sig .tc .vmem S1x8192 .f32) (harg3 : arg3.IsWhole) (arg4 : Memref sig .tc .vmem S8192x10 .bf16) (harg4 : arg4.IsWhole) (arg5 : Memref sig .tc .vmem S1x10 .f32) (harg5 : arg5.IsWhole) (arg6 : Memref sig .tc .vmem S1x10 .f32) (harg6 : arg6.IsWhole) (arg7 : Memref sig .tc .vmem S128x10 .f32) (harg7 : arg7.IsWhole)
    (x0 : Vec F S128x8192 .f32) (x1 : Vec F S1x8192 .f32) (x2 : Vec F S1x8192 .f32) (x3 : Vec F S8192x10 .bf16) (x4 : Vec F S1x10 .f32) (x5 : Vec F S1x10 .f32) : Vec F S128x10 .f32 :=
  VO3_6.read (Elt F) (VO3_6.writes (Elt F) VO3_6.junk (kernelRun3 c i arg1 harg1 arg2 harg2 arg3 harg3 arg4 harg4 arg5 harg5 arg6 harg6 arg7 harg7 x0 x1 x2 x3 x4 x5).1)

/-- The output's staging buffer after the body at point `t`: the run at the point's memrefs and input blocks. -/
def outsAt3 (c : Dev nD) (t : Fin cfg3.N) : Vec F S128x10 .f32 :=
  out3 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (iblk3 V c 0 t) (iblk3 V c 1 t) (iblk3 V c 2 t) (iblk3 V c 3 t) (iblk3 V c 4 t) (iblk3 V c 5 t)

/-- The proof data of this pipeline on core `c`: the arrays as the region finds them; after the body each input's
    buffer at its block and the output's at the run's contents; the invariant the scoped rest and the generator
    register, untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => outsAt3 V c t
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) : (dat3 V c).after 6 t = outsAt3 V c t := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d
theorem before3_5 (c : Dev nD) (t : Fin cfg3.N) (d) : (dat3 V c).before 5 t d = iblk3 V c 5 t :=
  before3_5_of V (dat3 V c) (A_eq3 V c 5) (after3_5 V c) t d

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d))
    ∗ (∃ d, owns (c : Thread nD τ) (ms3_3 t) fullShare ((dat3 V c).before 3 t d))
    ∗ (∃ d, owns (c : Thread nD τ) (ms3_4 t) fullShare ((dat3 V c).before 4 t d))
    ∗ (∃ d, owns (c : Thread nD τ) (ms3_5 t) fullShare ((dat3 V c).before 5 t d))
    ∗ (∃ d, owns (c : Thread nD τ) (ms3_6 t) fullShare ((dat3 V c).before 6 t d)))

/-- and what it returns. -/
def bodyPost3 (c : Dev nD) (t : Fin cfg3.N) : sProp 𝕄 :=
  iprop((dat3 V c).Φ t.succ ∗ (dat3 V c).owesAt () t.succ
    ∗ owns (c : Thread nD τ) (ms3_0 t) fullShare ((dat3 V c).after 0 t)
    ∗ owns (c : Thread nD τ) (ms3_1 t) fullShare ((dat3 V c).after 1 t)
    ∗ owns (c : Thread nD τ) (ms3_2 t) fullShare ((dat3 V c).after 2 t)
    ∗ owns (c : Thread nD τ) (ms3_3 t) fullShare ((dat3 V c).after 3 t)
    ∗ owns (c : Thread nD τ) (ms3_4 t) fullShare ((dat3 V c).after 4 t)
    ∗ owns (c : Thread nD τ) (ms3_5 t) fullShare ((dat3 V c).after 5 t)
    ∗ owns (c : Thread nD τ) (ms3_6 t) fullShare ((dat3 V c).after 6 t))

set_option maxHeartbeats 4000000 in
/-- The body at any point: the inputs' memrefs hold their blocks, so the run applies; the invariant and the core's
    `owes` pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5]
  rw [show (dat3 V c).Φ t.succ = (dat3 V c).Φ t.castSucc from rfl,
    show (dat3 V c).owesAt () t.succ = (dat3 V c).owesAt () t.castSucc from rfl,
    after3_0, after3_1, after3_2, after3_3, after3_4, after3_5, after3_6]
  unfold outsAt3 out3
  iintro ⟨HΦ, Ho, ⟨%d0, H0⟩, ⟨%d1, H1⟩, ⟨%d2, H2⟩, ⟨%d3, H3⟩, ⟨%d4, H4⟩, ⟨%d5, H5⟩, ⟨%d6, H6⟩⟩
  iapply ((kernelRun3 c (grid3.coords t) _ _ _ _ _ _ _ _ _ _ _ _ _ _ (iblk3 V c 0 t) (iblk3 V c 1 t) (iblk3 V c 2 t) (iblk3 V c 3 t) (iblk3 V c 4 t) (iblk3 V c 5 t)).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, ⟨%e6, H6⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  unfold owns; iexists _; isplitr
  swap; · iexact H6
  ipureintro; exact View.read_writes_of_cover _ _ _ _ _ (cover3 c _ _ _ _ _ _ _ _ _ _ _ _ _ _ _ _ _ _ _ _ _)

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.Kernel.Hand

end
-- ==== Proof.B_Run.lean ====
/-
  The whole program's run. @main is nine segments: two stretches of host operations (the three weight matrices
  softened entry by entry, two vectors laid out as rows), the first matrix-product region, two more rows laid out, the
  first row-normalisation region, two rows, the second matrix-product region, four rows, the normalisation-and-head
  region. The buffer contents at each segment boundary are a fold from the launch memory (a stretch applies its
  operations; a region leaves its input arrays as entered and its output array at what its write-backs fold to, every
  other buffer untouched). Each region enters from "every unscoped buffer at the boundary's contents", splits its
  arrays out, and puts them back at the exit contents; the second matrix-product region reads one array through two
  windows (as the left operand and as the residual), which hold the two halves of that array's share meanwhile.
  The run ends with every unscoped buffer at the last boundary's contents; the argument arrays are read back through
  the fold to their launch contents (no operation and no region writes one).
-/
import proofs.«159875_j41042707481000_2_alg».proof.Proof.B_R0
import proofs.«159875_j41042707481000_2_alg».proof.Proof.B_R1
import proofs.«159875_j41042707481000_2_alg».proof.Proof.B_R2
import proofs.«159875_j41042707481000_2_alg».proof.Proof.B_R3

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ
variable (m : (ℓ : Loc nD τ sig) → Buf (Elt F) ℓ) (ρ : Dev nD → PrngReg)

/-! ## The buffer contents at each segment boundary -/

abbrev W0 : Dev nD → Valuation τ sig (Elt F) := fun c b => (s₀ m ρ).mem ((c : Dev nD), b)
abbrev W1 : Dev nD → Valuation τ sig (Elt F) := fun c => StableHlo.after main_part0_ops0 (W0 m ρ c)
abbrev W2 : Dev nD → Valuation τ sig (Elt F) := fun c => StableHlo.after main_part1_ops0 (W1 m ρ c)
abbrev V2 : (c : Dev nD) → (b : Ref sig .tc) → Buf (Elt F) ((c : Thread nD τ).loc b) := fun c b => W2 m ρ c b
/-- At region 0's exit: its arrays at what the pipeline leaves, every other buffer as entered. -/
def W3 (c : Dev nD) : Valuation τ sig (Elt F) :=
  Pipeline.withArrays spec0 c (W2 m ρ c) fun w => (dat0 (V2 m ρ) c).arrAt w cfg0.N
theorem W3_arr (c : Dev nD) (w : Fin cfg0.W) :
    W3 m ρ c (Proc.devRef .tc (Pipeline.arrRef spec0 w)) = (dat0 (V2 m ρ) c).arrAt w cfg0.N := by
  unfold W3; exact Pipeline.withArrays_arr spec0 launch0.win.arr_inj c _ _ w
theorem W3_of_ne (c : Dev nD) (b : Ref sig .tc) (hb : ∀ w, Pipeline.arrRef spec0 w ≠ b) :
    W3 m ρ c (Proc.devRef .tc b) = W2 m ρ c (Proc.devRef .tc b) := by
  unfold W3; exact Pipeline.withArrays_of_ne spec0 c _ _ b hb
abbrev V3 : (c : Dev nD) → (b : Ref sig .tc) → Buf (Elt F) ((c : Thread nD τ).loc b) := fun c b => W3 m ρ c b
theorem hF0 (c : Dev nD) (w : Fin cfg0.W) : (dat0 (V2 m ρ) c).arrAt w cfg0.N = V3 m ρ c (Pipeline.arrRef spec0 w) :=
  (W3_arr m ρ c w).symm
theorem hrest0 (c : Dev nD) : ∀ b, b ∉ Finset.univ.image (Pipeline.arrRef spec0) → V3 m ρ c b = V2 m ρ c b :=
  fun b hb => W3_of_ne m ρ c b fun w e => hb (Finset.mem_image.mpr ⟨w, Finset.mem_univ _, e⟩)
abbrev W4 : Dev nD → Valuation τ sig (Elt F) := fun c => StableHlo.after main_part1_ops1 (W3 m ρ c)
abbrev V4 : (c : Dev nD) → (b : Ref sig .tc) → Buf (Elt F) ((c : Thread nD τ).loc b) := fun c b => W4 m ρ c b
/-- At region 1's exit: its arrays at what the pipeline leaves, every other buffer as entered. -/
def W5 (c : Dev nD) : Valuation τ sig (Elt F) :=
  Pipeline.withArrays spec1 c (W4 m ρ c) fun w => (dat1 (V4 m ρ) c).arrAt w cfg1.N
theorem W5_arr (c : Dev nD) (w : Fin cfg1.W) :
    W5 m ρ c (Proc.devRef .tc (Pipeline.arrRef spec1 w)) = (dat1 (V4 m ρ) c).arrAt w cfg1.N := by
  unfold W5; exact Pipeline.withArrays_arr spec1 launch1.win.arr_inj c _ _ w
theorem W5_of_ne (c : Dev nD) (b : Ref sig .tc) (hb : ∀ w, Pipeline.arrRef spec1 w ≠ b) :
    W5 m ρ c (Proc.devRef .tc b) = W4 m ρ c (Proc.devRef .tc b) := by
  unfold W5; exact Pipeline.withArrays_of_ne spec1 c _ _ b hb
abbrev V5 : (c : Dev nD) → (b : Ref sig .tc) → Buf (Elt F) ((c : Thread nD τ).loc b) := fun c b => W5 m ρ c b
theorem hF1 (c : Dev nD) (w : Fin cfg1.W) : (dat1 (V4 m ρ) c).arrAt w cfg1.N = V5 m ρ c (Pipeline.arrRef spec1 w) :=
  (W5_arr m ρ c w).symm
theorem hrest1 (c : Dev nD) : ∀ b, b ∉ Finset.univ.image (Pipeline.arrRef spec1) → V5 m ρ c b = V4 m ρ c b :=
  fun b hb => W5_of_ne m ρ c b fun w e => hb (Finset.mem_image.mpr ⟨w, Finset.mem_univ _, e⟩)
abbrev W6 : Dev nD → Valuation τ sig (Elt F) := fun c => StableHlo.after main_part1_ops2 (W5 m ρ c)
abbrev V6 : (c : Dev nD) → (b : Ref sig .tc) → Buf (Elt F) ((c : Thread nD τ).loc b) := fun c b => W6 m ρ c b
/-- At region 2's exit: its output array at what the pipeline leaves, every other buffer (its input arrays too: the
    pipeline leaves them as entered) as entered. -/
def W7 (c : Dev nD) : Valuation τ sig (Elt F) := fun b =>
  if h : Proc.devRef .tc main_v60 = b then cast (congrArg (fun b' : DevRef τ sig => b'.ty.Contents (Elt F)) h) ((dat2 (V6 m ρ) c).arrAt 5 cfg2.N)
  else W6 m ρ c b
theorem W7_out (c : Dev nD) : W7 m ρ c (Proc.devRef .tc main_v60) = (dat2 (V6 m ρ) c).arrAt 5 cfg2.N := by
  unfold W7; rw [dif_pos rfl]; rfl
theorem W7_of_ne (c : Dev nD) (b : Ref sig .tc) (hb : main_v60 ≠ b) :
    W7 m ρ c (Proc.devRef .tc b) = W6 m ρ c (Proc.devRef .tc b) := by
  unfold W7; rw [dif_neg]; exact fun e => hb (Proc.devRef_injective _ e)
abbrev V7 : (c : Dev nD) → (b : Ref sig .tc) → Buf (Elt F) ((c : Thread nD τ).loc b) := fun c b => W7 m ρ c b
abbrev W8 : Dev nD → Valuation τ sig (Elt F) := fun c => StableHlo.after main_part1_ops3 (W7 m ρ c)
abbrev V8 : (c : Dev nD) → (b : Ref sig .tc) → Buf (Elt F) ((c : Thread nD τ).loc b) := fun c b => W8 m ρ c b
/-- At region 3's exit: its arrays at what the pipeline leaves, every other buffer as entered. -/
def W9 (c : Dev nD) : Valuation τ sig (Elt F) :=
  Pipeline.withArrays spec3 c (W8 m ρ c) fun w => (dat3 (V8 m ρ) c).arrAt w cfg3.N
theorem W9_arr (c : Dev nD) (w : Fin cfg3.W) :
    W9 m ρ c (Proc.devRef .tc (Pipeline.arrRef spec3 w)) = (dat3 (V8 m ρ) c).arrAt w cfg3.N := by
  unfold W9; exact Pipeline.withArrays_arr spec3 launch3.win.arr_inj c _ _ w
theorem W9_of_ne (c : Dev nD) (b : Ref sig .tc) (hb : ∀ w, Pipeline.arrRef spec3 w ≠ b) :
    W9 m ρ c (Proc.devRef .tc b) = W8 m ρ c (Proc.devRef .tc b) := by
  unfold W9; exact Pipeline.withArrays_of_ne spec3 c _ _ b hb
abbrev V9 : (c : Dev nD) → (b : Ref sig .tc) → Buf (Elt F) ((c : Thread nD τ).loc b) := fun c b => W9 m ρ c b
theorem hF3 (c : Dev nD) (w : Fin cfg3.W) : (dat3 (V8 m ρ) c).arrAt w cfg3.N = V9 m ρ c (Pipeline.arrRef spec3 w) :=
  (W9_arr m ρ c w).symm
theorem hrest3 (c : Dev nD) : ∀ b, b ∉ Finset.univ.image (Pipeline.arrRef spec3) → V9 m ρ c b = V8 m ρ c b :=
  fun b hb => W9_of_ne m ρ c b fun w e => hb (Finset.mem_image.mpr ⟨w, Finset.mem_univ _, e⟩)

/-! ### The arguments end as launched -/

theorem W9_main_arg0 (c : Dev nD) : W9 m ρ c (Proc.devRef .tc main_arg0) = m ((c : Thread nD τ).loc main_arg0) :=
  calc W9 m ρ c (Proc.devRef .tc main_arg0)
    _ = W8 m ρ c (Proc.devRef .tc main_arg0) := W9_of_ne m ρ c main_arg0 (by decide)
    _ = W7 m ρ c (Proc.devRef .tc main_arg0) := StableHlo.after_of_forall_not_mem (b := Proc.devRef .tc main_arg0) _ _ (List.forall_iff_forall_mem.mp (by
      simp only [main_part1_ops3, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W6 m ρ c (Proc.devRef .tc main_arg0) := W7_of_ne m ρ c main_arg0 (by decide)
    _ = W5 m ρ c (Proc.devRef .tc main_arg0) := StableHlo.after_of_forall_not_mem (b := Proc.devRef .tc main_arg0) _ _ (List.forall_iff_forall_mem.mp (by
      simp only [main_part1_ops2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W4 m ρ c (Proc.devRef .tc main_arg0) := W5_of_ne m ρ c main_arg0 (by decide)
    _ = W3 m ρ c (Proc.devRef .tc main_arg0) := StableHlo.after_of_forall_not_mem (b := Proc.devRef .tc main_arg0) _ _ (List.forall_iff_forall_mem.mp (by
      simp only [main_part1_ops1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W2 m ρ c (Proc.devRef .tc main_arg0) := (W3_arr m ρ c 0).trans (((dat0 (V2 m ρ) c).arrAt_in 0 rfl _).trans (A_eq0 (V2 m ρ) c 0))
    _ = W1 m ρ c (Proc.devRef .tc main_arg0) := StableHlo.after_of_forall_not_mem (b := Proc.devRef .tc main_arg0) _ _ (List.forall_iff_forall_mem.mp (by
      simp only [main_part1_ops0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W0 m ρ c (Proc.devRef .tc main_arg0) := StableHlo.after_of_forall_not_mem (b := Proc.devRef .tc main_arg0) _ _ (List.forall_iff_forall_mem.mp (by
      simp only [main_part0_ops0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c : Thread nD τ).loc main_arg0) := rfl
theorem W9_main_arg1 (c : Dev nD) : W9 m ρ c (Proc.devRef .tc main_arg1) = m ((c : Thread nD τ).loc main_arg1) :=
  calc W9 m ρ c (Proc.devRef .tc main_arg1)
    _ = W8 m ρ c (Proc.devRef .tc main_arg1) := W9_of_ne m ρ c main_arg1 (by decide)
    _ = W7 m ρ c (Proc.devRef .tc main_arg1) := StableHlo.after_of_forall_not_mem (b := Proc.devRef .tc main_arg1) _ _ (List.forall_iff_forall_mem.mp (by
      simp only [main_part1_ops3, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W6 m ρ c (Proc.devRef .tc main_arg1) := W7_of_ne m ρ c main_arg1 (by decide)
    _ = W5 m ρ c (Proc.devRef .tc main_arg1) := StableHlo.after_of_forall_not_mem (b := Proc.devRef .tc main_arg1) _ _ (List.forall_iff_forall_mem.mp (by
      simp only [main_part1_ops2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W4 m ρ c (Proc.devRef .tc main_arg1) := W5_of_ne m ρ c main_arg1 (by decide)
    _ = W3 m ρ c (Proc.devRef .tc main_arg1) := StableHlo.after_of_forall_not_mem (b := Proc.devRef .tc main_arg1) _ _ (List.forall_iff_forall_mem.mp (by
      simp only [main_part1_ops1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W2 m ρ c (Proc.devRef .tc main_arg1) := W3_of_ne m ρ c main_arg1 (by decide)
    _ = W1 m ρ c (Proc.devRef .tc main_arg1) := StableHlo.after_of_forall_not_mem (b := Proc.devRef .tc main_arg1) _ _ (List.forall_iff_forall_mem.mp (by
      simp only [main_part1_ops0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W0 m ρ c (Proc.devRef .tc main_arg1) := StableHlo.after_of_forall_not_mem (b := Proc.devRef .tc main_arg1) _ _ (List.forall_iff_forall_mem.mp (by
      simp only [main_part0_ops0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c : Thread nD τ).loc main_arg1) := rfl
theorem W9_main_arg2 (c : Dev nD) : W9 m ρ c (Proc.devRef .tc main_arg2) = m ((c : Thread nD τ).loc main_arg2) :=
  calc W9 m ρ c (Proc.devRef .tc main_arg2)
    _ = W8 m ρ c (Proc.devRef .tc main_arg2) := W9_of_ne m ρ c main_arg2 (by decide)
    _ = W7 m ρ c (Proc.devRef .tc main_arg2) := StableHlo.after_of_forall_not_mem (b := Proc.devRef .tc main_arg2) _ _ (List.forall_iff_forall_mem.mp (by
      simp only [main_part1_ops3, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W6 m ρ c (Proc.devRef .tc main_arg2) := W7_of_ne m ρ c main_arg2 (by decide)
    _ = W5 m ρ c (Proc.devRef .tc main_arg2) := StableHlo.after_of_forall_not_mem (b := Proc.devRef .tc main_arg2) _ _ (List.forall_iff_forall_mem.mp (by
      simp only [main_part1_ops2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W4 m ρ c (Proc.devRef .tc main_arg2) := W5_of_ne m ρ c main_arg2 (by decide)
    _ = W3 m ρ c (Proc.devRef .tc main_arg2) := StableHlo.after_of_forall_not_mem (b := Proc.devRef .tc main_arg2) _ _ (List.forall_iff_forall_mem.mp (by
      simp only [main_part1_ops1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W2 m ρ c (Proc.devRef .tc main_arg2) := W3_of_ne m ρ c main_arg2 (by decide)
    _ = W1 m ρ c (Proc.devRef .tc main_arg2) := StableHlo.after_of_forall_not_mem (b := Proc.devRef .tc main_arg2) _ _ (List.forall_iff_forall_mem.mp (by
      simp only [main_part1_ops0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W0 m ρ c (Proc.devRef .tc main_arg2) := StableHlo.after_of_forall_not_mem (b := Proc.devRef .tc main_arg2) _ _ (List.forall_iff_forall_mem.mp (by
      simp only [main_part0_ops0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c : Thread nD τ).loc main_arg2) := rfl
theorem W9_main_arg3 (c : Dev nD) : W9 m ρ c (Proc.devRef .tc main_arg3) = m ((c : Thread nD τ).loc main_arg3) :=
  calc W9 m ρ c (Proc.devRef .tc main_arg3)
    _ = W8 m ρ c (Proc.devRef .tc main_arg3) := W9_of_ne m ρ c main_arg3 (by decide)
    _ = W7 m ρ c (Proc.devRef .tc main_arg3) := StableHlo.after_of_forall_not_mem (b := Proc.devRef .tc main_arg3) _ _ (List.forall_iff_forall_mem.mp (by
      simp only [main_part1_ops3, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W6 m ρ c (Proc.devRef .tc main_arg3) := W7_of_ne m ρ c main_arg3 (by decide)
    _ = W5 m ρ c (Proc.devRef .tc main_arg3) := StableHlo.after_of_forall_not_mem (b := Proc.devRef .tc main_arg3) _ _ (List.forall_iff_forall_mem.mp (by
      simp only [main_part1_ops2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W4 m ρ c (Proc.devRef .tc main_arg3) := W5_of_ne m ρ c main_arg3 (by decide)
    _ = W3 m ρ c (Proc.devRef .tc main_arg3) := StableHlo.after_of_forall_not_mem (b := Proc.devRef .tc main_arg3) _ _ (List.forall_iff_forall_mem.mp (by
      simp only [main_part1_ops1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W2 m ρ c (Proc.devRef .tc main_arg3) := W3_of_ne m ρ c main_arg3 (by decide)
    _ = W1 m ρ c (Proc.devRef .tc main_arg3) := StableHlo.after_of_forall_not_mem (b := Proc.devRef .tc main_arg3) _ _ (List.forall_iff_forall_mem.mp (by
      simp only [main_part1_ops0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W0 m ρ c (Proc.devRef .tc main_arg3) := StableHlo.after_of_forall_not_mem (b := Proc.devRef .tc main_arg3) _ _ (List.forall_iff_forall_mem.mp (by
      simp only [main_part0_ops0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c : Thread nD τ).loc main_arg3) := rfl
theorem W9_main_arg4 (c : Dev nD) : W9 m ρ c (Proc.devRef .tc main_arg4) = m ((c : Thread nD τ).loc main_arg4) :=
  calc W9 m ρ c (Proc.devRef .tc main_arg4)
    _ = W8 m ρ c (Proc.devRef .tc main_arg4) := W9_of_ne m ρ c main_arg4 (by decide)
    _ = W7 m ρ c (Proc.devRef .tc main_arg4) := StableHlo.after_of_forall_not_mem (b := Proc.devRef .tc main_arg4) _ _ (List.forall_iff_forall_mem.mp (by
      simp only [main_part1_ops3, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W6 m ρ c (Proc.devRef .tc main_arg4) := W7_of_ne m ρ c main_arg4 (by decide)
    _ = W5 m ρ c (Proc.devRef .tc main_arg4) := StableHlo.after_of_forall_not_mem (b := Proc.devRef .tc main_arg4) _ _ (List.forall_iff_forall_mem.mp (by
      simp only [main_part1_ops2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W4 m ρ c (Proc.devRef .tc main_arg4) := W5_of_ne m ρ c main_arg4 (by decide)
    _ = W3 m ρ c (Proc.devRef .tc main_arg4) := StableHlo.after_of_forall_not_mem (b := Proc.devRef .tc main_arg4) _ _ (List.forall_iff_forall_mem.mp (by
      simp only [main_part1_ops1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W2 m ρ c (Proc.devRef .tc main_arg4) := W3_of_ne m ρ c main_arg4 (by decide)
    _ = W1 m ρ c (Proc.devRef .tc main_arg4) := StableHlo.after_of_forall_not_mem (b := Proc.devRef .tc main_arg4) _ _ (List.forall_iff_forall_mem.mp (by
      simp only [main_part1_ops0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W0 m ρ c (Proc.devRef .tc main_arg4) := StableHlo.after_of_forall_not_mem (b := Proc.devRef .tc main_arg4) _ _ (List.forall_iff_forall_mem.mp (by
      simp only [main_part0_ops0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c : Thread nD τ).loc main_arg4) := rfl
theorem W9_main_arg5 (c : Dev nD) : W9 m ρ c (Proc.devRef .tc main_arg5) = m ((c : Thread nD τ).loc main_arg5) :=
  calc W9 m ρ c (Proc.devRef .tc main_arg5)
    _ = W8 m ρ c (Proc.devRef .tc main_arg5) := W9_of_ne m ρ c main_arg5 (by decide)
    _ = W7 m ρ c (Proc.devRef .tc main_arg5) := StableHlo.after_of_forall_not_mem (b := Proc.devRef .tc main_arg5) _ _ (List.forall_iff_forall_mem.mp (by
      simp only [main_part1_ops3, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W6 m ρ c (Proc.devRef .tc main_arg5) := W7_of_ne m ρ c main_arg5 (by decide)
    _ = W5 m ρ c (Proc.devRef .tc main_arg5) := StableHlo.after_of_forall_not_mem (b := Proc.devRef .tc main_arg5) _ _ (List.forall_iff_forall_mem.mp (by
      simp only [main_part1_ops2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W4 m ρ c (Proc.devRef .tc main_arg5) := W5_of_ne m ρ c main_arg5 (by decide)
    _ = W3 m ρ c (Proc.devRef .tc main_arg5) := StableHlo.after_of_forall_not_mem (b := Proc.devRef .tc main_arg5) _ _ (List.forall_iff_forall_mem.mp (by
      simp only [main_part1_ops1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W2 m ρ c (Proc.devRef .tc main_arg5) := W3_of_ne m ρ c main_arg5 (by decide)
    _ = W1 m ρ c (Proc.devRef .tc main_arg5) := StableHlo.after_of_forall_not_mem (b := Proc.devRef .tc main_arg5) _ _ (List.forall_iff_forall_mem.mp (by
      simp only [main_part1_ops0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W0 m ρ c (Proc.devRef .tc main_arg5) := StableHlo.after_of_forall_not_mem (b := Proc.devRef .tc main_arg5) _ _ (List.forall_iff_forall_mem.mp (by
      simp only [main_part0_ops0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c : Thread nD τ).loc main_arg5) := rfl
theorem W9_main_arg6 (c : Dev nD) : W9 m ρ c (Proc.devRef .tc main_arg6) = m ((c : Thread nD τ).loc main_arg6) :=
  calc W9 m ρ c (Proc.devRef .tc main_arg6)
    _ = W8 m ρ c (Proc.devRef .tc main_arg6) := W9_of_ne m ρ c main_arg6 (by decide)
    _ = W7 m ρ c (Proc.devRef .tc main_arg6) := StableHlo.after_of_forall_not_mem (b := Proc.devRef .tc main_arg6) _ _ (List.forall_iff_forall_mem.mp (by
      simp only [main_part1_ops3, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W6 m ρ c (Proc.devRef .tc main_arg6) := W7_of_ne m ρ c main_arg6 (by decide)
    _ = W5 m ρ c (Proc.devRef .tc main_arg6) := StableHlo.after_of_forall_not_mem (b := Proc.devRef .tc main_arg6) _ _ (List.forall_iff_forall_mem.mp (by
      simp only [main_part1_ops2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W4 m ρ c (Proc.devRef .tc main_arg6) := W5_of_ne m ρ c main_arg6 (by decide)
    _ = W3 m ρ c (Proc.devRef .tc main_arg6) := StableHlo.after_of_forall_not_mem (b := Proc.devRef .tc main_arg6) _ _ (List.forall_iff_forall_mem.mp (by
      simp only [main_part1_ops1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W2 m ρ c (Proc.devRef .tc main_arg6) := W3_of_ne m ρ c main_arg6 (by decide)
    _ = W1 m ρ c (Proc.devRef .tc main_arg6) := StableHlo.after_of_forall_not_mem (b := Proc.devRef .tc main_arg6) _ _ (List.forall_iff_forall_mem.mp (by
      simp only [main_part1_ops0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W0 m ρ c (Proc.devRef .tc main_arg6) := StableHlo.after_of_forall_not_mem (b := Proc.devRef .tc main_arg6) _ _ (List.forall_iff_forall_mem.mp (by
      simp only [main_part0_ops0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c : Thread nD τ).loc main_arg6) := rfl
theorem W9_main_arg7 (c : Dev nD) : W9 m ρ c (Proc.devRef .tc main_arg7) = m ((c : Thread nD τ).loc main_arg7) :=
  calc W9 m ρ c (Proc.devRef .tc main_arg7)
    _ = W8 m ρ c (Proc.devRef .tc main_arg7) := W9_of_ne m ρ c main_arg7 (by decide)
    _ = W7 m ρ c (Proc.devRef .tc main_arg7) := StableHlo.after_of_forall_not_mem (b := Proc.devRef .tc main_arg7) _ _ (List.forall_iff_forall_mem.mp (by
      simp only [main_part1_ops3, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W6 m ρ c (Proc.devRef .tc main_arg7) := W7_of_ne m ρ c main_arg7 (by decide)
    _ = W5 m ρ c (Proc.devRef .tc main_arg7) := StableHlo.after_of_forall_not_mem (b := Proc.devRef .tc main_arg7) _ _ (List.forall_iff_forall_mem.mp (by
      simp only [main_part1_ops2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W4 m ρ c (Proc.devRef .tc main_arg7) := W5_of_ne m ρ c main_arg7 (by decide)
    _ = W3 m ρ c (Proc.devRef .tc main_arg7) := StableHlo.after_of_forall_not_mem (b := Proc.devRef .tc main_arg7) _ _ (List.forall_iff_forall_mem.mp (by
      simp only [main_part1_ops1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W2 m ρ c (Proc.devRef .tc main_arg7) := W3_of_ne m ρ c main_arg7 (by decide)
    _ = W1 m ρ c (Proc.devRef .tc main_arg7) := StableHlo.after_of_forall_not_mem (b := Proc.devRef .tc main_arg7) _ _ (List.forall_iff_forall_mem.mp (by
      simp only [main_part1_ops0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W0 m ρ c (Proc.devRef .tc main_arg7) := StableHlo.after_of_forall_not_mem (b := Proc.devRef .tc main_arg7) _ _ (List.forall_iff_forall_mem.mp (by
      simp only [main_part0_ops0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c : Thread nD τ).loc main_arg7) := rfl
theorem W9_main_arg8 (c : Dev nD) : W9 m ρ c (Proc.devRef .tc main_arg8) = m ((c : Thread nD τ).loc main_arg8) :=
  calc W9 m ρ c (Proc.devRef .tc main_arg8)
    _ = W8 m ρ c (Proc.devRef .tc main_arg8) := W9_of_ne m ρ c main_arg8 (by decide)
    _ = W7 m ρ c (Proc.devRef .tc main_arg8) := StableHlo.after_of_forall_not_mem (b := Proc.devRef .tc main_arg8) _ _ (List.forall_iff_forall_mem.mp (by
      simp only [main_part1_ops3, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W6 m ρ c (Proc.devRef .tc main_arg8) := W7_of_ne m ρ c main_arg8 (by decide)
    _ = W5 m ρ c (Proc.devRef .tc main_arg8) := StableHlo.after_of_forall_not_mem (b := Proc.devRef .tc main_arg8) _ _ (List.forall_iff_forall_mem.mp (by
      simp only [main_part1_ops2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W4 m ρ c (Proc.devRef .tc main_arg8) := W5_of_ne m ρ c main_arg8 (by decide)
    _ = W3 m ρ c (Proc.devRef .tc main_arg8) := StableHlo.after_of_forall_not_mem (b := Proc.devRef .tc main_arg8) _ _ (List.forall_iff_forall_mem.mp (by
      simp only [main_part1_ops1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W2 m ρ c (Proc.devRef .tc main_arg8) := W3_of_ne m ρ c main_arg8 (by decide)
    _ = W1 m ρ c (Proc.devRef .tc main_arg8) := StableHlo.after_of_forall_not_mem (b := Proc.devRef .tc main_arg8) _ _ (List.forall_iff_forall_mem.mp (by
      simp only [main_part1_ops0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W0 m ρ c (Proc.devRef .tc main_arg8) := StableHlo.after_of_forall_not_mem (b := Proc.devRef .tc main_arg8) _ _ (List.forall_iff_forall_mem.mp (by
      simp only [main_part0_ops0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c : Thread nD τ).loc main_arg8) := rfl
theorem W9_main_arg9 (c : Dev nD) : W9 m ρ c (Proc.devRef .tc main_arg9) = m ((c : Thread nD τ).loc main_arg9) :=
  calc W9 m ρ c (Proc.devRef .tc main_arg9)
    _ = W8 m ρ c (Proc.devRef .tc main_arg9) := W9_of_ne m ρ c main_arg9 (by decide)
    _ = W7 m ρ c (Proc.devRef .tc main_arg9) := StableHlo.after_of_forall_not_mem (b := Proc.devRef .tc main_arg9) _ _ (List.forall_iff_forall_mem.mp (by
      simp only [main_part1_ops3, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W6 m ρ c (Proc.devRef .tc main_arg9) := W7_of_ne m ρ c main_arg9 (by decide)
    _ = W5 m ρ c (Proc.devRef .tc main_arg9) := StableHlo.after_of_forall_not_mem (b := Proc.devRef .tc main_arg9) _ _ (List.forall_iff_forall_mem.mp (by
      simp only [main_part1_ops2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W4 m ρ c (Proc.devRef .tc main_arg9) := W5_of_ne m ρ c main_arg9 (by decide)
    _ = W3 m ρ c (Proc.devRef .tc main_arg9) := StableHlo.after_of_forall_not_mem (b := Proc.devRef .tc main_arg9) _ _ (List.forall_iff_forall_mem.mp (by
      simp only [main_part1_ops1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W2 m ρ c (Proc.devRef .tc main_arg9) := W3_of_ne m ρ c main_arg9 (by decide)
    _ = W1 m ρ c (Proc.devRef .tc main_arg9) := StableHlo.after_of_forall_not_mem (b := Proc.devRef .tc main_arg9) _ _ (List.forall_iff_forall_mem.mp (by
      simp only [main_part1_ops0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W0 m ρ c (Proc.devRef .tc main_arg9) := StableHlo.after_of_forall_not_mem (b := Proc.devRef .tc main_arg9) _ _ (List.forall_iff_forall_mem.mp (by
      simp only [main_part0_ops0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c : Thread nD τ).loc main_arg9) := rfl
theorem W9_main_arg10 (c : Dev nD) : W9 m ρ c (Proc.devRef .tc main_arg10) = m ((c : Thread nD τ).loc main_arg10) :=
  calc W9 m ρ c (Proc.devRef .tc main_arg10)
    _ = W8 m ρ c (Proc.devRef .tc main_arg10) := W9_of_ne m ρ c main_arg10 (by decide)
    _ = W7 m ρ c (Proc.devRef .tc main_arg10) := StableHlo.after_of_forall_not_mem (b := Proc.devRef .tc main_arg10) _ _ (List.forall_iff_forall_mem.mp (by
      simp only [main_part1_ops3, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W6 m ρ c (Proc.devRef .tc main_arg10) := W7_of_ne m ρ c main_arg10 (by decide)
    _ = W5 m ρ c (Proc.devRef .tc main_arg10) := StableHlo.after_of_forall_not_mem (b := Proc.devRef .tc main_arg10) _ _ (List.forall_iff_forall_mem.mp (by
      simp only [main_part1_ops2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W4 m ρ c (Proc.devRef .tc main_arg10) := W5_of_ne m ρ c main_arg10 (by decide)
    _ = W3 m ρ c (Proc.devRef .tc main_arg10) := StableHlo.after_of_forall_not_mem (b := Proc.devRef .tc main_arg10) _ _ (List.forall_iff_forall_mem.mp (by
      simp only [main_part1_ops1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W2 m ρ c (Proc.devRef .tc main_arg10) := W3_of_ne m ρ c main_arg10 (by decide)
    _ = W1 m ρ c (Proc.devRef .tc main_arg10) := StableHlo.after_of_forall_not_mem (b := Proc.devRef .tc main_arg10) _ _ (List.forall_iff_forall_mem.mp (by
      simp only [main_part1_ops0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W0 m ρ c (Proc.devRef .tc main_arg10) := StableHlo.after_of_forall_not_mem (b := Proc.devRef .tc main_arg10) _ _ (List.forall_iff_forall_mem.mp (by
      simp only [main_part0_ops0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c : Thread nD τ).loc main_arg10) := rfl
theorem W9_main_arg11 (c : Dev nD) : W9 m ρ c (Proc.devRef .tc main_arg11) = m ((c : Thread nD τ).loc main_arg11) :=
  calc W9 m ρ c (Proc.devRef .tc main_arg11)
    _ = W8 m ρ c (Proc.devRef .tc main_arg11) := W9_of_ne m ρ c main_arg11 (by decide)
    _ = W7 m ρ c (Proc.devRef .tc main_arg11) := StableHlo.after_of_forall_not_mem (b := Proc.devRef .tc main_arg11) _ _ (List.forall_iff_forall_mem.mp (by
      simp only [main_part1_ops3, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W6 m ρ c (Proc.devRef .tc main_arg11) := W7_of_ne m ρ c main_arg11 (by decide)
    _ = W5 m ρ c (Proc.devRef .tc main_arg11) := StableHlo.after_of_forall_not_mem (b := Proc.devRef .tc main_arg11) _ _ (List.forall_iff_forall_mem.mp (by
      simp only [main_part1_ops2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W4 m ρ c (Proc.devRef .tc main_arg11) := W5_of_ne m ρ c main_arg11 (by decide)
    _ = W3 m ρ c (Proc.devRef .tc main_arg11) := StableHlo.after_of_forall_not_mem (b := Proc.devRef .tc main_arg11) _ _ (List.forall_iff_forall_mem.mp (by
      simp only [main_part1_ops1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W2 m ρ c (Proc.devRef .tc main_arg11) := W3_of_ne m ρ c main_arg11 (by decide)
    _ = W1 m ρ c (Proc.devRef .tc main_arg11) := StableHlo.after_of_forall_not_mem (b := Proc.devRef .tc main_arg11) _ _ (List.forall_iff_forall_mem.mp (by
      simp only [main_part1_ops0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W0 m ρ c (Proc.devRef .tc main_arg11) := StableHlo.after_of_forall_not_mem (b := Proc.devRef .tc main_arg11) _ _ (List.forall_iff_forall_mem.mp (by
      simp only [main_part0_ops0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c : Thread nD τ).loc main_arg11) := rfl
theorem W9_main_arg12 (c : Dev nD) : W9 m ρ c (Proc.devRef .tc main_arg12) = m ((c : Thread nD τ).loc main_arg12) :=
  calc W9 m ρ c (Proc.devRef .tc main_arg12)
    _ = W8 m ρ c (Proc.devRef .tc main_arg12) := W9_of_ne m ρ c main_arg12 (by decide)
    _ = W7 m ρ c (Proc.devRef .tc main_arg12) := StableHlo.after_of_forall_not_mem (b := Proc.devRef .tc main_arg12) _ _ (List.forall_iff_forall_mem.mp (by
      simp only [main_part1_ops3, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W6 m ρ c (Proc.devRef .tc main_arg12) := W7_of_ne m ρ c main_arg12 (by decide)
    _ = W5 m ρ c (Proc.devRef .tc main_arg12) := StableHlo.after_of_forall_not_mem (b := Proc.devRef .tc main_arg12) _ _ (List.forall_iff_forall_mem.mp (by
      simp only [main_part1_ops2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W4 m ρ c (Proc.devRef .tc main_arg12) := W5_of_ne m ρ c main_arg12 (by decide)
    _ = W3 m ρ c (Proc.devRef .tc main_arg12) := StableHlo.after_of_forall_not_mem (b := Proc.devRef .tc main_arg12) _ _ (List.forall_iff_forall_mem.mp (by
      simp only [main_part1_ops1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W2 m ρ c (Proc.devRef .tc main_arg12) := W3_of_ne m ρ c main_arg12 (by decide)
    _ = W1 m ρ c (Proc.devRef .tc main_arg12) := StableHlo.after_of_forall_not_mem (b := Proc.devRef .tc main_arg12) _ _ (List.forall_iff_forall_mem.mp (by
      simp only [main_part1_ops0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W0 m ρ c (Proc.devRef .tc main_arg12) := StableHlo.after_of_forall_not_mem (b := Proc.devRef .tc main_arg12) _ _ (List.forall_iff_forall_mem.mp (by
      simp only [main_part0_ops0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c : Thread nD τ).loc main_arg12) := rfl
theorem W9_main_arg13 (c : Dev nD) : W9 m ρ c (Proc.devRef .tc main_arg13) = m ((c : Thread nD τ).loc main_arg13) :=
  calc W9 m ρ c (Proc.devRef .tc main_arg13)
    _ = W8 m ρ c (Proc.devRef .tc main_arg13) := W9_of_ne m ρ c main_arg13 (by decide)
    _ = W7 m ρ c (Proc.devRef .tc main_arg13) := StableHlo.after_of_forall_not_mem (b := Proc.devRef .tc main_arg13) _ _ (List.forall_iff_forall_mem.mp (by
      simp only [main_part1_ops3, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W6 m ρ c (Proc.devRef .tc main_arg13) := W7_of_ne m ρ c main_arg13 (by decide)
    _ = W5 m ρ c (Proc.devRef .tc main_arg13) := StableHlo.after_of_forall_not_mem (b := Proc.devRef .tc main_arg13) _ _ (List.forall_iff_forall_mem.mp (by
      simp only [main_part1_ops2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W4 m ρ c (Proc.devRef .tc main_arg13) := W5_of_ne m ρ c main_arg13 (by decide)
    _ = W3 m ρ c (Proc.devRef .tc main_arg13) := StableHlo.after_of_forall_not_mem (b := Proc.devRef .tc main_arg13) _ _ (List.forall_iff_forall_mem.mp (by
      simp only [main_part1_ops1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W2 m ρ c (Proc.devRef .tc main_arg13) := W3_of_ne m ρ c main_arg13 (by decide)
    _ = W1 m ρ c (Proc.devRef .tc main_arg13) := StableHlo.after_of_forall_not_mem (b := Proc.devRef .tc main_arg13) _ _ (List.forall_iff_forall_mem.mp (by
      simp only [main_part1_ops0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W0 m ρ c (Proc.devRef .tc main_arg13) := StableHlo.after_of_forall_not_mem (b := Proc.devRef .tc main_arg13) _ _ (List.forall_iff_forall_mem.mp (by
      simp only [main_part0_ops0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c : Thread nD τ).loc main_arg13) := rfl

/-! ## The proof data family and the thread state -/

abbrev adm : (p : Fin 4) → (pcfgs (F := F) p).Adm := fun p => (cfgs p).toPCfg_adm
/-- Every pipeline's proof data, each at its region's entry contents. -/
def pdats : (p : Fin 4) → (c : Dev nD) → Dat τ (Elt F) Unit ℕ (UR sig nD τ) ℕ (Pipeline.pin (pcfgs (F := F)) adm p) c
  | ⟨0, _⟩ => fun c => dat0 (V2 m ρ) c
  | ⟨1, _⟩ => fun c => dat1 (V4 m ρ) c
  | ⟨2, _⟩ => fun c => dat2 (V6 m ρ) c
  | ⟨3, _⟩ => fun c => dat3 (V8 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- A host stretch as a segment over the unscoped references, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem main_part0_ops0_fresh : (main_part0_ops0 : List (HloOp τ sig (Elt F))).Forall fun op => op.fresh = ∅ := by
  simp only [List.Forall]; repeat' constructor
theorem main_part1_ops0_fresh : (main_part1_ops0 : List (HloOp τ sig (Elt F))).Forall fun op => op.fresh = ∅ := by
  simp only [List.Forall]; repeat' constructor
theorem main_part1_ops1_fresh : (main_part1_ops1 : List (HloOp τ sig (Elt F))).Forall fun op => op.fresh = ∅ := by
  simp only [List.Forall]; repeat' constructor
theorem main_part1_ops2_fresh : (main_part1_ops2 : List (HloOp τ sig (Elt F))).Forall fun op => op.fresh = ∅ := by
  simp only [List.Forall]; repeat' constructor
theorem main_part1_ops3_fresh : (main_part1_ops3 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W9 m ρ c) ∗ ∃ r, prngReg c r)

/-! ### Region 2 reads one array through two windows -/

/-- Five listed conjuncts, one by one. -/
theorem listed5 {I M : Type} [URA M] (a b c d e : I) (Φ : I → sProp M) :
    BI.bigSepL [a, b, c, d, e] Φ = iprop(Φ a ∗ Φ b ∗ Φ c ∗ Φ d ∗ Φ e) := rfl

/-- A window's array held by the pipeline at the window's share, spelt at the buffer: entry contents. -/
theorem arr2_in_0 (c : Dev nD) : (View.loc (c : Thread nD τ) (cfg2.win 0).arr.view ↦[(cfg2.win 0).arr.view.set]{(dat2 (V6 m ρ) c).share 0} (dat2 (V6 m ρ) c).arrAt 0 0 : sProp 𝕄) = ((c : Thread nD τ).loc main_v57 ↦{PosShare.left fullShare} V6 m ρ c main_v57 : sProp 𝕄) := by
  rw [(arr_whole2 0).set_eq_univ]; rfl
theorem arr2_in_1 (c : Dev nD) : (View.loc (c : Thread nD τ) (cfg2.win 1).arr.view ↦[(cfg2.win 1).arr.view.set]{(dat2 (V6 m ρ) c).share 1} (dat2 (V6 m ρ) c).arrAt 1 0 : sProp 𝕄) = ((c : Thread nD τ).loc main_v35 ↦{fullShare} V6 m ρ c main_v35 : sProp 𝕄) := by
  rw [(arr_whole2 1).set_eq_univ]; rfl
theorem arr2_in_2 (c : Dev nD) : (View.loc (c : Thread nD τ) (cfg2.win 2).arr.view ↦[(cfg2.win 2).arr.view.set]{(dat2 (V6 m ρ) c).share 2} (dat2 (V6 m ρ) c).arrAt 2 0 : sProp 𝕄) = ((c : Thread nD τ).loc main_v58 ↦{fullShare} V6 m ρ c main_v58 : sProp 𝕄) := by
  rw [(arr_whole2 2).set_eq_univ]; rfl
theorem arr2_in_3 (c : Dev nD) : (View.loc (c : Thread nD τ) (cfg2.win 3).arr.view ↦[(cfg2.win 3).arr.view.set]{(dat2 (V6 m ρ) c).share 3} (dat2 (V6 m ρ) c).arrAt 3 0 : sProp 𝕄) = ((c : Thread nD τ).loc main_v59 ↦{fullShare} V6 m ρ c main_v59 : sProp 𝕄) := by
  rw [(arr_whole2 3).set_eq_univ]; rfl
theorem arr2_in_4 (c : Dev nD) : (View.loc (c : Thread nD τ) (cfg2.win 4).arr.view ↦[(cfg2.win 4).arr.view.set]{(dat2 (V6 m ρ) c).share 4} (dat2 (V6 m ρ) c).arrAt 4 0 : sProp 𝕄) = ((c : Thread nD τ).loc main_v57 ↦{PosShare.right fullShare} V6 m ρ c main_v57 : sProp 𝕄) := by
  rw [(arr_whole2 4).set_eq_univ]; rfl
theorem arr2_in_5 (c : Dev nD) : (View.loc (c : Thread nD τ) (cfg2.win 5).arr.view ↦[(cfg2.win 5).arr.view.set]{(dat2 (V6 m ρ) c).share 5} (dat2 (V6 m ρ) c).arrAt 5 0 : sProp 𝕄) = ((c : Thread nD τ).loc main_v60 ↦{fullShare} V6 m ρ c main_v60 : sProp 𝕄) := by
  rw [(arr_whole2 5).set_eq_univ]; rfl

/-- ENTRY: the unscoped buffers at the boundary's contents are region 2's arrays at their entry contents — the array
    read twice split into its two half shares — and the rest. -/
theorem arrays2_in (c : Dev nD) :
    (StableHlo.held (c : Thread nD τ) (Pipeline.ucRefs τ sig) (W6 m ρ c) : sProp 𝕄)
      ⊢ iprop((pdats m ρ 2 c).arrays ((pdats m ρ 2 c).arrAt · 0) ∗ Pipeline.unscopedRest (Ix := Unit) (Name := ℕ) (U := UR sig nD τ) (Lvl := ℕ) spec2 c (V6 m ρ c)) := by
  show (StableHlo.held (c : Thread nD τ) (Pipeline.ucRefs τ sig) (W6 m ρ c) : sProp 𝕄)
      ⊢ iprop((dat2 (V6 m ρ) c).arrays ((dat2 (V6 m ρ) c).arrAt · 0) ∗ Pipeline.unscopedRest (Ix := Unit) (Name := ℕ) (U := UR sig nD τ) (Lvl := ℕ) spec2 c (V6 m ρ c))
  rw [← Pipeline.unscopedBufs_held c (W6 m ρ c)]
  have hA : Finset.univ.image (Pipeline.arrRef spec2) ⊆ Finset.univ.filter fun b : Ref sig .tc => ¬ b.isScoped := by decide
  unfold unscopedBufs Pipeline.unscopedRest
  rw [BI.bigSep_sdiff_split hA]
  refine sep_mono ?_ .rfl
  rw [BI.bigSep_eq_bigSepL_of_eq [main_v57, main_v35, main_v58, main_v59, main_v60] (by decide) (by decide), listed5]
  unfold Dat.arrays; rw [bigSep_W2]
  rw [arr2_in_0, arr2_in_1, arr2_in_2, arr2_in_3, arr2_in_4, arr2_in_5]
  iintro ⟨H57, H35, H58, H59, H60⟩
  ihave Hs := (pointsTo_share (PosShare.mem_left_op_right fullShare)).1 $$ H57
  icases Hs with ⟨HL, HR⟩
  isplitl [HL]; · iexact HL
  isplitl [H35]; · iexact H35
  isplitl [H58]; · iexact H58
  isplitl [H59]; · iexact H59
  isplitl [HR]; · iexact HR
  iexact H60

/-- The same at the exit contents: an input array as entered, the output array at what the write-backs leave. -/
theorem arr2_out_0 (c : Dev nD) : (View.loc (c : Thread nD τ) (cfg2.win 0).arr.view ↦[(cfg2.win 0).arr.view.set]{(dat2 (V6 m ρ) c).share 0} (dat2 (V6 m ρ) c).arrAt 0 cfg2.N : sProp 𝕄) = ((c : Thread nD τ).loc main_v57 ↦{PosShare.left fullShare} V7 m ρ c main_v57 : sProp 𝕄) := by
  rw [(arr_whole2 0).set_eq_univ, (dat2 (V6 m ρ) c).arrAt_in 0 rfl _, A_eq2 (V6 m ρ) c 0,
    show V7 m ρ c main_v57 = V6 m ρ c main_v57 from W7_of_ne m ρ c main_v57 (by decide)]
  rfl
theorem arr2_out_1 (c : Dev nD) : (View.loc (c : Thread nD τ) (cfg2.win 1).arr.view ↦[(cfg2.win 1).arr.view.set]{(dat2 (V6 m ρ) c).share 1} (dat2 (V6 m ρ) c).arrAt 1 cfg2.N : sProp 𝕄) = ((c : Thread nD τ).loc main_v35 ↦{fullShare} V7 m ρ c main_v35 : sProp 𝕄) := by
  rw [(arr_whole2 1).set_eq_univ, (dat2 (V6 m ρ) c).arrAt_in 1 rfl _, A_eq2 (V6 m ρ) c 1,
    show V7 m ρ c main_v35 = V6 m ρ c main_v35 from W7_of_ne m ρ c main_v35 (by decide)]
  rfl
theorem arr2_out_2 (c : Dev nD) : (View.loc (c : Thread nD τ) (cfg2.win 2).arr.view ↦[(cfg2.win 2).arr.view.set]{(dat2 (V6 m ρ) c).share 2} (dat2 (V6 m ρ) c).arrAt 2 cfg2.N : sProp 𝕄) = ((c : Thread nD τ).loc main_v58 ↦{fullShare} V7 m ρ c main_v58 : sProp 𝕄) := by
  rw [(arr_whole2 2).set_eq_univ, (dat2 (V6 m ρ) c).arrAt_in 2 rfl _, A_eq2 (V6 m ρ) c 2,
    show V7 m ρ c main_v58 = V6 m ρ c main_v58 from W7_of_ne m ρ c main_v58 (by decide)]
  rfl
theorem arr2_out_3 (c : Dev nD) : (View.loc (c : Thread nD τ) (cfg2.win 3).arr.view ↦[(cfg2.win 3).arr.view.set]{(dat2 (V6 m ρ) c).share 3} (dat2 (V6 m ρ) c).arrAt 3 cfg2.N : sProp 𝕄) = ((c : Thread nD τ).loc main_v59 ↦{fullShare} V7 m ρ c main_v59 : sProp 𝕄) := by
  rw [(arr_whole2 3).set_eq_univ, (dat2 (V6 m ρ) c).arrAt_in 3 rfl _, A_eq2 (V6 m ρ) c 3,
    show V7 m ρ c main_v59 = V6 m ρ c main_v59 from W7_of_ne m ρ c main_v59 (by decide)]
  rfl
theorem arr2_out_4 (c : Dev nD) : (View.loc (c : Thread nD τ) (cfg2.win 4).arr.view ↦[(cfg2.win 4).arr.view.set]{(dat2 (V6 m ρ) c).share 4} (dat2 (V6 m ρ) c).arrAt 4 cfg2.N : sProp 𝕄) = ((c : Thread nD τ).loc main_v57 ↦{PosShare.right fullShare} V7 m ρ c main_v57 : sProp 𝕄) := by
  rw [(arr_whole2 4).set_eq_univ, (dat2 (V6 m ρ) c).arrAt_in 4 rfl _, A_eq2 (V6 m ρ) c 4,
    show V7 m ρ c main_v57 = V6 m ρ c main_v57 from W7_of_ne m ρ c main_v57 (by decide)]
  rfl
theorem arr2_out_5 (c : Dev nD) : (View.loc (c : Thread nD τ) (cfg2.win 5).arr.view ↦[(cfg2.win 5).arr.view.set]{(dat2 (V6 m ρ) c).share 5} (dat2 (V6 m ρ) c).arrAt 5 cfg2.N : sProp 𝕄) = ((c : Thread nD τ).loc main_v60 ↦{fullShare} V7 m ρ c main_v60 : sProp 𝕄) := by
  rw [(arr_whole2 5).set_eq_univ, show V7 m ρ c main_v60 = (dat2 (V6 m ρ) c).arrAt 5 cfg2.N from W7_out m ρ c]
  rfl

/-- EXIT: region 2's arrays at their exit contents — the two half shares of the array read twice rejoined — and the
    rest are the unscoped buffers at the next boundary's contents. -/
theorem arrays2_out (c : Dev nD) :
    iprop((pdats m ρ 2 c).arrays ((pdats m ρ 2 c).arrAt · cfg2.N) ∗ Pipeline.unscopedRest (Ix := Unit) (Name := ℕ) (U := UR sig nD τ) (Lvl := ℕ) spec2 c (V6 m ρ c))
      ⊢ (StableHlo.held (c : Thread nD τ) (Pipeline.ucRefs τ sig) (W7 m ρ c) : sProp 𝕄) := by
  show iprop((dat2 (V6 m ρ) c).arrays ((dat2 (V6 m ρ) c).arrAt · cfg2.N) ∗ Pipeline.unscopedRest (Ix := Unit) (Name := ℕ) (U := UR sig nD τ) (Lvl := ℕ) spec2 c (V6 m ρ c))
      ⊢ (StableHlo.held (c : Thread nD τ) (Pipeline.ucRefs τ sig) (W7 m ρ c) : sProp 𝕄)
  rw [← Pipeline.unscopedBufs_held c (W7 m ρ c)]
  have hA : Finset.univ.image (Pipeline.arrRef spec2) ⊆ Finset.univ.filter fun b : Ref sig .tc => ¬ b.isScoped := by decide
  unfold unscopedBufs Pipeline.unscopedRest
  rw [BI.bigSep_sdiff_split hA]
  refine BIClass.sep_mono ?_ (Entails.of_eq (BI.bigSep_congr fun b hb => ?_))
  · rw [BI.bigSep_eq_bigSepL_of_eq [main_v57, main_v35, main_v58, main_v59, main_v60] (by decide) (by decide), listed5]
    unfold Dat.arrays; rw [bigSep_W2]
    rw [arr2_out_0, arr2_out_1, arr2_out_2, arr2_out_3, arr2_out_4, arr2_out_5]
    iintro ⟨HL, H35, H58, H59, HR, H60⟩
    isplitl [HL HR]
    · iapply (pointsTo_share (PosShare.mem_left_op_right fullShare)).2
      isplitl [HL]; · iexact HL
      iexact HR
    isplitl [H35]; · iexact H35
    isplitl [H58]; · iexact H58
    isplitl [H59]; · iexact H59
    iexact H60
  · have hb' : main_v60 ≠ b := fun e => (Finset.mem_sdiff.mp hb).2 (e ▸ (by decide : main_v60 ∈ Finset.univ.image (Pipeline.arrRef spec2)))
    rw [show V6 m ρ c b = V7 m ρ c b from (W7_of_ne m ρ c b hb').symm]

/-! ## The regions as segments -/

set_option backward.isDefEq.respectTransparency.types false in
/-- Region 0 over the thread state: entered from every unscoped buffer at the boundary's contents, left at the next
    boundary's; its arrays split out and put back; the generator register into the invariant and out; nothing owed. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V2 m ρ) c).loose
  hwaits := Pipeline.hwaits_of_owed_zero _ _ _ _ L lv 0 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec0 c (V2 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    refine (show (pdats m ρ 0 c).Φ (Fin.last _) ⊢ Pipeline.ΦA spec0 c from hout0 (V2 m ρ) c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V2 m ρ c) (V3 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at the boundary's contents, left at the next
    boundary's; its arrays split out and put back; the generator register into the invariant and out; nothing owed. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V4 m ρ) c).loose
  hwaits := Pipeline.hwaits_of_owed_zero _ _ _ _ L lv 1 fun _ _ => rfl
  pre c := iprop(StableHlo.held (c : Thread nD τ) (Pipeline.ucRefs τ sig) (W4 m ρ c) ∗ R c)
  post c := iprop(StableHlo.held (c : Thread nD τ) (Pipeline.ucRefs τ sig) (W5 m ρ c) ∗ R c)
  X c := iprop(∃ r, prngReg c r)
  Y c := iprop(∃ r, prngReg c r)
  Z c := Pipeline.unscopedRest (Ix := Unit) (Name := ℕ) (U := UR sig nD τ) (Lvl := ℕ) spec1 c (V4 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V4 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V4 m ρ c) (V5 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: its arrays split out of the unscoped buffers (the array read twice into its two
    half shares) and put back; otherwise as the other regions. -/
def reg2 : Pipeline.RegionSeg (pcfgs (F := F)) adm (pdats m ρ) () defs₀ 𝒱₀ L lv 2 where
  win := winFacts₀2
  block_pos := block_pos2
  stage_whole := stage_whole2
  K := PEmpty
  osem k := k.elim
  ho := Pipeline.OwnSemFacts.none _
  hbody c := (body_obligation2 (V6 m ρ) c).loose
  hwaits := Pipeline.hwaits_of_owed_zero _ _ _ _ L lv 2 fun _ _ => rfl
  pre c := iprop(StableHlo.held (c : Thread nD τ) (Pipeline.ucRefs τ sig) (W6 m ρ c) ∗ R c)
  post c := iprop(StableHlo.held (c : Thread nD τ) (Pipeline.ucRefs τ sig) (W7 m ρ c) ∗ R c)
  X c := iprop(∃ r, prngReg c r)
  Y c := iprop(∃ r, prngReg c r)
  Z c := Pipeline.unscopedRest (Ix := Unit) (Name := ℕ) (U := UR sig nD τ) (Lvl := ℕ) spec2 c (V6 m ρ c)
  hentry c := by
    rw [Pipeline.ownSems0_none]
    have hsplit := arrays2_in m ρ c
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    refine (show (pdats m ρ 2 c).Φ (Fin.last _) ⊢ Pipeline.ΦA spec2 c from hout2 (V6 m ρ) c).trans ?_
    rw [Pipeline.ownSems0_none]; unfold Pipeline.ΦA
    iintro ⟨Hr, Hp⟩
    isplitl [Hp]; · iexact Hp
    isplitr; · iempintro
    iexact Hr
  hexit c := by
    have hjoin := arrays2_out m ρ c
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered from every unscoped buffer at the boundary's contents, left at the next
    boundary's; its arrays split out and put back; the generator register into the invariant and out; nothing owed. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V8 m ρ) c).loose
  hwaits := Pipeline.hwaits_of_owed_zero _ _ _ _ L lv 3 fun _ _ => rfl
  pre c := iprop(StableHlo.held (c : Thread nD τ) (Pipeline.ucRefs τ sig) (W8 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec3 c (V8 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V8 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V8 m ρ c) (V9 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg main_part0_ops0 main_part0_ops0_sub main_part0_ops0_fresh (W0 m ρ)),
    .host (hseg main_part1_ops0 main_part1_ops0_sub main_part1_ops0_fresh (W1 m ρ)),
    .region (reg0 m ρ),
    .host (hseg main_part1_ops1 main_part1_ops1_sub main_part1_ops1_fresh (W3 m ρ)),
    .region (reg1 m ρ),
    .host (hseg main_part1_ops2 main_part1_ops2_sub main_part1_ops2_fresh (W5 m ρ)),
    .region (reg2 m ρ),
    .host (hseg main_part1_ops3 main_part1_ops3_sub main_part1_ops3_fresh (W7 m ρ)),
    .region (reg3 m ρ) ]
/-- @main is the run of the segments. -/
theorem main_run (c : Dev nD) : main (F := F) c = Pipeline.Seg.run (segs m ρ) := (main_chain_windows c).trans (by chain_rfl)

set_option backward.isDefEq.respectTransparency.types false in
/-- THE RUN: from any memory with zero counters every weakly fair execution of @main terminates, nothing faulting, and
    every final state has every unscoped buffer at the last boundary's contents. -/
theorem run_all : θ_run defs (onTc (τ := τ) (main (F := F))) ⟨m, fun _ => 0, ρ⟩
    (fun r => ∀ c : Dev nD, ∀ b ∈ Pipeline.ucRefs τ sig, r.2.mem (((c : Thread nD τ)).1, b) = W9 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c => h c)

/-- THE FRAME: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun r h c =>
    ⟨(h c _ (mem_uc main_arg0 (by decide))).trans (W9_main_arg0 m ρ c),
     (h c _ (mem_uc main_arg1 (by decide))).trans (W9_main_arg1 m ρ c),
     (h c _ (mem_uc main_arg2 (by decide))).trans (W9_main_arg2 m ρ c),
     (h c _ (mem_uc main_arg3 (by decide))).trans (W9_main_arg3 m ρ c),
     (h c _ (mem_uc main_arg4 (by decide))).trans (W9_main_arg4 m ρ c),
     (h c _ (mem_uc main_arg5 (by decide))).trans (W9_main_arg5 m ρ c),
     (h c _ (mem_uc main_arg6 (by decide))).trans (W9_main_arg6 m ρ c),
     (h c _ (mem_uc main_arg7 (by decide))).trans (W9_main_arg7 m ρ c),
     (h c _ (mem_uc main_arg8 (by decide))).trans (W9_main_arg8 m ρ c),
     (h c _ (mem_uc main_arg9 (by decide))).trans (W9_main_arg9 m ρ c),
     (h c _ (mem_uc main_arg10 (by decide))).trans (W9_main_arg10 m ρ c),
     (h c _ (mem_uc main_arg11 (by decide))).trans (W9_main_arg11 m ρ c),
     (h c _ (mem_uc main_arg12 (by decide))).trans (W9_main_arg12 m ρ c),
     (h c _ (mem_uc main_arg13 (by decide))).trans (W9_main_arg13 m ρ c)⟩) (run_all m ρ)

end Cert.Kernel.Hand

end
-- ==== Proof.I_R0.lean ====
/-
  Region 0 of the program: the first layer's matrix product, one 1024x1024 output block per pair of leading grid
  coordinates, accumulated over the six steps of the contraction axis in a buffer of the kernel's own, and at the last
  step scaled, biased, clipped at zero and stored. At any contents V of the buffers on entry: the body's three cases,
  what the accumulator and the output block hold after each grid point, the proof data and the body obligation.
-/
import proofs.«159875_j41042707481000_2_alg».proof.Proof.Gen.KernelIdeal.Launch
import proofs.«159875_j41042707481000_2_alg».proof.Proof.Gen.KernelIdeal.Skeleton
import proofs.«159875_j41042707481000_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ
variable (V : (c : Dev nD) → (b : Ref sig .tc) → Buf (Elt F) ((c : Thread nD τ).loc b))

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- An input window's current staging buffer holds its block at every point, fetched there or not. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- An input window's current staging buffer holds its block at every point, fetched there or not. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- An input window's current staging buffer holds its block at every point, fetched there or not. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

abbrev ms0_0 (t : Fin cfg0.N) : Memref sig .tc .vmem S1024x512 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x1024 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1024 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x1024 .bf16 := win0_4.stage (cfg0.slots t 4)
abbrev hs0_4 (t : Fin cfg0.N) : (ms0_4 t).IsWhole := hstage0_4 ((cfg0.slots t 4).cast nbuf0_4)

/-! ## The body's two conditionals, decided over the grid -/

/-- "This is the first step of the contraction axis": the grid's last coordinate is 0. -/
abbrev cond0_0 (i : grid0.Coords) : Prop := (Scalar.cmpi .ne (Scalar.extui (Scalar.cmpi .eq (BitVec.ofNat 32 (i 2).val) 0#32)) 0#32) = 1#1
theorem hcond0_0 : ∀ t : Fin cfg0.N, cond0_0 (grid0.coords t) ↔ t.val % 6 = 0 :=
  (by decide +kernel : ∀ t : Fin grid0.N, cond0_0 (grid0.coords t) ↔ t.val % 6 = 0)
/-- "This is the last step of the contraction axis": the grid's last coordinate is 5. -/
abbrev cond0_1 (i : grid0.Coords) : Prop := k0_cond2 i = 1#1
theorem hcond0_1 : ∀ t : Fin cfg0.N, cond0_1 (grid0.coords t) ↔ t.val % 6 = 5 :=
  (by decide +kernel : ∀ t : Fin grid0.N, cond0_1 (grid0.coords t) ↔ t.val % 6 = 5)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
/-- Off the last step the output window is idle and not written back; at the last step it is live. -/
theorem idleAt0_A : ∀ t : Fin cfg0.N, cond0_0 (grid0.coords t) → ¬cond0_1 (grid0.coords t) → cfg0.idle 4 (grid0.coords t) = true := by decide +kernel
theorem noFlush0_A : ∀ t : Fin cfg0.N, cond0_0 (grid0.coords t) → ¬cond0_1 (grid0.coords t) → (cfg0.win 4).flush t = false := by decide +kernel
theorem idleAt0_B : ∀ t : Fin cfg0.N, ¬cond0_0 (grid0.coords t) → ¬cond0_1 (grid0.coords t) → cfg0.idle 4 (grid0.coords t) = true := by decide +kernel
theorem noFlush0_B : ∀ t : Fin cfg0.N, ¬cond0_0 (grid0.coords t) → ¬cond0_1 (grid0.coords t) → (cfg0.win 4).flush t = false := by decide +kernel
theorem liveAt0_C : ∀ t : Fin cfg0.N, ¬cond0_0 (grid0.coords t) → cond0_1 (grid0.coords t) → cfg0.idle 4 (grid0.coords t) = false := by decide +kernel

/-! ## The staging memrefs and the accumulator -/

abbrev VO0 : View sig .tc .vmem S1024x1024 .bf16 := (Memref.whole cc0_stg4_0 : Memref sig .tc .vmem S1024x1024 .bf16).view
/-- The accumulator: a whole scoped buffer of the kernel's own, carried from grid point to grid point. -/
abbrev scM0 : Memref sig .tc .vmem S1024x1024 .f32 := Memref.whole cc0_scratch0
abbrev VS0 : View sig .tc .vmem S1024x1024 .f32 := (scM0).view
/-- The scoped buffers no window stages, the accumulator apart. -/
abbrev restBut0 (c : Dev nD) : sProp 𝕄 := Pipeline.scopedRestBut (Ix := Unit) (Name := ℕ) (U := UR sig nD τ) (Lvl := ℕ) (Val := Elt F) spec0 c [cc0_scratch0]

/-- The class invariant with the accumulator owned at some contents. -/
theorem PhiA0_eq (c : Dev nD) :
    (Pipeline.ΦA spec0 c : sProp 𝕄)
      = iprop(iprop(iprop((∃ d, owns (c : Thread nD τ) scM0 fullShare d)) ∗ restBut0 (F := F) c) ∗ (∃ r, prngReg c r)) := by
  unfold Pipeline.ΦA; rw [scopedRest0_split]; simp only [scM0, owns_whole]; try rfl

/-! ## The body, case by case -/

set_option maxHeartbeats 2000000 in
/-- The body in case A (first step of the contraction axis: the accumulator is zeroed, then one partial product added) on whole staging
    memrefs: the pieces the accumulator (and, in case C, the output block) ends with are the witness the run finds. -/
noncomputable def kernelRun0_A (c : Dev nD) (i : grid0.Coords) (arg3 : Memref sig .tc .vmem S1024x512 .f32) (harg3 : arg3.IsWhole) (arg4 : Memref sig .tc .vmem S512x1024 .bf16) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1024x1024 .f32) (harg8 : arg8.IsWhole) (hc0 : cond0_0 i) (hc1 : ¬cond0_1 i)
    (x0 : Vec F S1024x512 .f32) (x1 : Vec F S512x1024 .bf16) (x2 : Vec F S1x1024 .f32) (x3 : Vec F S1x1024 .f32) :
    Σ' (LO : List (View.Piece (Elt F) S1024x1024 .bf16)), { LS : List (View.Piece (Elt F) S1024x1024 .f32) //
      ∀ (xi : Vec F S1024x1024 .bf16) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi ∗ (∃ d, owns (c : Thread nD τ) arg8 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi ∗ (∃ f, arg8.view.loc (c : Thread nD τ) ↦[arg8.view.set]{fullShare} arg8.view.writes (Elt F) f LS)) -∗ K ⟨⟩))
          ⊢ wp frame (wpE (defs₀ (F := F)) Variants.none c none) E (cc0__mm1_kernel i arg3 harg3 arg4 harg4 arg5 harg5 arg6 harg6 arg7 harg7 arg8 harg8) K } := by
  refine ⟨[], ?_, fun xi E K => ?run⟩
  case run =>
    simp only [cc0__mm1_kernel_eq_skeleton]; unfold cc0__mm1_kernel_skel
    unfold owns
    iintro ⟨⟨%f0, %hf0, H0⟩, ⟨%f1, %hf1, H1⟩, ⟨%f2, %hf2, H2⟩, ⟨%f3, %hf3, H3⟩, ⟨%fo, %hfo, HO⟩, ⟨%ds0, %fs0, -, HS0⟩, Hk⟩
    obtain rfl := harg3.eq_unread hf0; obtain rfl := harg4.eq_unread hf1; obtain rfl := harg5.eq_unread hf2; obtain rfl := harg6.eq_unread hf3; obtain rfl := harg7.eq_unread hfo
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HO]
    · iexists _; isplitr; · ipureintro; exact harg7.read_unread _
      iexact HO
    iexists _; iexact HS0

set_option maxHeartbeats 2000000 in
/-- The body in case B (a middle step: one partial product added to the accumulator) on whole staging
    memrefs: the pieces the accumulator (and, in case C, the output block) ends with are the witness the run finds. -/
noncomputable def kernelRun0_B (c : Dev nD) (i : grid0.Coords) (arg3 : Memref sig .tc .vmem S1024x512 .f32) (harg3 : arg3.IsWhole) (arg4 : Memref sig .tc .vmem S512x1024 .bf16) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1024x1024 .f32) (harg8 : arg8.IsWhole) (hc0 : ¬cond0_0 i) (hc1 : ¬cond0_1 i)
    (x0 : Vec F S1024x512 .f32) (x1 : Vec F S512x1024 .bf16) (x2 : Vec F S1x1024 .f32) (x3 : Vec F S1x1024 .f32) (xs0 : Vec F S1024x1024 .f32) :
    Σ' (LO : List (View.Piece (Elt F) S1024x1024 .bf16)), { LS : List (View.Piece (Elt F) S1024x1024 .f32) //
      ∀ (xi : Vec F S1024x1024 .bf16) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi ∗ owns (c : Thread nD τ) arg8 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi ∗ (∃ f, arg8.view.loc (c : Thread nD τ) ↦[arg8.view.set]{fullShare} arg8.view.writes (Elt F) f LS)) -∗ K ⟨⟩))
          ⊢ wp frame (wpE (defs₀ (F := F)) Variants.none c none) E (cc0__mm1_kernel i arg3 harg3 arg4 harg4 arg5 harg5 arg6 harg6 arg7 harg7 arg8 harg8) K } := by
  refine ⟨[], ?_, fun xi E K => ?run⟩
  case run =>
    simp only [cc0__mm1_kernel_eq_skeleton]; unfold cc0__mm1_kernel_skel
    unfold owns
    iintro ⟨⟨%f0, %hf0, H0⟩, ⟨%f1, %hf1, H1⟩, ⟨%f2, %hf2, H2⟩, ⟨%f3, %hf3, H3⟩, ⟨%fo, %hfo, HO⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hfo; obtain rfl := harg8.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HO]
    · iexists _; isplitr; · ipureintro; exact harg7.read_unread _
      iexact HO
    iexists _; iexact HS0

set_option maxHeartbeats 2000000 in
/-- The body in case C (last step: one partial product added, then the scaled, biased, clipped block stored) on whole staging
    memrefs: the pieces the accumulator (and, in case C, the output block) ends with are the witness the run finds. -/
noncomputable def kernelRun0_C (c : Dev nD) (i : grid0.Coords) (arg3 : Memref sig .tc .vmem S1024x512 .f32) (harg3 : arg3.IsWhole) (arg4 : Memref sig .tc .vmem S512x1024 .bf16) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1024x1024 .f32) (harg8 : arg8.IsWhole) (hc0 : ¬cond0_0 i) (hc1 : cond0_1 i)
    (x0 : Vec F S1024x512 .f32) (x1 : Vec F S512x1024 .bf16) (x2 : Vec F S1x1024 .f32) (x3 : Vec F S1x1024 .f32) (xs0 : Vec F S1024x1024 .f32) :
    Σ' (LO : List (View.Piece (Elt F) S1024x1024 .bf16)), { LS : List (View.Piece (Elt F) S1024x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d) ∗ owns (c : Thread nD τ) arg8 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ (∃ f, arg7.view.loc (c : Thread nD τ) ↦[arg7.view.set]{fullShare} arg7.view.writes (Elt F) f LO) ∗ (∃ f, arg8.view.loc (c : Thread nD τ) ↦[arg8.view.set]{fullShare} arg8.view.writes (Elt F) f LS)) -∗ K ⟨⟩))
          ⊢ wp frame (wpE (defs₀ (F := F)) Variants.none c none) E (cc0__mm1_kernel i arg3 harg3 arg4 harg4 arg5 harg5 arg6 harg6 arg7 harg7 arg8 harg8) K } := by
  refine ⟨?_, ?_, fun E K => ?run⟩
  case run =>
    simp only [cc0__mm1_kernel_eq_skeleton]; unfold cc0__mm1_kernel_skel
    unfold owns
    iintro ⟨⟨%f0, %hf0, H0⟩, ⟨%f1, %hf1, H1⟩, ⟨%f2, %hf2, H2⟩, ⟨%f3, %hf3, H3⟩, ⟨%dO, %fo, -, HO⟩, ⟨%fs0, %hfs0, HS0⟩, Hk⟩
    obtain rfl := harg3.eq_unread hf0; obtain rfl := harg4.eq_unread hf1; obtain rfl := harg5.eq_unread hf2; obtain rfl := harg6.eq_unread hf3; obtain rfl := harg8.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HO]; · iexists _; iexact HO
    iexists _; iexact HS0

/-! ## What each case leaves -/

/-- What case A leaves in the output's staging buffer: its pieces read back (none: a placeholder nothing consults, the window being idle and not written back at these points). -/
def out0_A (c : Dev nD) (i : grid0.Coords) (arg3 : Memref sig .tc .vmem S1024x512 .f32) (harg3 : arg3.IsWhole) (arg4 : Memref sig .tc .vmem S512x1024 .bf16) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1024x1024 .f32) (harg8 : arg8.IsWhole) (hc0 : cond0_0 i) (hc1 : ¬cond0_1 i)
    (x0 : Vec F S1024x512 .f32) (x1 : Vec F S512x1024 .bf16) (x2 : Vec F S1x1024 .f32) (x3 : Vec F S1x1024 .f32) : Vec F S1024x1024 .bf16 :=
  VO0.read (Elt F) (VO0.writes (Elt F) VO0.junk (kernelRun0_A c i arg3 harg3 arg4 harg4 arg5 harg5 arg6 harg6 arg7 harg7 arg8 harg8 hc0 hc1 x0 x1 x2 x3).1)

/-- Case A's pieces for the accumulator tile it, so they cover it. -/
theorem scover0_A (c : Dev nD) (i : grid0.Coords) (arg3 : Memref sig .tc .vmem S1024x512 .f32) (harg3 : arg3.IsWhole) (arg4 : Memref sig .tc .vmem S512x1024 .bf16) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1024x1024 .f32) (harg8 : arg8.IsWhole) (hc0 : cond0_0 i) (hc1 : ¬cond0_1 i)
    (x0 : Vec F S1024x512 .f32) (x1 : Vec F S512x1024 .bf16) (x2 : Vec F S1x1024 .f32) (x3 : Vec F S1x1024 .f32) (y : S1024x1024.Idx) :
    ∃ pc ∈ (kernelRun0_A c i arg3 harg3 arg4 harg4 arg5 harg5 arg6 harg6 arg7 harg7 arg8 harg8 hc0 hc1 x0 x1 x2 x3).2.1, y ∈ pc.1.set :=
  View.cover_of_tiledL (kernelRun0_A c i arg3 harg3 arg4 harg4 arg5 harg5 arg6 harg6 arg7 harg7 arg8 harg8 hc0 hc1 x0 x1 x2 x3).2.1 S1024x1024.size (by sl_kernel_rfl) y

/-- What case A leaves in the accumulator: its pieces read back. -/
def sout0_A (c : Dev nD) (i : grid0.Coords) (arg3 : Memref sig .tc .vmem S1024x512 .f32) (harg3 : arg3.IsWhole) (arg4 : Memref sig .tc .vmem S512x1024 .bf16) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1024x1024 .f32) (harg8 : arg8.IsWhole) (hc0 : cond0_0 i) (hc1 : ¬cond0_1 i)
    (x0 : Vec F S1024x512 .f32) (x1 : Vec F S512x1024 .bf16) (x2 : Vec F S1x1024 .f32) (x3 : Vec F S1x1024 .f32) : Vec F S1024x1024 .f32 :=
  VS0.read (Elt F) (VS0.writes (Elt F) VS0.junk (kernelRun0_A c i arg3 harg3 arg4 harg4 arg5 harg5 arg6 harg6 arg7 harg7 arg8 harg8 hc0 hc1 x0 x1 x2 x3).2.1)

/-- What case B leaves in the output's staging buffer: its pieces read back (none: a placeholder nothing consults, the window being idle and not written back at these points). -/
def out0_B (c : Dev nD) (i : grid0.Coords) (arg3 : Memref sig .tc .vmem S1024x512 .f32) (harg3 : arg3.IsWhole) (arg4 : Memref sig .tc .vmem S512x1024 .bf16) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1024x1024 .f32) (harg8 : arg8.IsWhole) (hc0 : ¬cond0_0 i) (hc1 : ¬cond0_1 i)
    (x0 : Vec F S1024x512 .f32) (x1 : Vec F S512x1024 .bf16) (x2 : Vec F S1x1024 .f32) (x3 : Vec F S1x1024 .f32) (xs0 : Vec F S1024x1024 .f32) : Vec F S1024x1024 .bf16 :=
  VO0.read (Elt F) (VO0.writes (Elt F) VO0.junk (kernelRun0_B c i arg3 harg3 arg4 harg4 arg5 harg5 arg6 harg6 arg7 harg7 arg8 harg8 hc0 hc1 x0 x1 x2 x3 xs0).1)

/-- Case B's pieces for the accumulator tile it, so they cover it. -/
theorem scover0_B (c : Dev nD) (i : grid0.Coords) (arg3 : Memref sig .tc .vmem S1024x512 .f32) (harg3 : arg3.IsWhole) (arg4 : Memref sig .tc .vmem S512x1024 .bf16) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1024x1024 .f32) (harg8 : arg8.IsWhole) (hc0 : ¬cond0_0 i) (hc1 : ¬cond0_1 i)
    (x0 : Vec F S1024x512 .f32) (x1 : Vec F S512x1024 .bf16) (x2 : Vec F S1x1024 .f32) (x3 : Vec F S1x1024 .f32) (xs0 : Vec F S1024x1024 .f32) (y : S1024x1024.Idx) :
    ∃ pc ∈ (kernelRun0_B c i arg3 harg3 arg4 harg4 arg5 harg5 arg6 harg6 arg7 harg7 arg8 harg8 hc0 hc1 x0 x1 x2 x3 xs0).2.1, y ∈ pc.1.set :=
  View.cover_of_tiledL (kernelRun0_B c i arg3 harg3 arg4 harg4 arg5 harg5 arg6 harg6 arg7 harg7 arg8 harg8 hc0 hc1 x0 x1 x2 x3 xs0).2.1 S1024x1024.size (by sl_kernel_rfl) y

/-- What case B leaves in the accumulator: its pieces read back. -/
def sout0_B (c : Dev nD) (i : grid0.Coords) (arg3 : Memref sig .tc .vmem S1024x512 .f32) (harg3 : arg3.IsWhole) (arg4 : Memref sig .tc .vmem S512x1024 .bf16) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1024x1024 .f32) (harg8 : arg8.IsWhole) (hc0 : ¬cond0_0 i) (hc1 : ¬cond0_1 i)
    (x0 : Vec F S1024x512 .f32) (x1 : Vec F S512x1024 .bf16) (x2 : Vec F S1x1024 .f32) (x3 : Vec F S1x1024 .f32) (xs0 : Vec F S1024x1024 .f32) : Vec F S1024x1024 .f32 :=
  VS0.read (Elt F) (VS0.writes (Elt F) VS0.junk (kernelRun0_B c i arg3 harg3 arg4 harg4 arg5 harg5 arg6 harg6 arg7 harg7 arg8 harg8 hc0 hc1 x0 x1 x2 x3 xs0).2.1)

/-- Case C's pieces for the output block tile it, so they cover it. -/
theorem cover0_C (c : Dev nD) (i : grid0.Coords) (arg3 : Memref sig .tc .vmem S1024x512 .f32) (harg3 : arg3.IsWhole) (arg4 : Memref sig .tc .vmem S512x1024 .bf16) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1024x1024 .f32) (harg8 : arg8.IsWhole) (hc0 : ¬cond0_0 i) (hc1 : cond0_1 i)
    (x0 : Vec F S1024x512 .f32) (x1 : Vec F S512x1024 .bf16) (x2 : Vec F S1x1024 .f32) (x3 : Vec F S1x1024 .f32) (xs0 : Vec F S1024x1024 .f32) (y : S1024x1024.Idx) :
    ∃ pc ∈ (kernelRun0_C c i arg3 harg3 arg4 harg4 arg5 harg5 arg6 harg6 arg7 harg7 arg8 harg8 hc0 hc1 x0 x1 x2 x3 xs0).1, y ∈ pc.1.set :=
  View.cover_of_tiledL (kernelRun0_C c i arg3 harg3 arg4 harg4 arg5 harg5 arg6 harg6 arg7 harg7 arg8 harg8 hc0 hc1 x0 x1 x2 x3 xs0).1 S1024x1024.size (by sl_kernel_rfl) y

/-- What case C leaves in the output's staging buffer: its pieces read back. -/
def out0_C (c : Dev nD) (i : grid0.Coords) (arg3 : Memref sig .tc .vmem S1024x512 .f32) (harg3 : arg3.IsWhole) (arg4 : Memref sig .tc .vmem S512x1024 .bf16) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1024x1024 .f32) (harg8 : arg8.IsWhole) (hc0 : ¬cond0_0 i) (hc1 : cond0_1 i)
    (x0 : Vec F S1024x512 .f32) (x1 : Vec F S512x1024 .bf16) (x2 : Vec F S1x1024 .f32) (x3 : Vec F S1x1024 .f32) (xs0 : Vec F S1024x1024 .f32) : Vec F S1024x1024 .bf16 :=
  VO0.read (Elt F) (VO0.writes (Elt F) VO0.junk (kernelRun0_C c i arg3 harg3 arg4 harg4 arg5 harg5 arg6 harg6 arg7 harg7 arg8 harg8 hc0 hc1 x0 x1 x2 x3 xs0).1)

/-- Case C's pieces for the accumulator tile it, so they cover it. -/
theorem scover0_C (c : Dev nD) (i : grid0.Coords) (arg3 : Memref sig .tc .vmem S1024x512 .f32) (harg3 : arg3.IsWhole) (arg4 : Memref sig .tc .vmem S512x1024 .bf16) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1024x1024 .f32) (harg8 : arg8.IsWhole) (hc0 : ¬cond0_0 i) (hc1 : cond0_1 i)
    (x0 : Vec F S1024x512 .f32) (x1 : Vec F S512x1024 .bf16) (x2 : Vec F S1x1024 .f32) (x3 : Vec F S1x1024 .f32) (xs0 : Vec F S1024x1024 .f32) (y : S1024x1024.Idx) :
    ∃ pc ∈ (kernelRun0_C c i arg3 harg3 arg4 harg4 arg5 harg5 arg6 harg6 arg7 harg7 arg8 harg8 hc0 hc1 x0 x1 x2 x3 xs0).2.1, y ∈ pc.1.set :=
  View.cover_of_tiledL (kernelRun0_C c i arg3 harg3 arg4 harg4 arg5 harg5 arg6 harg6 arg7 harg7 arg8 harg8 hc0 hc1 x0 x1 x2 x3 xs0).2.1 S1024x1024.size (by sl_kernel_rfl) y

/-- What case C leaves in the accumulator: its pieces read back. -/
def sout0_C (c : Dev nD) (i : grid0.Coords) (arg3 : Memref sig .tc .vmem S1024x512 .f32) (harg3 : arg3.IsWhole) (arg4 : Memref sig .tc .vmem S512x1024 .bf16) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1024x1024 .f32) (harg8 : arg8.IsWhole) (hc0 : ¬cond0_0 i) (hc1 : cond0_1 i)
    (x0 : Vec F S1024x512 .f32) (x1 : Vec F S512x1024 .bf16) (x2 : Vec F S1x1024 .f32) (x3 : Vec F S1x1024 .f32) (xs0 : Vec F S1024x1024 .f32) : Vec F S1024x1024 .f32 :=
  VS0.read (Elt F) (VS0.writes (Elt F) VS0.junk (kernelRun0_C c i arg3 harg3 arg4 harg4 arg5 harg5 arg6 harg6 arg7 harg7 arg8 harg8 hc0 hc1 x0 x1 x2 x3 xs0).2.1)

/-! ## What the output block and the accumulator hold after each grid point -/

/-- After position `n`: (the output's staging buffer, the accumulator) — the case the point is in, run at the point's
    memrefs and input blocks, over the accumulator as the point before left it. -/
def outsAt0 (c : Dev nD) : (n : ℕ) → n < cfg0.N → Vec F S1024x1024 .bf16 × Vec F S1024x1024 .f32
  | 0, hn => (out0_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩), sout0_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩))
  | n + 1, hn =>
    if h0 : (n + 1) % 6 = 0 then
      if h1 : (n + 1) % 6 = 5 then
        False.elim (by omega)
      else
        (out0_A c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩), sout0_A c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩))
    else
      if h1 : (n + 1) % 6 = 5 then
        (out0_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2, sout0_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2)
      else
        (out0_B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2, sout0_B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2)

theorem outsAt0_A (c : Dev nD) (t : Fin cfg0.N) (h0 : t.val % 6 = 0) (h1 : ¬t.val % 6 = 5) :
    outsAt0 V c t.val t.isLt = (out0_A c (grid0.coords t) (ms0_0 t) (hs0_0 t) (ms0_1 t) (hs0_1 t) (ms0_2 t) (hs0_2 t) (ms0_3 t) (hs0_3 t) (ms0_4 t) (hs0_4 t) scM0 (Memref.isWhole_whole _) ((hcond0_0 t).mpr h0) (fun h => h1 ((hcond0_1 t).mp h)) (iblk0 V c 0 t) (iblk0 V c 1 t) (iblk0 V c 2 t) (iblk0 V c 3 t), sout0_A c (grid0.coords t) (ms0_0 t) (hs0_0 t) (ms0_1 t) (hs0_1 t) (ms0_2 t) (hs0_2 t) (ms0_3 t) (hs0_3 t) (ms0_4 t) (hs0_4 t) scM0 (Memref.isWhole_whole _) ((hcond0_0 t).mpr h0) (fun h => h1 ((hcond0_1 t).mp h)) (iblk0 V c 0 t) (iblk0 V c 1 t) (iblk0 V c 2 t) (iblk0 V c 3 t)) := by
  obtain ⟨n, hn⟩ := t
  cases n with
  | zero => exact rfl
  | succ n => exact (dif_pos h0).trans ((dif_neg h1).trans rfl)

theorem outsAt0_B (c : Dev nD) (t : Fin cfg0.N) (h0 : ¬t.val % 6 = 0) (h1 : ¬t.val % 6 = 5) :
    outsAt0 V c t.val t.isLt = (out0_B c (grid0.coords t) (ms0_0 t) (hs0_0 t) (ms0_1 t) (hs0_1 t) (ms0_2 t) (hs0_2 t) (ms0_3 t) (hs0_3 t) (ms0_4 t) (hs0_4 t) scM0 (Memref.isWhole_whole _) (fun h => h0 ((hcond0_0 t).mp h)) (fun h => h1 ((hcond0_1 t).mp h)) (iblk0 V c 0 t) (iblk0 V c 1 t) (iblk0 V c 2 t) (iblk0 V c 3 t) (outsAt0 V c (t.val - 1) (Nat.lt_of_le_of_lt (Nat.sub_le _ _) t.isLt)).2, sout0_B c (grid0.coords t) (ms0_0 t) (hs0_0 t) (ms0_1 t) (hs0_1 t) (ms0_2 t) (hs0_2 t) (ms0_3 t) (hs0_3 t) (ms0_4 t) (hs0_4 t) scM0 (Memref.isWhole_whole _) (fun h => h0 ((hcond0_0 t).mp h)) (fun h => h1 ((hcond0_1 t).mp h)) (iblk0 V c 0 t) (iblk0 V c 1 t) (iblk0 V c 2 t) (iblk0 V c 3 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 6 = 0) (h1 : t.val % 6 = 5) :
    outsAt0 V c t.val t.isLt = (out0_C c (grid0.coords t) (ms0_0 t) (hs0_0 t) (ms0_1 t) (hs0_1 t) (ms0_2 t) (hs0_2 t) (ms0_3 t) (hs0_3 t) (ms0_4 t) (hs0_4 t) scM0 (Memref.isWhole_whole _) (fun h => h0 ((hcond0_0 t).mp h)) ((hcond0_1 t).mpr h1) (iblk0 V c 0 t) (iblk0 V c 1 t) (iblk0 V c 2 t) (iblk0 V c 3 t) (outsAt0 V c (t.val - 1) (Nat.lt_of_le_of_lt (Nat.sub_le _ _) t.isLt)).2, sout0_C c (grid0.coords t) (ms0_0 t) (hs0_0 t) (ms0_1 t) (hs0_1 t) (ms0_2 t) (hs0_2 t) (ms0_3 t) (hs0_3 t) (ms0_4 t) (hs0_4 t) scM0 (Memref.isWhole_whole _) (fun h => h0 ((hcond0_0 t).mp h)) ((hcond0_1 t).mpr h1) (iblk0 V c 0 t) (iblk0 V c 1 t) (iblk0 V c 2 t) (iblk0 V c 3 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region's invariant before position `n`: before the first point the class's (the accumulator at anything);
    afterwards the accumulator at what the point before left in it, the other scoped buffers untouched, the generator
    register at some state. -/
def PhiS0 (c : Dev nD) : (n : ℕ) → n ≤ cfg0.N → sProp 𝕄
  | 0, _ => Pipeline.ΦA spec0 c
  | n + 1, hn => iprop(iprop(owns (c : Thread nD τ) scM0 fullShare ((outsAt0 V c n hn).2) ∗ restBut0 (F := F) c) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(owns (c : Thread nD τ) scM0 fullShare ((outsAt0 V c n hn).2) ∗ restBut0 (F := F) c) ∗ (∃ r, prngReg c r)) := rfl

theorem PhiS0_pos (c : Dev nD) (n : ℕ) (h : n ≤ cfg0.N) (hz : n ≠ 0) :
    PhiS0 V c n h = iprop(iprop(owns (c : Thread nD τ) scM0 fullShare ((outsAt0 V c (n - 1) (by omega)).2) ∗ restBut0 (F := F) c) ∗ (∃ r, prngReg c r)) := by
  cases n with
  | zero => exact absurd rfl hz
  | succ n => rfl

/-! ## The pipeline's proof data -/

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => (outsAt0 V c t.val t.isLt).1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = (outsAt0 V c t.val t.isLt).1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t)

set_option maxHeartbeats 8000000 in
/-- The body at any point: the inputs' memrefs hold their blocks; the closed forms say which case the point is in; the
    invariant hands the body the accumulator at what the point before left (at anything at the very first point) and
    takes it back at this point's contents; off the last step the output's buffer is handed back as found. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).owesAt () t.succ = (dat0 V c).owesAt () t.castSucc from rfl]
  rw [show (dat0 V c).Φ t.succ = PhiS0 V c (t.val + 1) t.isLt from rfl, PhiS0_succ]
  have hN : t.val < 384 := lt_of_lt_of_eq t.isLt (show cfg0.N = 384 from N_0)
  by_cases h0 : t.val % 6 = 0
  · by_cases h1 : t.val % 6 = 5
    · exfalso; omega
    ·
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [Dat.leavesExact_idle (dat0 V c) 4 t (idleAt0_A t ((hcond0_0 t).mpr h0) (fun h => h1 ((hcond0_1 t).mp h))) (noFlush0_A t ((hcond0_0 t).mpr h0) (fun h => h1 ((hcond0_1 t).mp h)))]
      rw [outsAt0_A V c t h0 h1]
      unfold sout0_A; (try dsimp only)
      by_cases hz : t.val = 0
      ·
        rw [PhiS0_castSucc V c t, PhiS0_zero V c _ _ hz, PhiA0_eq]
        iintro ⟨⟨⟨HS0, HRB⟩, Hg⟩, Ho, ⟨%d0, H0⟩, ⟨%d1, H1⟩, ⟨%d2, H2⟩, ⟨%d3, H3⟩, ⟨%d4, H4⟩⟩
        iapply ((kernelRun0_A c (grid0.coords t) _ _ _ _ _ _ _ _ _ _ _ _ ((hcond0_0 t).mpr h0) (fun h => h1 ((hcond0_1 t).mp h)) (iblk0 V c 0 t) (iblk0 V c 1 t) (iblk0 V c 2 t) (iblk0 V c 3 t)).2.2 _ Set.univ _)
        isplitl [H0]; · iexact H0
        isplitl [H1]; · iexact H1
        isplitl [H2]; · iexact H2
        isplitl [H3]; · iexact H3
        isplitl [H4]; · iexact H4
        isplitl [HS0]; · iexact HS0
        iintro ⟨H0, H1, H2, H3, H4, ⟨%es0, HS0⟩⟩
        isplitl [HS0 HRB Hg]
        · isplitl [HS0 HRB]
          · isplitl [HS0]
            · unfold owns; iexists _; isplitr
              swap; · iexact HS0
              ipureintro; exact View.read_writes_of_cover _ _ _ _ _ (scover0_A c _ _ _ _ _ _ _ _ _ _ _ _ _ _ _ _ _ _ _)
            iexact HRB
          iexact Hg
        isplitl [Ho]; · iexact Ho
        isplitl [H0]; · iexact H0
        isplitl [H1]; · iexact H1
        isplitl [H2]; · iexact H2
        isplitl [H3]; · iexact H3
        iexists _; iexact H4
      ·
        rw [PhiS0_castSucc V c t, PhiS0_pos V c _ _ hz]
        iintro ⟨⟨⟨HS0, HRB⟩, Hg⟩, Ho, ⟨%d0, H0⟩, ⟨%d1, H1⟩, ⟨%d2, H2⟩, ⟨%d3, H3⟩, ⟨%d4, H4⟩⟩
        iapply ((kernelRun0_A c (grid0.coords t) _ _ _ _ _ _ _ _ _ _ _ _ ((hcond0_0 t).mpr h0) (fun h => h1 ((hcond0_1 t).mp h)) (iblk0 V c 0 t) (iblk0 V c 1 t) (iblk0 V c 2 t) (iblk0 V c 3 t)).2.2 _ Set.univ _)
        isplitl [H0]; · iexact H0
        isplitl [H1]; · iexact H1
        isplitl [H2]; · iexact H2
        isplitl [H3]; · iexact H3
        isplitl [H4]; · iexact H4
        isplitl [HS0]; · iexists _; iexact HS0
        iintro ⟨H0, H1, H2, H3, H4, ⟨%es0, HS0⟩⟩
        isplitl [HS0 HRB Hg]
        · isplitl [HS0 HRB]
          · isplitl [HS0]
            · unfold owns; iexists _; isplitr
              swap; · iexact HS0
              ipureintro; exact View.read_writes_of_cover _ _ _ _ _ (scover0_A c _ _ _ _ _ _ _ _ _ _ _ _ _ _ _ _ _ _ _)
            iexact HRB
          iexact Hg
        isplitl [Ho]; · iexact Ho
        isplitl [H0]; · iexact H0
        isplitl [H1]; · iexact H1
        isplitl [H2]; · iexact H2
        isplitl [H3]; · iexact H3
        iexists _; iexact H4
  · by_cases h1 : t.val % 6 = 5
    ·
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [show (dat0 V c).leavesExact 4 t = owns (c : Thread nD τ) (ms0_4 t) fullShare ((dat0 V c).after 4 t) from by
        unfold Dat.leavesExact; rw [liveAt0_C t (fun h => h0 ((hcond0_0 t).mp h)) ((hcond0_1 t).mpr h1)], after0_4]
      rw [outsAt0_C V c t h0 h1]
      unfold out0_C sout0_C; (try dsimp only)
      by_cases hz : t.val = 0
      · exfalso; omega
      ·
        rw [PhiS0_castSucc V c t, PhiS0_pos V c _ _ hz]
        iintro ⟨⟨⟨HS0, HRB⟩, Hg⟩, Ho, ⟨%d0, H0⟩, ⟨%d1, H1⟩, ⟨%d2, H2⟩, ⟨%d3, H3⟩, ⟨%d4, H4⟩⟩
        iapply ((kernelRun0_C c (grid0.coords t) _ _ _ _ _ _ _ _ _ _ _ _ (fun h => h0 ((hcond0_0 t).mp h)) ((hcond0_1 t).mpr h1) (iblk0 V c 0 t) (iblk0 V c 1 t) (iblk0 V c 2 t) (iblk0 V c 3 t) _).2.2 Set.univ _)
        isplitl [H0]; · iexact H0
        isplitl [H1]; · iexact H1
        isplitl [H2]; · iexact H2
        isplitl [H3]; · iexact H3
        isplitl [H4]; · iexists _; iexact H4
        isplitl [HS0]; · iexact HS0
        iintro ⟨H0, H1, H2, H3, ⟨%e4, H4⟩, ⟨%es0, HS0⟩⟩
        isplitl [HS0 HRB Hg]
        · isplitl [HS0 HRB]
          · isplitl [HS0]
            · unfold owns; iexists _; isplitr
              swap; · iexact HS0
              ipureintro; exact View.read_writes_of_cover _ _ _ _ _ (scover0_C c _ _ _ _ _ _ _ _ _ _ _ _ _ _ _ _ _ _ _ _)
            iexact HRB
          iexact Hg
        isplitl [Ho]; · iexact Ho
        isplitl [H0]; · iexact H0
        isplitl [H1]; · iexact H1
        isplitl [H2]; · iexact H2
        isplitl [H3]; · iexact H3
        unfold owns; iexists _; isplitr
        swap; · iexact H4
        ipureintro; exact View.read_writes_of_cover _ _ _ _ _ (cover0_C c _ _ _ _ _ _ _ _ _ _ _ _ _ _ _ _ _ _ _ _)
    ·
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [Dat.leavesExact_idle (dat0 V c) 4 t (idleAt0_B t (fun h => h0 ((hcond0_0 t).mp h)) (fun h => h1 ((hcond0_1 t).mp h))) (noFlush0_B t (fun h => h0 ((hcond0_0 t).mp h)) (fun h => h1 ((hcond0_1 t).mp h)))]
      rw [outsAt0_B V c t h0 h1]
      unfold sout0_B; (try dsimp only)
      by_cases hz : t.val = 0
      · exfalso; omega
      ·
        rw [PhiS0_castSucc V c t, PhiS0_pos V c _ _ hz]
        iintro ⟨⟨⟨HS0, HRB⟩, Hg⟩, Ho, ⟨%d0, H0⟩, ⟨%d1, H1⟩, ⟨%d2, H2⟩, ⟨%d3, H3⟩, ⟨%d4, H4⟩⟩
        iapply ((kernelRun0_B c (grid0.coords t) _ _ _ _ _ _ _ _ _ _ _ _ (fun h => h0 ((hcond0_0 t).mp h)) (fun h => h1 ((hcond0_1 t).mp h)) (iblk0 V c 0 t) (iblk0 V c 1 t) (iblk0 V c 2 t) (iblk0 V c 3 t) _).2.2 _ Set.univ _)
        isplitl [H0]; · iexact H0
        isplitl [H1]; · iexact H1
        isplitl [H2]; · iexact H2
        isplitl [H3]; · iexact H3
        isplitl [H4]; · iexact H4
        isplitl [HS0]; · iexact HS0
        iintro ⟨H0, H1, H2, H3, H4, ⟨%es0, HS0⟩⟩
        isplitl [HS0 HRB Hg]
        · isplitl [HS0 HRB]
          · isplitl [HS0]
            · unfold owns; iexists _; isplitr
              swap; · iexact HS0
              ipureintro; exact View.read_writes_of_cover _ _ _ _ _ (scover0_B c _ _ _ _ _ _ _ _ _ _ _ _ _ _ _ _ _ _ _ _)
            iexact HRB
          iexact Hg
        isplitl [Ho]; · iexact Ho
        isplitl [H0]; · iexact H0
        isplitl [H1]; · iexact H1
        isplitl [H2]; · iexact H2
        isplitl [H3]; · iexact H3
        iexists _; iexact H4

theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After the last point the invariant gives the class's back: the accumulator's contents are forgotten. -/
theorem hout0 (c : Dev nD) : (dat0 V c).Φ (Fin.last cfg0.N) ⊢ Pipeline.ΦA spec0 c := by
  have ht : (Fin.last cfg0.N).val ≠ 0 := by rw [Fin.val_last]; have : cfg0.N = 384 := N_0; omega
  rw [show (dat0 V c).Φ (Fin.last cfg0.N) = PhiS0 V c (Fin.last cfg0.N).val (Nat.le_of_lt_succ (Fin.last cfg0.N).isLt) from rfl, PhiS0_pos V c _ _ ht, PhiA0_eq]
  iintro ⟨⟨HS0, HRB⟩, Hg⟩
  isplitl [HS0 HRB]
  · isplitl [HS0]
    · iexists _; iexact HS0
    iexact HRB
  iexact Hg

end Cert.KernelIdeal.Hand

end
-- ==== Proof.I_R1.lean ====
/-
  Region 1 of the program: the row normalisation of the first layer's output, 128 rows per grid point.
  At any contents V of the buffers on entry: what the body leaves in the output block at each grid point (the pieces
  its one store writes, found by running the body), the pipeline's proof data over them, and the body obligation.
-/
import proofs.«159875_j41042707481000_2_alg».proof.Proof.Gen.KernelIdeal.Launch
import proofs.«159875_j41042707481000_2_alg».proof.Proof.Gen.KernelIdeal.Skeleton
import proofs.«159875_j41042707481000_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ
variable (V : (c : Dev nD) → (b : Ref sig .tc) → Buf (Elt F) ((c : Thread nD τ).loc b))

/-- Window `w`'s block at grid point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- An input window's current staging buffer holds its block at every point, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- An input window's current staging buffer holds its block at every point, fetched there or not. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

abbrev ms1_0 (t : Fin cfg1.N) : Memref sig .tc .vmem S128x8192 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x8192 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x8192 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S128x8192 .f32 := win1_3.stage (cfg1.slots t 3)
abbrev hs1_3 (t : Fin cfg1.N) : (ms1_3 t).IsWhole := hstage1_3 ((cfg1.slots t 3).cast nbuf1_3)

/-- One staging buffer of the output window, through which its contents are stated. -/
abbrev VO1_3 : View sig .tc .vmem S128x8192 .f32 := (Memref.whole cc1_stg3_0 : Memref sig .tc .vmem S128x8192 .f32).view

set_option maxHeartbeats 1000000 in
/-- The body on whole staging memrefs — the inputs' at their contents, the output's at anything — runs to the
    continuation with the inputs' as they were and the output's buffer with the body's stores written: the pieces are
    the witness the run finds. -/
noncomputable def kernelRun1 (c : Dev nD) (i : grid1.Coords) (arg1 : Memref sig .tc .vmem S128x8192 .bf16) (harg1 : arg1.IsWhole) (arg2 : Memref sig .tc .vmem S1x8192 .f32) (harg2 : arg2.IsWhole) (arg3 : Memref sig .tc .vmem S1x8192 .f32) (harg3 : arg3.IsWhole) (arg4 : Memref sig .tc .vmem S128x8192 .f32) (harg4 : arg4.IsWhole)
    (x0 : Vec F S128x8192 .bf16) (x1 : Vec F S1x8192 .f32) (x2 : Vec F S1x8192 .f32) :
    { L : List (View.Piece (Elt F) S128x8192 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d)
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L)) -∗ K ⟨⟩))
          ⊢ wp frame (wpE (defs₀ (F := F)) Variants.none c none) E (cc1__ln1_kernel i arg1 harg1 arg2 harg2 arg3 harg3 arg4 harg4) K } := by
  refine ⟨?_, fun E K => ?run⟩
  case run =>
    simp only [cc1__ln1_kernel_eq_skeleton]; unfold cc1__ln1_kernel_skel
    unfold owns
    iintro ⟨⟨%f0, %hf0, H0⟩, ⟨%f1, %hf1, H1⟩, ⟨%f2, %hf2, H2⟩, ⟨%d3, %f3, -, H3⟩, Hk⟩
    obtain rfl := harg1.eq_unread hf0; obtain rfl := harg2.eq_unread hf1; obtain rfl := harg3.eq_unread hf2
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact H3

/-- The run's pieces tile the output block, so they cover it. -/
theorem cover1 (c : Dev nD) (i : grid1.Coords) (arg1 : Memref sig .tc .vmem S128x8192 .bf16) (harg1 : arg1.IsWhole) (arg2 : Memref sig .tc .vmem S1x8192 .f32) (harg2 : arg2.IsWhole) (arg3 : Memref sig .tc .vmem S1x8192 .f32) (harg3 : arg3.IsWhole) (arg4 : Memref sig .tc .vmem S128x8192 .f32) (harg4 : arg4.IsWhole)
    (x0 : Vec F S128x8192 .bf16) (x1 : Vec F S1x8192 .f32) (x2 : Vec F S1x8192 .f32) (y : S128x8192.Idx) :
    ∃ pc ∈ (kernelRun1 c i arg1 harg1 arg2 harg2 arg3 harg3 arg4 harg4 x0 x1 x2).1, y ∈ pc.1.set :=
  View.cover_of_tiledL (kernelRun1 c i arg1 harg1 arg2 harg2 arg3 harg3 arg4 harg4 x0 x1 x2).1 S128x8192.size (by sl_kernel_rfl) y

/-- What the run leaves in the output's staging buffer: its pieces read back. -/
def out1 (c : Dev nD) (i : grid1.Coords) (arg1 : Memref sig .tc .vmem S128x8192 .bf16) (harg1 : arg1.IsWhole) (arg2 : Memref sig .tc .vmem S1x8192 .f32) (harg2 : arg2.IsWhole) (arg3 : Memref sig .tc .vmem S1x8192 .f32) (harg3 : arg3.IsWhole) (arg4 : Memref sig .tc .vmem S128x8192 .f32) (harg4 : arg4.IsWhole)
    (x0 : Vec F S128x8192 .bf16) (x1 : Vec F S1x8192 .f32) (x2 : Vec F S1x8192 .f32) : Vec F S128x8192 .f32 :=
  VO1_3.read (Elt F) (VO1_3.writes (Elt F) VO1_3.junk (kernelRun1 c i arg1 harg1 arg2 harg2 arg3 harg3 arg4 harg4 x0 x1 x2).1)

/-- The output's staging buffer after the body at point `t`: the run at the point's memrefs and input blocks. -/
def outsAt1 (c : Dev nD) (t : Fin cfg1.N) : Vec F S128x8192 .f32 :=
  out1 c (grid1.coords t) (ms1_0 t) (hs1_0 t) (ms1_1 t) (hs1_1 t) (ms1_2 t) (hs1_2 t) (ms1_3 t) (hs1_3 t) (iblk1 V c 0 t) (iblk1 V c 1 t) (iblk1 V c 2 t)

/-- The proof data of this pipeline on core `c`: the arrays as the region finds them; after the body each input's
    buffer at its block and the output's at the run's contents; the invariant the scoped rest and the generator
    register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => outsAt1 V c t
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = outsAt1 V c t := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t))

set_option maxHeartbeats 4000000 in
/-- The body at any point: the inputs' memrefs hold their blocks, so the run applies; the invariant and the core's
    `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  unfold outsAt1 out1
  iintro ⟨HΦ, Ho, ⟨%d0, H0⟩, ⟨%d1, H1⟩, ⟨%d2, H2⟩, ⟨%d3, H3⟩⟩
  iapply ((kernelRun1 c (grid1.coords t) _ _ _ _ _ _ _ _ (iblk1 V c 0 t) (iblk1 V c 1 t) (iblk1 V c 2 t)).2 Set.univ _)
  isplitl [H0]; · iexact H0
  isplitl [H1]; · iexact H1
  isplitl [H2]; · iexact H2
  isplitl [H3]; · iexists _; iexact H3
  iintro ⟨H0, H1, H2, ⟨%e3, H3⟩⟩
  isplitl [HΦ]; · iexact HΦ
  isplitl [Ho]; · iexact Ho
  isplitl [H0]; · iexact H0
  isplitl [H1]; · iexact H1
  isplitl [H2]; · iexact H2
  unfold owns; iexists _; isplitr
  swap; · iexact H3
  ipureintro; exact View.read_writes_of_cover _ _ _ _ _ (cover1 c _ _ _ _ _ _ _ _ _ _ _ _)

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.I_R2.lean ====
/-
  Region 2 of the program: the second layer's matrix product, one 1024x1024 output block per pair of leading grid
  coordinates, accumulated over the sixteen steps of the contraction axis in a buffer of the kernel's own, and at the
  last step scaled, biased, clipped at zero, added to the residual block and stored. At any contents V of the buffers
  on entry: the body's three cases, what the accumulator and the output block hold after each grid point, the proof
  data and the body obligation. Windows 0 and 4 read one array (the first normalised activation, as the left operand
  and as the residual): the proof data give them the two halves of that array's share.
-/
import proofs.«159875_j41042707481000_2_alg».proof.Proof.Gen.KernelIdeal.Launch
import proofs.«159875_j41042707481000_2_alg».proof.Proof.Gen.KernelIdeal.Skeleton
import proofs.«159875_j41042707481000_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ
variable (V : (c : Dev nD) → (b : Ref sig .tc) → Buf (Elt F) ((c : Thread nD τ).loc b))

/-- Window `w`'s block at grid point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- An input window's current staging buffer holds its block at every point, fetched there or not. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- An input window's current staging buffer holds its block at every point, fetched there or not. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- An input window's current staging buffer holds its block at every point, fetched there or not. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- An input window's current staging buffer holds its block at every point, fetched there or not. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

abbrev ms2_0 (t : Fin cfg2.N) : Memref sig .tc .vmem S1024x512 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S512x1024 .bf16 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1x1024 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1x1024 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S1024x1024 .f32 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S1024x1024 .f32 := win2_5.stage (cfg2.slots t 5)
abbrev hs2_5 (t : Fin cfg2.N) : (ms2_5 t).IsWhole := hstage2_5 ((cfg2.slots t 5).cast nbuf2_5)

/-! ## The body's two conditionals, decided over the grid -/

/-- "This is the first step of the contraction axis": the grid's last coordinate is 0. -/
abbrev cond2_0 (i : grid2.Coords) : Prop := (Scalar.cmpi .ne (Scalar.extui (Scalar.cmpi .eq (BitVec.ofNat 32 (i 2).val) 0#32)) 0#32) = 1#1
theorem hcond2_0 : ∀ t : Fin cfg2.N, cond2_0 (grid2.coords t) ↔ t.val % 16 = 0 :=
  (by decide +kernel : ∀ t : Fin grid2.N, cond2_0 (grid2.coords t) ↔ t.val % 16 = 0)
/-- "This is the last step of the contraction axis": the grid's last coordinate is 15. -/
abbrev cond2_1 (i : grid2.Coords) : Prop := k2_cond2 i = 1#1
theorem hcond2_1 : ∀ t : Fin cfg2.N, cond2_1 (grid2.coords t) ↔ t.val % 16 = 15 :=
  (by decide +kernel : ∀ t : Fin grid2.N, cond2_1 (grid2.coords t) ↔ t.val % 16 = 15)

/-! ## Where the windows are idle -/

theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
theorem liveAt2_3 : ∀ t : Fin cfg2.N, cfg2.idle 3 (grid2.coords t) = false := by decide +kernel
theorem liveAt2_4 : ∀ t : Fin cfg2.N, cfg2.idle 4 (grid2.coords t) = false := by decide +kernel
/-- Off the last step the output window is idle and not written back; at the last step it is live. -/
theorem idleAt2_A : ∀ t : Fin cfg2.N, cond2_0 (grid2.coords t) → ¬cond2_1 (grid2.coords t) → cfg2.idle 5 (grid2.coords t) = true := by decide +kernel
theorem noFlush2_A : ∀ t : Fin cfg2.N, cond2_0 (grid2.coords t) → ¬cond2_1 (grid2.coords t) → (cfg2.win 5).flush t = false := by decide +kernel
theorem idleAt2_B : ∀ t : Fin cfg2.N, ¬cond2_0 (grid2.coords t) → ¬cond2_1 (grid2.coords t) → cfg2.idle 5 (grid2.coords t) = true := by decide +kernel
theorem noFlush2_B : ∀ t : Fin cfg2.N, ¬cond2_0 (grid2.coords t) → ¬cond2_1 (grid2.coords t) → (cfg2.win 5).flush t = false := by decide +kernel
theorem liveAt2_C : ∀ t : Fin cfg2.N, ¬cond2_0 (grid2.coords t) → cond2_1 (grid2.coords t) → cfg2.idle 5 (grid2.coords t) = false := by decide +kernel

/-! ## The staging memrefs and the accumulator -/

abbrev VO2 : View sig .tc .vmem S1024x1024 .f32 := (Memref.whole cc2_stg5_0 : Memref sig .tc .vmem S1024x1024 .f32).view
/-- The accumulator: a whole scoped buffer of the kernel's own, carried from grid point to grid point. -/
abbrev scM2 : Memref sig .tc .vmem S1024x1024 .f32 := Memref.whole cc2_scratch0
abbrev VS2 : View sig .tc .vmem S1024x1024 .f32 := (scM2).view
/-- The scoped buffers no window stages, the accumulator apart. -/
abbrev restBut2 (c : Dev nD) : sProp 𝕄 := Pipeline.scopedRestBut (Ix := Unit) (Name := ℕ) (U := UR sig nD τ) (Lvl := ℕ) (Val := Elt F) spec2 c [cc2_scratch0]

/-- The class invariant with the accumulator owned at some contents. -/
theorem PhiA2_eq (c : Dev nD) :
    (Pipeline.ΦA spec2 c : sProp 𝕄)
      = iprop(iprop(iprop((∃ d, owns (c : Thread nD τ) scM2 fullShare d)) ∗ restBut2 (F := F) c) ∗ (∃ r, prngReg c r)) := by
  unfold Pipeline.ΦA; rw [scopedRest2_split]; simp only [scM2, owns_whole]; try rfl

/-! ## The body, case by case -/

set_option maxHeartbeats 2000000 in
/-- The body in case A (first step of the contraction axis: the accumulator is zeroed, then one partial product added) on whole staging
    memrefs: the pieces the accumulator (and, in case C, the output block) ends with are the witness the run finds. -/
noncomputable def kernelRun2_A (c : Dev nD) (i : grid2.Coords) (arg3 : Memref sig .tc .vmem S1024x512 .f32) (harg3 : arg3.IsWhole) (arg4 : Memref sig .tc .vmem S512x1024 .bf16) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x1024 .f32) (harg7 : arg7.IsWhole) (arg8 : Memref sig .tc .vmem S1024x1024 .f32) (harg8 : arg8.IsWhole) (arg9 : Memref sig .tc .vmem S1024x1024 .f32) (harg9 : arg9.IsWhole) (hc0 : cond2_0 i) (hc1 : ¬cond2_1 i)
    (x0 : Vec F S1024x512 .f32) (x1 : Vec F S512x1024 .bf16) (x2 : Vec F S1x1024 .f32) (x3 : Vec F S1x1024 .f32) (x4 : Vec F S1024x1024 .f32) :
    Σ' (LO : List (View.Piece (Elt F) S1024x1024 .f32)), { LS : List (View.Piece (Elt F) S1024x1024 .f32) //
      ∀ (xi : Vec F S1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi ∗ (∃ d, owns (c : Thread nD τ) arg9 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi ∗ (∃ f, arg9.view.loc (c : Thread nD τ) ↦[arg9.view.set]{fullShare} arg9.view.writes (Elt F) f LS)) -∗ K ⟨⟩))
          ⊢ wp frame (wpE (defs₀ (F := F)) Variants.none c none) E (cc2__mm2_kernel i arg3 harg3 arg4 harg4 arg5 harg5 arg6 harg6 arg7 harg7 arg8 harg8 arg9 harg9) K } := by
  refine ⟨[], ?_, fun xi E K => ?run⟩
  case run =>
    simp only [cc2__mm2_kernel_eq_skeleton]; unfold cc2__mm2_kernel_skel
    unfold owns
    iintro ⟨⟨%f0, %hf0, H0⟩, ⟨%f1, %hf1, H1⟩, ⟨%f2, %hf2, H2⟩, ⟨%f3, %hf3, H3⟩, ⟨%f4, %hf4, H4⟩, ⟨%fo, %hfo, HO⟩, ⟨%ds0, %fs0, -, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hfo
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [HO]
    · iexists _; isplitr; · ipureintro; exact harg8.read_unread _
      iexact HO
    iexists _; iexact HS0

set_option maxHeartbeats 2000000 in
/-- The body in case B (a middle step: one partial product added to the accumulator) on whole staging
    memrefs: the pieces the accumulator (and, in case C, the output block) ends with are the witness the run finds. -/
noncomputable def kernelRun2_B (c : Dev nD) (i : grid2.Coords) (arg3 : Memref sig .tc .vmem S1024x512 .f32) (harg3 : arg3.IsWhole) (arg4 : Memref sig .tc .vmem S512x1024 .bf16) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x1024 .f32) (harg7 : arg7.IsWhole) (arg8 : Memref sig .tc .vmem S1024x1024 .f32) (harg8 : arg8.IsWhole) (arg9 : Memref sig .tc .vmem S1024x1024 .f32) (harg9 : arg9.IsWhole) (hc0 : ¬cond2_0 i) (hc1 : ¬cond2_1 i)
    (x0 : Vec F S1024x512 .f32) (x1 : Vec F S512x1024 .bf16) (x2 : Vec F S1x1024 .f32) (x3 : Vec F S1x1024 .f32) (x4 : Vec F S1024x1024 .f32) (xs0 : Vec F S1024x1024 .f32) :
    Σ' (LO : List (View.Piece (Elt F) S1024x1024 .f32)), { LS : List (View.Piece (Elt F) S1024x1024 .f32) //
      ∀ (xi : Vec F S1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi ∗ owns (c : Thread nD τ) arg9 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi ∗ (∃ f, arg9.view.loc (c : Thread nD τ) ↦[arg9.view.set]{fullShare} arg9.view.writes (Elt F) f LS)) -∗ K ⟨⟩))
          ⊢ wp frame (wpE (defs₀ (F := F)) Variants.none c none) E (cc2__mm2_kernel i arg3 harg3 arg4 harg4 arg5 harg5 arg6 harg6 arg7 harg7 arg8 harg8 arg9 harg9) K } := by
  refine ⟨[], ?_, fun xi E K => ?run⟩
  case run =>
    simp only [cc2__mm2_kernel_eq_skeleton]; unfold cc2__mm2_kernel_skel
    unfold owns
    iintro ⟨⟨%f0, %hf0, H0⟩, ⟨%f1, %hf1, H1⟩, ⟨%f2, %hf2, H2⟩, ⟨%f3, %hf3, H3⟩, ⟨%f4, %hf4, H4⟩, ⟨%fo, %hfo, HO⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hfo; obtain rfl := harg9.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [HO]
    · iexists _; isplitr; · ipureintro; exact harg8.read_unread _
      iexact HO
    iexists _; iexact HS0

set_option maxHeartbeats 2000000 in
/-- The body in case C (last step: one partial product added, then the scaled, biased, clipped block stored) on whole staging
    memrefs: the pieces the accumulator (and, in case C, the output block) ends with are the witness the run finds. -/
noncomputable def kernelRun2_C (c : Dev nD) (i : grid2.Coords) (arg3 : Memref sig .tc .vmem S1024x512 .f32) (harg3 : arg3.IsWhole) (arg4 : Memref sig .tc .vmem S512x1024 .bf16) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x1024 .f32) (harg7 : arg7.IsWhole) (arg8 : Memref sig .tc .vmem S1024x1024 .f32) (harg8 : arg8.IsWhole) (arg9 : Memref sig .tc .vmem S1024x1024 .f32) (harg9 : arg9.IsWhole) (hc0 : ¬cond2_0 i) (hc1 : cond2_1 i)
    (x0 : Vec F S1024x512 .f32) (x1 : Vec F S512x1024 .bf16) (x2 : Vec F S1x1024 .f32) (x3 : Vec F S1x1024 .f32) (x4 : Vec F S1024x1024 .f32) (xs0 : Vec F S1024x1024 .f32) :
    Σ' (LO : List (View.Piece (Elt F) S1024x1024 .f32)), { LS : List (View.Piece (Elt F) S1024x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ owns (c : Thread nD τ) arg9 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ f, arg8.view.loc (c : Thread nD τ) ↦[arg8.view.set]{fullShare} arg8.view.writes (Elt F) f LO) ∗ (∃ f, arg9.view.loc (c : Thread nD τ) ↦[arg9.view.set]{fullShare} arg9.view.writes (Elt F) f LS)) -∗ K ⟨⟩))
          ⊢ wp frame (wpE (defs₀ (F := F)) Variants.none c none) E (cc2__mm2_kernel i arg3 harg3 arg4 harg4 arg5 harg5 arg6 harg6 arg7 harg7 arg8 harg8 arg9 harg9) K } := by
  refine ⟨?_, ?_, fun E K => ?run⟩
  case run =>
    simp only [cc2__mm2_kernel_eq_skeleton]; unfold cc2__mm2_kernel_skel
    unfold owns
    iintro ⟨⟨%f0, %hf0, H0⟩, ⟨%f1, %hf1, H1⟩, ⟨%f2, %hf2, H2⟩, ⟨%f3, %hf3, H3⟩, ⟨%f4, %hf4, H4⟩, ⟨%dO, %fo, -, HO⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg9.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [HO]; · iexists _; iexact HO
    iexists _; iexact HS0

/-! ## What each case leaves -/

/-- What case A leaves in the output's staging buffer: its pieces read back (none: a placeholder nothing consults, the window being idle and not written back at these points). -/
def out2_A (c : Dev nD) (i : grid2.Coords) (arg3 : Memref sig .tc .vmem S1024x512 .f32) (harg3 : arg3.IsWhole) (arg4 : Memref sig .tc .vmem S512x1024 .bf16) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x1024 .f32) (harg7 : arg7.IsWhole) (arg8 : Memref sig .tc .vmem S1024x1024 .f32) (harg8 : arg8.IsWhole) (arg9 : Memref sig .tc .vmem S1024x1024 .f32) (harg9 : arg9.IsWhole) (hc0 : cond2_0 i) (hc1 : ¬cond2_1 i)
    (x0 : Vec F S1024x512 .f32) (x1 : Vec F S512x1024 .bf16) (x2 : Vec F S1x1024 .f32) (x3 : Vec F S1x1024 .f32) (x4 : Vec F S1024x1024 .f32) : Vec F S1024x1024 .f32 :=
  VO2.read (Elt F) (VO2.writes (Elt F) VO2.junk (kernelRun2_A c i arg3 harg3 arg4 harg4 arg5 harg5 arg6 harg6 arg7 harg7 arg8 harg8 arg9 harg9 hc0 hc1 x0 x1 x2 x3 x4).1)

/-- Case A's pieces for the accumulator tile it, so they cover it. -/
theorem scover2_A (c : Dev nD) (i : grid2.Coords) (arg3 : Memref sig .tc .vmem S1024x512 .f32) (harg3 : arg3.IsWhole) (arg4 : Memref sig .tc .vmem S512x1024 .bf16) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x1024 .f32) (harg7 : arg7.IsWhole) (arg8 : Memref sig .tc .vmem S1024x1024 .f32) (harg8 : arg8.IsWhole) (arg9 : Memref sig .tc .vmem S1024x1024 .f32) (harg9 : arg9.IsWhole) (hc0 : cond2_0 i) (hc1 : ¬cond2_1 i)
    (x0 : Vec F S1024x512 .f32) (x1 : Vec F S512x1024 .bf16) (x2 : Vec F S1x1024 .f32) (x3 : Vec F S1x1024 .f32) (x4 : Vec F S1024x1024 .f32) (y : S1024x1024.Idx) :
    ∃ pc ∈ (kernelRun2_A c i arg3 harg3 arg4 harg4 arg5 harg5 arg6 harg6 arg7 harg7 arg8 harg8 arg9 harg9 hc0 hc1 x0 x1 x2 x3 x4).2.1, y ∈ pc.1.set :=
  View.cover_of_tiledL (kernelRun2_A c i arg3 harg3 arg4 harg4 arg5 harg5 arg6 harg6 arg7 harg7 arg8 harg8 arg9 harg9 hc0 hc1 x0 x1 x2 x3 x4).2.1 S1024x1024.size (by sl_kernel_rfl) y

/-- What case A leaves in the accumulator: its pieces read back. -/
def sout2_A (c : Dev nD) (i : grid2.Coords) (arg3 : Memref sig .tc .vmem S1024x512 .f32) (harg3 : arg3.IsWhole) (arg4 : Memref sig .tc .vmem S512x1024 .bf16) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x1024 .f32) (harg7 : arg7.IsWhole) (arg8 : Memref sig .tc .vmem S1024x1024 .f32) (harg8 : arg8.IsWhole) (arg9 : Memref sig .tc .vmem S1024x1024 .f32) (harg9 : arg9.IsWhole) (hc0 : cond2_0 i) (hc1 : ¬cond2_1 i)
    (x0 : Vec F S1024x512 .f32) (x1 : Vec F S512x1024 .bf16) (x2 : Vec F S1x1024 .f32) (x3 : Vec F S1x1024 .f32) (x4 : Vec F S1024x1024 .f32) : Vec F S1024x1024 .f32 :=
  VS2.read (Elt F) (VS2.writes (Elt F) VS2.junk (kernelRun2_A c i arg3 harg3 arg4 harg4 arg5 harg5 arg6 harg6 arg7 harg7 arg8 harg8 arg9 harg9 hc0 hc1 x0 x1 x2 x3 x4).2.1)

/-- What case B leaves in the output's staging buffer: its pieces read back (none: a placeholder nothing consults, the window being idle and not written back at these points). -/
def out2_B (c : Dev nD) (i : grid2.Coords) (arg3 : Memref sig .tc .vmem S1024x512 .f32) (harg3 : arg3.IsWhole) (arg4 : Memref sig .tc .vmem S512x1024 .bf16) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x1024 .f32) (harg7 : arg7.IsWhole) (arg8 : Memref sig .tc .vmem S1024x1024 .f32) (harg8 : arg8.IsWhole) (arg9 : Memref sig .tc .vmem S1024x1024 .f32) (harg9 : arg9.IsWhole) (hc0 : ¬cond2_0 i) (hc1 : ¬cond2_1 i)
    (x0 : Vec F S1024x512 .f32) (x1 : Vec F S512x1024 .bf16) (x2 : Vec F S1x1024 .f32) (x3 : Vec F S1x1024 .f32) (x4 : Vec F S1024x1024 .f32) (xs0 : Vec F S1024x1024 .f32) : Vec F S1024x1024 .f32 :=
  VO2.read (Elt F) (VO2.writes (Elt F) VO2.junk (kernelRun2_B c i arg3 harg3 arg4 harg4 arg5 harg5 arg6 harg6 arg7 harg7 arg8 harg8 arg9 harg9 hc0 hc1 x0 x1 x2 x3 x4 xs0).1)

/-- Case B's pieces for the accumulator tile it, so they cover it. -/
theorem scover2_B (c : Dev nD) (i : grid2.Coords) (arg3 : Memref sig .tc .vmem S1024x512 .f32) (harg3 : arg3.IsWhole) (arg4 : Memref sig .tc .vmem S512x1024 .bf16) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x1024 .f32) (harg7 : arg7.IsWhole) (arg8 : Memref sig .tc .vmem S1024x1024 .f32) (harg8 : arg8.IsWhole) (arg9 : Memref sig .tc .vmem S1024x1024 .f32) (harg9 : arg9.IsWhole) (hc0 : ¬cond2_0 i) (hc1 : ¬cond2_1 i)
    (x0 : Vec F S1024x512 .f32) (x1 : Vec F S512x1024 .bf16) (x2 : Vec F S1x1024 .f32) (x3 : Vec F S1x1024 .f32) (x4 : Vec F S1024x1024 .f32) (xs0 : Vec F S1024x1024 .f32) (y : S1024x1024.Idx) :
    ∃ pc ∈ (kernelRun2_B c i arg3 harg3 arg4 harg4 arg5 harg5 arg6 harg6 arg7 harg7 arg8 harg8 arg9 harg9 hc0 hc1 x0 x1 x2 x3 x4 xs0).2.1, y ∈ pc.1.set :=
  View.cover_of_tiledL (kernelRun2_B c i arg3 harg3 arg4 harg4 arg5 harg5 arg6 harg6 arg7 harg7 arg8 harg8 arg9 harg9 hc0 hc1 x0 x1 x2 x3 x4 xs0).2.1 S1024x1024.size (by sl_kernel_rfl) y

/-- What case B leaves in the accumulator: its pieces read back. -/
def sout2_B (c : Dev nD) (i : grid2.Coords) (arg3 : Memref sig .tc .vmem S1024x512 .f32) (harg3 : arg3.IsWhole) (arg4 : Memref sig .tc .vmem S512x1024 .bf16) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x1024 .f32) (harg7 : arg7.IsWhole) (arg8 : Memref sig .tc .vmem S1024x1024 .f32) (harg8 : arg8.IsWhole) (arg9 : Memref sig .tc .vmem S1024x1024 .f32) (harg9 : arg9.IsWhole) (hc0 : ¬cond2_0 i) (hc1 : ¬cond2_1 i)
    (x0 : Vec F S1024x512 .f32) (x1 : Vec F S512x1024 .bf16) (x2 : Vec F S1x1024 .f32) (x3 : Vec F S1x1024 .f32) (x4 : Vec F S1024x1024 .f32) (xs0 : Vec F S1024x1024 .f32) : Vec F S1024x1024 .f32 :=
  VS2.read (Elt F) (VS2.writes (Elt F) VS2.junk (kernelRun2_B c i arg3 harg3 arg4 harg4 arg5 harg5 arg6 harg6 arg7 harg7 arg8 harg8 arg9 harg9 hc0 hc1 x0 x1 x2 x3 x4 xs0).2.1)

/-- Case C's pieces for the output block tile it, so they cover it. -/
theorem cover2_C (c : Dev nD) (i : grid2.Coords) (arg3 : Memref sig .tc .vmem S1024x512 .f32) (harg3 : arg3.IsWhole) (arg4 : Memref sig .tc .vmem S512x1024 .bf16) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x1024 .f32) (harg7 : arg7.IsWhole) (arg8 : Memref sig .tc .vmem S1024x1024 .f32) (harg8 : arg8.IsWhole) (arg9 : Memref sig .tc .vmem S1024x1024 .f32) (harg9 : arg9.IsWhole) (hc0 : ¬cond2_0 i) (hc1 : cond2_1 i)
    (x0 : Vec F S1024x512 .f32) (x1 : Vec F S512x1024 .bf16) (x2 : Vec F S1x1024 .f32) (x3 : Vec F S1x1024 .f32) (x4 : Vec F S1024x1024 .f32) (xs0 : Vec F S1024x1024 .f32) (y : S1024x1024.Idx) :
    ∃ pc ∈ (kernelRun2_C c i arg3 harg3 arg4 harg4 arg5 harg5 arg6 harg6 arg7 harg7 arg8 harg8 arg9 harg9 hc0 hc1 x0 x1 x2 x3 x4 xs0).1, y ∈ pc.1.set :=
  View.cover_of_tiledL (kernelRun2_C c i arg3 harg3 arg4 harg4 arg5 harg5 arg6 harg6 arg7 harg7 arg8 harg8 arg9 harg9 hc0 hc1 x0 x1 x2 x3 x4 xs0).1 S1024x1024.size (by sl_kernel_rfl) y

/-- What case C leaves in the output's staging buffer: its pieces read back. -/
def out2_C (c : Dev nD) (i : grid2.Coords) (arg3 : Memref sig .tc .vmem S1024x512 .f32) (harg3 : arg3.IsWhole) (arg4 : Memref sig .tc .vmem S512x1024 .bf16) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x1024 .f32) (harg7 : arg7.IsWhole) (arg8 : Memref sig .tc .vmem S1024x1024 .f32) (harg8 : arg8.IsWhole) (arg9 : Memref sig .tc .vmem S1024x1024 .f32) (harg9 : arg9.IsWhole) (hc0 : ¬cond2_0 i) (hc1 : cond2_1 i)
    (x0 : Vec F S1024x512 .f32) (x1 : Vec F S512x1024 .bf16) (x2 : Vec F S1x1024 .f32) (x3 : Vec F S1x1024 .f32) (x4 : Vec F S1024x1024 .f32) (xs0 : Vec F S1024x1024 .f32) : Vec F S1024x1024 .f32 :=
  VO2.read (Elt F) (VO2.writes (Elt F) VO2.junk (kernelRun2_C c i arg3 harg3 arg4 harg4 arg5 harg5 arg6 harg6 arg7 harg7 arg8 harg8 arg9 harg9 hc0 hc1 x0 x1 x2 x3 x4 xs0).1)

/-- Case C's pieces for the accumulator tile it, so they cover it. -/
theorem scover2_C (c : Dev nD) (i : grid2.Coords) (arg3 : Memref sig .tc .vmem S1024x512 .f32) (harg3 : arg3.IsWhole) (arg4 : Memref sig .tc .vmem S512x1024 .bf16) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x1024 .f32) (harg7 : arg7.IsWhole) (arg8 : Memref sig .tc .vmem S1024x1024 .f32) (harg8 : arg8.IsWhole) (arg9 : Memref sig .tc .vmem S1024x1024 .f32) (harg9 : arg9.IsWhole) (hc0 : ¬cond2_0 i) (hc1 : cond2_1 i)
    (x0 : Vec F S1024x512 .f32) (x1 : Vec F S512x1024 .bf16) (x2 : Vec F S1x1024 .f32) (x3 : Vec F S1x1024 .f32) (x4 : Vec F S1024x1024 .f32) (xs0 : Vec F S1024x1024 .f32) (y : S1024x1024.Idx) :
    ∃ pc ∈ (kernelRun2_C c i arg3 harg3 arg4 harg4 arg5 harg5 arg6 harg6 arg7 harg7 arg8 harg8 arg9 harg9 hc0 hc1 x0 x1 x2 x3 x4 xs0).2.1, y ∈ pc.1.set :=
  View.cover_of_tiledL (kernelRun2_C c i arg3 harg3 arg4 harg4 arg5 harg5 arg6 harg6 arg7 harg7 arg8 harg8 arg9 harg9 hc0 hc1 x0 x1 x2 x3 x4 xs0).2.1 S1024x1024.size (by sl_kernel_rfl) y

/-- What case C leaves in the accumulator: its pieces read back. -/
def sout2_C (c : Dev nD) (i : grid2.Coords) (arg3 : Memref sig .tc .vmem S1024x512 .f32) (harg3 : arg3.IsWhole) (arg4 : Memref sig .tc .vmem S512x1024 .bf16) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x1024 .f32) (harg7 : arg7.IsWhole) (arg8 : Memref sig .tc .vmem S1024x1024 .f32) (harg8 : arg8.IsWhole) (arg9 : Memref sig .tc .vmem S1024x1024 .f32) (harg9 : arg9.IsWhole) (hc0 : ¬cond2_0 i) (hc1 : cond2_1 i)
    (x0 : Vec F S1024x512 .f32) (x1 : Vec F S512x1024 .bf16) (x2 : Vec F S1x1024 .f32) (x3 : Vec F S1x1024 .f32) (x4 : Vec F S1024x1024 .f32) (xs0 : Vec F S1024x1024 .f32) : Vec F S1024x1024 .f32 :=
  VS2.read (Elt F) (VS2.writes (Elt F) VS2.junk (kernelRun2_C c i arg3 harg3 arg4 harg4 arg5 harg5 arg6 harg6 arg7 harg7 arg8 harg8 arg9 harg9 hc0 hc1 x0 x1 x2 x3 x4 xs0).2.1)

/-! ## What the output block and the accumulator hold after each grid point -/

/-- After position `n`: (the output's staging buffer, the accumulator) — the case the point is in, run at the point's
    memrefs and input blocks, over the accumulator as the point before left it. -/
def outsAt2 (c : Dev nD) : (n : ℕ) → n < cfg2.N → Vec F S1024x1024 .f32 × Vec F S1024x1024 .f32
  | 0, hn => (out2_A c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) scM2 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩) (iblk2 V c 3 ⟨0, hn⟩) (iblk2 V c 4 ⟨0, hn⟩), sout2_A c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) scM2 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩) (iblk2 V c 3 ⟨0, hn⟩) (iblk2 V c 4 ⟨0, hn⟩))
  | n + 1, hn =>
    if h0 : (n + 1) % 16 = 0 then
      if h1 : (n + 1) % 16 = 15 then
        False.elim (by omega)
      else
        (out2_A c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) scM2 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩), sout2_A c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) scM2 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩))
    else
      if h1 : (n + 1) % 16 = 15 then
        (out2_C c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) scM2 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (outsAt2 c n (Nat.lt_of_succ_lt hn)).2, sout2_C c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) scM2 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (outsAt2 c n (Nat.lt_of_succ_lt hn)).2)
      else
        (out2_B c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) scM2 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (outsAt2 c n (Nat.lt_of_succ_lt hn)).2, sout2_B c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) scM2 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (outsAt2 c n (Nat.lt_of_succ_lt hn)).2)

theorem outsAt2_A (c : Dev nD) (t : Fin cfg2.N) (h0 : t.val % 16 = 0) (h1 : ¬t.val % 16 = 15) :
    outsAt2 V c t.val t.isLt = (out2_A c (grid2.coords t) (ms2_0 t) (hs2_0 t) (ms2_1 t) (hs2_1 t) (ms2_2 t) (hs2_2 t) (ms2_3 t) (hs2_3 t) (ms2_4 t) (hs2_4 t) (ms2_5 t) (hs2_5 t) scM2 (Memref.isWhole_whole _) ((hcond2_0 t).mpr h0) (fun h => h1 ((hcond2_1 t).mp h)) (iblk2 V c 0 t) (iblk2 V c 1 t) (iblk2 V c 2 t) (iblk2 V c 3 t) (iblk2 V c 4 t), sout2_A c (grid2.coords t) (ms2_0 t) (hs2_0 t) (ms2_1 t) (hs2_1 t) (ms2_2 t) (hs2_2 t) (ms2_3 t) (hs2_3 t) (ms2_4 t) (hs2_4 t) (ms2_5 t) (hs2_5 t) scM2 (Memref.isWhole_whole _) ((hcond2_0 t).mpr h0) (fun h => h1 ((hcond2_1 t).mp h)) (iblk2 V c 0 t) (iblk2 V c 1 t) (iblk2 V c 2 t) (iblk2 V c 3 t) (iblk2 V c 4 t)) := by
  obtain ⟨n, hn⟩ := t
  cases n with
  | zero => exact rfl
  | succ n => exact (dif_pos h0).trans ((dif_neg h1).trans rfl)

theorem outsAt2_B (c : Dev nD) (t : Fin cfg2.N) (h0 : ¬t.val % 16 = 0) (h1 : ¬t.val % 16 = 15) :
    outsAt2 V c t.val t.isLt = (out2_B c (grid2.coords t) (ms2_0 t) (hs2_0 t) (ms2_1 t) (hs2_1 t) (ms2_2 t) (hs2_2 t) (ms2_3 t) (hs2_3 t) (ms2_4 t) (hs2_4 t) (ms2_5 t) (hs2_5 t) scM2 (Memref.isWhole_whole _) (fun h => h0 ((hcond2_0 t).mp h)) (fun h => h1 ((hcond2_1 t).mp h)) (iblk2 V c 0 t) (iblk2 V c 1 t) (iblk2 V c 2 t) (iblk2 V c 3 t) (iblk2 V c 4 t) (outsAt2 V c (t.val - 1) (Nat.lt_of_le_of_lt (Nat.sub_le _ _) t.isLt)).2, sout2_B c (grid2.coords t) (ms2_0 t) (hs2_0 t) (ms2_1 t) (hs2_1 t) (ms2_2 t) (hs2_2 t) (ms2_3 t) (hs2_3 t) (ms2_4 t) (hs2_4 t) (ms2_5 t) (hs2_5 t) scM2 (Memref.isWhole_whole _) (fun h => h0 ((hcond2_0 t).mp h)) (fun h => h1 ((hcond2_1 t).mp h)) (iblk2 V c 0 t) (iblk2 V c 1 t) (iblk2 V c 2 t) (iblk2 V c 3 t) (iblk2 V c 4 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt2_C (c : Dev nD) (t : Fin cfg2.N) (h0 : ¬t.val % 16 = 0) (h1 : t.val % 16 = 15) :
    outsAt2 V c t.val t.isLt = (out2_C c (grid2.coords t) (ms2_0 t) (hs2_0 t) (ms2_1 t) (hs2_1 t) (ms2_2 t) (hs2_2 t) (ms2_3 t) (hs2_3 t) (ms2_4 t) (hs2_4 t) (ms2_5 t) (hs2_5 t) scM2 (Memref.isWhole_whole _) (fun h => h0 ((hcond2_0 t).mp h)) ((hcond2_1 t).mpr h1) (iblk2 V c 0 t) (iblk2 V c 1 t) (iblk2 V c 2 t) (iblk2 V c 3 t) (iblk2 V c 4 t) (outsAt2 V c (t.val - 1) (Nat.lt_of_le_of_lt (Nat.sub_le _ _) t.isLt)).2, sout2_C c (grid2.coords t) (ms2_0 t) (hs2_0 t) (ms2_1 t) (hs2_1 t) (ms2_2 t) (hs2_2 t) (ms2_3 t) (hs2_3 t) (ms2_4 t) (hs2_4 t) (ms2_5 t) (hs2_5 t) scM2 (Memref.isWhole_whole _) (fun h => h0 ((hcond2_0 t).mp h)) ((hcond2_1 t).mpr h1) (iblk2 V c 0 t) (iblk2 V c 1 t) (iblk2 V c 2 t) (iblk2 V c 3 t) (iblk2 V c 4 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region's invariant before position `n`: before the first point the class's (the accumulator at anything);
    afterwards the accumulator at what the point before left in it, the other scoped buffers untouched, the generator
    register at some state. -/
def PhiS2 (c : Dev nD) : (n : ℕ) → n ≤ cfg2.N → sProp 𝕄
  | 0, _ => Pipeline.ΦA spec2 c
  | n + 1, hn => iprop(iprop(owns (c : Thread nD τ) scM2 fullShare ((outsAt2 V c n hn).2) ∗ restBut2 (F := F) c) ∗ (∃ r, prngReg c r))

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop(iprop(owns (c : Thread nD τ) scM2 fullShare ((outsAt2 V c n hn).2) ∗ restBut2 (F := F) c) ∗ (∃ r, prngReg c r)) := rfl

theorem PhiS2_pos (c : Dev nD) (n : ℕ) (h : n ≤ cfg2.N) (hz : n ≠ 0) :
    PhiS2 V c n h = iprop(iprop(owns (c : Thread nD τ) scM2 fullShare ((outsAt2 V c (n - 1) (by omega)).2) ∗ restBut2 (F := F) c) ∗ (∃ r, prngReg c r)) := by
  cases n with
  | zero => exact absurd rfl hz
  | succ n => rfl

/-! ## The pipeline's proof data -/

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => (outsAt2 V c t.val t.isLt).1
  Φ t := PhiS2 V c t.val (Nat.le_of_lt_succ t.isLt)
  q w := match w with
    | ⟨0, _⟩ => PosShare.left fullShare
    | ⟨1, _⟩ => fullShare
    | ⟨2, _⟩ => fullShare
    | ⟨3, _⟩ => fullShare
    | ⟨4, _⟩ => PosShare.right fullShare
    | ⟨5, _⟩ => fullShare
  owed _ := 0

theorem A_eq2 (c : Dev nD) (w : Fin cfg2.W) : (dat2 V c).A w = V c (Pipeline.arrRef spec2 w) := by
  dsimp only [dat2]

theorem PhiS2_castSucc (c : Dev nD) (t : Fin cfg2.N) :
    (dat2 V c).Φ t.castSucc = PhiS2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = (outsAt2 V c t.val t.isLt).1 := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

/-! ## The body obligation, at a generic point -/

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t)

set_option maxHeartbeats 8000000 in
/-- The body at any point: the inputs' memrefs hold their blocks; the closed forms say which case the point is in; the
    invariant hands the body the accumulator at what the point before left (at anything at the very first point) and
    takes it back at this point's contents; off the last step the output's buffer is handed back as found. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).owesAt () t.succ = (dat2 V c).owesAt () t.castSucc from rfl]
  rw [show (dat2 V c).Φ t.succ = PhiS2 V c (t.val + 1) t.isLt from rfl, PhiS2_succ]
  have hN : t.val < 1024 := lt_of_lt_of_eq t.isLt (show cfg2.N = 1024 from N_2)
  by_cases h0 : t.val % 16 = 0
  · by_cases h1 : t.val % 16 = 15
    · exfalso; omega
    ·
      rw [show (dat2 V c).leavesExact 0 t = owns (c : Thread nD τ) (ms2_0 t) fullShare ((dat2 V c).after 0 t) from by
        unfold Dat.leavesExact; rw [liveAt2_0 t], after2_0]
      rw [show (dat2 V c).leavesExact 1 t = owns (c : Thread nD τ) (ms2_1 t) fullShare ((dat2 V c).after 1 t) from by
        unfold Dat.leavesExact; rw [liveAt2_1 t], after2_1]
      rw [show (dat2 V c).leavesExact 2 t = owns (c : Thread nD τ) (ms2_2 t) fullShare ((dat2 V c).after 2 t) from by
        unfold Dat.leavesExact; rw [liveAt2_2 t], after2_2]
      rw [show (dat2 V c).leavesExact 3 t = owns (c : Thread nD τ) (ms2_3 t) fullShare ((dat2 V c).after 3 t) from by
        unfold Dat.leavesExact; rw [liveAt2_3 t], after2_3]
      rw [show (dat2 V c).leavesExact 4 t = owns (c : Thread nD τ) (ms2_4 t) fullShare ((dat2 V c).after 4 t) from by
        unfold Dat.leavesExact; rw [liveAt2_4 t], after2_4]
      rw [Dat.leavesExact_idle (dat2 V c) 5 t (idleAt2_A t ((hcond2_0 t).mpr h0) (fun h => h1 ((hcond2_1 t).mp h))) (noFlush2_A t ((hcond2_0 t).mpr h0) (fun h => h1 ((hcond2_1 t).mp h)))]
      rw [outsAt2_A V c t h0 h1]
      unfold sout2_A; (try dsimp only)
      by_cases hz : t.val = 0
      ·
        rw [PhiS2_castSucc V c t, PhiS2_zero V c _ _ hz, PhiA2_eq]
        iintro ⟨⟨⟨HS0, HRB⟩, Hg⟩, Ho, ⟨%d0, H0⟩, ⟨%d1, H1⟩, ⟨%d2, H2⟩, ⟨%d3, H3⟩, ⟨%d4, H4⟩, ⟨%d5, H5⟩⟩
        iapply ((kernelRun2_A c (grid2.coords t) _ _ _ _ _ _ _ _ _ _ _ _ _ _ ((hcond2_0 t).mpr h0) (fun h => h1 ((hcond2_1 t).mp h)) (iblk2 V c 0 t) (iblk2 V c 1 t) (iblk2 V c 2 t) (iblk2 V c 3 t) (iblk2 V c 4 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        iintro ⟨H0, H1, H2, H3, H4, H5, ⟨%es0, HS0⟩⟩
        isplitl [HS0 HRB Hg]
        · isplitl [HS0 HRB]
          · isplitl [HS0]
            · unfold owns; iexists _; isplitr
              swap; · iexact HS0
              ipureintro; exact View.read_writes_of_cover _ _ _ _ _ (scover2_A c _ _ _ _ _ _ _ _ _ _ _ _ _ _ _ _ _ _ _ _ _ _)
            iexact HRB
          iexact Hg
        isplitl [Ho]; · iexact Ho
        isplitl [H0]; · iexact H0
        isplitl [H1]; · iexact H1
        isplitl [H2]; · iexact H2
        isplitl [H3]; · iexact H3
        isplitl [H4]; · iexact H4
        iexists _; iexact H5
      ·
        rw [PhiS2_castSucc V c t, PhiS2_pos V c _ _ hz]
        iintro ⟨⟨⟨HS0, HRB⟩, Hg⟩, Ho, ⟨%d0, H0⟩, ⟨%d1, H1⟩, ⟨%d2, H2⟩, ⟨%d3, H3⟩, ⟨%d4, H4⟩, ⟨%d5, H5⟩⟩
        iapply ((kernelRun2_A c (grid2.coords t) _ _ _ _ _ _ _ _ _ _ _ _ _ _ ((hcond2_0 t).mpr h0) (fun h => h1 ((hcond2_1 t).mp h)) (iblk2 V c 0 t) (iblk2 V c 1 t) (iblk2 V c 2 t) (iblk2 V c 3 t) (iblk2 V c 4 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexists _; iexact HS0
        iintro ⟨H0, H1, H2, H3, H4, H5, ⟨%es0, HS0⟩⟩
        isplitl [HS0 HRB Hg]
        · isplitl [HS0 HRB]
          · isplitl [HS0]
            · unfold owns; iexists _; isplitr
              swap; · iexact HS0
              ipureintro; exact View.read_writes_of_cover _ _ _ _ _ (scover2_A c _ _ _ _ _ _ _ _ _ _ _ _ _ _ _ _ _ _ _ _ _ _)
            iexact HRB
          iexact Hg
        isplitl [Ho]; · iexact Ho
        isplitl [H0]; · iexact H0
        isplitl [H1]; · iexact H1
        isplitl [H2]; · iexact H2
        isplitl [H3]; · iexact H3
        isplitl [H4]; · iexact H4
        iexists _; iexact H5
  · by_cases h1 : t.val % 16 = 15
    ·
      rw [show (dat2 V c).leavesExact 0 t = owns (c : Thread nD τ) (ms2_0 t) fullShare ((dat2 V c).after 0 t) from by
        unfold Dat.leavesExact; rw [liveAt2_0 t], after2_0]
      rw [show (dat2 V c).leavesExact 1 t = owns (c : Thread nD τ) (ms2_1 t) fullShare ((dat2 V c).after 1 t) from by
        unfold Dat.leavesExact; rw [liveAt2_1 t], after2_1]
      rw [show (dat2 V c).leavesExact 2 t = owns (c : Thread nD τ) (ms2_2 t) fullShare ((dat2 V c).after 2 t) from by
        unfold Dat.leavesExact; rw [liveAt2_2 t], after2_2]
      rw [show (dat2 V c).leavesExact 3 t = owns (c : Thread nD τ) (ms2_3 t) fullShare ((dat2 V c).after 3 t) from by
        unfold Dat.leavesExact; rw [liveAt2_3 t], after2_3]
      rw [show (dat2 V c).leavesExact 4 t = owns (c : Thread nD τ) (ms2_4 t) fullShare ((dat2 V c).after 4 t) from by
        unfold Dat.leavesExact; rw [liveAt2_4 t], after2_4]
      rw [show (dat2 V c).leavesExact 5 t = owns (c : Thread nD τ) (ms2_5 t) fullShare ((dat2 V c).after 5 t) from by
        unfold Dat.leavesExact; rw [liveAt2_C t (fun h => h0 ((hcond2_0 t).mp h)) ((hcond2_1 t).mpr h1)], after2_5]
      rw [outsAt2_C V c t h0 h1]
      unfold out2_C sout2_C; (try dsimp only)
      by_cases hz : t.val = 0
      · exfalso; omega
      ·
        rw [PhiS2_castSucc V c t, PhiS2_pos V c _ _ hz]
        iintro ⟨⟨⟨HS0, HRB⟩, Hg⟩, Ho, ⟨%d0, H0⟩, ⟨%d1, H1⟩, ⟨%d2, H2⟩, ⟨%d3, H3⟩, ⟨%d4, H4⟩, ⟨%d5, H5⟩⟩
        iapply ((kernelRun2_C c (grid2.coords t) _ _ _ _ _ _ _ _ _ _ _ _ _ _ (fun h => h0 ((hcond2_0 t).mp h)) ((hcond2_1 t).mpr h1) (iblk2 V c 0 t) (iblk2 V c 1 t) (iblk2 V c 2 t) (iblk2 V c 3 t) (iblk2 V c 4 t) _).2.2 Set.univ _)
        isplitl [H0]; · iexact H0
        isplitl [H1]; · iexact H1
        isplitl [H2]; · iexact H2
        isplitl [H3]; · iexact H3
        isplitl [H4]; · iexact H4
        isplitl [H5]; · iexists _; iexact H5
        isplitl [HS0]; · iexact HS0
        iintro ⟨H0, H1, H2, H3, H4, ⟨%e5, H5⟩, ⟨%es0, HS0⟩⟩
        isplitl [HS0 HRB Hg]
        · isplitl [HS0 HRB]
          · isplitl [HS0]
            · unfold owns; iexists _; isplitr
              swap; · iexact HS0
              ipureintro; exact View.read_writes_of_cover _ _ _ _ _ (scover2_C c _ _ _ _ _ _ _ _ _ _ _ _ _ _ _ _ _ _ _ _ _ _ _)
            iexact HRB
          iexact Hg
        isplitl [Ho]; · iexact Ho
        isplitl [H0]; · iexact H0
        isplitl [H1]; · iexact H1
        isplitl [H2]; · iexact H2
        isplitl [H3]; · iexact H3
        isplitl [H4]; · iexact H4
        unfold owns; iexists _; isplitr
        swap; · iexact H5
        ipureintro; exact View.read_writes_of_cover _ _ _ _ _ (cover2_C c _ _ _ _ _ _ _ _ _ _ _ _ _ _ _ _ _ _ _ _ _ _ _)
    ·
      rw [show (dat2 V c).leavesExact 0 t = owns (c : Thread nD τ) (ms2_0 t) fullShare ((dat2 V c).after 0 t) from by
        unfold Dat.leavesExact; rw [liveAt2_0 t], after2_0]
      rw [show (dat2 V c).leavesExact 1 t = owns (c : Thread nD τ) (ms2_1 t) fullShare ((dat2 V c).after 1 t) from by
        unfold Dat.leavesExact; rw [liveAt2_1 t], after2_1]
      rw [show (dat2 V c).leavesExact 2 t = owns (c : Thread nD τ) (ms2_2 t) fullShare ((dat2 V c).after 2 t) from by
        unfold Dat.leavesExact; rw [liveAt2_2 t], after2_2]
      rw [show (dat2 V c).leavesExact 3 t = owns (c : Thread nD τ) (ms2_3 t) fullShare ((dat2 V c).after 3 t) from by
        unfold Dat.leavesExact; rw [liveAt2_3 t], after2_3]
      rw [show (dat2 V c).leavesExact 4 t = owns (c : Thread nD τ) (ms2_4 t) fullShare ((dat2 V c).after 4 t) from by
        unfold Dat.leavesExact; rw [liveAt2_4 t], after2_4]
      rw [Dat.leavesExact_idle (dat2 V c) 5 t (idleAt2_B t (fun h => h0 ((hcond2_0 t).mp h)) (fun h => h1 ((hcond2_1 t).mp h))) (noFlush2_B t (fun h => h0 ((hcond2_0 t).mp h)) (fun h => h1 ((hcond2_1 t).mp h)))]
      rw [outsAt2_B V c t h0 h1]
      unfold sout2_B; (try dsimp only)
      by_cases hz : t.val = 0
      · exfalso; omega
      ·
        rw [PhiS2_castSucc V c t, PhiS2_pos V c _ _ hz]
        iintro ⟨⟨⟨HS0, HRB⟩, Hg⟩, Ho, ⟨%d0, H0⟩, ⟨%d1, H1⟩, ⟨%d2, H2⟩, ⟨%d3, H3⟩, ⟨%d4, H4⟩, ⟨%d5, H5⟩⟩
        iapply ((kernelRun2_B c (grid2.coords t) _ _ _ _ _ _ _ _ _ _ _ _ _ _ (fun h => h0 ((hcond2_0 t).mp h)) (fun h => h1 ((hcond2_1 t).mp h)) (iblk2 V c 0 t) (iblk2 V c 1 t) (iblk2 V c 2 t) (iblk2 V c 3 t) (iblk2 V c 4 t) _).2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        iintro ⟨H0, H1, H2, H3, H4, H5, ⟨%es0, HS0⟩⟩
        isplitl [HS0 HRB Hg]
        · isplitl [HS0 HRB]
          · isplitl [HS0]
            · unfold owns; iexists _; isplitr
              swap; · iexact HS0
              ipureintro; exact View.read_writes_of_cover _ _ _ _ _ (scover2_B c _ _ _ _ _ _ _ _ _ _ _ _ _ _ _ _ _ _ _ _ _ _ _)
            iexact HRB
          iexact Hg
        isplitl [Ho]; · iexact Ho
        isplitl [H0]; · iexact H0
        isplitl [H1]; · iexact H1
        isplitl [H2]; · iexact H2
        isplitl [H3]; · iexact H3
        isplitl [H4]; · iexact H4
        iexists _; iexact H5

theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After the last point the invariant gives the class's back: the accumulator's contents are forgotten. -/
theorem hout2 (c : Dev nD) : (dat2 V c).Φ (Fin.last cfg2.N) ⊢ Pipeline.ΦA spec2 c := by
  have ht : (Fin.last cfg2.N).val ≠ 0 := by rw [Fin.val_last]; have : cfg2.N = 1024 := N_2; omega
  rw [show (dat2 V c).Φ (Fin.last cfg2.N) = PhiS2 V c (Fin.last cfg2.N).val (Nat.le_of_lt_succ (Fin.last cfg2.N).isLt) from rfl, PhiS2_pos V c _ _ ht, PhiA2_eq]
  iintro ⟨⟨HS0, HRB⟩, Hg⟩
  isplitl [HS0 HRB]
  · isplitl [HS0]
    · iexists _; iexact HS0
    iexact HRB
  iexact Hg

end Cert.KernelIdeal.Hand

end
-- ==== Proof.I_R3.lean ====
/-
  Region 3 of the program: the row normalisation of the second layer's output followed by the head product, 128 rows
  per grid point. At any contents V of the buffers on entry: what the body leaves in the output block at each grid
  point (the pieces its one store writes, found by running the body), the pipeline's proof data, the body obligation.
-/
import proofs.«159875_j41042707481000_2_alg».proof.Proof.Gen.KernelIdeal.Launch
import proofs.«159875_j41042707481000_2_alg».proof.Proof.Gen.KernelIdeal.Skeleton
import proofs.«159875_j41042707481000_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ
variable (V : (c : Dev nD) → (b : Ref sig .tc) → Buf (Elt F) ((c : Thread nD τ).loc b))

/-- Window `w`'s block at grid point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input window's current staging buffer holds its block at every point, fetched there or not. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- An input window's current staging buffer holds its block at every point, fetched there or not. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- An input window's current staging buffer holds its block at every point, fetched there or not. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- An input window's current staging buffer holds its block at every point, fetched there or not. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-- An input window's current staging buffer holds its block at every point, fetched there or not. -/
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

/-- An input window's current staging buffer holds its block at every point, fetched there or not. -/
theorem before3_5_of {c : Dev nD} (dat : Dat τ (Elt F) Unit ℕ (UR sig nD τ) ℕ cfg3 c) (hA : dat.A 5 = V c (Pipeline.arrRef spec3 5))
    (hafter : ∀ t, dat.after 5 t = iblk3 V c 5 t) (t : Fin cfg3.N) (d) : dat.before 5 t d = iblk3 V c 5 t :=
  (dat.before_in_eq_fetched 5 rfl (fun _ => rfl) (fun _ _ _ => rfl) (fun t => by rw [hafter]; unfold Dat.blockOf iblk3; rw [hA]; try rfl) t d).trans
    (by unfold Dat.fetched Dat.blockOf iblk3; rw [hA]; try rfl)

abbrev ms3_0 (t : Fin cfg3.N) : Memref sig .tc .vmem S128x8192 .f32 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S1x8192 .f32 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S1x8192 .f32 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S8192x10 .bf16 := win3_3.stage (cfg3.slots t 3)
abbrev hs3_3 (t : Fin cfg3.N) : (ms3_3 t).IsWhole := hstage3_3 ((cfg3.slots t 3).cast nbuf3_3)
abbrev ms3_4 (t : Fin cfg3.N) : Memref sig .tc .vmem S1x10 .f32 := win3_4.stage (cfg3.slots t 4)
abbrev hs3_4 (t : Fin cfg3.N) : (ms3_4 t).IsWhole := hstage3_4 ((cfg3.slots t 4).cast nbuf3_4)
abbrev ms3_5 (t : Fin cfg3.N) : Memref sig .tc .vmem S1x10 .f32 := win3_5.stage (cfg3.slots t 5)
abbrev hs3_5 (t : Fin cfg3.N) : (ms3_5 t).IsWhole := hstage3_5 ((cfg3.slots t 5).cast nbuf3_5)
abbrev ms3_6 (t : Fin cfg3.N) : Memref sig .tc .vmem S128x10 .f32 := win3_6.stage (cfg3.slots t 6)
abbrev hs3_6 (t : Fin cfg3.N) : (ms3_6 t).IsWhole := hstage3_6 ((cfg3.slots t 6).cast nbuf3_6)

/-- One staging buffer of the output window, through which its contents are stated. -/
abbrev VO3_6 : View sig .tc .vmem S128x10 .f32 := (Memref.whole cc3_stg6_0 : Memref sig .tc .vmem S128x10 .f32).view

set_option maxHeartbeats 1000000 in
/-- The body on whole staging memrefs — the inputs' at their contents, the output's at anything — runs to the
    continuation with the inputs' as they were and the output's buffer with the body's stores written: the pieces are
    the witness the run finds. -/
noncomputable def kernelRun3 (c : Dev nD) (i : grid3.Coords) (arg1 : Memref sig .tc .vmem S128x8192 .f32) (harg1 : arg1.IsWhole) (arg2 : Memref sig .tc .vmem S1x8192 .f32) (harg2 : arg2.IsWhole) (arg3 : Memref sig .tc .vmem S1x8192 .f32) (harg3 : arg3.IsWhole) (arg4 : Memref sig .tc .vmem S8192x10 .bf16) (harg4 : arg4.IsWhole) (arg5 : Memref sig .tc .vmem S1x10 .f32) (harg5 : arg5.IsWhole) (arg6 : Memref sig .tc .vmem S1x10 .f32) (harg6 : arg6.IsWhole) (arg7 : Memref sig .tc .vmem S128x10 .f32) (harg7 : arg7.IsWhole)
    (x0 : Vec F S128x8192 .f32) (x1 : Vec F S1x8192 .f32) (x2 : Vec F S1x8192 .f32) (x3 : Vec F S8192x10 .bf16) (x4 : Vec F S1x10 .f32) (x5 : Vec F S1x10 .f32) :
    { L : List (View.Piece (Elt F) S128x10 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L)) -∗ K ⟨⟩))
          ⊢ wp frame (wpE (defs₀ (F := F)) Variants.none c none) E (cc3__ln2_head_kernel i arg1 harg1 arg2 harg2 arg3 harg3 arg4 harg4 arg5 harg5 arg6 harg6 arg7 harg7) K } := by
  refine ⟨?_, fun E K => ?run⟩
  case run =>
    simp only [cc3__ln2_head_kernel_eq_skeleton]; unfold cc3__ln2_head_kernel_skel
    simp only [k3_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    iexists _; iexact H6

/-- The run's pieces tile the output block, so they cover it. -/
theorem cover3 (c : Dev nD) (i : grid3.Coords) (arg1 : Memref sig .tc .vmem S128x8192 .f32) (harg1 : arg1.IsWhole) (arg2 : Memref sig .tc .vmem S1x8192 .f32) (harg2 : arg2.IsWhole) (arg3 : Memref sig .tc .vmem S1x8192 .f32) (harg3 : arg3.IsWhole) (arg4 : Memref sig .tc .vmem S8192x10 .bf16) (harg4 : arg4.IsWhole) (arg5 : Memref sig .tc .vmem S1x10 .f32) (harg5 : arg5.IsWhole) (arg6 : Memref sig .tc .vmem S1x10 .f32) (harg6 : arg6.IsWhole) (arg7 : Memref sig .tc .vmem S128x10 .f32) (harg7 : arg7.IsWhole)
    (x0 : Vec F S128x8192 .f32) (x1 : Vec F S1x8192 .f32) (x2 : Vec F S1x8192 .f32) (x3 : Vec F S8192x10 .bf16) (x4 : Vec F S1x10 .f32) (x5 : Vec F S1x10 .f32) (y : S128x10.Idx) :
    ∃ pc ∈ (kernelRun3 c i arg1 harg1 arg2 harg2 arg3 harg3 arg4 harg4 arg5 harg5 arg6 harg6 arg7 harg7 x0 x1 x2 x3 x4 x5).1, y ∈ pc.1.set :=
  View.cover_of_tiledL (kernelRun3 c i arg1 harg1 arg2 harg2 arg3 harg3 arg4 harg4 arg5 harg5 arg6 harg6 arg7 harg7 x0 x1 x2 x3 x4 x5).1 S128x10.size (by sl_kernel_rfl) y

/-- What the run leaves in the output's staging buffer: its pieces read back. -/
def out3 (c : Dev nD) (i : grid3.Coords) (arg1 : Memref sig .tc .vmem S128x8192 .f32) (harg1 : arg1.IsWhole) (arg2 : Memref sig .tc .vmem S1x8192 .f32) (harg2 : arg2.IsWhole) (arg3 : Memref sig .tc .vmem S1x8192 .f32) (harg3 : arg3.IsWhole) (arg4 : Memref sig .tc .vmem S8192x10 .bf16) (harg4 : arg4.IsWhole) (arg5 : Memref sig .tc .vmem S1x10 .f32) (harg5 : arg5.IsWhole) (arg6 : Memref sig .tc .vmem S1x10 .f32) (harg6 : arg6.IsWhole) (arg7 : Memref sig .tc .vmem S128x10 .f32) (harg7 : arg7.IsWhole)
    (x0 : Vec F S128x8192 .f32) (x1 : Vec F S1x8192 .f32) (x2 : Vec F S1x8192 .f32) (x3 : Vec F S8192x10 .bf16) (x4 : Vec F S1x10 .f32) (x5 : Vec F S1x10 .f32) : Vec F S128x10 .f32 :=
  VO3_6.read (Elt F) (VO3_6.writes (Elt F) VO3_6.junk (kernelRun3 c i arg1 harg1 arg2 harg2 arg3 harg3 arg4 harg4 arg5 harg5 arg6 harg6 arg7 harg7 x0 x1 x2 x3 x4 x5).1)

/-- The output's staging buffer after the body at point `t`: the run at the point's memrefs and input blocks. -/
def outsAt3 (c : Dev nD) (t : Fin cfg3.N) : Vec F S128x10 .f32 :=
  out3 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (iblk3 V c 0 t) (iblk3 V c 1 t) (iblk3 V c 2 t) (iblk3 V c 3 t) (iblk3 V c 4 t) (iblk3 V c 5 t)

/-- The proof data of this pipeline on core `c`: the arrays as the region finds them; after the body each input's
    buffer at its block and the output's at the run's contents; the invariant the scoped rest and the generator
    register, untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => outsAt3 V c t
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) : (dat3 V c).after 6 t = outsAt3 V c t := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d
theorem before3_5 (c : Dev nD) (t : Fin cfg3.N) (d) : (dat3 V c).before 5 t d = iblk3 V c 5 t :=
  before3_5_of V (dat3 V c) (A_eq3 V c 5) (after3_5 V c) t d

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d))
    ∗ (∃ d, owns (c : Thread nD τ) (ms3_3 t) fullShare ((dat3 V c).before 3 t d))
    ∗ (∃ d, owns (c : Thread nD τ) (ms3_4 t) fullShare ((dat3 V c).before 4 t d))
    ∗ (∃ d, owns (c : Thread nD τ) (ms3_5 t) fullShare ((dat3 V c).before 5 t d))
    ∗ (∃ d, owns (c : Thread nD τ) (ms3_6 t) fullShare ((dat3 V c).before 6 t d)))

/-- and what it returns. -/
def bodyPost3 (c : Dev nD) (t : Fin cfg3.N) : sProp 𝕄 :=
  iprop((dat3 V c).Φ t.succ ∗ (dat3 V c).owesAt () t.succ
    ∗ owns (c : Thread nD τ) (ms3_0 t) fullShare ((dat3 V c).after 0 t)
    ∗ owns (c : Thread nD τ) (ms3_1 t) fullShare ((dat3 V c).after 1 t)
    ∗ owns (c : Thread nD τ) (ms3_2 t) fullShare ((dat3 V c).after 2 t)
    ∗ owns (c : Thread nD τ) (ms3_3 t) fullShare ((dat3 V c).after 3 t)
    ∗ owns (c : Thread nD τ) (ms3_4 t) fullShare ((dat3 V c).after 4 t)
    ∗ owns (c : Thread nD τ) (ms3_5 t) fullShare ((dat3 V c).after 5 t)
    ∗ owns (c : Thread nD τ) (ms3_6 t) fullShare ((dat3 V c).after 6 t))

set_option maxHeartbeats 4000000 in
/-- The body at any point: the inputs' memrefs hold their blocks, so the run applies; the invariant and the core's
    `owes` pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5]
  rw [show (dat3 V c).Φ t.succ = (dat3 V c).Φ t.castSucc from rfl,
    show (dat3 V c).owesAt () t.succ = (dat3 V c).owesAt () t.castSucc from rfl,
    after3_0, after3_1, after3_2, after3_3, after3_4, after3_5, after3_6]
  unfold outsAt3 out3
  iintro ⟨HΦ, Ho, ⟨%d0, H0⟩, ⟨%d1, H1⟩, ⟨%d2, H2⟩, ⟨%d3, H3⟩, ⟨%d4, H4⟩, ⟨%d5, H5⟩, ⟨%d6, H6⟩⟩
  iapply ((kernelRun3 c (grid3.coords t) _ _ _ _ _ _ _ _ _ _ _ _ _ _ (iblk3 V c 0 t) (iblk3 V c 1 t) (iblk3 V c 2 t) (iblk3 V c 3 t) (iblk3 V c 4 t) (iblk3 V c 5 t)).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, ⟨%e6, H6⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  unfold owns; iexists _; isplitr
  swap; · iexact H6
  ipureintro; exact View.read_writes_of_cover _ _ _ _ _ (cover3 c _ _ _ _ _ _ _ _ _ _ _ _ _ _ _ _ _ _ _ _ _)

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.KernelIdeal.Hand

end
-- ==== Proof.I_Run.lean ====
/-
  The whole program's run. @main is nine segments: two stretches of host operations (the three weight matrices
  softened entry by entry, two vectors laid out as rows), the first matrix-product region, two more rows laid out, the
  first row-normalisation region, two rows, the second matrix-product region, four rows, the normalisation-and-head
  region. The buffer contents at each segment boundary are a fold from the launch memory (a stretch applies its
  operations; a region leaves its input arrays as entered and its output array at what its write-backs fold to, every
  other buffer untouched). Each region enters from "every unscoped buffer at the boundary's contents", splits its
  arrays out, and puts them back at the exit contents; the second matrix-product region reads one array through two
  windows (as the left operand and as the residual), which hold the two halves of that array's share meanwhile.
  The run ends with every unscoped buffer at the last boundary's contents; the argument arrays are read back through
  the fold to their launch contents (no operation and no region writes one).
-/
import proofs.«159875_j41042707481000_2_alg».proof.Proof.I_R0
import proofs.«159875_j41042707481000_2_alg».proof.Proof.I_R1
import proofs.«159875_j41042707481000_2_alg».proof.Proof.I_R2
import proofs.«159875_j41042707481000_2_alg».proof.Proof.I_R3

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ
variable (m : (ℓ : Loc nD τ sig) → Buf (Elt F) ℓ) (ρ : Dev nD → PrngReg)

/-! ## The buffer contents at each segment boundary -/

abbrev W0 : Dev nD → Valuation τ sig (Elt F) := fun c b => (s₀ m ρ).mem ((c : Dev nD), b)
abbrev W1 : Dev nD → Valuation τ sig (Elt F) := fun c => StableHlo.after main_part0_ops0 (W0 m ρ c)
abbrev W2 : Dev nD → Valuation τ sig (Elt F) := fun c => StableHlo.after main_part1_ops0 (W1 m ρ c)
abbrev V2 : (c : Dev nD) → (b : Ref sig .tc) → Buf (Elt F) ((c : Thread nD τ).loc b) := fun c b => W2 m ρ c b
/-- At region 0's exit: its arrays at what the pipeline leaves, every other buffer as entered. -/
def W3 (c : Dev nD) : Valuation τ sig (Elt F) :=
  Pipeline.withArrays spec0 c (W2 m ρ c) fun w => (dat0 (V2 m ρ) c).arrAt w cfg0.N
theorem W3_arr (c : Dev nD) (w : Fin cfg0.W) :
    W3 m ρ c (Proc.devRef .tc (Pipeline.arrRef spec0 w)) = (dat0 (V2 m ρ) c).arrAt w cfg0.N := by
  unfold W3; exact Pipeline.withArrays_arr spec0 launch0.win.arr_inj c _ _ w
theorem W3_of_ne (c : Dev nD) (b : Ref sig .tc) (hb : ∀ w, Pipeline.arrRef spec0 w ≠ b) :
    W3 m ρ c (Proc.devRef .tc b) = W2 m ρ c (Proc.devRef .tc b) := by
  unfold W3; exact Pipeline.withArrays_of_ne spec0 c _ _ b hb
abbrev V3 : (c : Dev nD) → (b : Ref sig .tc) → Buf (Elt F) ((c : Thread nD τ).loc b) := fun c b => W3 m ρ c b
theorem hF0 (c : Dev nD) (w : Fin cfg0.W) : (dat0 (V2 m ρ) c).arrAt w cfg0.N = V3 m ρ c (Pipeline.arrRef spec0 w) :=
  (W3_arr m ρ c w).symm
theorem hrest0 (c : Dev nD) : ∀ b, b ∉ Finset.univ.image (Pipeline.arrRef spec0) → V3 m ρ c b = V2 m ρ c b :=
  fun b hb => W3_of_ne m ρ c b fun w e => hb (Finset.mem_image.mpr ⟨w, Finset.mem_univ _, e⟩)
abbrev W4 : Dev nD → Valuation τ sig (Elt F) := fun c => StableHlo.after main_part1_ops1 (W3 m ρ c)
abbrev V4 : (c : Dev nD) → (b : Ref sig .tc) → Buf (Elt F) ((c : Thread nD τ).loc b) := fun c b => W4 m ρ c b
/-- At region 1's exit: its arrays at what the pipeline leaves, every other buffer as entered. -/
def W5 (c : Dev nD) : Valuation τ sig (Elt F) :=
  Pipeline.withArrays spec1 c (W4 m ρ c) fun w => (dat1 (V4 m ρ) c).arrAt w cfg1.N
theorem W5_arr (c : Dev nD) (w : Fin cfg1.W) :
    W5 m ρ c (Proc.devRef .tc (Pipeline.arrRef spec1 w)) = (dat1 (V4 m ρ) c).arrAt w cfg1.N := by
  unfold W5; exact Pipeline.withArrays_arr spec1 launch1.win.arr_inj c _ _ w
theorem W5_of_ne (c : Dev nD) (b : Ref sig .tc) (hb : ∀ w, Pipeline.arrRef spec1 w ≠ b) :
    W5 m ρ c (Proc.devRef .tc b) = W4 m ρ c (Proc.devRef .tc b) := by
  unfold W5; exact Pipeline.withArrays_of_ne spec1 c _ _ b hb
abbrev V5 : (c : Dev nD) → (b : Ref sig .tc) → Buf (Elt F) ((c : Thread nD τ).loc b) := fun c b => W5 m ρ c b
theorem hF1 (c : Dev nD) (w : Fin cfg1.W) : (dat1 (V4 m ρ) c).arrAt w cfg1.N = V5 m ρ c (Pipeline.arrRef spec1 w) :=
  (W5_arr m ρ c w).symm
theorem hrest1 (c : Dev nD) : ∀ b, b ∉ Finset.univ.image (Pipeline.arrRef spec1) → V5 m ρ c b = V4 m ρ c b :=
  fun b hb => W5_of_ne m ρ c b fun w e => hb (Finset.mem_image.mpr ⟨w, Finset.mem_univ _, e⟩)
abbrev W6 : Dev nD → Valuation τ sig (Elt F) := fun c => StableHlo.after main_part1_ops2 (W5 m ρ c)
abbrev V6 : (c : Dev nD) → (b : Ref sig .tc) → Buf (Elt F) ((c : Thread nD τ).loc b) := fun c b => W6 m ρ c b
/-- At region 2's exit: its output array at what the pipeline leaves, every other buffer (its input arrays too: the
    pipeline leaves them as entered) as entered. -/
def W7 (c : Dev nD) : Valuation τ sig (Elt F) := fun b =>
  if h : Proc.devRef .tc main_v60 = b then cast (congrArg (fun b' : DevRef τ sig => b'.ty.Contents (Elt F)) h) ((dat2 (V6 m ρ) c).arrAt 5 cfg2.N)
  else W6 m ρ c b
theorem W7_out (c : Dev nD) : W7 m ρ c (Proc.devRef .tc main_v60) = (dat2 (V6 m ρ) c).arrAt 5 cfg2.N := by
  unfold W7; rw [dif_pos rfl]; rfl
theorem W7_of_ne (c : Dev nD) (b : Ref sig .tc) (hb : main_v60 ≠ b) :
    W7 m ρ c (Proc.devRef .tc b) = W6 m ρ c (Proc.devRef .tc b) := by
  unfold W7; rw [dif_neg]; exact fun e => hb (Proc.devRef_injective _ e)
abbrev V7 : (c : Dev nD) → (b : Ref sig .tc) → Buf (Elt F) ((c : Thread nD τ).loc b) := fun c b => W7 m ρ c b
abbrev W8 : Dev nD → Valuation τ sig (Elt F) := fun c => StableHlo.after main_part1_ops3 (W7 m ρ c)
abbrev V8 : (c : Dev nD) → (b : Ref sig .tc) → Buf (Elt F) ((c : Thread nD τ).loc b) := fun c b => W8 m ρ c b
/-- At region 3's exit: its arrays at what the pipeline leaves, every other buffer as entered. -/
def W9 (c : Dev nD) : Valuation τ sig (Elt F) :=
  Pipeline.withArrays spec3 c (W8 m ρ c) fun w => (dat3 (V8 m ρ) c).arrAt w cfg3.N
theorem W9_arr (c : Dev nD) (w : Fin cfg3.W) :
    W9 m ρ c (Proc.devRef .tc (Pipeline.arrRef spec3 w)) = (dat3 (V8 m ρ) c).arrAt w cfg3.N := by
  unfold W9; exact Pipeline.withArrays_arr spec3 launch3.win.arr_inj c _ _ w
theorem W9_of_ne (c : Dev nD) (b : Ref sig .tc) (hb : ∀ w, Pipeline.arrRef spec3 w ≠ b) :
    W9 m ρ c (Proc.devRef .tc b) = W8 m ρ c (Proc.devRef .tc b) := by
  unfold W9; exact Pipeline.withArrays_of_ne spec3 c _ _ b hb
abbrev V9 : (c : Dev nD) → (b : Ref sig .tc) → Buf (Elt F) ((c : Thread nD τ).loc b) := fun c b => W9 m ρ c b
theorem hF3 (c : Dev nD) (w : Fin cfg3.W) : (dat3 (V8 m ρ) c).arrAt w cfg3.N = V9 m ρ c (Pipeline.arrRef spec3 w) :=
  (W9_arr m ρ c w).symm
theorem hrest3 (c : Dev nD) : ∀ b, b ∉ Finset.univ.image (Pipeline.arrRef spec3) → V9 m ρ c b = V8 m ρ c b :=
  fun b hb => W9_of_ne m ρ c b fun w e => hb (Finset.mem_image.mpr ⟨w, Finset.mem_univ _, e⟩)

/-! ### The arguments end as launched -/

theorem W9_main_arg0 (c : Dev nD) : W9 m ρ c (Proc.devRef .tc main_arg0) = m ((c : Thread nD τ).loc main_arg0) :=
  calc W9 m ρ c (Proc.devRef .tc main_arg0)
    _ = W8 m ρ c (Proc.devRef .tc main_arg0) := W9_of_ne m ρ c main_arg0 (by decide)
    _ = W7 m ρ c (Proc.devRef .tc main_arg0) := StableHlo.after_of_forall_not_mem (b := Proc.devRef .tc main_arg0) _ _ (List.forall_iff_forall_mem.mp (by
      simp only [main_part1_ops3, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W6 m ρ c (Proc.devRef .tc main_arg0) := W7_of_ne m ρ c main_arg0 (by decide)
    _ = W5 m ρ c (Proc.devRef .tc main_arg0) := StableHlo.after_of_forall_not_mem (b := Proc.devRef .tc main_arg0) _ _ (List.forall_iff_forall_mem.mp (by
      simp only [main_part1_ops2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W4 m ρ c (Proc.devRef .tc main_arg0) := W5_of_ne m ρ c main_arg0 (by decide)
    _ = W3 m ρ c (Proc.devRef .tc main_arg0) := StableHlo.after_of_forall_not_mem (b := Proc.devRef .tc main_arg0) _ _ (List.forall_iff_forall_mem.mp (by
      simp only [main_part1_ops1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W2 m ρ c (Proc.devRef .tc main_arg0) := (W3_arr m ρ c 0).trans (((dat0 (V2 m ρ) c).arrAt_in 0 rfl _).trans (A_eq0 (V2 m ρ) c 0))
    _ = W1 m ρ c (Proc.devRef .tc main_arg0) := StableHlo.after_of_forall_not_mem (b := Proc.devRef .tc main_arg0) _ _ (List.forall_iff_forall_mem.mp (by
      simp only [main_part1_ops0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W0 m ρ c (Proc.devRef .tc main_arg0) := StableHlo.after_of_forall_not_mem (b := Proc.devRef .tc main_arg0) _ _ (List.forall_iff_forall_mem.mp (by
      simp only [main_part0_ops0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c : Thread nD τ).loc main_arg0) := rfl
theorem W9_main_arg1 (c : Dev nD) : W9 m ρ c (Proc.devRef .tc main_arg1) = m ((c : Thread nD τ).loc main_arg1) :=
  calc W9 m ρ c (Proc.devRef .tc main_arg1)
    _ = W8 m ρ c (Proc.devRef .tc main_arg1) := W9_of_ne m ρ c main_arg1 (by decide)
    _ = W7 m ρ c (Proc.devRef .tc main_arg1) := StableHlo.after_of_forall_not_mem (b := Proc.devRef .tc main_arg1) _ _ (List.forall_iff_forall_mem.mp (by
      simp only [main_part1_ops3, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W6 m ρ c (Proc.devRef .tc main_arg1) := W7_of_ne m ρ c main_arg1 (by decide)
    _ = W5 m ρ c (Proc.devRef .tc main_arg1) := StableHlo.after_of_forall_not_mem (b := Proc.devRef .tc main_arg1) _ _ (List.forall_iff_forall_mem.mp (by
      simp only [main_part1_ops2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W4 m ρ c (Proc.devRef .tc main_arg1) := W5_of_ne m ρ c main_arg1 (by decide)
    _ = W3 m ρ c (Proc.devRef .tc main_arg1) := StableHlo.after_of_forall_not_mem (b := Proc.devRef .tc main_arg1) _ _ (List.forall_iff_forall_mem.mp (by
      simp only [main_part1_ops1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W2 m ρ c (Proc.devRef .tc main_arg1) := W3_of_ne m ρ c main_arg1 (by decide)
    _ = W1 m ρ c (Proc.devRef .tc main_arg1) := StableHlo.after_of_forall_not_mem (b := Proc.devRef .tc main_arg1) _ _ (List.forall_iff_forall_mem.mp (by
      simp only [main_part1_ops0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W0 m ρ c (Proc.devRef .tc main_arg1) := StableHlo.after_of_forall_not_mem (b := Proc.devRef .tc main_arg1) _ _ (List.forall_iff_forall_mem.mp (by
      simp only [main_part0_ops0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c : Thread nD τ).loc main_arg1) := rfl
theorem W9_main_arg2 (c : Dev nD) : W9 m ρ c (Proc.devRef .tc main_arg2) = m ((c : Thread nD τ).loc main_arg2) :=
  calc W9 m ρ c (Proc.devRef .tc main_arg2)
    _ = W8 m ρ c (Proc.devRef .tc main_arg2) := W9_of_ne m ρ c main_arg2 (by decide)
    _ = W7 m ρ c (Proc.devRef .tc main_arg2) := StableHlo.after_of_forall_not_mem (b := Proc.devRef .tc main_arg2) _ _ (List.forall_iff_forall_mem.mp (by
      simp only [main_part1_ops3, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W6 m ρ c (Proc.devRef .tc main_arg2) := W7_of_ne m ρ c main_arg2 (by decide)
    _ = W5 m ρ c (Proc.devRef .tc main_arg2) := StableHlo.after_of_forall_not_mem (b := Proc.devRef .tc main_arg2) _ _ (List.forall_iff_forall_mem.mp (by
      simp only [main_part1_ops2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W4 m ρ c (Proc.devRef .tc main_arg2) := W5_of_ne m ρ c main_arg2 (by decide)
    _ = W3 m ρ c (Proc.devRef .tc main_arg2) := StableHlo.after_of_forall_not_mem (b := Proc.devRef .tc main_arg2) _ _ (List.forall_iff_forall_mem.mp (by
      simp only [main_part1_ops1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W2 m ρ c (Proc.devRef .tc main_arg2) := W3_of_ne m ρ c main_arg2 (by decide)
    _ = W1 m ρ c (Proc.devRef .tc main_arg2) := StableHlo.after_of_forall_not_mem (b := Proc.devRef .tc main_arg2) _ _ (List.forall_iff_forall_mem.mp (by
      simp only [main_part1_ops0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W0 m ρ c (Proc.devRef .tc main_arg2) := StableHlo.after_of_forall_not_mem (b := Proc.devRef .tc main_arg2) _ _ (List.forall_iff_forall_mem.mp (by
      simp only [main_part0_ops0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c : Thread nD τ).loc main_arg2) := rfl
theorem W9_main_arg3 (c : Dev nD) : W9 m ρ c (Proc.devRef .tc main_arg3) = m ((c : Thread nD τ).loc main_arg3) :=
  calc W9 m ρ c (Proc.devRef .tc main_arg3)
    _ = W8 m ρ c (Proc.devRef .tc main_arg3) := W9_of_ne m ρ c main_arg3 (by decide)
    _ = W7 m ρ c (Proc.devRef .tc main_arg3) := StableHlo.after_of_forall_not_mem (b := Proc.devRef .tc main_arg3) _ _ (List.forall_iff_forall_mem.mp (by
      simp only [main_part1_ops3, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W6 m ρ c (Proc.devRef .tc main_arg3) := W7_of_ne m ρ c main_arg3 (by decide)
    _ = W5 m ρ c (Proc.devRef .tc main_arg3) := StableHlo.after_of_forall_not_mem (b := Proc.devRef .tc main_arg3) _ _ (List.forall_iff_forall_mem.mp (by
      simp only [main_part1_ops2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W4 m ρ c (Proc.devRef .tc main_arg3) := W5_of_ne m ρ c main_arg3 (by decide)
    _ = W3 m ρ c (Proc.devRef .tc main_arg3) := StableHlo.after_of_forall_not_mem (b := Proc.devRef .tc main_arg3) _ _ (List.forall_iff_forall_mem.mp (by
      simp only [main_part1_ops1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W2 m ρ c (Proc.devRef .tc main_arg3) := W3_of_ne m ρ c main_arg3 (by decide)
    _ = W1 m ρ c (Proc.devRef .tc main_arg3) := StableHlo.after_of_forall_not_mem (b := Proc.devRef .tc main_arg3) _ _ (List.forall_iff_forall_mem.mp (by
      simp only [main_part1_ops0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W0 m ρ c (Proc.devRef .tc main_arg3) := StableHlo.after_of_forall_not_mem (b := Proc.devRef .tc main_arg3) _ _ (List.forall_iff_forall_mem.mp (by
      simp only [main_part0_ops0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c : Thread nD τ).loc main_arg3) := rfl
theorem W9_main_arg4 (c : Dev nD) : W9 m ρ c (Proc.devRef .tc main_arg4) = m ((c : Thread nD τ).loc main_arg4) :=
  calc W9 m ρ c (Proc.devRef .tc main_arg4)
    _ = W8 m ρ c (Proc.devRef .tc main_arg4) := W9_of_ne m ρ c main_arg4 (by decide)
    _ = W7 m ρ c (Proc.devRef .tc main_arg4) := StableHlo.after_of_forall_not_mem (b := Proc.devRef .tc main_arg4) _ _ (List.forall_iff_forall_mem.mp (by
      simp only [main_part1_ops3, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W6 m ρ c (Proc.devRef .tc main_arg4) := W7_of_ne m ρ c main_arg4 (by decide)
    _ = W5 m ρ c (Proc.devRef .tc main_arg4) := StableHlo.after_of_forall_not_mem (b := Proc.devRef .tc main_arg4) _ _ (List.forall_iff_forall_mem.mp (by
      simp only [main_part1_ops2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W4 m ρ c (Proc.devRef .tc main_arg4) := W5_of_ne m ρ c main_arg4 (by decide)
    _ = W3 m ρ c (Proc.devRef .tc main_arg4) := StableHlo.after_of_forall_not_mem (b := Proc.devRef .tc main_arg4) _ _ (List.forall_iff_forall_mem.mp (by
      simp only [main_part1_ops1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W2 m ρ c (Proc.devRef .tc main_arg4) := W3_of_ne m ρ c main_arg4 (by decide)
    _ = W1 m ρ c (Proc.devRef .tc main_arg4) := StableHlo.after_of_forall_not_mem (b := Proc.devRef .tc main_arg4) _ _ (List.forall_iff_forall_mem.mp (by
      simp only [main_part1_ops0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W0 m ρ c (Proc.devRef .tc main_arg4) := StableHlo.after_of_forall_not_mem (b := Proc.devRef .tc main_arg4) _ _ (List.forall_iff_forall_mem.mp (by
      simp only [main_part0_ops0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c : Thread nD τ).loc main_arg4) := rfl
theorem W9_main_arg5 (c : Dev nD) : W9 m ρ c (Proc.devRef .tc main_arg5) = m ((c : Thread nD τ).loc main_arg5) :=
  calc W9 m ρ c (Proc.devRef .tc main_arg5)
    _ = W8 m ρ c (Proc.devRef .tc main_arg5) := W9_of_ne m ρ c main_arg5 (by decide)
    _ = W7 m ρ c (Proc.devRef .tc main_arg5) := StableHlo.after_of_forall_not_mem (b := Proc.devRef .tc main_arg5) _ _ (List.forall_iff_forall_mem.mp (by
      simp only [main_part1_ops3, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W6 m ρ c (Proc.devRef .tc main_arg5) := W7_of_ne m ρ c main_arg5 (by decide)
    _ = W5 m ρ c (Proc.devRef .tc main_arg5) := StableHlo.after_of_forall_not_mem (b := Proc.devRef .tc main_arg5) _ _ (List.forall_iff_forall_mem.mp (by
      simp only [main_part1_ops2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W4 m ρ c (Proc.devRef .tc main_arg5) := W5_of_ne m ρ c main_arg5 (by decide)
    _ = W3 m ρ c (Proc.devRef .tc main_arg5) := StableHlo.after_of_forall_not_mem (b := Proc.devRef .tc main_arg5) _ _ (List.forall_iff_forall_mem.mp (by
      simp only [main_part1_ops1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W2 m ρ c (Proc.devRef .tc main_arg5) := W3_of_ne m ρ c main_arg5 (by decide)
    _ = W1 m ρ c (Proc.devRef .tc main_arg5) := StableHlo.after_of_forall_not_mem (b := Proc.devRef .tc main_arg5) _ _ (List.forall_iff_forall_mem.mp (by
      simp only [main_part1_ops0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W0 m ρ c (Proc.devRef .tc main_arg5) := StableHlo.after_of_forall_not_mem (b := Proc.devRef .tc main_arg5) _ _ (List.forall_iff_forall_mem.mp (by
      simp only [main_part0_ops0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c : Thread nD τ).loc main_arg5) := rfl
theorem W9_main_arg6 (c : Dev nD) : W9 m ρ c (Proc.devRef .tc main_arg6) = m ((c : Thread nD τ).loc main_arg6) :=
  calc W9 m ρ c (Proc.devRef .tc main_arg6)
    _ = W8 m ρ c (Proc.devRef .tc main_arg6) := W9_of_ne m ρ c main_arg6 (by decide)
    _ = W7 m ρ c (Proc.devRef .tc main_arg6) := StableHlo.after_of_forall_not_mem (b := Proc.devRef .tc main_arg6) _ _ (List.forall_iff_forall_mem.mp (by
      simp only [main_part1_ops3, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W6 m ρ c (Proc.devRef .tc main_arg6) := W7_of_ne m ρ c main_arg6 (by decide)
    _ = W5 m ρ c (Proc.devRef .tc main_arg6) := StableHlo.after_of_forall_not_mem (b := Proc.devRef .tc main_arg6) _ _ (List.forall_iff_forall_mem.mp (by
      simp only [main_part1_ops2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W4 m ρ c (Proc.devRef .tc main_arg6) := W5_of_ne m ρ c main_arg6 (by decide)
    _ = W3 m ρ c (Proc.devRef .tc main_arg6) := StableHlo.after_of_forall_not_mem (b := Proc.devRef .tc main_arg6) _ _ (List.forall_iff_forall_mem.mp (by
      simp only [main_part1_ops1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W2 m ρ c (Proc.devRef .tc main_arg6) := W3_of_ne m ρ c main_arg6 (by decide)
    _ = W1 m ρ c (Proc.devRef .tc main_arg6) := StableHlo.after_of_forall_not_mem (b := Proc.devRef .tc main_arg6) _ _ (List.forall_iff_forall_mem.mp (by
      simp only [main_part1_ops0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W0 m ρ c (Proc.devRef .tc main_arg6) := StableHlo.after_of_forall_not_mem (b := Proc.devRef .tc main_arg6) _ _ (List.forall_iff_forall_mem.mp (by
      simp only [main_part0_ops0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c : Thread nD τ).loc main_arg6) := rfl
theorem W9_main_arg7 (c : Dev nD) : W9 m ρ c (Proc.devRef .tc main_arg7) = m ((c : Thread nD τ).loc main_arg7) :=
  calc W9 m ρ c (Proc.devRef .tc main_arg7)
    _ = W8 m ρ c (Proc.devRef .tc main_arg7) := W9_of_ne m ρ c main_arg7 (by decide)
    _ = W7 m ρ c (Proc.devRef .tc main_arg7) := StableHlo.after_of_forall_not_mem (b := Proc.devRef .tc main_arg7) _ _ (List.forall_iff_forall_mem.mp (by
      simp only [main_part1_ops3, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W6 m ρ c (Proc.devRef .tc main_arg7) := W7_of_ne m ρ c main_arg7 (by decide)
    _ = W5 m ρ c (Proc.devRef .tc main_arg7) := StableHlo.after_of_forall_not_mem (b := Proc.devRef .tc main_arg7) _ _ (List.forall_iff_forall_mem.mp (by
      simp only [main_part1_ops2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W4 m ρ c (Proc.devRef .tc main_arg7) := W5_of_ne m ρ c main_arg7 (by decide)
    _ = W3 m ρ c (Proc.devRef .tc main_arg7) := StableHlo.after_of_forall_not_mem (b := Proc.devRef .tc main_arg7) _ _ (List.forall_iff_forall_mem.mp (by
      simp only [main_part1_ops1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W2 m ρ c (Proc.devRef .tc main_arg7) := W3_of_ne m ρ c main_arg7 (by decide)
    _ = W1 m ρ c (Proc.devRef .tc main_arg7) := StableHlo.after_of_forall_not_mem (b := Proc.devRef .tc main_arg7) _ _ (List.forall_iff_forall_mem.mp (by
      simp only [main_part1_ops0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W0 m ρ c (Proc.devRef .tc main_arg7) := StableHlo.after_of_forall_not_mem (b := Proc.devRef .tc main_arg7) _ _ (List.forall_iff_forall_mem.mp (by
      simp only [main_part0_ops0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c : Thread nD τ).loc main_arg7) := rfl
theorem W9_main_arg8 (c : Dev nD) : W9 m ρ c (Proc.devRef .tc main_arg8) = m ((c : Thread nD τ).loc main_arg8) :=
  calc W9 m ρ c (Proc.devRef .tc main_arg8)
    _ = W8 m ρ c (Proc.devRef .tc main_arg8) := W9_of_ne m ρ c main_arg8 (by decide)
    _ = W7 m ρ c (Proc.devRef .tc main_arg8) := StableHlo.after_of_forall_not_mem (b := Proc.devRef .tc main_arg8) _ _ (List.forall_iff_forall_mem.mp (by
      simp only [main_part1_ops3, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W6 m ρ c (Proc.devRef .tc main_arg8) := W7_of_ne m ρ c main_arg8 (by decide)
    _ = W5 m ρ c (Proc.devRef .tc main_arg8) := StableHlo.after_of_forall_not_mem (b := Proc.devRef .tc main_arg8) _ _ (List.forall_iff_forall_mem.mp (by
      simp only [main_part1_ops2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W4 m ρ c (Proc.devRef .tc main_arg8) := W5_of_ne m ρ c main_arg8 (by decide)
    _ = W3 m ρ c (Proc.devRef .tc main_arg8) := StableHlo.after_of_forall_not_mem (b := Proc.devRef .tc main_arg8) _ _ (List.forall_iff_forall_mem.mp (by
      simp only [main_part1_ops1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W2 m ρ c (Proc.devRef .tc main_arg8) := W3_of_ne m ρ c main_arg8 (by decide)
    _ = W1 m ρ c (Proc.devRef .tc main_arg8) := StableHlo.after_of_forall_not_mem (b := Proc.devRef .tc main_arg8) _ _ (List.forall_iff_forall_mem.mp (by
      simp only [main_part1_ops0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W0 m ρ c (Proc.devRef .tc main_arg8) := StableHlo.after_of_forall_not_mem (b := Proc.devRef .tc main_arg8) _ _ (List.forall_iff_forall_mem.mp (by
      simp only [main_part0_ops0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c : Thread nD τ).loc main_arg8) := rfl
theorem W9_main_arg9 (c : Dev nD) : W9 m ρ c (Proc.devRef .tc main_arg9) = m ((c : Thread nD τ).loc main_arg9) :=
  calc W9 m ρ c (Proc.devRef .tc main_arg9)
    _ = W8 m ρ c (Proc.devRef .tc main_arg9) := W9_of_ne m ρ c main_arg9 (by decide)
    _ = W7 m ρ c (Proc.devRef .tc main_arg9) := StableHlo.after_of_forall_not_mem (b := Proc.devRef .tc main_arg9) _ _ (List.forall_iff_forall_mem.mp (by
      simp only [main_part1_ops3, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W6 m ρ c (Proc.devRef .tc main_arg9) := W7_of_ne m ρ c main_arg9 (by decide)
    _ = W5 m ρ c (Proc.devRef .tc main_arg9) := StableHlo.after_of_forall_not_mem (b := Proc.devRef .tc main_arg9) _ _ (List.forall_iff_forall_mem.mp (by
      simp only [main_part1_ops2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W4 m ρ c (Proc.devRef .tc main_arg9) := W5_of_ne m ρ c main_arg9 (by decide)
    _ = W3 m ρ c (Proc.devRef .tc main_arg9) := StableHlo.after_of_forall_not_mem (b := Proc.devRef .tc main_arg9) _ _ (List.forall_iff_forall_mem.mp (by
      simp only [main_part1_ops1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W2 m ρ c (Proc.devRef .tc main_arg9) := W3_of_ne m ρ c main_arg9 (by decide)
    _ = W1 m ρ c (Proc.devRef .tc main_arg9) := StableHlo.after_of_forall_not_mem (b := Proc.devRef .tc main_arg9) _ _ (List.forall_iff_forall_mem.mp (by
      simp only [main_part1_ops0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W0 m ρ c (Proc.devRef .tc main_arg9) := StableHlo.after_of_forall_not_mem (b := Proc.devRef .tc main_arg9) _ _ (List.forall_iff_forall_mem.mp (by
      simp only [main_part0_ops0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c : Thread nD τ).loc main_arg9) := rfl
theorem W9_main_arg10 (c : Dev nD) : W9 m ρ c (Proc.devRef .tc main_arg10) = m ((c : Thread nD τ).loc main_arg10) :=
  calc W9 m ρ c (Proc.devRef .tc main_arg10)
    _ = W8 m ρ c (Proc.devRef .tc main_arg10) := W9_of_ne m ρ c main_arg10 (by decide)
    _ = W7 m ρ c (Proc.devRef .tc main_arg10) := StableHlo.after_of_forall_not_mem (b := Proc.devRef .tc main_arg10) _ _ (List.forall_iff_forall_mem.mp (by
      simp only [main_part1_ops3, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W6 m ρ c (Proc.devRef .tc main_arg10) := W7_of_ne m ρ c main_arg10 (by decide)
    _ = W5 m ρ c (Proc.devRef .tc main_arg10) := StableHlo.after_of_forall_not_mem (b := Proc.devRef .tc main_arg10) _ _ (List.forall_iff_forall_mem.mp (by
      simp only [main_part1_ops2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W4 m ρ c (Proc.devRef .tc main_arg10) := W5_of_ne m ρ c main_arg10 (by decide)
    _ = W3 m ρ c (Proc.devRef .tc main_arg10) := StableHlo.after_of_forall_not_mem (b := Proc.devRef .tc main_arg10) _ _ (List.forall_iff_forall_mem.mp (by
      simp only [main_part1_ops1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W2 m ρ c (Proc.devRef .tc main_arg10) := W3_of_ne m ρ c main_arg10 (by decide)
    _ = W1 m ρ c (Proc.devRef .tc main_arg10) := StableHlo.after_of_forall_not_mem (b := Proc.devRef .tc main_arg10) _ _ (List.forall_iff_forall_mem.mp (by
      simp only [main_part1_ops0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W0 m ρ c (Proc.devRef .tc main_arg10) := StableHlo.after_of_forall_not_mem (b := Proc.devRef .tc main_arg10) _ _ (List.forall_iff_forall_mem.mp (by
      simp only [main_part0_ops0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c : Thread nD τ).loc main_arg10) := rfl
theorem W9_main_arg11 (c : Dev nD) : W9 m ρ c (Proc.devRef .tc main_arg11) = m ((c : Thread nD τ).loc main_arg11) :=
  calc W9 m ρ c (Proc.devRef .tc main_arg11)
    _ = W8 m ρ c (Proc.devRef .tc main_arg11) := W9_of_ne m ρ c main_arg11 (by decide)
    _ = W7 m ρ c (Proc.devRef .tc main_arg11) := StableHlo.after_of_forall_not_mem (b := Proc.devRef .tc main_arg11) _ _ (List.forall_iff_forall_mem.mp (by
      simp only [main_part1_ops3, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W6 m ρ c (Proc.devRef .tc main_arg11) := W7_of_ne m ρ c main_arg11 (by decide)
    _ = W5 m ρ c (Proc.devRef .tc main_arg11) := StableHlo.after_of_forall_not_mem (b := Proc.devRef .tc main_arg11) _ _ (List.forall_iff_forall_mem.mp (by
      simp only [main_part1_ops2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W4 m ρ c (Proc.devRef .tc main_arg11) := W5_of_ne m ρ c main_arg11 (by decide)
    _ = W3 m ρ c (Proc.devRef .tc main_arg11) := StableHlo.after_of_forall_not_mem (b := Proc.devRef .tc main_arg11) _ _ (List.forall_iff_forall_mem.mp (by
      simp only [main_part1_ops1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W2 m ρ c (Proc.devRef .tc main_arg11) := W3_of_ne m ρ c main_arg11 (by decide)
    _ = W1 m ρ c (Proc.devRef .tc main_arg11) := StableHlo.after_of_forall_not_mem (b := Proc.devRef .tc main_arg11) _ _ (List.forall_iff_forall_mem.mp (by
      simp only [main_part1_ops0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W0 m ρ c (Proc.devRef .tc main_arg11) := StableHlo.after_of_forall_not_mem (b := Proc.devRef .tc main_arg11) _ _ (List.forall_iff_forall_mem.mp (by
      simp only [main_part0_ops0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c : Thread nD τ).loc main_arg11) := rfl
theorem W9_main_arg12 (c : Dev nD) : W9 m ρ c (Proc.devRef .tc main_arg12) = m ((c : Thread nD τ).loc main_arg12) :=
  calc W9 m ρ c (Proc.devRef .tc main_arg12)
    _ = W8 m ρ c (Proc.devRef .tc main_arg12) := W9_of_ne m ρ c main_arg12 (by decide)
    _ = W7 m ρ c (Proc.devRef .tc main_arg12) := StableHlo.after_of_forall_not_mem (b := Proc.devRef .tc main_arg12) _ _ (List.forall_iff_forall_mem.mp (by
      simp only [main_part1_ops3, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W6 m ρ c (Proc.devRef .tc main_arg12) := W7_of_ne m ρ c main_arg12 (by decide)
    _ = W5 m ρ c (Proc.devRef .tc main_arg12) := StableHlo.after_of_forall_not_mem (b := Proc.devRef .tc main_arg12) _ _ (List.forall_iff_forall_mem.mp (by
      simp only [main_part1_ops2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W4 m ρ c (Proc.devRef .tc main_arg12) := W5_of_ne m ρ c main_arg12 (by decide)
    _ = W3 m ρ c (Proc.devRef .tc main_arg12) := StableHlo.after_of_forall_not_mem (b := Proc.devRef .tc main_arg12) _ _ (List.forall_iff_forall_mem.mp (by
      simp only [main_part1_ops1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W2 m ρ c (Proc.devRef .tc main_arg12) := W3_of_ne m ρ c main_arg12 (by decide)
    _ = W1 m ρ c (Proc.devRef .tc main_arg12) := StableHlo.after_of_forall_not_mem (b := Proc.devRef .tc main_arg12) _ _ (List.forall_iff_forall_mem.mp (by
      simp only [main_part1_ops0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W0 m ρ c (Proc.devRef .tc main_arg12) := StableHlo.after_of_forall_not_mem (b := Proc.devRef .tc main_arg12) _ _ (List.forall_iff_forall_mem.mp (by
      simp only [main_part0_ops0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c : Thread nD τ).loc main_arg12) := rfl
theorem W9_main_arg13 (c : Dev nD) : W9 m ρ c (Proc.devRef .tc main_arg13) = m ((c : Thread nD τ).loc main_arg13) :=
  calc W9 m ρ c (Proc.devRef .tc main_arg13)
    _ = W8 m ρ c (Proc.devRef .tc main_arg13) := W9_of_ne m ρ c main_arg13 (by decide)
    _ = W7 m ρ c (Proc.devRef .tc main_arg13) := StableHlo.after_of_forall_not_mem (b := Proc.devRef .tc main_arg13) _ _ (List.forall_iff_forall_mem.mp (by
      simp only [main_part1_ops3, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W6 m ρ c (Proc.devRef .tc main_arg13) := W7_of_ne m ρ c main_arg13 (by decide)
    _ = W5 m ρ c (Proc.devRef .tc main_arg13) := StableHlo.after_of_forall_not_mem (b := Proc.devRef .tc main_arg13) _ _ (List.forall_iff_forall_mem.mp (by
      simp only [main_part1_ops2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W4 m ρ c (Proc.devRef .tc main_arg13) := W5_of_ne m ρ c main_arg13 (by decide)
    _ = W3 m ρ c (Proc.devRef .tc main_arg13) := StableHlo.after_of_forall_not_mem (b := Proc.devRef .tc main_arg13) _ _ (List.forall_iff_forall_mem.mp (by
      simp only [main_part1_ops1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W2 m ρ c (Proc.devRef .tc main_arg13) := W3_of_ne m ρ c main_arg13 (by decide)
    _ = W1 m ρ c (Proc.devRef .tc main_arg13) := StableHlo.after_of_forall_not_mem (b := Proc.devRef .tc main_arg13) _ _ (List.forall_iff_forall_mem.mp (by
      simp only [main_part1_ops0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W0 m ρ c (Proc.devRef .tc main_arg13) := StableHlo.after_of_forall_not_mem (b := Proc.devRef .tc main_arg13) _ _ (List.forall_iff_forall_mem.mp (by
      simp only [main_part0_ops0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c : Thread nD τ).loc main_arg13) := rfl

/-! ## The proof data family and the thread state -/

abbrev adm : (p : Fin 4) → (pcfgs (F := F) p).Adm := fun p => (cfgs p).toPCfg_adm
/-- Every pipeline's proof data, each at its region's entry contents. -/
def pdats : (p : Fin 4) → (c : Dev nD) → Dat τ (Elt F) Unit ℕ (UR sig nD τ) ℕ (Pipeline.pin (pcfgs (F := F)) adm p) c
  | ⟨0, _⟩ => fun c => dat0 (V2 m ρ) c
  | ⟨1, _⟩ => fun c => dat1 (V4 m ρ) c
  | ⟨2, _⟩ => fun c => dat2 (V6 m ρ) c
  | ⟨3, _⟩ => fun c => dat3 (V8 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- A host stretch as a segment over the unscoped references, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem main_part0_ops0_fresh : (main_part0_ops0 : List (HloOp τ sig (Elt F))).Forall fun op => op.fresh = ∅ := by
  simp only [List.Forall]; repeat' constructor
theorem main_part1_ops0_fresh : (main_part1_ops0 : List (HloOp τ sig (Elt F))).Forall fun op => op.fresh = ∅ := by
  simp only [List.Forall]; repeat' constructor
theorem main_part1_ops1_fresh : (main_part1_ops1 : List (HloOp τ sig (Elt F))).Forall fun op => op.fresh = ∅ := by
  simp only [List.Forall]; repeat' constructor
theorem main_part1_ops2_fresh : (main_part1_ops2 : List (HloOp τ sig (Elt F))).Forall fun op => op.fresh = ∅ := by
  simp only [List.Forall]; repeat' constructor
theorem main_part1_ops3_fresh : (main_part1_ops3 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W9 m ρ c) ∗ ∃ r, prngReg c r)

/-! ### Region 2 reads one array through two windows -/

/-- Five listed conjuncts, one by one. -/
theorem listed5 {I M : Type} [URA M] (a b c d e : I) (Φ : I → sProp M) :
    BI.bigSepL [a, b, c, d, e] Φ = iprop(Φ a ∗ Φ b ∗ Φ c ∗ Φ d ∗ Φ e) := rfl

/-- A window's array held by the pipeline at the window's share, spelt at the buffer: entry contents. -/
theorem arr2_in_0 (c : Dev nD) : (View.loc (c : Thread nD τ) (cfg2.win 0).arr.view ↦[(cfg2.win 0).arr.view.set]{(dat2 (V6 m ρ) c).share 0} (dat2 (V6 m ρ) c).arrAt 0 0 : sProp 𝕄) = ((c : Thread nD τ).loc main_v57 ↦{PosShare.left fullShare} V6 m ρ c main_v57 : sProp 𝕄) := by
  rw [(arr_whole2 0).set_eq_univ]; rfl
theorem arr2_in_1 (c : Dev nD) : (View.loc (c : Thread nD τ) (cfg2.win 1).arr.view ↦[(cfg2.win 1).arr.view.set]{(dat2 (V6 m ρ) c).share 1} (dat2 (V6 m ρ) c).arrAt 1 0 : sProp 𝕄) = ((c : Thread nD τ).loc main_v35 ↦{fullShare} V6 m ρ c main_v35 : sProp 𝕄) := by
  rw [(arr_whole2 1).set_eq_univ]; rfl
theorem arr2_in_2 (c : Dev nD) : (View.loc (c : Thread nD τ) (cfg2.win 2).arr.view ↦[(cfg2.win 2).arr.view.set]{(dat2 (V6 m ρ) c).share 2} (dat2 (V6 m ρ) c).arrAt 2 0 : sProp 𝕄) = ((c : Thread nD τ).loc main_v58 ↦{fullShare} V6 m ρ c main_v58 : sProp 𝕄) := by
  rw [(arr_whole2 2).set_eq_univ]; rfl
theorem arr2_in_3 (c : Dev nD) : (View.loc (c : Thread nD τ) (cfg2.win 3).arr.view ↦[(cfg2.win 3).arr.view.set]{(dat2 (V6 m ρ) c).share 3} (dat2 (V6 m ρ) c).arrAt 3 0 : sProp 𝕄) = ((c : Thread nD τ).loc main_v59 ↦{fullShare} V6 m ρ c main_v59 : sProp 𝕄) := by
  rw [(arr_whole2 3).set_eq_univ]; rfl
theorem arr2_in_4 (c : Dev nD) : (View.loc (c : Thread nD τ) (cfg2.win 4).arr.view ↦[(cfg2.win 4).arr.view.set]{(dat2 (V6 m ρ) c).share 4} (dat2 (V6 m ρ) c).arrAt 4 0 : sProp 𝕄) = ((c : Thread nD τ).loc main_v57 ↦{PosShare.right fullShare} V6 m ρ c main_v57 : sProp 𝕄) := by
  rw [(arr_whole2 4).set_eq_univ]; rfl
theorem arr2_in_5 (c : Dev nD) : (View.loc (c : Thread nD τ) (cfg2.win 5).arr.view ↦[(cfg2.win 5).arr.view.set]{(dat2 (V6 m ρ) c).share 5} (dat2 (V6 m ρ) c).arrAt 5 0 : sProp 𝕄) = ((c : Thread nD τ).loc main_v60 ↦{fullShare} V6 m ρ c main_v60 : sProp 𝕄) := by
  rw [(arr_whole2 5).set_eq_univ]; rfl

/-- ENTRY: the unscoped buffers at the boundary's contents are region 2's arrays at their entry contents — the array
    read twice split into its two half shares — and the rest. -/
theorem arrays2_in (c : Dev nD) :
    (StableHlo.held (c : Thread nD τ) (Pipeline.ucRefs τ sig) (W6 m ρ c) : sProp 𝕄)
      ⊢ iprop((pdats m ρ 2 c).arrays ((pdats m ρ 2 c).arrAt · 0) ∗ Pipeline.unscopedRest (Ix := Unit) (Name := ℕ) (U := UR sig nD τ) (Lvl := ℕ) spec2 c (V6 m ρ c)) := by
  show (StableHlo.held (c : Thread nD τ) (Pipeline.ucRefs τ sig) (W6 m ρ c) : sProp 𝕄)
      ⊢ iprop((dat2 (V6 m ρ) c).arrays ((dat2 (V6 m ρ) c).arrAt · 0) ∗ Pipeline.unscopedRest (Ix := Unit) (Name := ℕ) (U := UR sig nD τ) (Lvl := ℕ) spec2 c (V6 m ρ c))
  rw [← Pipeline.unscopedBufs_held c (W6 m ρ c)]
  have hA : Finset.univ.image (Pipeline.arrRef spec2) ⊆ Finset.univ.filter fun b : Ref sig .tc => ¬ b.isScoped := by decide
  unfold unscopedBufs Pipeline.unscopedRest
  rw [BI.bigSep_sdiff_split hA]
  refine sep_mono ?_ .rfl
  rw [BI.bigSep_eq_bigSepL_of_eq [main_v57, main_v35, main_v58, main_v59, main_v60] (by decide) (by decide), listed5]
  unfold Dat.arrays; rw [bigSep_W2]
  rw [arr2_in_0, arr2_in_1, arr2_in_2, arr2_in_3, arr2_in_4, arr2_in_5]
  iintro ⟨H57, H35, H58, H59, H60⟩
  ihave Hs := (pointsTo_share (PosShare.mem_left_op_right fullShare)).1 $$ H57
  icases Hs with ⟨HL, HR⟩
  isplitl [HL]; · iexact HL
  isplitl [H35]; · iexact H35
  isplitl [H58]; · iexact H58
  isplitl [H59]; · iexact H59
  isplitl [HR]; · iexact HR
  iexact H60

/-- The same at the exit contents: an input array as entered, the output array at what the write-backs leave. -/
theorem arr2_out_0 (c : Dev nD) : (View.loc (c : Thread nD τ) (cfg2.win 0).arr.view ↦[(cfg2.win 0).arr.view.set]{(dat2 (V6 m ρ) c).share 0} (dat2 (V6 m ρ) c).arrAt 0 cfg2.N : sProp 𝕄) = ((c : Thread nD τ).loc main_v57 ↦{PosShare.left fullShare} V7 m ρ c main_v57 : sProp 𝕄) := by
  rw [(arr_whole2 0).set_eq_univ, (dat2 (V6 m ρ) c).arrAt_in 0 rfl _, A_eq2 (V6 m ρ) c 0,
    show V7 m ρ c main_v57 = V6 m ρ c main_v57 from W7_of_ne m ρ c main_v57 (by decide)]
  rfl
theorem arr2_out_1 (c : Dev nD) : (View.loc (c : Thread nD τ) (cfg2.win 1).arr.view ↦[(cfg2.win 1).arr.view.set]{(dat2 (V6 m ρ) c).share 1} (dat2 (V6 m ρ) c).arrAt 1 cfg2.N : sProp 𝕄) = ((c : Thread nD τ).loc main_v35 ↦{fullShare} V7 m ρ c main_v35 : sProp 𝕄) := by
  rw [(arr_whole2 1).set_eq_univ, (dat2 (V6 m ρ) c).arrAt_in 1 rfl _, A_eq2 (V6 m ρ) c 1,
    show V7 m ρ c main_v35 = V6 m ρ c main_v35 from W7_of_ne m ρ c main_v35 (by decide)]
  rfl
theorem arr2_out_2 (c : Dev nD) : (View.loc (c : Thread nD τ) (cfg2.win 2).arr.view ↦[(cfg2.win 2).arr.view.set]{(dat2 (V6 m ρ) c).share 2} (dat2 (V6 m ρ) c).arrAt 2 cfg2.N : sProp 𝕄) = ((c : Thread nD τ).loc main_v58 ↦{fullShare} V7 m ρ c main_v58 : sProp 𝕄) := by
  rw [(arr_whole2 2).set_eq_univ, (dat2 (V6 m ρ) c).arrAt_in 2 rfl _, A_eq2 (V6 m ρ) c 2,
    show V7 m ρ c main_v58 = V6 m ρ c main_v58 from W7_of_ne m ρ c main_v58 (by decide)]
  rfl
theorem arr2_out_3 (c : Dev nD) : (View.loc (c : Thread nD τ) (cfg2.win 3).arr.view ↦[(cfg2.win 3).arr.view.set]{(dat2 (V6 m ρ) c).share 3} (dat2 (V6 m ρ) c).arrAt 3 cfg2.N : sProp 𝕄) = ((c : Thread nD τ).loc main_v59 ↦{fullShare} V7 m ρ c main_v59 : sProp 𝕄) := by
  rw [(arr_whole2 3).set_eq_univ, (dat2 (V6 m ρ) c).arrAt_in 3 rfl _, A_eq2 (V6 m ρ) c 3,
    show V7 m ρ c main_v59 = V6 m ρ c main_v59 from W7_of_ne m ρ c main_v59 (by decide)]
  rfl
theorem arr2_out_4 (c : Dev nD) : (View.loc (c : Thread nD τ) (cfg2.win 4).arr.view ↦[(cfg2.win 4).arr.view.set]{(dat2 (V6 m ρ) c).share 4} (dat2 (V6 m ρ) c).arrAt 4 cfg2.N : sProp 𝕄) = ((c : Thread nD τ).loc main_v57 ↦{PosShare.right fullShare} V7 m ρ c main_v57 : sProp 𝕄) := by
  rw [(arr_whole2 4).set_eq_univ, (dat2 (V6 m ρ) c).arrAt_in 4 rfl _, A_eq2 (V6 m ρ) c 4,
    show V7 m ρ c main_v57 = V6 m ρ c main_v57 from W7_of_ne m ρ c main_v57 (by decide)]
  rfl
theorem arr2_out_5 (c : Dev nD) : (View.loc (c : Thread nD τ) (cfg2.win 5).arr.view ↦[(cfg2.win 5).arr.view.set]{(dat2 (V6 m ρ) c).share 5} (dat2 (V6 m ρ) c).arrAt 5 cfg2.N : sProp 𝕄) = ((c : Thread nD τ).loc main_v60 ↦{fullShare} V7 m ρ c main_v60 : sProp 𝕄) := by
  rw [(arr_whole2 5).set_eq_univ, show V7 m ρ c main_v60 = (dat2 (V6 m ρ) c).arrAt 5 cfg2.N from W7_out m ρ c]
  rfl

/-- EXIT: region 2's arrays at their exit contents — the two half shares of the array read twice rejoined — and the
    rest are the unscoped buffers at the next boundary's contents. -/
theorem arrays2_out (c : Dev nD) :
    iprop((pdats m ρ 2 c).arrays ((pdats m ρ 2 c).arrAt · cfg2.N) ∗ Pipeline.unscopedRest (Ix := Unit) (Name := ℕ) (U := UR sig nD τ) (Lvl := ℕ) spec2 c (V6 m ρ c))
      ⊢ (StableHlo.held (c : Thread nD τ) (Pipeline.ucRefs τ sig) (W7 m ρ c) : sProp 𝕄) := by
  show iprop((dat2 (V6 m ρ) c).arrays ((dat2 (V6 m ρ) c).arrAt · cfg2.N) ∗ Pipeline.unscopedRest (Ix := Unit) (Name := ℕ) (U := UR sig nD τ) (Lvl := ℕ) spec2 c (V6 m ρ c))
      ⊢ (StableHlo.held (c : Thread nD τ) (Pipeline.ucRefs τ sig) (W7 m ρ c) : sProp 𝕄)
  rw [← Pipeline.unscopedBufs_held c (W7 m ρ c)]
  have hA : Finset.univ.image (Pipeline.arrRef spec2) ⊆ Finset.univ.filter fun b : Ref sig .tc => ¬ b.isScoped := by decide
  unfold unscopedBufs Pipeline.unscopedRest
  rw [BI.bigSep_sdiff_split hA]
  refine BIClass.sep_mono ?_ (Entails.of_eq (BI.bigSep_congr fun b hb => ?_))
  · rw [BI.bigSep_eq_bigSepL_of_eq [main_v57, main_v35, main_v58, main_v59, main_v60] (by decide) (by decide), listed5]
    unfold Dat.arrays; rw [bigSep_W2]
    rw [arr2_out_0, arr2_out_1, arr2_out_2, arr2_out_3, arr2_out_4, arr2_out_5]
    iintro ⟨HL, H35, H58, H59, HR, H60⟩
    isplitl [HL HR]
    · iapply (pointsTo_share (PosShare.mem_left_op_right fullShare)).2
      isplitl [HL]; · iexact HL
      iexact HR
    isplitl [H35]; · iexact H35
    isplitl [H58]; · iexact H58
    isplitl [H59]; · iexact H59
    iexact H60
  · have hb' : main_v60 ≠ b := fun e => (Finset.mem_sdiff.mp hb).2 (e ▸ (by decide : main_v60 ∈ Finset.univ.image (Pipeline.arrRef spec2)))
    rw [show V6 m ρ c b = V7 m ρ c b from (W7_of_ne m ρ c b hb').symm]

/-! ## The regions as segments -/

set_option backward.isDefEq.respectTransparency.types false in
/-- Region 0 over the thread state: entered from every unscoped buffer at the boundary's contents, left at the next
    boundary's; its arrays split out and put back; the generator register into the invariant and out; nothing owed. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V2 m ρ) c).loose
  hwaits := Pipeline.hwaits_of_owed_zero _ _ _ _ L lv 0 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec0 c (V2 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    refine (show (pdats m ρ 0 c).Φ (Fin.last _) ⊢ Pipeline.ΦA spec0 c from hout0 (V2 m ρ) c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V2 m ρ c) (V3 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at the boundary's contents, left at the next
    boundary's; its arrays split out and put back; the generator register into the invariant and out; nothing owed. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V4 m ρ) c).loose
  hwaits := Pipeline.hwaits_of_owed_zero _ _ _ _ L lv 1 fun _ _ => rfl
  pre c := iprop(StableHlo.held (c : Thread nD τ) (Pipeline.ucRefs τ sig) (W4 m ρ c) ∗ R c)
  post c := iprop(StableHlo.held (c : Thread nD τ) (Pipeline.ucRefs τ sig) (W5 m ρ c) ∗ R c)
  X c := iprop(∃ r, prngReg c r)
  Y c := iprop(∃ r, prngReg c r)
  Z c := Pipeline.unscopedRest (Ix := Unit) (Name := ℕ) (U := UR sig nD τ) (Lvl := ℕ) spec1 c (V4 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V4 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V4 m ρ c) (V5 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: its arrays split out of the unscoped buffers (the array read twice into its two
    half shares) and put back; otherwise as the other regions. -/
def reg2 : Pipeline.RegionSeg (pcfgs (F := F)) adm (pdats m ρ) () defs₀ 𝒱₀ L lv 2 where
  win := winFacts₀2
  block_pos := block_pos2
  stage_whole := stage_whole2
  K := PEmpty
  osem k := k.elim
  ho := Pipeline.OwnSemFacts.none _
  hbody c := (body_obligation2 (V6 m ρ) c).loose
  hwaits := Pipeline.hwaits_of_owed_zero _ _ _ _ L lv 2 fun _ _ => rfl
  pre c := iprop(StableHlo.held (c : Thread nD τ) (Pipeline.ucRefs τ sig) (W6 m ρ c) ∗ R c)
  post c := iprop(StableHlo.held (c : Thread nD τ) (Pipeline.ucRefs τ sig) (W7 m ρ c) ∗ R c)
  X c := iprop(∃ r, prngReg c r)
  Y c := iprop(∃ r, prngReg c r)
  Z c := Pipeline.unscopedRest (Ix := Unit) (Name := ℕ) (U := UR sig nD τ) (Lvl := ℕ) spec2 c (V6 m ρ c)
  hentry c := by
    rw [Pipeline.ownSems0_none]
    have hsplit := arrays2_in m ρ c
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    refine (show (pdats m ρ 2 c).Φ (Fin.last _) ⊢ Pipeline.ΦA spec2 c from hout2 (V6 m ρ) c).trans ?_
    rw [Pipeline.ownSems0_none]; unfold Pipeline.ΦA
    iintro ⟨Hr, Hp⟩
    isplitl [Hp]; · iexact Hp
    isplitr; · iempintro
    iexact Hr
  hexit c := by
    have hjoin := arrays2_out m ρ c
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered from every unscoped buffer at the boundary's contents, left at the next
    boundary's; its arrays split out and put back; the generator register into the invariant and out; nothing owed. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V8 m ρ) c).loose
  hwaits := Pipeline.hwaits_of_owed_zero _ _ _ _ L lv 3 fun _ _ => rfl
  pre c := iprop(StableHlo.held (c : Thread nD τ) (Pipeline.ucRefs τ sig) (W8 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec3 c (V8 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V8 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V8 m ρ c) (V9 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg main_part0_ops0 main_part0_ops0_sub main_part0_ops0_fresh (W0 m ρ)),
    .host (hseg main_part1_ops0 main_part1_ops0_sub main_part1_ops0_fresh (W1 m ρ)),
    .region (reg0 m ρ),
    .host (hseg main_part1_ops1 main_part1_ops1_sub main_part1_ops1_fresh (W3 m ρ)),
    .region (reg1 m ρ),
    .host (hseg main_part1_ops2 main_part1_ops2_sub main_part1_ops2_fresh (W5 m ρ)),
    .region (reg2 m ρ),
    .host (hseg main_part1_ops3 main_part1_ops3_sub main_part1_ops3_fresh (W7 m ρ)),
    .region (reg3 m ρ) ]
/-- @main is the run of the segments. -/
theorem main_run (c : Dev nD) : main (F := F) c = Pipeline.Seg.run (segs m ρ) := (main_chain_windows c).trans (by chain_rfl)

set_option backward.isDefEq.respectTransparency.types false in
/-- THE RUN: from any memory with zero counters every weakly fair execution of @main terminates, nothing faulting, and
    every final state has every unscoped buffer at the last boundary's contents. -/
theorem run_all : θ_run defs (onTc (τ := τ) (main (F := F))) ⟨m, fun _ => 0, ρ⟩
    (fun r => ∀ c : Dev nD, ∀ b ∈ Pipeline.ucRefs τ sig, r.2.mem (((c : Thread nD τ)).1, b) = W9 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c => h c)

/-- THE FRAME: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun r h c =>
    ⟨(h c _ (mem_uc main_arg0 (by decide))).trans (W9_main_arg0 m ρ c),
     (h c _ (mem_uc main_arg1 (by decide))).trans (W9_main_arg1 m ρ c),
     (h c _ (mem_uc main_arg2 (by decide))).trans (W9_main_arg2 m ρ c),
     (h c _ (mem_uc main_arg3 (by decide))).trans (W9_main_arg3 m ρ c),
     (h c _ (mem_uc main_arg4 (by decide))).trans (W9_main_arg4 m ρ c),
     (h c _ (mem_uc main_arg5 (by decide))).trans (W9_main_arg5 m ρ c),
     (h c _ (mem_uc main_arg6 (by decide))).trans (W9_main_arg6 m ρ c),
     (h c _ (mem_uc main_arg7 (by decide))).trans (W9_main_arg7 m ρ c),
     (h c _ (mem_uc main_arg8 (by decide))).trans (W9_main_arg8 m ρ c),
     (h c _ (mem_uc main_arg9 (by decide))).trans (W9_main_arg9 m ρ c),
     (h c _ (mem_uc main_arg10 (by decide))).trans (W9_main_arg10 m ρ c),
     (h c _ (mem_uc main_arg11 (by decide))).trans (W9_main_arg11 m ρ c),
     (h c _ (mem_uc main_arg12 (by decide))).trans (W9_main_arg12 m ρ c),
     (h c _ (mem_uc main_arg13 (by decide))).trans (W9_main_arg13 m ρ c)⟩) (run_all m ρ)

end Cert.KernelIdeal.Hand

end
-- ==== Proof.Spec.lean ====
/-
  The network both programs compute, written once on the extended reals, entry by entry.

  A weight entry w is first "softened": towards {-1, +1} for the first layer,
      softSign w = c·w + h·(σ(w)·2 − 1),
  and towards {0, 1} for the second layer and the head,
      softBin w  = c·w + h·σ(w),          σ(w) = 1 / (1 + exp(−((w·100)/0.075))),
  with c, h, 100, 0.075, 1, 2 the f32 words the programs print (never evaluated here).
  A layer is  y(r,j) = (∑ₖ a(r,k)·w(k,j))·s(j) + b(j);  the first is followed by max(·, 0) and a row
  normalisation, the second by max(·, 0) plus the first layer's normalised output and a second row
  normalisation, the head by nothing.  The row normalisation of a is
      (a(r,j) − μ(r)) · rsqrt(v(r) + ε) · g(j) + β(j),   μ(r) = (∑ⱼ a(r,j))/N,   v(r) = (∑ⱼ (a(r,j) − μ(r))²)/N,
  with N the f32 word of 8192 and ε the f32 word nearest 1e-12.
-/
import Idealize.ShloMosaic.PureOps.Ideal
import Idealize.ShloMosaic.Lib.ValueIdx

noncomputable section

open scoped BigOperators

namespace Cert.Spec

open Idealize.ShloMosaic

/-- The f32 words of the constants, as extended reals. -/
abbrev wZero : EReal := Ideal.ofBits .f32 0x00000000#32
abbrev wOne : EReal := Ideal.ofBits .f32 0x3F800000#32
abbrev wTwo : EReal := Ideal.ofBits .f32 0x40000000#32
abbrev wC : EReal := Ideal.ofBits .f32 0x3D4CCCCD#32
abbrev wH : EReal := Ideal.ofBits .f32 0x3F733333#32
abbrev wHundred : EReal := Ideal.ofBits .f32 0x42C80000#32
abbrev wT : EReal := Ideal.ofBits .f32 0x3D99999A#32
abbrev wN : EReal := Ideal.ofBits .f32 0x46000000#32
abbrev wEps : EReal := Ideal.ofBits .f32 0x2B8CBCCC#32

/-- The steep logistic of a weight entry: 1 / (1 + exp(−((w·100)/0.075))). -/
def steep (w : EReal) : EReal := Ideal.div wOne (wOne + Ideal.exp (-(Ideal.div (w * wHundred) wT)))

/-- A weight entry softened towards {-1, +1}. -/
def softSign (w : EReal) : EReal := wC * w + wH * (steep w * wTwo - wOne)

/-- A weight entry softened towards {0, 1}. -/
def softBin (w : EReal) : EReal := wC * w + wH * steep w

/-- One affine layer at an entry: (∑ₖ a(r,k)·w(k,j))·s(j) + b(j). -/
def layer {R K N : Nat} (a : Fin R → Fin K → EReal) (w : Fin K → Fin N → EReal) (s b : Fin N → EReal)
    (r : Fin R) (j : Fin N) : EReal :=
  (∑ k : Fin K, a r k * w k j) * s j + b j

/-- The mean of row r. -/
def rowMean {R N : Nat} (a : Fin R → Fin N → EReal) (r : Fin R) : EReal := Ideal.div (∑ j : Fin N, a r j) wN

/-- The variance of row r about its mean. -/
def rowVar {R N : Nat} (a : Fin R → Fin N → EReal) (r : Fin R) : EReal :=
  Ideal.div (∑ j : Fin N, (a r j - rowMean a r) * (a r j - rowMean a r)) wN

/-- The row normalisation at an entry. -/
def norm {R N : Nat} (a : Fin R → Fin N → EReal) (g be : Fin N → EReal) (r : Fin R) (j : Fin N) : EReal :=
  (a r j - rowMean a r) * Ideal.rsqrt (rowVar a r + wEps) * g j + be j

/-- The first hidden activation: relu of the first layer, normalised. -/
def hidden1 (x : Fin 8192 → Fin 3072 → EReal) (W1 : Fin 3072 → Fin 8192 → EReal) (b1 s1 g1 be1 : Fin 8192 → EReal) :
    Fin 8192 → Fin 8192 → EReal :=
  norm (fun r j => max (layer x (fun k j => softSign (W1 k j)) s1 b1 r j) wZero) g1 be1

/-- The second hidden activation: relu of the second layer plus the first activation, normalised. -/
def hidden2 (h1 : Fin 8192 → Fin 8192 → EReal) (W2 : Fin 8192 → Fin 8192 → EReal) (b2 s2 g2 be2 : Fin 8192 → EReal) :
    Fin 8192 → Fin 8192 → EReal :=
  norm (fun r j => max (layer h1 (fun k j => softBin (W2 k j)) s2 b2 r j) wZero + h1 r j) g2 be2

/-- The whole network at an output entry. -/
def net (x : Fin 8192 → Fin 3072 → EReal) (W1 : Fin 3072 → Fin 8192 → EReal) (b1 s1 g1 be1 : Fin 8192 → EReal)
    (W2 : Fin 8192 → Fin 8192 → EReal) (b2 s2 g2 be2 : Fin 8192 → EReal)
    (W3 : Fin 8192 → Fin 10 → EReal) (b3 s3 : Fin 10 → EReal) (r : Fin 8192) (o : Fin 10) : EReal :=
  layer (hidden2 (hidden1 x W1 b1 s1 g1 be1) W2 b2 s2 g2 be2) (fun k o => softBin (W3 k o)) s3 b3 r o

/-- The network on the fourteen argument arrays as the programs hold them (rank-2 arrays indexed by (row, column),
    vectors by their one coordinate), as an array of shape [8192, 10]. -/
def netArr (a0 : (⟨2, ![8192, 3072]⟩ : Shape).Idx → EReal) (a1 : (⟨2, ![3072, 8192]⟩ : Shape).Idx → EReal)
    (a2 a3 a4 a5 : (⟨1, ![8192]⟩ : Shape).Idx → EReal) (a6 : (⟨2, ![8192, 8192]⟩ : Shape).Idx → EReal)
    (a7 a8 a9 a10 : (⟨1, ![8192]⟩ : Shape).Idx → EReal) (a11 : (⟨2, ![8192, 10]⟩ : Shape).Idx → EReal)
    (a12 a13 : (⟨1, ![10]⟩ : Shape).Idx → EReal) : (⟨2, ![8192, 10]⟩ : Shape).Idx → EReal :=
  fun i => net (fun r k => a0 (ValueIdx.ix2 r k)) (fun k j => a1 (ValueIdx.ix2 k j))
    (fun j => a2 (ValueIdx.ix1 j)) (fun j => a3 (ValueIdx.ix1 j)) (fun j => a4 (ValueIdx.ix1 j)) (fun j => a5 (ValueIdx.ix1 j))
    (fun k j => a6 (ValueIdx.ix2 k j))
    (fun j => a7 (ValueIdx.ix1 j)) (fun j => a8 (ValueIdx.ix1 j)) (fun j => a9 (ValueIdx.ix1 j)) (fun j => a10 (ValueIdx.ix1 j))
    (fun k o => a11 (ValueIdx.ix2 k o)) (fun o => a12 (ValueIdx.ix1 o)) (fun o => a13 (ValueIdx.ix1 o)) (i 0) (i 1)

end Cert.Spec

end
-- ==== Proof.KNorm.lean ====
/-
  The row normalisation and an affine layer depend on their first argument only through one row.

  The mean of row r, its variance about the mean, and the normalised entry (r, j) are all built from the
  entries a(r, ·) of that one row; an affine layer's entry (r, j) likewise from the row a(r, ·) of its left
  factor. So a block that holds, at its row r', what an array holds at its row r gives at (r', j) what the
  array gives at (r, j): a computation done one block of rows at a time is the whole computation.
-/
import proofs.«159875_j41042707481000_2_alg».proof.Proof.Spec

noncomputable section

open scoped BigOperators

namespace Cert.KernelIdeal.Pay

open Idealize.ShloMosaic

/-- The mean of a row is a function of that row. -/
theorem rowMean_row_congr {R R' N : Nat} (a : Fin R → Fin N → EReal) (a' : Fin R' → Fin N → EReal)
    (r : Fin R) (r' : Fin R') (h : ∀ j, a r j = a' r' j) : Cert.Spec.rowMean a r = Cert.Spec.rowMean a' r' := by
  unfold Cert.Spec.rowMean
  rw [Finset.sum_congr rfl fun j _ => h j]

/-- The variance of a row is a function of that row. -/
theorem rowVar_row_congr {R R' N : Nat} (a : Fin R → Fin N → EReal) (a' : Fin R' → Fin N → EReal)
    (r : Fin R) (r' : Fin R') (h : ∀ j, a r j = a' r' j) : Cert.Spec.rowVar a r = Cert.Spec.rowVar a' r' := by
  unfold Cert.Spec.rowVar
  rw [rowMean_row_congr a a' r r' h, Finset.sum_congr rfl fun j _ => by rw [h j]]

/-- The normalised entry (r, j) is a function of row r. -/
theorem norm_row_congr {R R' N : Nat} (a : Fin R → Fin N → EReal) (a' : Fin R' → Fin N → EReal) (g be : Fin N → EReal)
    (r : Fin R) (r' : Fin R') (h : ∀ j, a r j = a' r' j) (j : Fin N) :
    Cert.Spec.norm a g be r j = Cert.Spec.norm a' g be r' j := by
  unfold Cert.Spec.norm
  rw [rowMean_row_congr a a' r r' h, rowVar_row_congr a a' r r' h, h j]

/-- An affine layer's entry (r, j) is a function of row r of its left factor. -/
theorem layer_row_congr {R R' K N : Nat} (a : Fin R → Fin K → EReal) (a' : Fin R' → Fin K → EReal)
    (w : Fin K → Fin N → EReal) (s b : Fin N → EReal) (r : Fin R) (r' : Fin R') (h : ∀ k, a r k = a' r' k) (j : Fin N) :
    Cert.Spec.layer a w s b r j = Cert.Spec.layer a' w s b r' j := by
  unfold Cert.Spec.layer
  rw [Finset.sum_congr rfl fun k _ => by rw [h k]]

end Cert.KernelIdeal.Pay

end
-- ==== Proof.LibColumnLayout.lean ====
/-
  A vector kept as a one-column matrix, and that column repeated along the rows' other axis.

  The library reads a leading unit axis added to a vector ([a] as [1, a]) and one row broadcast down many
  ([1, b] to [a, b]). A reduction along the last axis that keeps its dimension produces the other arrangement:
  the [a] results become the single column of an [a, 1] matrix, and that column is then repeated b times to [a, b].
  Both read the vector at the row's coordinate.
-/
import Idealize.ShloMosaic.Lib.Pipeline.Value
import Idealize.ShloMosaic.Lib.ValueIdx
import Idealize.ShloMosaic.Lib.ValueLayout

namespace Idealize.ShloMosaic.ColumnLayout

open Idealize.ShloMosaic Idealize.ShloMosaic.ValueIdx

variable {α : Type}

/-- An `[a]` vector cast to the one column of an `[a, 1]` matrix reads, at `(i, u)`, the vector at `i`,
    whatever the unit coordinate `u`: the row-major position of `(i, u)` in `[a, 1]` is `i * 1 + 0`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` matrix broadcast to `[a, b]` reads, at `(p, c)`, its one column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The two together: a vector kept as a column and repeated along the rows reads the vector at the row. -/
theorem column_broadcast_apply {a b : ℕ} (x : (⟨1, ![a]⟩ : Shape).Idx → α) (h₁ : (⟨1, ![a]⟩ : Shape).ShapeCasts ⟨2, ![a, 1]⟩)
    (h₂ : (⟨2, ![a, 1]⟩ : Shape).Broadcasts ⟨2, ![a, b]⟩) (p : Fin a) (c : Fin b) :
    broadcastTo ⟨2, ![a, b]⟩ (shapeCast ⟨2, ![a, 1]⟩ x h₁) h₂ (ix2 p c) = x (ix1 p) :=
  (broadcastTo_a1_ab_apply _ h₂ p c).trans (shapeCast_a_a1_apply x h₁ p 0)

/-- The row counterpart from the library's two lemmas: a vector given a leading unit axis and broadcast down the rows
    reads the vector at the column. -/
theorem row_broadcast_apply {a b : ℕ} (x : (⟨1, ![b]⟩ : Shape).Idx → α) (h₁ : (⟨1, ![b]⟩ : Shape).ShapeCasts ⟨2, ![1, b]⟩)
    (h₂ : (⟨2, ![1, b]⟩ : Shape).Broadcasts ⟨2, ![a, b]⟩) (p : Fin a) (c : Fin b) :
    broadcastTo ⟨2, ![a, b]⟩ (shapeCast ⟨2, ![1, b]⟩ x h₁) h₂ (ix2 p c) = x (ix1 c) :=
  (broadcastTo_1b_ab_apply _ h₂ p c).trans (shapeCast_a_1a_apply x h₁ 0 c)

end Idealize.ShloMosaic.ColumnLayout
-- ==== Proof.KPayNorm.lean ====
/-
  The two normalising kernels' arithmetic, entry by entry, on the extended reals.

  Both kernels hold a [128, 8192] block of rows and normalise each row: the row's sum over its 8192 columns is
  kept as one column of a [128, 1] array, divided by the word of 8192 (the row's mean) and repeated along the
  row; the squared deviations from the mean are summed and divided the same way (the row's variance); each
  deviation is multiplied by the reciprocal square root of variance plus epsilon, by the column's gain, and the
  column's bias is added. Read at an entry (p, j) this is the specification's row normalisation of the block.

  * A sum along the columns, read at row p, is the sum over k of the block's entries (p, k): the index with k
    inserted on the dropped axis is (p, k), and the zero accumulator word is the sum's neutral element.
  * A [128] vector kept as a [128, 1] column and repeated to [128, 8192] reads the vector at the row; a
    [1, 8192] row repeated down the 128 rows reads the row at the column.
  * Widening or narrowing the float format changes nothing on the extended reals.

  The last kernel then multiplies the normalised block by the [8192, 10] weights — at (p, o) the sum over k of
  normalised (p, k) times weight (k, o), the contraction index renamed by its one coordinate —, scales each of
  the ten columns and adds its bias: the specification's affine layer of the normalised block.
-/
import proofs.«159875_j41042707481000_2_alg».proof.Proof.Gen.KernelIdeal.Skeleton
import proofs.«159875_j41042707481000_2_alg».proof.Proof.Spec
import proofs.«159875_j41042707481000_2_alg».proof.Proof.LibColumnLayout
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Pay

open Idealize.ShloMosaic Idealize.ShloMosaic.ValueIdx Idealize.ShloMosaic.ColumnLayout Cert.KernelIdeal Cert.KernelIdeal.Gen
open scoped BigOperators

/-- A row's sum: the add-reduction of a [128, 8192] block along its columns, at row p, is the sum over the
    8192 columns of the block's row p (the accumulator's zero word is the neutral element of the sum). -/
theorem rowSum_apply (x : FVec Ideal S128x8192 .f32) (hφ : FKind.Formats .f32)
    (hacc : (0x00000000#32 : BitVec 32) = 0x00000000#32) (p : Fin 128) :
    multiReduction .add [1] S128 x 0x00000000#32 reduces_S128x8192_S128 hφ hacc (ix1 p)
      = ∑ k : Fin 8192, x (ix2 p k) := by
  refine (Ideal.multiReduction_add_single x 0x00000000#32 reduces_S128x8192_S128 hφ hacc (ix1 p)).trans ?_
  refine Finset.sum_congr rfl fun k _ => congrArg x ?_
  funext a
  apply Fin.ext
  match a with
  | ⟨0, _⟩ => rfl
  | ⟨1, _⟩ => rfl

/-- The reciprocal square root, entry by entry. -/
theorem rsqrt_apply {s : Shape} {φ : FTy} (x : FVec Ideal s φ) (i : s.Idx) : rsqrt x i = Ideal.rsqrt (x i) := rfl

/-- The row normalisation of a [128, 8192] block as both normalising kernels spell it: each row's sum, kept as a
    column, divided by the word of 8192 (the mean); the squared deviations' row sum divided likewise (the
    variance); the deviation times the reciprocal square root of variance plus epsilon, times the gain row,
    plus the bias row. -/
def normBlk (x : FVec Ideal S128x8192 .f32) (g b : FVec Ideal S1x8192 .f32) : FVec Ideal S128x8192 .f32 :=
  have s1 : FVec Ideal S128 .f32 := multiReduction .add [1] S128 x 0x00000000#32 reduces_S128x8192_S128 (.inl rfl) rfl
  have mean : FVec Ideal S128x1 .f32 :=
    divf (shapeCast S128x1 s1 shapeCasts_S128_S128x1) (broadcast S128x1 (Scalar.ofBits .f32 0x46000000#32))
  have dev : FVec Ideal S128x8192 .f32 := subf x (broadcastTo S128x8192 mean broadcasts_S128x1_S128x8192)
  have s2 : FVec Ideal S128 .f32 :=
    multiReduction .add [1] S128 (mulf dev dev) 0x00000000#32 reduces_S128x8192_S128 (.inl rfl) rfl
  have var : FVec Ideal S128x1 .f32 :=
    divf (shapeCast S128x1 s2 shapeCasts_S128_S128x1) (broadcast S128x1 (Scalar.ofBits .f32 0x46000000#32))
  have r : FVec Ideal S128x1 .f32 := rsqrt (addf var (broadcast S128x1 (Scalar.ofBits .f32 0x2B8CBCCC#32)))
  addf (mulf (mulf dev (broadcastTo S128x8192 r broadcasts_S128x1_S128x8192))
      (broadcastTo S128x8192 g broadcasts_S1x8192_S128x8192))
    (broadcastTo S128x8192 b broadcasts_S1x8192_S128x8192)

/-- … is, at (p, j), the specification's row normalisation of the block's rows with the gain and bias rows. -/
theorem normBlk_apply (x : FVec Ideal S128x8192 .f32) (g b : FVec Ideal S1x8192 .f32) (p : Fin 128) (j : Fin 8192) :
    normBlk x g b (ix2 p j)
      = Cert.Spec.norm (fun r j => x (ix2 r j)) (fun j => g (ix2 0 j)) (fun j => b (ix2 0 j)) p j := by
  unfold normBlk
  simp only [addf_apply, mulf_apply, subf_apply, divf_apply, rsqrt_apply, broadcast_apply, broadcastTo_1b_ab_apply,
    broadcastTo_a1_ab_apply, shapeCast_a_a1_apply]
  rw [rowSum_apply, rowSum_apply]
  simp only [mulf_apply, subf_apply, divf_apply, broadcast_apply, broadcastTo_a1_ab_apply, shapeCast_a_a1_apply]
  rw [rowSum_apply]
  unfold Cert.Spec.norm Cert.Spec.rowVar Cert.Spec.rowMean
  rfl

/-- The first normalising kernel's store at (p, j): the normalisation of its block (widening the shorter float
    format changes nothing on the extended reals). -/
theorem pay1_norm (v0 : Vec Ideal S128x8192 .bf16) (v21 v25 : Vec Ideal S1x8192 .f32) (p : Fin 128) (j : Fin 8192) :
    k1_pay1 (F := Ideal) v0 v21 v25 (ix2 p j)
      = Cert.Spec.norm (fun r j => v0 (ix2 r j)) (fun j => v21 (ix2 0 j)) (fun j => v25 (ix2 0 j)) p j := by
  unfold k1_pay1
  simp only [shapeCast_self]
  exact normBlk_apply (extf .f32 v0 bitsLt_bf16_f32) v21 v25 p j

/-- The head's product record: [128, 8192] times [8192, 10]. -/
abbrev D2 := dot_S128x8192_S8192x10_S128x10_1_0_0_1_n_n

theorem D2_lhs0 (i : S128x10.Idx) (q : D2.contr.Idx) : (D2.lhsIdx i q 0).val = (i 0).val := by
  unfold DotDims.lhsIdx
  rw [dif_neg (show ¬(0 : Fin S128x8192.rank) ∈ D2.lhsBatch by decide), dif_pos (show (0 : Fin S128x8192.rank) ∈ D2.lhsNonContracting by decide)]
  rfl
theorem D2_lhs1 (i : S128x10.Idx) (q : D2.contr.Idx) : (D2.lhsIdx i q 1).val = (q ⟨0, by decide⟩).val :=
  D2.lhsIdx_val_of_single rfl i q
theorem D2_rhs0 (i : S128x10.Idx) (q : D2.contr.Idx) : (D2.rhsIdx i q 0).val = (q ⟨0, by decide⟩).val :=
  D2.rhsIdx_val_of_single rfl i q
theorem D2_rhs1 (i : S128x10.Idx) (q : D2.contr.Idx) : (D2.rhsIdx i q 1).val = (i 1).val := by
  unfold DotDims.rhsIdx
  rw [dif_neg (show ¬(1 : Fin S8192x10.rank) ∈ D2.rhsBatch by decide), dif_pos (show (1 : Fin S8192x10.rank) ∈ D2.rhsNonContracting by decide)]
  rfl

/-- The head's product into a zero accumulator, at (p, o): the sum over k of left (p, k) times right (k, o). -/
theorem mm2_apply (l : FVec Ideal S128x8192 .bf16) (r : FVec Ideal S8192x10 .bf16) (p : Fin 128) (o : Fin 10) :
    matmul D2 none l r (constant (F := Ideal) S128x10 .f32 0x00000000#32) (ix2 p o)
      = ∑ k : Fin 8192, l (ix2 p k) * r (ix2 k o) := by
  simp only [matmul]
  rw [Ideal.matmul_constant_zero_apply, ← Equiv.sum_comp (contrEquiv1 D2 8192 rfl rfl).symm]
  refine Finset.sum_congr rfl fun k _ => ?_
  have hk := contrEquiv1_symm_val D2 8192 rfl rfl k
  have el : D2.lhsIdx (ix2 p o) ((contrEquiv1 D2 8192 rfl rfl).symm k) = ix2 p k := funext fun a => Fin.ext (by
    match a with
    | ⟨0, _⟩ => exact D2_lhs0 _ _
    | ⟨1, _⟩ => exact (D2_lhs1 _ _).trans hk)
  have er : D2.rhsIdx (ix2 p o) ((contrEquiv1 D2 8192 rfl rfl).symm k) = ix2 k o := funext fun a => Fin.ext (by
    match a with
    | ⟨0, _⟩ => exact (D2_rhs0 _ _).trans hk
    | ⟨1, _⟩ => exact D2_rhs1 _ _)
  rw [el, er]

/-- The last kernel's result at (p, o): its block normalised, then the affine head — the product with the
    [8192, 10] weights, each column scaled and biased. -/
theorem pay3_head (v0 : Vec Ideal S128x8192 .f32) (v20 v24 : Vec Ideal S1x8192 .f32) (v29 : Vec Ideal S8192x10 .bf16)
    (v32 v36 : Vec Ideal S1x10 .f32) (p : Fin 128) (o : Fin 10) :
    k3_pay1 (F := Ideal) v0 v20 v24 v29 v32 v36 (ix2 p o)
      = Cert.Spec.layer
          (Cert.Spec.norm (fun r j => v0 (ix2 r j)) (fun j => v20 (ix2 0 j)) (fun j => v24 (ix2 0 j)))
          (fun k o => v29 (ix2 k o)) (fun o => v32 (ix2 0 o)) (fun o => v36 (ix2 0 o)) p o := by
  unfold k3_pay1
  simp only [shapeCast_self]
  rw [addf_apply, mulf_apply, broadcastTo_1b_ab_apply, broadcastTo_1b_ab_apply, mm2_apply]
  unfold Cert.Spec.layer
  refine congrArg (fun t => t * v32 (ix2 0 o) + v36 (ix2 0 o)) (Finset.sum_congr rfl fun k _ => ?_)
  refine congrArg (fun t => t * v29 (ix2 k o)) ?_
  exact normBlk_apply v0 v20 v24 p k

end Cert.KernelIdeal.Pay

end
-- ==== Proof.I_V1.lean ====
/-
  The first normalising region, read as values on the extended reals.

  The region walks the [8192, 8192] array 128 rows at a time: grid point t holds rows 128·t … 128·t + 127 of the
  input array and the whole gain and offset rows, and writes back the same rows of the output array. What the body
  leaves in its output block is its one store's payload of the three input blocks; at entry (p, j) of the block
  that payload is the row normalisation of the block, which depends on the block's row p only — row 128·t + p of
  the array — so the block written back at t is block t of the row normalisation of the whole array. Row r lies in
  the block of point r / 128 and every point writes back, so after the region the output array is that function.
-/
import proofs.«159875_j41042707481000_2_alg».proof.Proof.I_R1
import proofs.«159875_j41042707481000_2_alg».proof.Proof.Spec
import proofs.«159875_j41042707481000_2_alg».proof.Proof.KNorm
import proofs.«159875_j41042707481000_2_alg».proof.Proof.KPayNorm
import Idealize.ShloMosaic.Lib.Pipeline.Value
import Idealize.ShloMosaic.Lib.ValueIdx

set_option maxRecDepth 16384

noncomputable section

open scoped BigOperators

namespace Cert.KernelIdeal.Val

open Cert.KernelIdeal Cert.KernelIdeal.Gen Cert.KernelIdeal.Hand
open Idealize.ShloMosaic Idealize.ShloMosaic.TcCoe Idealize.ShloMosaic.Tactic Idealize.SL.Sem
open Idealize.ShloMosaic.Pipeline (Dat)

theorem hz2 : (![0, 0] : Fin 2 → Nat) = fun _ => 0 := funext fun a => by fin_cases a <;> rfl

section
variable {F : FTy → Type} [FloatOps F]

/-- What the body leaves in the output block is its payload of the three input blocks. -/
theorem out1_eq (c : Dev nD) (i : grid1.Coords) (arg1 : Memref sig .tc .vmem S128x8192 .bf16) (harg1 : arg1.IsWhole)
    (arg2 : Memref sig .tc .vmem S1x8192 .f32) (harg2 : arg2.IsWhole) (arg3 : Memref sig .tc .vmem S1x8192 .f32) (harg3 : arg3.IsWhole)
    (arg4 : Memref sig .tc .vmem S128x8192 .f32) (harg4 : arg4.IsWhole)
    (x0 : Vec F S128x8192 .bf16) (x1 : Vec F S1x8192 .f32) (x2 : Vec F S1x8192 .f32) :
    out1 c i arg1 harg1 arg2 harg2 arg3 harg3 arg4 harg4 x0 x1 x2 = k1_pay1 x0 x1 x2 := by
  unfold out1
  rw [View.read_writes_eq_canon _ _ _ (cover1 c i arg1 harg1 arg2 harg2 arg3 harg3 arg4 harg4 x0 x1 x2)]
  unfold kernelRun1
  dsimp only
  rw [View.canon_unit_zero hz2]
  simp only [View.readAt_eq_ld, harg1.read_unread, harg2.read_unread, harg3.read_unread,
    View.ld_unit_zero (S := S128x8192) hz2, View.ld_unit_zero (S := S1x8192) hz2]

end

open Idealize.ShloMosaic.ValueIdx

/-- The printed index maps over the 64 grid points: the two [8192, 8192] windows move one block of 128 rows per
    point, the two rows stay at block (0, 0). -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- The whole-array function the first normalising region computes: the row normalisation of its input array. -/
def G1 (a : S8192x8192.Idx → EReal) (g be : S1x8192.Idx → EReal) : S8192x8192.Idx → EReal :=
  fun i => Cert.Spec.norm (fun r j => a (ix2 r j)) (fun j => g (ix2 0 j)) (fun j => be (ix2 0 j)) (i 0) (i 1)

/-- The payload at an entry of the block whose row p holds row R of the array. -/
theorem pay1_at (x0 : Vec Ideal S128x8192 .bf16) (x1 x2 : Vec Ideal S1x8192 .f32)
    (a : S8192x8192.Idx → EReal) (g be : S1x8192.Idx → EReal) (p : Fin 128) (j : Fin 8192) (R : Fin 8192)
    (h0 : ∀ j' : Fin 8192, x0 (ix2 p j') = a (ix2 R j')) (h1 : ∀ j' : Fin 8192, x1 (ix2 0 j') = g (ix2 0 j'))
    (h2 : ∀ j' : Fin 8192, x2 (ix2 0 j') = be (ix2 0 j')) :
    k1_pay1 (F := Ideal) x0 x1 x2 (ix2 p j) = G1 a g be (ix2 R j) := by
  rw [Cert.KernelIdeal.Pay.pay1_norm]
  unfold G1
  rw [show (fun j => x1 (ix2 0 j)) = (fun j => g (ix2 0 j)) from funext h1,
    show (fun j => x2 (ix2 0 j)) = (fun j => be (ix2 0 j)) from funext h2]
  exact Cert.KernelIdeal.Pay.norm_row_congr _ _ _ _ p R h0 j

section
variable (V : (c : Dev nD) → (b : Ref sig .tc) → Buf (Elt Ideal) ((c : Thread nD τ).loc b))

theorem flushed1_eq (c : Dev nD) (t : Fin cfg1.N) :
    (dat1 (F := Ideal) V c).flushed 3 t = ((cfg1.win 3).blk t).view.read (Elt Ideal) (G1 (V c main_v54) (V c main_v55) (V c main_v56)) := by
  show (cfg1.win 3).cut (grid1.coords t) ((dat1 (F := Ideal) V c).after 3 t) = _
  rw [after1_3]
  unfold outsAt1
  rw [out1_eq]
  obtain ⟨e0, e1, e2, e3, e4, e5, e6, e7⟩ := idx_facts1 t
  refine funext fun (y : S128x8192.Idx) => ?_
  obtain ⟨p, j, rfl⟩ : ∃ (p : Fin 128) (j : Fin 8192), y = ix2 p j := ⟨y 0, y 1, eq_ix2 y⟩
  have hR : t.val * 128 + p.val < 8192 := by have := t.isLt; have := p.isLt; have : cfg1.N = 64 := N_1; omega
  show k1_pay1 (F := Ideal) (iblk1 V c 0 t) (iblk1 V c 1 t) (iblk1 V c 2 t) ((cfg1.win 3).xinj (grid1.coords t) (ix2 p j))
    = G1 (V c main_v54) (V c main_v55) (V c main_v56) (((cfg1.win 3).blk t).view.emb (ix2 p j))
  have ex : (cfg1.win 3).xinj (grid1.coords t) (ix2 p j) = ix2 p j :=
    funext fun a => Fin.ext (by match a with | ⟨0, _⟩ => rfl | ⟨1, _⟩ => rfl)
  have ee : ((cfg1.win 3).blk t).view.emb (ix2 p j) = ix2 (⟨t.val * 128 + p.val, hR⟩ : Fin 8192) j := by
    funext a; apply Fin.ext
    match a with
    | ⟨0, _⟩ => show win1_3.index t (0 : Fin 2) * 128 + 1 * p.val = t.val * 128 + p.val; rw [e6]; omega
    | ⟨1, _⟩ => show win1_3.index t (1 : Fin 2) * 8192 + 1 * j.val = j.val; rw [e7]; omega
  rw [ex, ee]
  refine pay1_at (iblk1 V c 0 t) (iblk1 V c 1 t) (iblk1 V c 2 t) (V c main_v54) (V c main_v55) (V c main_v56) p j
    (⟨t.val * 128 + p.val, hR⟩ : Fin 8192) (fun j' => ?_) (fun j' => ?_) (fun j' => ?_)
  · show V c main_v54 (((cfg1.win 0).blk t).view.emb (ix2 p j')) = V c main_v54 (ix2 (⟨t.val * 128 + p.val, hR⟩ : Fin 8192) j')
    refine congrArg (V c main_v54) (funext fun a => Fin.ext ?_)
    match a with
    | ⟨0, _⟩ => show win1_0.index t (0 : Fin 2) * 128 + 1 * p.val = t.val * 128 + p.val; rw [e0]; omega
    | ⟨1, _⟩ => show win1_0.index t (1 : Fin 2) * 8192 + 1 * j'.val = j'.val; rw [e1]; omega
  · show V c main_v55 (((cfg1.win 1).blk t).view.emb (ix2 (0 : Fin 1) j')) = V c main_v55 (ix2 (0 : Fin 1) j')
    refine congrArg (V c main_v55) (funext fun a => Fin.ext ?_)
    match a with
    | ⟨0, _⟩ => show win1_1.index t (0 : Fin 2) * 1 + 1 * 0 = 0; rw [e2]
    | ⟨1, _⟩ => show win1_1.index t (1 : Fin 2) * 8192 + 1 * j'.val = j'.val; rw [e3]; omega
  · show V c main_v56 (((cfg1.win 2).blk t).view.emb (ix2 (0 : Fin 1) j')) = V c main_v56 (ix2 (0 : Fin 1) j')
    refine congrArg (V c main_v56) (funext fun a => Fin.ext ?_)
    match a with
    | ⟨0, _⟩ => show win1_2.index t (0 : Fin 2) * 1 + 1 * 0 = 0; rw [e4]
    | ⟨1, _⟩ => show win1_2.index t (1 : Fin 2) * 8192 + 1 * j'.val = j'.val; rw [e5]; omega

end

/-- An index of the array is in point t's block iff each coordinate is in the block's range on its axis. -/
theorem mem_blk1 (t : Fin cfg1.N) (i : S8192x8192.Idx) :
    i ∈ ((cfg1.win 3).blk t).view.set ↔ ∀ a : Fin 2, win1_3.index t a * S128x8192.size a ≤ (i a).val
      ∧ (i a).val < win1_3.index t a * S128x8192.size a + S128x8192.size a := by
  show i ∈ ((View.whole main_v57).slice (win1_3.rect t)).set ↔ _
  rw [View.set_slice_whole, Rect.mem_set_unit]
  exact Iff.rfl

/-- Row r of the array lies in the block of point r / 128, and every point writes its block back. -/
theorem covered1 (i : S8192x8192.Idx) :
    ∃ t : Fin cfg1.N, (cfg1.win 3).flush t = true ∧ i ∈ ((cfg1.win 3).blk t).view.set := by
  have hN : cfg1.N = 64 := N_1
  have hi0 : (i 0).val < 8192 := (i 0).isLt
  have hi1 : (i 1).val < 8192 := (i 1).isLt
  have ht : (i 0).val / 128 < cfg1.N := by omega
  obtain ⟨e0, e1, e2, e3, e4, e5, e6, e7⟩ := idx_facts1 ⟨(i 0).val / 128, ht⟩
  refine ⟨⟨(i 0).val / 128, ht⟩, flush1_3 _, ?_⟩
  rw [mem_blk1]
  intro a
  match a with
  | ⟨0, _⟩ =>
    show win1_3.index ⟨(i 0).val / 128, ht⟩ (0 : Fin 2) * 128 ≤ (i 0).val
      ∧ (i 0).val < win1_3.index ⟨(i 0).val / 128, ht⟩ (0 : Fin 2) * 128 + 128
    rw [e6]; dsimp only; omega
  | ⟨1, _⟩ =>
    show win1_3.index ⟨(i 0).val / 128, ht⟩ (1 : Fin 2) * 8192 ≤ (i 1).val
      ∧ (i 1).val < win1_3.index ⟨(i 0).val / 128, ht⟩ (1 : Fin 2) * 8192 + 8192
    rw [e7]; omega

section
variable (V : (c : Dev nD) → (b : Ref sig .tc) → Buf (Elt Ideal) ((c : Thread nD τ).loc b))

/-- After the first normalising region its output array is the row normalisation of its input array. -/
theorem final1 (c : Dev nD) :
    (dat1 (F := Ideal) V c).arrAt 3 cfg1.N = fun i => Cert.Spec.norm (fun r j => V c main_v54 (ix2 r j))
      (fun j => V c main_v55 (ix2 0 j)) (fun j => V c main_v56 (ix2 0 j)) (i 0) (i 1) :=
  (dat1 (F := Ideal) V c).arrAt_eq_of_cover 3 (G1 (V c main_v54) (V c main_v55) (V c main_v56))
    (fun t _ => flushed1_eq V c t) covered1

end

end Cert.KernelIdeal.Val

end
-- ==== Proof.I_V3.lean ====
/-
  The last region, read as values on the extended reals.

  The region walks the [8192, 8192] array 128 rows at a time: grid point t holds rows 128·t … 128·t + 127 of the
  input array, the whole gain and offset rows, the whole [8192, 10] weights and the head's scale and bias rows, and
  writes back the same rows of the [8192, 10] output array. What the body leaves in its output block is its one
  store's payload of the six input blocks; at entry (p, o) of the block that payload is the head layer of the row
  normalisation of the block, which depends on the block's row p only — row 128·t + p of the array — so the block
  written back at t is block t of the head layer of the row normalisation of the whole array. Row r lies in the
  block of point r / 128 and every point writes back, so after the region the output array is that function.
-/
import proofs.«159875_j41042707481000_2_alg».proof.Proof.I_R3
import proofs.«159875_j41042707481000_2_alg».proof.Proof.Spec
import proofs.«159875_j41042707481000_2_alg».proof.Proof.KNorm
import proofs.«159875_j41042707481000_2_alg».proof.Proof.KPayNorm
import Idealize.ShloMosaic.Lib.Pipeline.Value
import Idealize.ShloMosaic.Lib.ValueIdx

set_option maxRecDepth 16384

noncomputable section

open scoped BigOperators

namespace Cert.KernelIdeal.Val

open Cert.KernelIdeal Cert.KernelIdeal.Gen Cert.KernelIdeal.Hand
open Idealize.ShloMosaic Idealize.ShloMosaic.TcCoe Idealize.ShloMosaic.Tactic Idealize.SL.Sem
open Idealize.ShloMosaic.Pipeline (Dat)

theorem hz2' : (![0, 0] : Fin 2 → Nat) = fun _ => 0 := funext fun a => by fin_cases a <;> rfl

section
variable {F : FTy → Type} [FloatOps F]

/-- What the body leaves in the output block is its payload of the six input blocks. -/
theorem out3_eq (c : Dev nD) (i : grid3.Coords) (arg1 : Memref sig .tc .vmem S128x8192 .f32) (harg1 : arg1.IsWhole)
    (arg2 : Memref sig .tc .vmem S1x8192 .f32) (harg2 : arg2.IsWhole) (arg3 : Memref sig .tc .vmem S1x8192 .f32) (harg3 : arg3.IsWhole)
    (arg4 : Memref sig .tc .vmem S8192x10 .bf16) (harg4 : arg4.IsWhole) (arg5 : Memref sig .tc .vmem S1x10 .f32) (harg5 : arg5.IsWhole)
    (arg6 : Memref sig .tc .vmem S1x10 .f32) (harg6 : arg6.IsWhole) (arg7 : Memref sig .tc .vmem S128x10 .f32) (harg7 : arg7.IsWhole)
    (x0 : Vec F S128x8192 .f32) (x1 : Vec F S1x8192 .f32) (x2 : Vec F S1x8192 .f32) (x3 : Vec F S8192x10 .bf16)
    (x4 : Vec F S1x10 .f32) (x5 : Vec F S1x10 .f32) :
    out3 c i arg1 harg1 arg2 harg2 arg3 harg3 arg4 harg4 arg5 harg5 arg6 harg6 arg7 harg7 x0 x1 x2 x3 x4 x5 = k3_pay1 x0 x1 x2 x3 x4 x5 := by
  unfold out3
  rw [View.read_writes_eq_canon _ _ _ (cover3 c i arg1 harg1 arg2 harg2 arg3 harg3 arg4 harg4 arg5 harg5 arg6 harg6 arg7 harg7 x0 x1 x2 x3 x4 x5)]
  unfold kernelRun3
  dsimp only
  sl_unfold_words
  rw [View.canon_unit_zero hz2']
  simp only [View.readAt_eq_ld, harg1.read_unread, harg2.read_unread, harg3.read_unread, harg4.read_unread,
    harg5.read_unread, harg6.read_unread,
    View.ld_unit_zero (S := S128x8192) hz2', View.ld_unit_zero (S := S1x8192) hz2', View.ld_unit_zero (S := S8192x10) hz2',
    View.ld_unit_zero (S := S1x10) hz2']

end

open Idealize.ShloMosaic.ValueIdx

/-- The printed index maps over the 64 grid points: the [8192, 8192] input and the [8192, 10] output move one block of
    128 rows per point; the gain and offset rows, the weights and the head's scale and bias stay at block (0, 0). -/
theorem idx_facts3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = t.val ∧ win3_6.index t (1 : Fin 2) = 0 :=
  (by decide +kernel : ∀ t : Fin grid3.N, _)

/-- The whole-array function the last region computes: the head layer of the row normalisation of its input array. -/
def G3 (a : S8192x8192.Idx → EReal) (g be : S1x8192.Idx → EReal) (w : S8192x10.Idx → EReal) (s b : S1x10.Idx → EReal) :
    S8192x10.Idx → EReal :=
  fun i => Cert.Spec.layer (Cert.Spec.norm (fun r j => a (ix2 r j)) (fun j => g (ix2 0 j)) (fun j => be (ix2 0 j)))
    (fun k o => w (ix2 k o)) (fun o => s (ix2 0 o)) (fun o => b (ix2 0 o)) (i 0) (i 1)

/-- The payload at an entry of the block whose row p holds row R of the array. -/
theorem pay3_at (x0 : Vec Ideal S128x8192 .f32) (x1 x2 : Vec Ideal S1x8192 .f32) (x3 : Vec Ideal S8192x10 .bf16)
    (x4 x5 : Vec Ideal S1x10 .f32)
    (a : S8192x8192.Idx → EReal) (g be : S1x8192.Idx → EReal) (w : S8192x10.Idx → EReal) (s b : S1x10.Idx → EReal)
    (p : Fin 128) (o : Fin 10) (R : Fin 8192)
    (h0 : ∀ j' : Fin 8192, x0 (ix2 p j') = a (ix2 R j')) (h1 : ∀ j' : Fin 8192, x1 (ix2 0 j') = g (ix2 0 j'))
    (h2 : ∀ j' : Fin 8192, x2 (ix2 0 j') = be (ix2 0 j'))
    (h3 : ∀ (k : Fin 8192) (o' : Fin 10), x3 (ix2 k o') = w (ix2 k o'))
    (h4 : ∀ o' : Fin 10, x4 (ix2 0 o') = s (ix2 0 o')) (h5 : ∀ o' : Fin 10, x5 (ix2 0 o') = b (ix2 0 o')) :
    k3_pay1 (F := Ideal) x0 x1 x2 x3 x4 x5 (ix2 p o) = G3 a g be w s b (ix2 R o) := by
  rw [Cert.KernelIdeal.Pay.pay3_head]
  unfold G3
  rw [show (fun j => x1 (ix2 0 j)) = (fun j => g (ix2 0 j)) from funext h1,
    show (fun j => x2 (ix2 0 j)) = (fun j => be (ix2 0 j)) from funext h2,
    show (fun k o => x3 (ix2 k o)) = (fun k o => w (ix2 k o)) from funext fun k => funext fun o' => h3 k o',
    show (fun o => x4 (ix2 0 o)) = (fun o => s (ix2 0 o)) from funext h4,
    show (fun o => x5 (ix2 0 o)) = (fun o => b (ix2 0 o)) from funext h5]
  exact Cert.KernelIdeal.Pay.layer_row_congr _ _ _ _ _ p R
    (fun k => Cert.KernelIdeal.Pay.norm_row_congr _ _ _ _ p R h0 k) o

section
variable (V : (c : Dev nD) → (b : Ref sig .tc) → Buf (Elt Ideal) ((c : Thread nD τ).loc b))

theorem flushed3_eq (c : Dev nD) (t : Fin cfg3.N) :
    (dat3 (F := Ideal) V c).flushed 6 t = ((cfg3.win 6).blk t).view.read (Elt Ideal)
      (G3 (V c main_v60) (V c main_v61) (V c main_v62) (V c main_v51) (V c main_v63) (V c main_v64)) := by
  show (cfg3.win 6).cut (grid3.coords t) ((dat3 (F := Ideal) V c).after 6 t) = _
  rw [after3_6]
  unfold outsAt3
  rw [out3_eq]
  obtain ⟨e0, e1, e2, e3, e4, e5, e6, e7, e8, e9, e10, e11, e12, e13⟩ := idx_facts3 t
  refine funext fun (y : S128x10.Idx) => ?_
  obtain ⟨p, o, rfl⟩ : ∃ (p : Fin 128) (o : Fin 10), y = ix2 p o := ⟨y 0, y 1, eq_ix2 y⟩
  have hR : t.val * 128 + p.val < 8192 := by have := t.isLt; have := p.isLt; have : cfg3.N = 64 := N_3; omega
  show k3_pay1 (F := Ideal) (iblk3 V c 0 t) (iblk3 V c 1 t) (iblk3 V c 2 t) (iblk3 V c 3 t) (iblk3 V c 4 t) (iblk3 V c 5 t)
      ((cfg3.win 6).xinj (grid3.coords t) (ix2 p o))
    = G3 (V c main_v60) (V c main_v61) (V c main_v62) (V c main_v51) (V c main_v63) (V c main_v64)
      (((cfg3.win 6).blk t).view.emb (ix2 p o))
  have ex : (cfg3.win 6).xinj (grid3.coords t) (ix2 p o) = ix2 p o :=
    funext fun a => Fin.ext (by match a with | ⟨0, _⟩ => rfl | ⟨1, _⟩ => rfl)
  have ee : ((cfg3.win 6).blk t).view.emb (ix2 p o) = ix2 (⟨t.val * 128 + p.val, hR⟩ : Fin 8192) o := by
    funext a; apply Fin.ext
    match a with
    | ⟨0, _⟩ => show win3_6.index t (0 : Fin 2) * 128 + 1 * p.val = t.val * 128 + p.val; rw [e12]; omega
    | ⟨1, _⟩ => show win3_6.index t (1 : Fin 2) * 10 + 1 * o.val = o.val; rw [e13]; omega
  rw [ex, ee]
  refine pay3_at (iblk3 V c 0 t) (iblk3 V c 1 t) (iblk3 V c 2 t) (iblk3 V c 3 t) (iblk3 V c 4 t) (iblk3 V c 5 t)
    (V c main_v60) (V c main_v61) (V c main_v62) (V c main_v51) (V c main_v63) (V c main_v64) p o
    (⟨t.val * 128 + p.val, hR⟩ : Fin 8192) (fun j' => ?_) (fun j' => ?_) (fun j' => ?_) (fun k o' => ?_) (fun j' => ?_) (fun j' => ?_)
  · show V c main_v60 (((cfg3.win 0).blk t).view.emb (ix2 p j')) = V c main_v60 (ix2 (⟨t.val * 128 + p.val, hR⟩ : Fin 8192) j')
    refine congrArg (V c main_v60) (funext fun a => Fin.ext ?_)
    match a with
    | ⟨0, _⟩ => show win3_0.index t (0 : Fin 2) * 128 + 1 * p.val = t.val * 128 + p.val; rw [e0]; omega
    | ⟨1, _⟩ => show win3_0.index t (1 : Fin 2) * 8192 + 1 * j'.val = j'.val; rw [e1]; omega
  · show V c main_v61 (((cfg3.win 1).blk t).view.emb (ix2 (0 : Fin 1) j')) = V c main_v61 (ix2 (0 : Fin 1) j')
    refine congrArg (V c main_v61) (funext fun a => Fin.ext ?_)
    match a with
    | ⟨0, _⟩ => show win3_1.index t (0 : Fin 2) * 1 + 1 * 0 = 0; rw [e2]
    | ⟨1, _⟩ => show win3_1.index t (1 : Fin 2) * 8192 + 1 * j'.val = j'.val; rw [e3]; omega
  · show V c main_v62 (((cfg3.win 2).blk t).view.emb (ix2 (0 : Fin 1) j')) = V c main_v62 (ix2 (0 : Fin 1) j')
    refine congrArg (V c main_v62) (funext fun a => Fin.ext ?_)
    match a with
    | ⟨0, _⟩ => show win3_2.index t (0 : Fin 2) * 1 + 1 * 0 = 0; rw [e4]
    | ⟨1, _⟩ => show win3_2.index t (1 : Fin 2) * 8192 + 1 * j'.val = j'.val; rw [e5]; omega
  · show V c main_v51 (((cfg3.win 3).blk t).view.emb (ix2 k o')) = V c main_v51 (ix2 k o')
    refine congrArg (V c main_v51) (funext fun a => Fin.ext ?_)
    match a with
    | ⟨0, _⟩ => show win3_3.index t (0 : Fin 2) * 8192 + 1 * k.val = k.val; rw [e6]; omega
    | ⟨1, _⟩ => show win3_3.index t (1 : Fin 2) * 10 + 1 * o'.val = o'.val; rw [e7]; omega
  · show V c main_v63 (((cfg3.win 4).blk t).view.emb (ix2 (0 : Fin 1) j')) = V c main_v63 (ix2 (0 : Fin 1) j')
    refine congrArg (V c main_v63) (funext fun a => Fin.ext ?_)
    match a with
    | ⟨0, _⟩ => show win3_4.index t (0 : Fin 2) * 1 + 1 * 0 = 0; rw [e8]
    | ⟨1, _⟩ => show win3_4.index t (1 : Fin 2) * 10 + 1 * j'.val = j'.val; rw [e9]; omega
  · show V c main_v64 (((cfg3.win 5).blk t).view.emb (ix2 (0 : Fin 1) j')) = V c main_v64 (ix2 (0 : Fin 1) j')
    refine congrArg (V c main_v64) (funext fun a => Fin.ext ?_)
    match a with
    | ⟨0, _⟩ => show win3_5.index t (0 : Fin 2) * 1 + 1 * 0 = 0; rw [e10]
    | ⟨1, _⟩ => show win3_5.index t (1 : Fin 2) * 10 + 1 * j'.val = j'.val; rw [e11]; omega

end

/-- An index of the array is in point t's block iff each coordinate is in the block's range on its axis. -/
theorem mem_blk3 (t : Fin cfg3.N) (i : S8192x10.Idx) :
    i ∈ ((cfg3.win 6).blk t).view.set ↔ ∀ a : Fin 2, win3_6.index t a * S128x10.size a ≤ (i a).val
      ∧ (i a).val < win3_6.index t a * S128x10.size a + S128x10.size a := by
  show i ∈ ((View.whole main_v65).slice (win3_6.rect t)).set ↔ _
  rw [View.set_slice_whole, Rect.mem_set_unit]
  exact Iff.rfl

/-- Row r of the array lies in the block of point r / 128, and every point writes its block back. -/
theorem covered3 (i : S8192x10.Idx) :
    ∃ t : Fin cfg3.N, (cfg3.win 6).flush t = true ∧ i ∈ ((cfg3.win 6).blk t).view.set := by
  have hN : cfg3.N = 64 := N_3
  have hi0 : (i 0).val < 8192 := (i 0).isLt
  have hi1 : (i 1).val < 10 := (i 1).isLt
  have ht : (i 0).val / 128 < cfg3.N := by omega
  obtain ⟨e0, e1, e2, e3, e4, e5, e6, e7, e8, e9, e10, e11, e12, e13⟩ := idx_facts3 ⟨(i 0).val / 128, ht⟩
  refine ⟨⟨(i 0).val / 128, ht⟩, flush3_6 _, ?_⟩
  rw [mem_blk3]
  intro a
  match a with
  | ⟨0, _⟩ =>
    show win3_6.index ⟨(i 0).val / 128, ht⟩ (0 : Fin 2) * 128 ≤ (i 0).val
      ∧ (i 0).val < win3_6.index ⟨(i 0).val / 128, ht⟩ (0 : Fin 2) * 128 + 128
    rw [e12]; dsimp only; omega
  | ⟨1, _⟩ =>
    show win3_6.index ⟨(i 0).val / 128, ht⟩ (1 : Fin 2) * 10 ≤ (i 1).val
      ∧ (i 1).val < win3_6.index ⟨(i 0).val / 128, ht⟩ (1 : Fin 2) * 10 + 10
    rw [e13]; omega

section
variable (V : (c : Dev nD) → (b : Ref sig .tc) → Buf (Elt Ideal) ((c : Thread nD τ).loc b))

/-- After the last region its output array is the head layer of the row normalisation of its input array. -/
theorem final3 (c : Dev nD) :
    (dat3 (F := Ideal) V c).arrAt 6 cfg3.N = fun i => Cert.Spec.layer
      (Cert.Spec.norm (fun r j => V c main_v60 (ix2 r j)) (fun j => V c main_v61 (ix2 0 j)) (fun j => V c main_v62 (ix2 0 j)))
      (fun k o => V c main_v51 (ix2 k o)) (fun o => V c main_v63 (ix2 0 o)) (fun o => V c main_v64 (ix2 0 o)) (i 0) (i 1) :=
  (dat3 (F := Ideal) V c).arrAt_eq_of_cover 6
    (G3 (V c main_v60) (V c main_v61) (V c main_v62) (V c main_v51) (V c main_v63) (V c main_v64))
    (fun t _ => flushed3_eq V c t) covered3

end

end Cert.KernelIdeal.Val

end
-- ==== Proof.KHost19.lean ====
/-
  The host operations before the first region, read at the first softened weight matrix.
-/
import proofs.«159875_j41042707481000_2_alg».proof.Proof.Gen.KernelIdeal.Launch
import proofs.«159875_j41042707481000_2_alg».proof.Proof.Spec
import Idealize.ShloMosaic.Lib.StableHlo.Run
import Idealize.ShloMosaic.Lib.Pipeline.Value
import Idealize.ShloMosaic.Lib.ValueIdx
import Idealize.ShloMosaic.Lib.ValueLayout

set_option maxRecDepth 16384

noncomputable section

open scoped BigOperators

namespace Cert.KernelNet

open Cert.KernelIdeal Cert.KernelIdeal.Gen
open Idealize.ShloMosaic Idealize.ShloMosaic.TcCoe Idealize.ShloMosaic.StableHlo Idealize.ShloMosaic.ValueIdx Idealize.SL.Sem

section
variable (X : Valuation τ sig (Elt Ideal))

/-- The first weight matrix after the first stretch: softSign of the argument, entry by entry (the narrowing of the
    float format changes nothing on the extended reals). -/
theorem ops0_v19 : StableHlo.after (main_part0_ops0 (F := Ideal)) X (Proc.devRef .tc main_v19)
    = fun i => Cert.Spec.softSign (X (Proc.devRef .tc main_arg1) i) := by
  after_results_simp
  funext i
  rfl
end

end Cert.KernelNet

end
-- ==== Proof.KHost35.lean ====
/-
  The host operations before the first region, read at the second softened weight matrix.
-/
import proofs.«159875_j41042707481000_2_alg».proof.Proof.Gen.KernelIdeal.Launch
import proofs.«159875_j41042707481000_2_alg».proof.Proof.Spec
import Idealize.ShloMosaic.Lib.StableHlo.Run
import Idealize.ShloMosaic.Lib.Pipeline.Value
import Idealize.ShloMosaic.Lib.ValueIdx
import Idealize.ShloMosaic.Lib.ValueLayout

set_option maxRecDepth 16384

noncomputable section

open scoped BigOperators

namespace Cert.KernelNet

open Cert.KernelIdeal Cert.KernelIdeal.Gen
open Idealize.ShloMosaic Idealize.ShloMosaic.TcCoe Idealize.ShloMosaic.StableHlo Idealize.ShloMosaic.ValueIdx Idealize.SL.Sem

section
variable (X : Valuation τ sig (Elt Ideal))

/-- The second weight matrix after the first stretch: softBin of the argument, entry by entry. -/
theorem ops0_v35 : StableHlo.after (main_part0_ops0 (F := Ideal)) X (Proc.devRef .tc main_v35)
    = fun i => Cert.Spec.softBin (X (Proc.devRef .tc main_arg6) i) := by
  after_results_simp
  funext i
  rfl
end

end Cert.KernelNet

end
-- ==== Proof.KHost37.lean ====
/-
  The host operations before the first region, read at the part of the third weight matrix's softening they reach
  (its linear term and the exponent's argument), and at the input array, which they do not write.
-/
import proofs.«159875_j41042707481000_2_alg».proof.Proof.Gen.KernelIdeal.Launch
import proofs.«159875_j41042707481000_2_alg».proof.Proof.Spec
import Idealize.ShloMosaic.Lib.StableHlo.Run
import Idealize.ShloMosaic.Lib.Pipeline.Value
import Idealize.ShloMosaic.Lib.ValueIdx
import Idealize.ShloMosaic.Lib.ValueLayout

set_option maxRecDepth 16384

noncomputable section

open scoped BigOperators

namespace Cert.KernelNet

open Cert.KernelIdeal Cert.KernelIdeal.Gen
open Idealize.ShloMosaic Idealize.ShloMosaic.TcCoe Idealize.ShloMosaic.StableHlo Idealize.ShloMosaic.ValueIdx Idealize.SL.Sem

section
variable (X : Valuation τ sig (Elt Ideal))

theorem ops0_v37 (x : S8192x10.Idx → EReal) (hx : X (Proc.devRef .tc main_arg11) = x) :
    StableHlo.after (main_part0_ops0 (F := Ideal)) X (Proc.devRef .tc main_v37) = fun i => Cert.Spec.wC * x i := by
  subst hx
  after_results_simp
  funext i
  rfl

theorem ops0_v42 (x : S8192x10.Idx → EReal) (hx : X (Proc.devRef .tc main_arg11) = x) :
    StableHlo.after (main_part0_ops0 (F := Ideal)) X (Proc.devRef .tc main_v42)
      = fun i => -(Ideal.div (x i * Cert.Spec.wHundred) Cert.Spec.wT) := by
  subst hx
  after_results_simp
  funext i
  rfl

theorem ops0_arg0 : StableHlo.after (main_part0_ops0 (F := Ideal)) X (Proc.devRef .tc main_arg0)
    = X (Proc.devRef .tc main_arg0) := by
  after_results_simp
end

end Cert.KernelNet

end
-- ==== Proof.KHostRest.lean ====
/-
  The later stretches of host operations: the rest of the third weight matrix's softening, and the vectors laid out
  as rows (a [n] vector reshaped to [1, n] reads, at (0, j), the vector at j); and what each stretch leaves alone.
-/
import proofs.«159875_j41042707481000_2_alg».proof.Proof.Gen.KernelIdeal.Launch
import proofs.«159875_j41042707481000_2_alg».proof.Proof.Spec
import Idealize.ShloMosaic.Lib.StableHlo.Run
import Idealize.ShloMosaic.Lib.Pipeline.Value
import Idealize.ShloMosaic.Lib.ValueIdx
import Idealize.ShloMosaic.Lib.ValueLayout

set_option maxRecDepth 16384

noncomputable section

open scoped BigOperators

namespace Cert.KernelNet

open Cert.KernelIdeal Cert.KernelIdeal.Gen
open Idealize.ShloMosaic Idealize.ShloMosaic.TcCoe Idealize.ShloMosaic.StableHlo Idealize.ShloMosaic.ValueIdx Idealize.SL.Sem

section
variable (Y : Valuation τ sig (Elt Ideal))

theorem ops0b_v51 (a b : S8192x10.Idx → EReal) (ha : Y (Proc.devRef .tc main_v37) = a) (hb : Y (Proc.devRef .tc main_v42) = b) :
    StableHlo.after (main_part1_ops0 (F := Ideal)) Y (Proc.devRef .tc main_v51)
      = fun i => a i + Cert.Spec.wH * Ideal.div Cert.Spec.wOne (Cert.Spec.wOne + Ideal.exp (b i)) := by
  subst ha hb
  after_results_simp
  funext i
  rfl

theorem ops0b_v52 (j : Fin 8192) : (StableHlo.after (main_part1_ops0 (F := Ideal)) Y (Proc.devRef .tc main_v52) : S1x8192.Idx → EReal) (ix2 (0 : Fin 1) j)
    = (Y (Proc.devRef .tc main_arg3) : S8192.Idx → EReal) (ix1 j) := by
  after_results_simp
  exact shapeCast_a_1a_apply _ _ 0 j

theorem ops0b_v53 (j : Fin 8192) : (StableHlo.after (main_part1_ops0 (F := Ideal)) Y (Proc.devRef .tc main_v53) : S1x8192.Idx → EReal) (ix2 (0 : Fin 1) j)
    = (Y (Proc.devRef .tc main_arg2) : S8192.Idx → EReal) (ix1 j) := by
  after_results_simp
  exact shapeCast_a_1a_apply _ _ 0 j

/-- The second stretch writes none of these. -/
theorem ops0b_keep (r : Ref sig .tc)
    (hr : r ∉ [main_v43, main_cst_16, main_v44, main_v45, main_cst_17, main_v46, main_v47, main_cst_18, main_v48, main_v49,
      main_v50, main_v51, main_v52, main_v53]) :
    StableHlo.after (main_part1_ops0 (F := Ideal)) Y (Proc.devRef .tc r) = Y (Proc.devRef .tc r) :=
  StableHlo.after_of_writes_sub _ _ (by
    simp only [main_part1_ops0, List.Forall, StableHlo.nullary_writes, StableHlo.unary_writes, StableHlo.binary_writes,
      StableHlo.reshape_writes, Finset.singleton_subset_iff, List.mem_toFinset, List.mem_map]
    refine ⟨⟨_, ?_, rfl⟩, ⟨_, ?_, rfl⟩, ⟨_, ?_, rfl⟩, ⟨_, ?_, rfl⟩, ⟨_, ?_, rfl⟩, ⟨_, ?_, rfl⟩, ⟨_, ?_, rfl⟩, ⟨_, ?_, rfl⟩, ⟨_, ?_, rfl⟩, ⟨_, ?_, rfl⟩,
      ⟨_, ?_, rfl⟩, ⟨_, ?_, rfl⟩, ⟨_, ?_, rfl⟩, ⟨_, ?_, rfl⟩⟩ <;> simp) hr
end

section
variable (Y : Valuation τ sig (Elt Ideal))

/-- A stretch of operations writes only the references in a list holding each operation's result. -/
theorem ops1_keep (r : Ref sig .tc) (hr : r ∉ [main_v55, main_v56]) :
    StableHlo.after (main_part1_ops1 (F := Ideal)) Y (Proc.devRef .tc r) = Y (Proc.devRef .tc r) :=
  StableHlo.after_of_writes_sub _ _ (by
    simp only [main_part1_ops1, List.Forall, StableHlo.reshape_writes, Finset.singleton_subset_iff, List.mem_toFinset, List.mem_map]
    refine ⟨⟨_, ?_, rfl⟩, ⟨_, ?_, rfl⟩⟩ <;> simp) hr

theorem ops2_keep (r : Ref sig .tc) (hr : r ∉ [main_v58, main_v59]) :
    StableHlo.after (main_part1_ops2 (F := Ideal)) Y (Proc.devRef .tc r) = Y (Proc.devRef .tc r) :=
  StableHlo.after_of_writes_sub _ _ (by
    simp only [main_part1_ops2, List.Forall, StableHlo.reshape_writes, Finset.singleton_subset_iff, List.mem_toFinset, List.mem_map]
    refine ⟨⟨_, ?_, rfl⟩, ⟨_, ?_, rfl⟩⟩ <;> simp) hr

theorem ops3_keep (r : Ref sig .tc) (hr : r ∉ [main_v61, main_v62, main_v63, main_v64]) :
    StableHlo.after (main_part1_ops3 (F := Ideal)) Y (Proc.devRef .tc r) = Y (Proc.devRef .tc r) :=
  StableHlo.after_of_writes_sub _ _ (by
    simp only [main_part1_ops3, List.Forall, StableHlo.reshape_writes, Finset.singleton_subset_iff, List.mem_toFinset, List.mem_map]
    refine ⟨⟨_, ?_, rfl⟩, ⟨_, ?_, rfl⟩, ⟨_, ?_, rfl⟩, ⟨_, ?_, rfl⟩⟩ <;> simp) hr

/-- A vector laid out as a row reads the vector at the column. -/
theorem ops1_v55 (x : S8192.Idx → EReal) (hx : Y (Proc.devRef .tc main_arg4) = x) (j : Fin 8192) :
    (StableHlo.after (main_part1_ops1 (F := Ideal)) Y (Proc.devRef .tc main_v55) : S1x8192.Idx → EReal) (ix2 (0 : Fin 1) j) = x (ix1 j) := by
  subst hx
  after_results_simp
  exact shapeCast_a_1a_apply _ _ 0 j

/-- A vector laid out as a row reads the vector at the column. -/
theorem ops1_v56 (x : S8192.Idx → EReal) (hx : Y (Proc.devRef .tc main_arg5) = x) (j : Fin 8192) :
    (StableHlo.after (main_part1_ops1 (F := Ideal)) Y (Proc.devRef .tc main_v56) : S1x8192.Idx → EReal) (ix2 (0 : Fin 1) j) = x (ix1 j) := by
  subst hx
  after_results_simp
  exact shapeCast_a_1a_apply _ _ 0 j

/-- A vector laid out as a row reads the vector at the column. -/
theorem ops2_v58 (x : S8192.Idx → EReal) (hx : Y (Proc.devRef .tc main_arg8) = x) (j : Fin 8192) :
    (StableHlo.after (main_part1_ops2 (F := Ideal)) Y (Proc.devRef .tc main_v58) : S1x8192.Idx → EReal) (ix2 (0 : Fin 1) j) = x (ix1 j) := by
  subst hx
  after_results_simp
  exact shapeCast_a_1a_apply _ _ 0 j

/-- A vector laid out as a row reads the vector at the column. -/
theorem ops2_v59 (x : S8192.Idx → EReal) (hx : Y (Proc.devRef .tc main_arg7) = x) (j : Fin 8192) :
    (StableHlo.after (main_part1_ops2 (F := Ideal)) Y (Proc.devRef .tc main_v59) : S1x8192.Idx → EReal) (ix2 (0 : Fin 1) j) = x (ix1 j) := by
  subst hx
  after_results_simp
  exact shapeCast_a_1a_apply _ _ 0 j

/-- A vector laid out as a row reads the vector at the column. -/
theorem ops3_v61 (x : S8192.Idx → EReal) (hx : Y (Proc.devRef .tc main_arg9) = x) (j : Fin 8192) :
    (StableHlo.after (main_part1_ops3 (F := Ideal)) Y (Proc.devRef .tc main_v61) : S1x8192.Idx → EReal) (ix2 (0 : Fin 1) j) = x (ix1 j) := by
  subst hx
  after_results_simp
  exact shapeCast_a_1a_apply _ _ 0 j

/-- A vector laid out as a row reads the vector at the column. -/
theorem ops3_v62 (x : S8192.Idx → EReal) (hx : Y (Proc.devRef .tc main_arg10) = x) (j : Fin 8192) :
    (StableHlo.after (main_part1_ops3 (F := Ideal)) Y (Proc.devRef .tc main_v62) : S1x8192.Idx → EReal) (ix2 (0 : Fin 1) j) = x (ix1 j) := by
  subst hx
  after_results_simp
  exact shapeCast_a_1a_apply _ _ 0 j

/-- A vector laid out as a row reads the vector at the column. -/
theorem ops3_v63 (x : S10.Idx → EReal) (hx : Y (Proc.devRef .tc main_arg13) = x) (j : Fin 10) :
    (StableHlo.after (main_part1_ops3 (F := Ideal)) Y (Proc.devRef .tc main_v63) : S1x10.Idx → EReal) (ix2 (0 : Fin 1) j) = x (ix1 j) := by
  subst hx
  after_results_simp
  exact shapeCast_a_1a_apply _ _ 0 j

/-- A vector laid out as a row reads the vector at the column. -/
theorem ops3_v64 (x : S10.Idx → EReal) (hx : Y (Proc.devRef .tc main_arg12) = x) (j : Fin 10) :
    (StableHlo.after (main_part1_ops3 (F := Ideal)) Y (Proc.devRef .tc main_v64) : S1x10.Idx → EReal) (ix2 (0 : Fin 1) j) = x (ix1 j) := by
  subst hx
  after_results_simp
  exact shapeCast_a_1a_apply _ _ 0 j

end

end Cert.KernelNet

end
-- ==== Proof.I_NetHost.lean ====
/-
  What each region of the program finds in its input arrays, read back to the argument arrays.

  The buffer contents at the segment boundaries are a fold from the launch memory. A buffer that no later segment
  writes holds, at an earlier boundary, what it holds at the end — so the argument vectors, which nothing writes, are
  at every boundary what they are at launch. The host stretches write the softened weight matrices (softSign of the
  first, softBin of the second and third, entry by entry; the third one's softening is cut across two stretches) and
  lay the scale, bias, gain and offset vectors out as [1, n] rows; a region reads each of these at the boundary where
  it starts, which is where the stretches and regions in between have left it untouched.
-/
import proofs.«159875_j41042707481000_2_alg».proof.Proof.I_Run
import proofs.«159875_j41042707481000_2_alg».proof.Proof.I_V1
import proofs.«159875_j41042707481000_2_alg».proof.Proof.I_V3
import proofs.«159875_j41042707481000_2_alg».proof.Proof.KHost19
import proofs.«159875_j41042707481000_2_alg».proof.Proof.KHost35
import proofs.«159875_j41042707481000_2_alg».proof.Proof.KHost37
import proofs.«159875_j41042707481000_2_alg».proof.Proof.KHostRest
import proofs.«159875_j41042707481000_2_alg».proof.Proof.Spec
import proofs.«159875_j41042707481000_2_alg».proof.Proof.KNorm
import Idealize.ShloMosaic.Lib.StableHlo.Run
import Idealize.ShloMosaic.Lib.Pipeline.Value
import Idealize.ShloMosaic.Lib.ValueIdx
import Idealize.ShloMosaic.Lib.ValueLayout

set_option maxRecDepth 16384

noncomputable section

open scoped BigOperators

namespace Cert.KernelNet

open Cert.KernelIdeal Cert.KernelIdeal.Gen Cert.KernelIdeal.Hand Cert.KernelIdeal.Val
open Idealize.ShloMosaic Idealize.ShloMosaic.TcCoe Idealize.ShloMosaic.StableHlo Idealize.ShloMosaic.ValueIdx Idealize.SL.Sem
open Idealize.ShloMosaic.Pipeline (Dat)

/-! ## Congruences of the specification's stages in their function arguments -/

theorem relu_layer_congr {R K N : Nat} {a a' : Fin R → Fin K → EReal} {w w' : Fin K → Fin N → EReal} {s s' b b' : Fin N → EReal}
    (ha : a = a') (hw : w = w') (hs : s = s') (hb : b = b') :
    (fun i : (⟨2, ![R, N]⟩ : Shape).Idx => max (Cert.Spec.layer a w s b (i 0) (i 1)) Cert.Spec.wZero)
      = fun i => max (Cert.Spec.layer a' w' s' b' (i 0) (i 1)) Cert.Spec.wZero := by
  subst ha hw hs hb; rfl

theorem norm_congr {R N : Nat} {a a' : Fin R → Fin N → EReal} {g g' be be' : Fin N → EReal}
    (ha : a = a') (hg : g = g') (hbe : be = be') :
    (fun i : (⟨2, ![R, N]⟩ : Shape).Idx => Cert.Spec.norm a g be (i 0) (i 1)) = fun i => Cert.Spec.norm a' g' be' (i 0) (i 1) := by
  subst ha hg hbe; rfl

theorem res_layer_congr {R N : Nat} {a a' : Fin R → Fin N → EReal} {w w' : Fin N → Fin N → EReal} {s s' b b' : Fin N → EReal}
    (ha : a = a') (hw : w = w') (hs : s = s') (hb : b = b') :
    (fun i : (⟨2, ![R, N]⟩ : Shape).Idx => max (Cert.Spec.layer a w s b (i 0) (i 1)) Cert.Spec.wZero + a (i 0) (i 1))
      = fun i => max (Cert.Spec.layer a' w' s' b' (i 0) (i 1)) Cert.Spec.wZero + a' (i 0) (i 1) := by
  subst ha hw hs hb; rfl

theorem head_congr {R K N : Nat} {a a' : Fin R → Fin K → EReal} {g g' be be' : Fin K → EReal}
    {w w' : Fin K → Fin N → EReal} {s s' b b' : Fin N → EReal}
    (ha : a = a') (hg : g = g') (hbe : be = be') (hw : w = w') (hs : s = s') (hb : b = b') :
    (fun i : (⟨2, ![R, N]⟩ : Shape).Idx => Cert.Spec.layer (Cert.Spec.norm a g be) w s b (i 0) (i 1))
      = fun i => Cert.Spec.layer (Cert.Spec.norm a' g' be') w' s' b' (i 0) (i 1) := by
  subst ha hg hbe hw hs hb; rfl

section
variable (m : (ℓ : Loc nD τ sig) → Buf (Elt Ideal) ℓ) (ρ : Dev nD → PrngReg) (c : Dev nD)

/-! ## A buffer no later segment writes is, at an earlier boundary, what it is at the end -/

theorem W7_up (r : Ref sig .tc) (h78 : r ∉ [main_v61, main_v62, main_v63, main_v64]) (h89 : ∀ w, Pipeline.arrRef spec3 w ≠ r) :
    W7 m ρ c (Proc.devRef .tc r) = W9 m ρ c (Proc.devRef .tc r) :=
  ((W9_of_ne m ρ c r h89).trans (ops3_keep (W7 m ρ c) r h78)).symm

theorem W5_up (r : Ref sig .tc) (h56 : r ∉ [main_v58, main_v59]) (h67 : main_v60 ≠ r)
    (h78 : r ∉ [main_v61, main_v62, main_v63, main_v64]) (h89 : ∀ w, Pipeline.arrRef spec3 w ≠ r) :
    W5 m ρ c (Proc.devRef .tc r) = W9 m ρ c (Proc.devRef .tc r) :=
  ((W7_of_ne m ρ c r h67).trans (ops2_keep (W5 m ρ c) r h56)).symm.trans (W7_up m ρ c r h78 h89)

theorem W3_up (r : Ref sig .tc) (h34 : r ∉ [main_v55, main_v56]) (h45 : ∀ w, Pipeline.arrRef spec1 w ≠ r)
    (h56 : r ∉ [main_v58, main_v59]) (h67 : main_v60 ≠ r)
    (h78 : r ∉ [main_v61, main_v62, main_v63, main_v64]) (h89 : ∀ w, Pipeline.arrRef spec3 w ≠ r) :
    W3 m ρ c (Proc.devRef .tc r) = W9 m ρ c (Proc.devRef .tc r) :=
  ((W5_of_ne m ρ c r h45).trans (ops1_keep (W3 m ρ c) r h34)).symm.trans (W5_up m ρ c r h56 h67 h78 h89)

theorem W1_up (r : Ref sig .tc)
    (h12 : r ∉ [main_v43, main_cst_16, main_v44, main_v45, main_cst_17, main_v46, main_v47, main_cst_18, main_v48, main_v49,
      main_v50, main_v51, main_v52, main_v53])
    (h23 : ∀ w, Pipeline.arrRef spec0 w ≠ r) (h34 : r ∉ [main_v55, main_v56]) (h45 : ∀ w, Pipeline.arrRef spec1 w ≠ r)
    (h56 : r ∉ [main_v58, main_v59]) (h67 : main_v60 ≠ r)
    (h78 : r ∉ [main_v61, main_v62, main_v63, main_v64]) (h89 : ∀ w, Pipeline.arrRef spec3 w ≠ r) :
    W1 m ρ c (Proc.devRef .tc r) = W9 m ρ c (Proc.devRef .tc r) :=
  ((W3_of_ne m ρ c r h23).trans (ops0b_keep (W1 m ρ c) r h12)).symm.trans (W3_up m ρ c r h34 h45 h56 h67 h78 h89)

/-! ## The argument vectors where the host lays them out as rows -/

theorem W7_arg9 : W7 m ρ c (Proc.devRef .tc main_arg9) = m ((c : Thread nD τ).loc main_arg9) :=
  (W7_up m ρ c main_arg9 (by decide) (by decide)).trans (W9_main_arg9 m ρ c)
theorem W7_arg10 : W7 m ρ c (Proc.devRef .tc main_arg10) = m ((c : Thread nD τ).loc main_arg10) :=
  (W7_up m ρ c main_arg10 (by decide) (by decide)).trans (W9_main_arg10 m ρ c)
theorem W7_arg13 : W7 m ρ c (Proc.devRef .tc main_arg13) = m ((c : Thread nD τ).loc main_arg13) :=
  (W7_up m ρ c main_arg13 (by decide) (by decide)).trans (W9_main_arg13 m ρ c)
theorem W7_arg12 : W7 m ρ c (Proc.devRef .tc main_arg12) = m ((c : Thread nD τ).loc main_arg12) :=
  (W7_up m ρ c main_arg12 (by decide) (by decide)).trans (W9_main_arg12 m ρ c)
theorem W5_arg8 : W5 m ρ c (Proc.devRef .tc main_arg8) = m ((c : Thread nD τ).loc main_arg8) :=
  (W5_up m ρ c main_arg8 (by decide) (by decide) (by decide) (by decide)).trans (W9_main_arg8 m ρ c)
theorem W5_arg7 : W5 m ρ c (Proc.devRef .tc main_arg7) = m ((c : Thread nD τ).loc main_arg7) :=
  (W5_up m ρ c main_arg7 (by decide) (by decide) (by decide) (by decide)).trans (W9_main_arg7 m ρ c)
theorem W3_arg4 : W3 m ρ c (Proc.devRef .tc main_arg4) = m ((c : Thread nD τ).loc main_arg4) :=
  (W3_up m ρ c main_arg4 (by decide) (by decide) (by decide) (by decide) (by decide) (by decide)).trans (W9_main_arg4 m ρ c)
theorem W3_arg5 : W3 m ρ c (Proc.devRef .tc main_arg5) = m ((c : Thread nD τ).loc main_arg5) :=
  (W3_up m ρ c main_arg5 (by decide) (by decide) (by decide) (by decide) (by decide) (by decide)).trans (W9_main_arg5 m ρ c)
theorem W1_arg3 : W1 m ρ c (Proc.devRef .tc main_arg3) = m ((c : Thread nD τ).loc main_arg3) :=
  (W1_up m ρ c main_arg3 (by decide) (by decide) (by decide) (by decide) (by decide) (by decide) (by decide) (by decide)).trans (W9_main_arg3 m ρ c)
theorem W1_arg2 : W1 m ρ c (Proc.devRef .tc main_arg2) = m ((c : Thread nD τ).loc main_arg2) :=
  (W1_up m ρ c main_arg2 (by decide) (by decide) (by decide) (by decide) (by decide) (by decide) (by decide) (by decide)).trans (W9_main_arg2 m ρ c)

/-! ## What each region finds in its input arrays -/

theorem V2_arg0 : V2 m ρ c main_arg0 = m ((c : Thread nD τ).loc main_arg0) :=
  (ops0b_keep (W1 m ρ c) main_arg0 (by decide)).trans (ops0_arg0 (W0 m ρ c))

theorem V2_v19 : V2 m ρ c main_v19 = fun i => Cert.Spec.softSign (m ((c : Thread nD τ).loc main_arg1) i) :=
  (ops0b_keep (W1 m ρ c) main_v19 (by decide)).trans (ops0_v19 (W0 m ρ c))

theorem V2_v52 (j : Fin 8192) : V2 m ρ c main_v52 (ix2 (0 : Fin 1) j) = m ((c : Thread nD τ).loc main_arg3) (ix1 j) :=
  (ops0b_v52 (W1 m ρ c) j).trans (congrFun (W1_arg3 m ρ c) (ix1 j))

theorem V2_v53 (j : Fin 8192) : V2 m ρ c main_v53 (ix2 (0 : Fin 1) j) = m ((c : Thread nD τ).loc main_arg2) (ix1 j) :=
  (ops0b_v53 (W1 m ρ c) j).trans (congrFun (W1_arg2 m ρ c) (ix1 j))

theorem V4_v55 (j : Fin 8192) : V4 m ρ c main_v55 (ix2 (0 : Fin 1) j) = m ((c : Thread nD τ).loc main_arg4) (ix1 j) :=
  ops1_v55 (W3 m ρ c) _ (W3_arg4 m ρ c) j
theorem V4_v56 (j : Fin 8192) : V4 m ρ c main_v56 (ix2 (0 : Fin 1) j) = m ((c : Thread nD τ).loc main_arg5) (ix1 j) :=
  ops1_v56 (W3 m ρ c) _ (W3_arg5 m ρ c) j
theorem V6_v58 (j : Fin 8192) : V6 m ρ c main_v58 (ix2 (0 : Fin 1) j) = m ((c : Thread nD τ).loc main_arg8) (ix1 j) :=
  ops2_v58 (W5 m ρ c) _ (W5_arg8 m ρ c) j
theorem V6_v59 (j : Fin 8192) : V6 m ρ c main_v59 (ix2 (0 : Fin 1) j) = m ((c : Thread nD τ).loc main_arg7) (ix1 j) :=
  ops2_v59 (W5 m ρ c) _ (W5_arg7 m ρ c) j
theorem V8_v61 (j : Fin 8192) : V8 m ρ c main_v61 (ix2 (0 : Fin 1) j) = m ((c : Thread nD τ).loc main_arg9) (ix1 j) :=
  ops3_v61 (W7 m ρ c) _ (W7_arg9 m ρ c) j
theorem V8_v62 (j : Fin 8192) : V8 m ρ c main_v62 (ix2 (0 : Fin 1) j) = m ((c : Thread nD τ).loc main_arg10) (ix1 j) :=
  ops3_v62 (W7 m ρ c) _ (W7_arg10 m ρ c) j
theorem V8_v63 (o : Fin 10) : V8 m ρ c main_v63 (ix2 (0 : Fin 1) o) = m ((c : Thread nD τ).loc main_arg13) (ix1 o) :=
  ops3_v63 (W7 m ρ c) _ (W7_arg13 m ρ c) o
theorem V8_v64 (o : Fin 10) : V8 m ρ c main_v64 (ix2 (0 : Fin 1) o) = m ((c : Thread nD τ).loc main_arg12) (ix1 o) :=
  ops3_v64 (W7 m ρ c) _ (W7_arg12 m ρ c) o

theorem V6_v35 : V6 m ρ c main_v35 = fun i => Cert.Spec.softBin (m ((c : Thread nD τ).loc main_arg6) i) :=
  (ops2_keep (W5 m ρ c) main_v35 (by decide)).trans <| (W5_of_ne m ρ c main_v35 (by decide)).trans <|
    (ops1_keep (W3 m ρ c) main_v35 (by decide)).trans <| (W3_of_ne m ρ c main_v35 (by decide)).trans <|
    (ops0b_keep (W1 m ρ c) main_v35 (by decide)).trans (ops0_v35 (W0 m ρ c))

theorem W2_v51 : W2 m ρ c (Proc.devRef .tc main_v51) = fun i => Cert.Spec.softBin (m ((c : Thread nD τ).loc main_arg11) i) :=
  (ops0b_v51 (W1 m ρ c) _ _ (ops0_v37 (W0 m ρ c) (m ((c : Thread nD τ).loc main_arg11)) rfl)
    (ops0_v42 (W0 m ρ c) (m ((c : Thread nD τ).loc main_arg11)) rfl)).trans (funext fun i => rfl)

theorem V8_v51 : V8 m ρ c main_v51 = fun i => Cert.Spec.softBin (m ((c : Thread nD τ).loc main_arg11) i) :=
  (ops3_keep (W7 m ρ c) main_v51 (by decide)).trans <| (W7_of_ne m ρ c main_v51 (by decide)).trans <|
    (ops2_keep (W5 m ρ c) main_v51 (by decide)).trans <| (W5_of_ne m ρ c main_v51 (by decide)).trans <|
    (ops1_keep (W3 m ρ c) main_v51 (by decide)).trans <| (W3_of_ne m ρ c main_v51 (by decide)).trans (W2_v51 m ρ c)
end

end Cert.KernelNet

end
-- ==== Proof.I_V0a.lean ====
/-
  Region 0, what the body's three cases leave, as the kernel's arithmetic.

  Each grid point of the first product kernel runs one of three cases on whole buffers: the first step of a
  block's contraction (the accumulator is set to the zero block, read back, and the step's partial product is
  added), a middle step (the partial product is added to what the accumulator held), and the last step (the same,
  after which the accumulator is read back once more, scaled, biased, clipped at zero and stored as the output
  block). Every store covers its whole buffer with one piece, so what a case leaves in a buffer is that piece's
  payload, and a load that follows a store reads the stored payload.

  So, point by point: after the first step the accumulator is the zero block plus the first partial product;
  after each later step it is what the point before left plus that step's partial product; and at the last
  step the output block is the epilogue of the accumulator as that step leaves it.
-/
import proofs.«159875_j41042707481000_2_alg».proof.Proof.I_R0
import Idealize.ShloMosaic.Lib.Pipeline.Value
import Idealize.ShloMosaic.Lib.Tactic

set_option maxRecDepth 16384

noncomputable section

namespace Cert.KernelIdeal.Val

open Cert.KernelIdeal Cert.KernelIdeal.Gen Cert.KernelIdeal.Hand
open Idealize.ShloMosaic Idealize.ShloMosaic.TcCoe Idealize.ShloMosaic.Tactic Idealize.SL.Sem
open Idealize.ShloMosaic.Pipeline (Dat)

variable {F : FTy → Type} [FloatOps F]

theorem hz : (![0, 0] : Fin 2 → Nat) = fun _ => 0 := funext fun a => by fin_cases a <;> rfl

/-- A middle step leaves in the accumulator what it held plus the step's partial product. -/
theorem sout_B (c : Dev nD) (i : grid0.Coords) (arg3 : Memref sig .tc .vmem S1024x512 .f32) (harg3 : arg3.IsWhole) (arg4 : Memref sig .tc .vmem S512x1024 .bf16) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1024x1024 .f32) (harg8 : arg8.IsWhole) (hc0 : ¬cond0_0 i) (hc1 : ¬cond0_1 i)
    (x0 : Vec F S1024x512 .f32) (x1 : Vec F S512x1024 .bf16) (x2 : Vec F S1x1024 .f32) (x3 : Vec F S1x1024 .f32) (xs0 : Vec F S1024x1024 .f32) :
    sout0_B c i arg3 harg3 arg4 harg4 arg5 harg5 arg6 harg6 arg7 harg7 arg8 harg8 hc0 hc1 x0 x1 x2 x3 xs0 = k0_pay2 x0 xs0 x1 := by
  unfold sout0_B
  rw [View.read_writes_eq_canon _ _ _ (scover0_B c i arg3 harg3 arg4 harg4 arg5 harg5 arg6 harg6 arg7 harg7 arg8 harg8 hc0 hc1 x0 x1 x2 x3 xs0)]
  unfold kernelRun0_B
  dsimp only
  rw [View.canon_unit_zero hz]
  simp only [View.readAt_eq_ld, harg3.read_unread, harg4.read_unread, harg8.read_unread,
    View.ld_unit_zero (S := S1024x512) hz, View.ld_unit_zero (S := S512x1024) hz, View.ld_unit_zero (S := S1024x1024) hz]

/-- The last step leaves in the accumulator what it held plus the step's partial product … -/
theorem sout_C (c : Dev nD) (i : grid0.Coords) (arg3 : Memref sig .tc .vmem S1024x512 .f32) (harg3 : arg3.IsWhole) (arg4 : Memref sig .tc .vmem S512x1024 .bf16) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1024x1024 .f32) (harg8 : arg8.IsWhole) (hc0 : ¬cond0_0 i) (hc1 : cond0_1 i)
    (x0 : Vec F S1024x512 .f32) (x1 : Vec F S512x1024 .bf16) (x2 : Vec F S1x1024 .f32) (x3 : Vec F S1x1024 .f32) (xs0 : Vec F S1024x1024 .f32) :
    sout0_C c i arg3 harg3 arg4 harg4 arg5 harg5 arg6 harg6 arg7 harg7 arg8 harg8 hc0 hc1 x0 x1 x2 x3 xs0 = k0_pay2 x0 xs0 x1 := by
  unfold sout0_C
  rw [View.read_writes_eq_canon _ _ _ (scover0_C c i arg3 harg3 arg4 harg4 arg5 harg5 arg6 harg6 arg7 harg7 arg8 harg8 hc0 hc1 x0 x1 x2 x3 xs0)]
  unfold kernelRun0_C
  dsimp only
  sl_unfold_words
  rw [View.canon_unit_zero hz]
  simp only [View.readAt_eq_ld, harg3.read_unread, harg4.read_unread, harg8.read_unread,
    View.ld_unit_zero (S := S1024x512) hz, View.ld_unit_zero (S := S512x1024) hz, View.ld_unit_zero (S := S1024x1024) hz]

/-- … and in the output block the epilogue of that sum. -/
theorem out_C (c : Dev nD) (i : grid0.Coords) (arg3 : Memref sig .tc .vmem S1024x512 .f32) (harg3 : arg3.IsWhole) (arg4 : Memref sig .tc .vmem S512x1024 .bf16) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1024x1024 .f32) (harg8 : arg8.IsWhole) (hc0 : ¬cond0_0 i) (hc1 : cond0_1 i)
    (x0 : Vec F S1024x512 .f32) (x1 : Vec F S512x1024 .bf16) (x2 : Vec F S1x1024 .f32) (x3 : Vec F S1x1024 .f32) (xs0 : Vec F S1024x1024 .f32) :
    out0_C c i arg3 harg3 arg4 harg4 arg5 harg5 arg6 harg6 arg7 harg7 arg8 harg8 hc0 hc1 x0 x1 x2 x3 xs0 = k0_pay3 (k0_pay2 x0 xs0 x1) x2 x3 := by
  unfold out0_C
  rw [View.read_writes_eq_canon _ _ _ (cover0_C c i arg3 harg3 arg4 harg4 arg5 harg5 arg6 harg6 arg7 harg7 arg8 harg8 hc0 hc1 x0 x1 x2 x3 xs0)]
  unfold kernelRun0_C
  dsimp only
  sl_unfold_words
  rw [View.canon_unit_zero hz, View.readCov_unit_zero (S := S1024x1024) _ hz]
  simp only [View.readAt_eq_ld, harg3.read_unread, harg4.read_unread, harg5.read_unread, harg6.read_unread, harg8.read_unread,
    View.ld_unit_zero (S := S1024x512) hz, View.ld_unit_zero (S := S512x1024) hz, View.ld_unit_zero (S := S1024x1024) hz,
    View.ld_unit_zero (S := S1x1024) hz]

/-- The first step zeroes the accumulator and leaves in it the zero block plus the step's partial product. -/
theorem sout_A (c : Dev nD) (i : grid0.Coords) (arg3 : Memref sig .tc .vmem S1024x512 .f32) (harg3 : arg3.IsWhole) (arg4 : Memref sig .tc .vmem S512x1024 .bf16) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1024x1024 .f32) (harg8 : arg8.IsWhole) (hc0 : cond0_0 i) (hc1 : ¬cond0_1 i)
    (x0 : Vec F S1024x512 .f32) (x1 : Vec F S512x1024 .bf16) (x2 : Vec F S1x1024 .f32) (x3 : Vec F S1x1024 .f32) :
    sout0_A c i arg3 harg3 arg4 harg4 arg5 harg5 arg6 harg6 arg7 harg7 arg8 harg8 hc0 hc1 x0 x1 x2 x3 = k0_pay2 x0 k0_pay1 x1 := by
  unfold sout0_A
  rw [View.read_writes_eq_canon _ _ _ (scover0_A c i arg3 harg3 arg4 harg4 arg5 harg5 arg6 harg6 arg7 harg7 arg8 harg8 hc0 hc1 x0 x1 x2 x3)]
  unfold kernelRun0_A
  dsimp only
  sl_unfold_words
  rw [View.canon_cons_unit_zero (S := S1024x1024) hz, View.readCov_unit_zero (S := S1024x1024) _ hz]
  simp only [View.readAt_eq_ld, harg3.read_unread, harg4.read_unread,
    View.ld_unit_zero (S := S1024x512) hz, View.ld_unit_zero (S := S512x1024) hz]

variable (V : (c : Dev nD) → (b : Ref sig .tc) → Buf (Elt F) ((c : Thread nD τ).loc b))

/-- After the first step of a block's contraction the accumulator holds the zero block plus the first partial product. -/
theorem acc_first (c : Dev nD) (t : Fin cfg0.N) (h0 : t.val % 6 = 0) :
    (outsAt0 V c t.val t.isLt).2 = k0_pay2 (iblk0 V c 0 t) k0_pay1 (iblk0 V c 1 t) := by
  have h1 : ¬t.val % 6 = 5 := by omega
  rw [outsAt0_A V c t h0 h1]
  dsimp only
  exact sout_A c (grid0.coords t) (ms0_0 t) (hs0_0 t) (ms0_1 t) (hs0_1 t) (ms0_2 t) (hs0_2 t) (ms0_3 t) (hs0_3 t) (ms0_4 t) (hs0_4 t)
    scM0 (Memref.isWhole_whole _) ((hcond0_0 t).mpr h0) (fun h => h1 ((hcond0_1 t).mp h))
    (iblk0 V c 0 t) (iblk0 V c 1 t) (iblk0 V c 2 t) (iblk0 V c 3 t)

/-- After every later step it holds what the point before left plus the step's partial product. -/
theorem acc_step (c : Dev nD) (t : Fin cfg0.N) (h0 : ¬t.val % 6 = 0) :
    (outsAt0 V c t.val t.isLt).2
      = k0_pay2 (iblk0 V c 0 t) (outsAt0 V c (t.val - 1) (Nat.lt_of_le_of_lt (Nat.sub_le _ _) t.isLt)).2 (iblk0 V c 1 t) := by
  by_cases h1 : t.val % 6 = 5
  · rw [outsAt0_C V c t h0 h1]
    dsimp only
    exact sout_C c (grid0.coords t) (ms0_0 t) (hs0_0 t) (ms0_1 t) (hs0_1 t) (ms0_2 t) (hs0_2 t) (ms0_3 t) (hs0_3 t) (ms0_4 t) (hs0_4 t)
      scM0 (Memref.isWhole_whole _) (fun h => h0 ((hcond0_0 t).mp h)) ((hcond0_1 t).mpr h1)
      (iblk0 V c 0 t) (iblk0 V c 1 t) (iblk0 V c 2 t) (iblk0 V c 3 t)
      (outsAt0 V c (t.val - 1) (Nat.lt_of_le_of_lt (Nat.sub_le _ _) t.isLt)).2
  · rw [outsAt0_B V c t h0 h1]
    dsimp only
    exact sout_B c (grid0.coords t) (ms0_0 t) (hs0_0 t) (ms0_1 t) (hs0_1 t) (ms0_2 t) (hs0_2 t) (ms0_3 t) (hs0_3 t) (ms0_4 t) (hs0_4 t)
      scM0 (Memref.isWhole_whole _) (fun h => h0 ((hcond0_0 t).mp h)) (fun h => h1 ((hcond0_1 t).mp h))
      (iblk0 V c 0 t) (iblk0 V c 1 t) (iblk0 V c 2 t) (iblk0 V c 3 t)
      (outsAt0 V c (t.val - 1) (Nat.lt_of_le_of_lt (Nat.sub_le _ _) t.isLt)).2

/-- At the last step the output block is the epilogue of the accumulator as that step leaves it. -/
theorem out_last (c : Dev nD) (t : Fin cfg0.N) (h1 : t.val % 6 = 5) :
    (outsAt0 V c t.val t.isLt).1 = k0_pay3 (outsAt0 V c t.val t.isLt).2 (iblk0 V c 2 t) (iblk0 V c 3 t) := by
  have h0 : ¬t.val % 6 = 0 := by omega
  rw [outsAt0_C V c t h0 h1]
  dsimp only
  rw [sout_C c (grid0.coords t) (ms0_0 t) (hs0_0 t) (ms0_1 t) (hs0_1 t) (ms0_2 t) (hs0_2 t) (ms0_3 t) (hs0_3 t) (ms0_4 t) (hs0_4 t)
      scM0 (Memref.isWhole_whole _) (fun h => h0 ((hcond0_0 t).mp h)) ((hcond0_1 t).mpr h1)
      (iblk0 V c 0 t) (iblk0 V c 1 t) (iblk0 V c 2 t) (iblk0 V c 3 t)
      (outsAt0 V c (t.val - 1) (Nat.lt_of_le_of_lt (Nat.sub_le _ _) t.isLt)).2]
  exact out_C c (grid0.coords t) (ms0_0 t) (hs0_0 t) (ms0_1 t) (hs0_1 t) (ms0_2 t) (hs0_2 t) (ms0_3 t) (hs0_3 t) (ms0_4 t) (hs0_4 t)
      scM0 (Memref.isWhole_whole _) (fun h => h0 ((hcond0_0 t).mp h)) ((hcond0_1 t).mpr h1)
      (iblk0 V c 0 t) (iblk0 V c 1 t) (iblk0 V c 2 t) (iblk0 V c 3 t)
      (outsAt0 V c (t.val - 1) (Nat.lt_of_le_of_lt (Nat.sub_le _ _) t.isLt)).2

end Cert.KernelIdeal.Val

end
-- ==== Proof.KPay0.lean ====
/-
  The two product kernels' arithmetic, entry by entry, on the extended reals.

  Each of the two kernels holds a [1024, 1024] accumulator block. It first sets it to the zero word, then for
  each [1024, 512] slab of the left operand and [512, 1024] slab of the right operand adds their product, and
  at the end scales each column, adds the column's bias and takes the maximum with zero (the second kernel then
  adds the residual block). Here each of these stores is read at an entry (p, q):

  * the product of one slab pair at (p, q) is the sum over k of left (p, k) times right (k, q): the
    contraction index of the product is renamed by its one coordinate, and the two operand indices are
    (p, k) and (k, q);
  * narrowing to the shorter float format changes nothing on the extended reals;
  * a [1, 1024] row repeated down the 1024 rows reads the row at the column.
-/
import proofs.«159875_j41042707481000_2_alg».proof.Proof.Gen.KernelIdeal.Skeleton
import proofs.«159875_j41042707481000_2_alg».proof.Proof.Spec
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Pay

open Idealize.ShloMosaic Idealize.ShloMosaic.ValueIdx Cert.KernelIdeal Cert.KernelIdeal.Gen
open scoped BigOperators

/-- The first product's record: [1024, 512] times [512, 1024], contracting the left operand's columns with the
    right operand's rows. -/
abbrev D1 := dot_S1024x512_S512x1024_S1024x1024_1_0_0_1_n_n

theorem D1_lhs0 (i : S1024x1024.Idx) (q : D1.contr.Idx) : (D1.lhsIdx i q 0).val = (i 0).val := by
  unfold DotDims.lhsIdx
  rw [dif_neg (show ¬(0 : Fin S1024x512.rank) ∈ D1.lhsBatch by decide), dif_pos (show (0 : Fin S1024x512.rank) ∈ D1.lhsNonContracting by decide)]
  rfl
theorem D1_lhs1 (i : S1024x1024.Idx) (q : D1.contr.Idx) : (D1.lhsIdx i q 1).val = (q ⟨0, by decide⟩).val :=
  D1.lhsIdx_val_of_single rfl i q
theorem D1_rhs0 (i : S1024x1024.Idx) (q : D1.contr.Idx) : (D1.rhsIdx i q 0).val = (q ⟨0, by decide⟩).val :=
  D1.rhsIdx_val_of_single rfl i q
theorem D1_rhs1 (i : S1024x1024.Idx) (q : D1.contr.Idx) : (D1.rhsIdx i q 1).val = (i 1).val := by
  unfold DotDims.rhsIdx
  rw [dif_neg (show ¬(1 : Fin S512x1024.rank) ∈ D1.rhsBatch by decide), dif_pos (show (1 : Fin S512x1024.rank) ∈ D1.rhsNonContracting by decide)]
  rfl

/-- The block product into a zero accumulator, at (p, q): the sum over k of left (p, k) times right (k, q). -/
theorem mm1_apply (l : FVec Ideal S1024x512 .bf16) (r : FVec Ideal S512x1024 .bf16) (p q : Fin 1024) :
    matmul D1 none l r (constant (F := Ideal) S1024x1024 .f32 0x00000000#32) (ix2 p q)
      = ∑ k : Fin 512, l (ix2 p k) * r (ix2 k q) := by
  simp only [matmul]
  rw [Ideal.matmul_constant_zero_apply, ← Equiv.sum_comp (contrEquiv1 D1 512 rfl rfl).symm]
  refine Finset.sum_congr rfl fun k _ => ?_
  have hk := contrEquiv1_symm_val D1 512 rfl rfl k
  have el : D1.lhsIdx (ix2 p q) ((contrEquiv1 D1 512 rfl rfl).symm k) = ix2 p k := funext fun a => Fin.ext (by
    match a with
    | ⟨0, _⟩ => exact D1_lhs0 _ _
    | ⟨1, _⟩ => exact (D1_lhs1 _ _).trans hk)
  have er : D1.rhsIdx (ix2 p q) ((contrEquiv1 D1 512 rfl rfl).symm k) = ix2 k q := funext fun a => Fin.ext (by
    match a with
    | ⟨0, _⟩ => exact (D1_rhs0 _ _).trans hk
    | ⟨1, _⟩ => exact D1_rhs1 _ _)
  rw [el, er]

theorem pay0_acc (v3 : Vec Ideal S1024x512 .f32) (v5 : Vec Ideal S1024x1024 .f32) (v6 : Vec Ideal S512x1024 .bf16) (p q : Fin 1024) :
    k0_pay2 (F := Ideal) v3 v5 v6 (ix2 p q) = v5 (ix2 p q) + ∑ k : Fin 512, v3 (ix2 p k) * v6 (ix2 k q) := by
  unfold k0_pay2
  simp only [shapeCast_self]
  rw [addf_apply]
  refine congrArg (v5 (ix2 p q) + ·) ?_
  exact mm1_apply _ _ p q

theorem pay2_acc (v3 : Vec Ideal S1024x512 .f32) (v6 : Vec Ideal S1024x1024 .f32) (v7 : Vec Ideal S512x1024 .bf16) (p q : Fin 1024) :
    k2_pay2 (F := Ideal) v3 v6 v7 (ix2 p q) = v6 (ix2 p q) + ∑ k : Fin 512, v3 (ix2 p k) * v7 (ix2 k q) := by
  unfold k2_pay2
  simp only [shapeCast_self]
  rw [addf_apply]
  refine congrArg (v6 (ix2 p q) + ·) ?_
  exact mm1_apply _ _ p q

/-- The accumulator is first set to the zero word everywhere. -/
theorem pay0_zero (p q : Fin 1024) : k0_pay1 (F := Ideal) (ix2 p q) = Cert.Spec.wZero := by
  unfold k0_pay1
  rw [shapeCast_self]
  rfl

theorem pay2_zero (p q : Fin 1024) : k2_pay1 (F := Ideal) (ix2 p q) = Cert.Spec.wZero := by
  unfold k2_pay1
  rw [shapeCast_self]
  rfl

/-- The first layer's epilogue at (p, q): the accumulated product times the column's scale plus the column's
    bias, then the maximum with zero. -/
theorem pay0_out (v16 : Vec Ideal S1024x1024 .f32) (v17 v21 : Vec Ideal S1x1024 .f32) (p q : Fin 1024) :
    k0_pay3 (F := Ideal) v16 v17 v21 (ix2 p q)
      = max (v16 (ix2 p q) * v17 (ix2 0 q) + v21 (ix2 0 q)) Cert.Spec.wZero := by
  unfold k0_pay3
  simp only [shapeCast_self]
  rw [truncf_apply, maximumf_apply, addf_apply, mulf_apply, broadcastTo_1b_ab_apply, broadcastTo_1b_ab_apply]
  rfl

/-- The second layer's epilogue at (p, q): the same, plus the residual block's entry. -/
theorem pay2_out (v17 : Vec Ideal S1024x1024 .f32) (v18 v22 : Vec Ideal S1x1024 .f32) (v28 : Vec Ideal S1024x1024 .f32)
    (p q : Fin 1024) :
    k2_pay3 (F := Ideal) v17 v18 v22 v28 (ix2 p q)
      = max (v17 (ix2 p q) * v18 (ix2 0 q) + v22 (ix2 0 q)) Cert.Spec.wZero + v28 (ix2 p q) := by
  unfold k2_pay3
  simp only [shapeCast_self]
  rw [addf_apply, maximumf_apply, addf_apply, mulf_apply, broadcastTo_1b_ab_apply, broadcastTo_1b_ab_apply]
  rfl

end Cert.KernelIdeal.Pay

end
-- ==== Proof.LibChunkSum.lean ====
/-
  A finite sum over `N = n * m` consecutive indices, cut into `n` chunks of `m`: the sum of the chunk sums is the
  whole sum. Index `c * m + k` of the whole range is entry `k` of chunk `c`. Only commutativity and associativity
  of the addition are used, so the law holds in every commutative monoid — on the extended reals in particular,
  where nothing has to be finite.
-/
import Mathlib.Algebra.BigOperators.Fin
import Mathlib.Logic.Equiv.Fin.Basic
import Mathlib.Tactic.Ring
import Mathlib.Tactic.Linarith

namespace ChunkSum

theorem at_lt {n m N : ℕ} (h : n * m = N) (c : Fin n) (k : Fin m) : c.val * m + k.val < N := by
  have hc := c.isLt
  have hk := k.isLt
  subst h
  calc c.val * m + k.val < c.val * m + m := by omega
    _ = (c.val + 1) * m := by ring
    _ ≤ n * m := Nat.mul_le_mul_right m (by omega)

/-- Entry `k` of chunk `c`, as an index of the whole range: `c * m + k`. -/
def at_ {n m N : ℕ} (h : n * m = N) (c : Fin n) (k : Fin m) : Fin N := ⟨c.val * m + k.val, at_lt h c k⟩

@[simp] theorem at_val {n m N : ℕ} (h : n * m = N) (c : Fin n) (k : Fin m) : (at_ h c k).val = c.val * m + k.val := rfl

/-- The sum of the `n` chunk sums is the sum over all `N = n * m` indices. -/
theorem sum_chunks {M : Type*} [AddCommMonoid M] {n m N : ℕ} (h : n * m = N) (f : Fin N → M) :
    ∑ c : Fin n, ∑ k : Fin m, f (at_ h c k) = ∑ j : Fin N, f j := by
  subst h
  rw [← Equiv.sum_comp finProdFinEquiv f, Fintype.sum_prod_type]
  refine Finset.sum_congr rfl fun c _ => Finset.sum_congr rfl fun k _ => congrArg f (Fin.ext ?_)
  simp only [at_val, finProdFinEquiv, Equiv.coe_fn_mk]
  ring

/-- Eight terms added one after the other onto a zero, from the left, are their sum. -/
theorem fold8 {M : Type*} [AddCommMonoid M] (g : Fin 8 → M) :
    0 + g 0 + g 1 + g 2 + g 3 + g 4 + g 5 + g 6 + g 7 = ∑ c : Fin 8, g c := by
  rw [Fin.sum_univ_eight, zero_add]

/-- A contraction over `N = 8 * m` indices accumulated chunk by chunk onto a zero is the whole contraction. -/
theorem fold8_chunks {M : Type*} [AddCommMonoid M] {m N : ℕ} (h : 8 * m = N) (f : Fin N → M) :
    0 + (∑ k : Fin m, f (at_ h 0 k)) + (∑ k : Fin m, f (at_ h 1 k)) + (∑ k : Fin m, f (at_ h 2 k))
      + (∑ k : Fin m, f (at_ h 3 k)) + (∑ k : Fin m, f (at_ h 4 k)) + (∑ k : Fin m, f (at_ h 5 k))
      + (∑ k : Fin m, f (at_ h 6 k)) + (∑ k : Fin m, f (at_ h 7 k)) = ∑ j : Fin N, f j := by
  rw [fold8 (fun c => ∑ k : Fin m, f (at_ h c k)), sum_chunks h f]

end ChunkSum
-- ==== Proof.LibChunkFold.lean ====
/-
  A running total over chunks. A sum over `N = (n + 1) * m` consecutive indices is cut into `n + 1` chunks of `m`.
  A total that starts as zero plus the sum of chunk 0, and to which the sum of chunk `c + 1` is added at step
  `c + 1`, is after the last step the sum over all `N` indices: by induction the total after step `c` is the sum of
  the chunk sums 0 … c, and the sum of all the chunk sums is the whole sum. Only the laws of a commutative monoid
  are used, so nothing has to be finite on the extended reals.
-/
import proofs.«159875_j41042707481000_2_alg».proof.Proof.LibChunkSum

namespace ChunkSum

/-- The running total after step `c` is the sum of the chunk sums `0 … c`. -/
theorem fold_partial {M : Type*} [AddCommMonoid M] {n : ℕ} (g : Fin (n + 1) → M) (acc : ℕ → M)
    (h0 : acc 0 = 0 + g ⟨0, Nat.succ_pos n⟩)
    (hs : ∀ c (hc : c + 1 < n + 1), acc (c + 1) = acc c + g ⟨c + 1, hc⟩) :
    ∀ c (_ : c < n + 1), acc c = ∑ i ∈ Finset.range (c + 1), if hi : i < n + 1 then g ⟨i, hi⟩ else 0 := by
  intro c
  induction c with
  | zero =>
    intro _
    rw [h0, zero_add, Finset.sum_range_one, dif_pos (Nat.succ_pos n)]
  | succ c ih =>
    intro hc
    rw [hs c hc, ih (by omega), Finset.sum_range_succ _ (c + 1), dif_pos hc]

/-- Terms added one after the other onto a zero are their sum. -/
theorem fold_terms {M : Type*} [AddCommMonoid M] {n : ℕ} (g : Fin (n + 1) → M) (acc : ℕ → M)
    (h0 : acc 0 = 0 + g ⟨0, Nat.succ_pos n⟩)
    (hs : ∀ c (hc : c + 1 < n + 1), acc (c + 1) = acc c + g ⟨c + 1, hc⟩) :
    acc n = ∑ c : Fin (n + 1), g c := by
  rw [fold_partial g acc h0 hs n (Nat.lt_succ_self n),
    ← Fin.sum_univ_eq_sum_range (fun i => if hi : i < n + 1 then g ⟨i, hi⟩ else 0) (n + 1)]
  exact Finset.sum_congr rfl fun c _ => dif_pos c.isLt

/-- A running total that starts from zero plus chunk 0 and adds chunk `c + 1` at step `c + 1` is, after the last
    chunk, the sum over all `N = (n + 1) * m` indices. -/
theorem fold_chunks {M : Type*} [AddCommMonoid M] {n m N : ℕ} (h : (n + 1) * m = N) (f : Fin N → M) (acc : ℕ → M)
    (h0 : acc 0 = 0 + ∑ k : Fin m, f (at_ h ⟨0, Nat.succ_pos n⟩ k))
    (hs : ∀ c (hc : c + 1 < n + 1), acc (c + 1) = acc c + ∑ k : Fin m, f (at_ h ⟨c + 1, hc⟩ k)) :
    acc n = ∑ j : Fin N, f j :=
  (fold_terms (fun c => ∑ k : Fin m, f (at_ h c k)) acc h0 hs).trans (sum_chunks h f)

end ChunkSum
-- ==== Proof.I_V0b.lean ====
/-
  Region 0 on the extended reals: what the accumulator holds after a block's last step.

  The grid has 8 x 8 x 6 points; point t works on row block t / 48 and column block t / 6 % 8 of the output and on
  contraction chunk t % 6 (the printed index maps, decided once over the grid). A block read through its window
  is the array at block index times block size plus the coordinate inside the block, so at point t the left
  operand's block holds rows 1024 (t / 48) + p and columns 512 (t % 6) + k of the left array, and the right
  operand's block rows 512 (t % 6) + k and columns 1024 (t / 6 % 8) + q of the right array.

  Hence at (p, q) the accumulator is, after the block's first step, zero plus the first chunk's sum of products
  of row R = 1024 bi + p of the left array with column C = 1024 bj + q of the right array, and each later step
  adds the next chunk's sum. Six chunk sums of 512 added one after the other onto zero are the sum over all 3072
  contraction indices: only commutativity and associativity of the addition are used, nothing need be finite.
-/
import proofs.«159875_j41042707481000_2_alg».proof.Proof.I_V0a
import proofs.«159875_j41042707481000_2_alg».proof.Proof.KPay0
import proofs.«159875_j41042707481000_2_alg».proof.Proof.Spec
import proofs.«159875_j41042707481000_2_alg».proof.Proof.LibChunkFold
import Idealize.ShloMosaic.Lib.Pipeline.Value
import Idealize.ShloMosaic.Lib.ValueIdx
import Idealize.ShloMosaic.PureOps.Ideal.Laws
import Idealize.ShloMosaic.Lib.Tactic

set_option maxRecDepth 16384

noncomputable section

namespace Cert.KernelIdeal.Val

open Cert.KernelIdeal Cert.KernelIdeal.Gen Cert.KernelIdeal.Hand Cert.KernelIdeal.Pay
open Idealize.ShloMosaic Idealize.ShloMosaic.TcCoe Idealize.ShloMosaic.Tactic Idealize.SL.Sem
open Idealize.ShloMosaic.Pipeline (Dat)
open Idealize.ShloMosaic.ValueIdx
open scoped BigOperators

variable {F : FTy → Type} [FloatOps F]
variable (V : (c : Dev nD) → (b : Ref sig .tc) → Buf (Elt F) ((c : Thread nD τ).loc b))

/-- The printed index maps, decided over the grid: point t works on row block t / 48, column block t / 6 % 8, contraction
    chunk t % 6. -/
theorem idx_facts0 : ∀ t : Fin cfg0.N,
    win0_0.index t (0 : Fin 2) = t.val / 48 ∧ win0_0.index t (1 : Fin 2) = t.val % 6
    ∧ win0_1.index t (0 : Fin 2) = t.val % 6 ∧ win0_1.index t (1 : Fin 2) = t.val / 6 % 8
    ∧ win0_2.index t (0 : Fin 2) = 0 ∧ win0_2.index t (1 : Fin 2) = t.val / 6 % 8
    ∧ win0_3.index t (0 : Fin 2) = 0 ∧ win0_3.index t (1 : Fin 2) = t.val / 6 % 8
    ∧ win0_4.index t (0 : Fin 2) = t.val / 48 ∧ win0_4.index t (1 : Fin 2) = t.val / 6 % 8 :=
  (by decide +kernel : ∀ t : Fin grid0.N, _)

/-- The left operand's block at point t, at (p, k): the array at (1024 (t / 48) + p, 512 (t % 6) + k). -/
theorem iblk0_0_apply (c : Dev nD) (t : Fin cfg0.N) (p : Fin 1024) (k : Fin 512) (r : Fin 8192) (kk : Fin 3072)
    (hr : r.val = t.val / 48 * 1024 + p.val) (hk : kk.val = t.val % 6 * 512 + k.val) :
    (iblk0 V c 0 t : Vec F S1024x512 .f32) (ix2 p k) = V c main_arg0 (ix2 r kk) := by
  obtain ⟨e0, e1, -⟩ := idx_facts0 t
  unfold iblk0
  rw [View.read_apply]
  show V c main_arg0 (((cfg0.win 0).blk t).view.emb (ix2 p k)) = V c main_arg0 (ix2 r kk)
  refine congrArg (V c main_arg0) (funext fun a => Fin.ext ?_)
  match a with
  | ⟨0, _⟩ => show win0_0.index t (0 : Fin 2) * 1024 + 1 * p.val = r.val; rw [e0, hr]; omega
  | ⟨1, _⟩ => show win0_0.index t (1 : Fin 2) * 512 + 1 * k.val = kk.val; rw [e1, hk]; omega

/-- The right operand's block at point t, at (k, q): the array at (512 (t % 6) + k, 1024 (t / 6 % 8) + q). -/
theorem iblk0_1_apply (c : Dev nD) (t : Fin cfg0.N) (k : Fin 512) (q : Fin 1024) (kk : Fin 3072) (col : Fin 8192)
    (hk : kk.val = t.val % 6 * 512 + k.val) (hc : col.val = t.val / 6 % 8 * 1024 + q.val) :
    (iblk0 V c 1 t : Vec F S512x1024 .bf16) (ix2 k q) = V c main_v19 (ix2 kk col) := by
  obtain ⟨-, -, e0, e1, -⟩ := idx_facts0 t
  unfold iblk0
  rw [View.read_apply]
  show V c main_v19 (((cfg0.win 1).blk t).view.emb (ix2 k q)) = V c main_v19 (ix2 kk col)
  refine congrArg (V c main_v19) (funext fun a => Fin.ext ?_)
  match a with
  | ⟨0, _⟩ => show win0_1.index t (0 : Fin 2) * 512 + 1 * k.val = kk.val; rw [e0, hk]; omega
  | ⟨1, _⟩ => show win0_1.index t (1 : Fin 2) * 1024 + 1 * q.val = col.val; rw [e1, hc]; omega

/-- The scale row's block at point t, at (0, q): the row at column 1024 (t / 6 % 8) + q. -/
theorem iblk0_2_apply (c : Dev nD) (t : Fin cfg0.N) (q : Fin 1024) (col : Fin 8192)
    (hc : col.val = t.val / 6 % 8 * 1024 + q.val) :
    (iblk0 V c 2 t : Vec F S1x1024 .f32) (ix2 0 q) = V c main_v52 (ix2 0 col) := by
  obtain ⟨-, -, -, -, e0, e1, -⟩ := idx_facts0 t
  unfold iblk0
  rw [View.read_apply]
  show V c main_v52 (((cfg0.win 2).blk t).view.emb (ix2 0 q)) = V c main_v52 (ix2 0 col)
  refine congrArg (V c main_v52) (funext fun a => Fin.ext ?_)
  match a with
  | ⟨0, _⟩ => show win0_2.index t (0 : Fin 2) * 1 + 1 * 0 = 0; rw [e0]
  | ⟨1, _⟩ => show win0_2.index t (1 : Fin 2) * 1024 + 1 * q.val = col.val; rw [e1, hc]; omega

/-- The bias row's block likewise. -/
theorem iblk0_3_apply (c : Dev nD) (t : Fin cfg0.N) (q : Fin 1024) (col : Fin 8192)
    (hc : col.val = t.val / 6 % 8 * 1024 + q.val) :
    (iblk0 V c 3 t : Vec F S1x1024 .f32) (ix2 0 q) = V c main_v53 (ix2 0 col) := by
  obtain ⟨-, -, -, -, -, -, e0, e1, -⟩ := idx_facts0 t
  unfold iblk0
  rw [View.read_apply]
  show V c main_v53 (((cfg0.win 3).blk t).view.emb (ix2 0 q)) = V c main_v53 (ix2 0 col)
  refine congrArg (V c main_v53) (funext fun a => Fin.ext ?_)
  match a with
  | ⟨0, _⟩ => show win0_3.index t (0 : Fin 2) * 1 + 1 * 0 = 0; rw [e0]
  | ⟨1, _⟩ => show win0_3.index t (1 : Fin 2) * 1024 + 1 * q.val = col.val; rw [e1, hc]; omega

section AtIdeal

variable (VI : (c : Dev nD) → (b : Ref sig .tc) → Buf (Elt Ideal) ((c : Thread nD τ).loc b))

/-- The four arrays the region reads, by (row, column). -/
abbrev X0 (c : Dev nD) : Fin 8192 → Fin 3072 → EReal := fun r k => VI c main_arg0 (ix2 r k)
abbrev W0 (c : Dev nD) : Fin 3072 → Fin 8192 → EReal := fun k j => VI c main_v19 (ix2 k j)
abbrev S0 (c : Dev nD) : Fin 8192 → EReal := fun j => VI c main_v52 (ix2 0 j)
abbrev B0 (c : Dev nD) : Fin 8192 → EReal := fun j => VI c main_v53 (ix2 0 j)

/-- After the first step of a block's contraction, the accumulator at (p, q) is zero plus the first chunk's sum of
    products of row R of the left array and column C of the right array. -/
theorem step_first (c : Dev nD) (n : ℕ) (hn : n < cfg0.N) (h0 : n % 6 = 0) (p q : Fin 1024) (R C : Fin 8192)
    (hR : R.val = n / 48 * 1024 + p.val) (hC : C.val = n / 6 % 8 * 1024 + q.val)
    (g : Fin 512 → Fin 3072) (hg : ∀ k, (g k).val = n % 6 * 512 + k.val) :
    (outsAt0 VI c n hn).2 (ix2 p q) = 0 + ∑ k : Fin 512, X0 VI c R (g k) * W0 VI c (g k) C := by
  refine (congrFun (acc_first VI c ⟨n, hn⟩ h0) (ix2 p q)).trans ?_
  refine (pay0_acc (iblk0 VI c 0 ⟨n, hn⟩) (k0_pay1 (F := Ideal)) (iblk0 VI c 1 ⟨n, hn⟩) p q).trans ?_
  refine congrArg₂ (· + ·) ((pay0_zero p q).trans Ideal.ofBits_zero_f32) (Finset.sum_congr rfl fun k _ => ?_)
  exact congrArg₂ (· * ·) (iblk0_0_apply VI c ⟨n, hn⟩ p k R (g k) hR (hg k)) (iblk0_1_apply VI c ⟨n, hn⟩ k q (g k) C (hg k) hC)

/-- After a later step it is what the point before left there plus that step's chunk's sum. -/
theorem step_next (c : Dev nD) (n : ℕ) (hn : n + 1 < cfg0.N) (h0 : ¬(n + 1) % 6 = 0) (p q : Fin 1024) (R C : Fin 8192)
    (hR : R.val = (n + 1) / 48 * 1024 + p.val) (hC : C.val = (n + 1) / 6 % 8 * 1024 + q.val)
    (g : Fin 512 → Fin 3072) (hg : ∀ k, (g k).val = (n + 1) % 6 * 512 + k.val) :
    (outsAt0 VI c (n + 1) hn).2 (ix2 p q)
      = (outsAt0 VI c n (Nat.lt_of_succ_lt hn)).2 (ix2 p q) + ∑ k : Fin 512, X0 VI c R (g k) * W0 VI c (g k) C := by
  refine (congrFun (acc_step VI c ⟨n + 1, hn⟩ h0) (ix2 p q)).trans ?_
  refine (pay0_acc (iblk0 VI c 0 ⟨n + 1, hn⟩) (outsAt0 VI c n (Nat.lt_of_succ_lt hn)).2 (iblk0 VI c 1 ⟨n + 1, hn⟩) p q).trans ?_
  refine congrArg (_ + ·) (Finset.sum_congr rfl fun k _ => ?_)
  exact congrArg₂ (· * ·) (iblk0_0_apply VI c ⟨n + 1, hn⟩ p k R (g k) hR (hg k)) (iblk0_1_apply VI c ⟨n + 1, hn⟩ k q (g k) C (hg k) hC)

/-- The accumulator's entry (p, q) of block (bi, bj) after that block's step s, as a function of the step. -/
def accOf (c : Dev nD) (bi bj : Fin 8) (p q : Fin 1024) (s : ℕ) : EReal :=
  if hs : (bi.val * 8 + bj.val) * 6 + s < cfg0.N then (outsAt0 VI c ((bi.val * 8 + bj.val) * 6 + s) hs).2 (ix2 p q) else 0

theorem accOf_pos (c : Dev nD) (bi bj : Fin 8) (p q : Fin 1024) (s : ℕ) (hs : (bi.val * 8 + bj.val) * 6 + s < cfg0.N) :
    accOf VI c bi bj p q s = (outsAt0 VI c ((bi.val * 8 + bj.val) * 6 + s) hs).2 (ix2 p q) := dif_pos hs

/-- After a block's last step the accumulator holds the whole product's entry: the six chunk sums, added one after
    the other onto zero, are the sum over all 3072 contraction indices. -/
theorem acc_block (c : Dev nD) (bi bj : Fin 8) (p q : Fin 1024) (R C : Fin 8192)
    (hR : R.val = bi.val * 1024 + p.val) (hC : C.val = bj.val * 1024 + q.val)
    (hlast : (bi.val * 8 + bj.val) * 6 + 5 < cfg0.N) :
    (outsAt0 VI c ((bi.val * 8 + bj.val) * 6 + 5) hlast).2 (ix2 p q) = ∑ k : Fin 3072, X0 VI c R k * W0 VI c k C := by
  have hN : cfg0.N = 384 := N_0
  have hbi := bi.isLt
  have hbj := bj.isLt
  have hp := p.isLt
  have hq := q.isLt
  have hch : (5 + 1) * 512 = 3072 := rfl
  rw [← accOf_pos VI c bi bj p q 5 hlast]
  refine ChunkSum.fold_chunks hch (fun k => X0 VI c R k * W0 VI c k C) (accOf VI c bi bj p q) ?_ ?_
  · have h : (bi.val * 8 + bj.val) * 6 + 0 < cfg0.N := by omega
    rw [accOf_pos VI c bi bj p q 0 h]
    exact step_first VI c ((bi.val * 8 + bj.val) * 6 + 0) h (by omega) p q R C (by omega) (by omega)
      (fun k => ChunkSum.at_ hch ⟨0, Nat.succ_pos 5⟩ k) (fun k => by
        show 0 * 512 + k.val = ((bi.val * 8 + bj.val) * 6 + 0) % 6 * 512 + k.val
        have : ((bi.val * 8 + bj.val) * 6 + 0) % 6 = 0 := by omega
        rw [this])
  · intro s hs
    have h1 : (bi.val * 8 + bj.val) * 6 + (s + 1) < cfg0.N := by omega
    have h2 : (bi.val * 8 + bj.val) * 6 + s < cfg0.N := by omega
    rw [accOf_pos VI c bi bj p q (s + 1) h1, accOf_pos VI c bi bj p q s h2]
    exact step_next VI c ((bi.val * 8 + bj.val) * 6 + s) h1 (by omega) p q R C (by omega) (by omega)
      (fun k => ChunkSum.at_ hch ⟨s + 1, hs⟩ k) (fun k => by
        show (s + 1) * 512 + k.val = ((bi.val * 8 + bj.val) * 6 + s + 1) % 6 * 512 + k.val
        have : ((bi.val * 8 + bj.val) * 6 + s + 1) % 6 = s + 1 := by omega
        rw [this])

end AtIdeal

end Cert.KernelIdeal.Val

end
-- ==== Proof.I_V0c.lean ====
/-
  Region 0 on the extended reals: the result array after the region's run.

  At a block's last step the stored output block is the epilogue of the accumulator: at (p, q) the whole
  product's entry (R, C), R = 1024 (t / 48) + p, C = 1024 (t / 6 % 8) + q, times the scale of column C plus the
  bias of column C, clipped at zero — the first layer's entry (R, C) clipped at zero. Only the last steps write
  their block back; what such a point writes back is its 1024 x 1024 block of that one array, and entry (r, col)
  lies in the block of the last step of block (r / 1024, col / 1024), so the blocks written back cover the array
  and after the run the array holds the first layer clipped at zero, entry by entry.
-/
import proofs.«159875_j41042707481000_2_alg».proof.Proof.I_V0b
import proofs.«159875_j41042707481000_2_alg».proof.Proof.KPay0
import proofs.«159875_j41042707481000_2_alg».proof.Proof.Spec
import proofs.«159875_j41042707481000_2_alg».proof.Proof.LibChunkFold
import Idealize.ShloMosaic.Lib.Pipeline.Value
import Idealize.ShloMosaic.Lib.ValueIdx
import Idealize.ShloMosaic.PureOps.Ideal.Laws
import Idealize.ShloMosaic.Lib.Tactic

set_option maxRecDepth 16384

noncomputable section

namespace Cert.KernelIdeal.Val

open Cert.KernelIdeal Cert.KernelIdeal.Gen Cert.KernelIdeal.Hand Cert.KernelIdeal.Pay
open Idealize.ShloMosaic Idealize.ShloMosaic.TcCoe Idealize.ShloMosaic.Tactic Idealize.SL.Sem
open Idealize.ShloMosaic.Pipeline (Dat)
open Idealize.ShloMosaic.ValueIdx
open scoped BigOperators

variable (VI : (c : Dev nD) → (b : Ref sig .tc) → Buf (Elt Ideal) ((c : Thread nD τ).loc b))

theorem outsAt0_congr (c : Dev nD) (n n' : ℕ) (h : n = n') (hn : n < cfg0.N) (hn' : n' < cfg0.N) :
    outsAt0 VI c n hn = outsAt0 VI c n' hn' := by
  subst h; rfl

/-- The output block the last step of block (t / 48, t / 6 % 8) stores, at (p, q): the layer's entry (R, C) clipped at
    zero — the whole product's entry, scaled by the column's scale, plus the column's bias. -/
theorem out_block_apply (c : Dev nD) (t : Fin cfg0.N) (h5 : t.val % 6 = 5) (p q : Fin 1024) (R C : Fin 8192)
    (hR : R.val = t.val / 48 * 1024 + p.val) (hC : C.val = t.val / 6 % 8 * 1024 + q.val) :
    (outsAt0 VI c t.val t.isLt).1 (ix2 p q)
      = max (Cert.Spec.layer (X0 VI c) (W0 VI c) (S0 VI c) (B0 VI c) R C) Cert.Spec.wZero := by
  have hN : cfg0.N = 384 := N_0
  have ht := t.isLt
  refine (congrFun (out_last VI c t h5) (ix2 p q)).trans ?_
  refine (pay0_out (outsAt0 VI c t.val t.isLt).2 (iblk0 VI c 2 t) (iblk0 VI c 3 t) p q).trans ?_
  unfold Cert.Spec.layer
  have hb0 : t.val / 48 < 8 := by omega
  have hb1 : t.val / 6 % 8 < 8 := by omega
  have hlast : ((⟨t.val / 48, hb0⟩ : Fin 8).val * 8 + (⟨t.val / 6 % 8, hb1⟩ : Fin 8).val) * 6 + 5 < cfg0.N := by
    show (t.val / 48 * 8 + t.val / 6 % 8) * 6 + 5 < cfg0.N
    omega
  have hacc : (outsAt0 VI c t.val t.isLt).2 (ix2 p q) = ∑ k : Fin 3072, X0 VI c R k * W0 VI c k C := by
    rw [outsAt0_congr VI c t.val _ (by show t.val = (t.val / 48 * 8 + t.val / 6 % 8) * 6 + 5; omega) t.isLt hlast]
    exact acc_block VI c ⟨t.val / 48, hb0⟩ ⟨t.val / 6 % 8, hb1⟩ p q R C hR hC hlast
  rw [hacc, iblk0_2_apply VI c t q C hC, iblk0_3_apply VI c t q C hC]

/-- The region's result array, entry by entry: the first layer clipped at zero. -/
def G0e (c : Dev nD) : (⟨2, ![8192, 8192]⟩ : Shape).Idx → EReal :=
  fun i => max (Cert.Spec.layer (X0 VI c) (W0 VI c) (S0 VI c) (B0 VI c) (i 0) (i 1)) Cert.Spec.wZero

def G0 (c : Dev nD) : Buf (Elt Ideal) ((cfg0.win 4).arr.view.loc (c.tc : Thread nD τ)) := G0e VI c

/-- What a last step writes back is its block of that array. -/
theorem flushed0_eq (c : Dev nD) (t : Fin cfg0.N) (hf : (cfg0.win 4).flush t = true) :
    (dat0 VI c).flushed 4 t = ((cfg0.win 4).blk t).view.read (Elt Ideal) (G0 VI c) := by
  have h5 : t.val % 6 = 5 := (flush0_4 t).mp hf
  obtain ⟨-, -, -, -, -, -, -, -, e0, e1⟩ := idx_facts0 t
  show (cfg0.win 4).cut (grid0.coords t) ((dat0 VI c).after 4 t) = _
  rw [after0_4]
  funext j
  rw [View.read_apply]
  have hj : j = ix2 (n0 := 1024) (n1 := 1024) (j 0) (j 1) := eq_ix2 (n0 := 1024) (n1 := 1024) j
  show (outsAt0 VI c t.val t.isLt).1 j = G0e VI c (((cfg0.win 4).blk t).view.emb j)
  refine (congrArg (outsAt0 VI c t.val t.isLt).1 hj).trans ?_
  exact out_block_apply VI c t h5 (j 0) (j 1) (((cfg0.win 4).blk t).view.emb j 0) (((cfg0.win 4).blk t).view.emb j 1)
    (by show win0_4.index t (0 : Fin 2) * 1024 + 1 * (j 0).val = t.val / 48 * 1024 + (j 0).val; rw [e0]; omega)
    (by show win0_4.index t (1 : Fin 2) * 1024 + 1 * (j 1).val = t.val / 6 % 8 * 1024 + (j 1).val; rw [e1]; omega)

/-- Every entry (r, col) of the array is in the block of the last step of block (r / 1024, col / 1024). -/
theorem cover0 (c : Dev nD) (i : ((cfg0.win 4).arr.view.loc (c.tc : Thread nD τ)).2.ty.Idx) :
    ∃ t : Fin cfg0.N, (cfg0.win 4).flush t = true ∧ i ∈ ((cfg0.win 4).blk t).view.set := by
  have hN : cfg0.N = 384 := N_0
  have h0 : (i 0 : Nat) < 8192 := (i 0).isLt
  have h1 : (i 1 : Nat) < 8192 := (i 1).isLt
  have ht : ((i 0 : Nat) / 1024 * 8 + (i 1 : Nat) / 1024) * 6 + 5 < cfg0.N := by omega
  obtain ⟨t, htv⟩ : ∃ t : Fin cfg0.N, t.val = ((i 0 : Nat) / 1024 * 8 + (i 1 : Nat) / 1024) * 6 + 5 := ⟨⟨_, ht⟩, rfl⟩
  obtain ⟨-, -, -, -, -, -, -, -, e0, e1⟩ := idx_facts0 t
  refine ⟨t, (flush0_4 t).mpr (by rw [htv]; omega), ?_⟩
  show i ∈ ((View.whole main_v54).slice (win0_4.rect t)).set
  rw [View.set_slice_whole, Rect.mem_set_unit]
  intro a
  match a with
  | ⟨0, _⟩ =>
    show win0_4.index t (0 : Fin 2) * 1024 ≤ (i 0 : Nat) ∧ (i 0 : Nat) < win0_4.index t (0 : Fin 2) * 1024 + 1024
    rw [e0, htv]; omega
  | ⟨1, _⟩ =>
    show win0_4.index t (1 : Fin 2) * 1024 ≤ (i 1 : Nat) ∧ (i 1 : Nat) < win0_4.index t (1 : Fin 2) * 1024 + 1024
    rw [e1, htv]; omega

/-- So after the region's run its result array is the first layer clipped at zero, entry by entry. -/
theorem final0e (c : Dev nD) : (dat0 VI c).arrAt 4 cfg0.N = G0 VI c :=
  (dat0 VI c).arrAt_eq_of_cover 4 (G0 VI c) (flushed0_eq VI c) (cover0 c)

theorem final0 (c : Dev nD) :
    (dat0 VI c).arrAt 4 cfg0.N
      = fun i => (max (Cert.Spec.layer (fun r k => VI c main_arg0 (ix2 r k)) (fun k j => VI c main_v19 (ix2 k j))
          (fun j => VI c main_v52 (ix2 0 j)) (fun j => VI c main_v53 (ix2 0 j)) (i 0) (i 1)) Cert.Spec.wZero : EReal) :=
  final0e VI c

end Cert.KernelIdeal.Val

end
-- ==== Proof.I_V2a.lean ====
/-
  Region 2, what the body's three cases leave, as the kernel's arithmetic.

  Each grid point of the second product kernel runs one of three cases on whole buffers: the first step of a
  block's contraction (the accumulator is set to the zero block, read back, and the step's partial product is
  added), a middle step (the partial product is added to what the accumulator held), and the last step (the same,
  after which the accumulator is read back once more, scaled, biased, clipped at zero, the residual block is
  added and the result stored as the output block). Every store covers its whole buffer with one piece, so what
  a case leaves in a buffer is that piece's payload, and a load that follows a store reads the stored payload.

  So, point by point: after the first step the accumulator is the zero block plus the first partial product;
  after each later step it is what the point before left plus that step's partial product; and at the last
  step the output block is the epilogue of the accumulator as that step leaves it, over the residual block.
-/
import proofs.«159875_j41042707481000_2_alg».proof.Proof.I_R2
import Idealize.ShloMosaic.Lib.Pipeline.Value
import Idealize.ShloMosaic.Lib.Tactic

set_option maxRecDepth 16384

noncomputable section

namespace Cert.KernelIdeal.Val2

open Cert.KernelIdeal Cert.KernelIdeal.Gen Cert.KernelIdeal.Hand
open Idealize.ShloMosaic Idealize.ShloMosaic.TcCoe Idealize.ShloMosaic.Tactic Idealize.SL.Sem
open Idealize.ShloMosaic.Pipeline (Dat)

variable {F : FTy → Type} [FloatOps F]

theorem hz : (![0, 0] : Fin 2 → Nat) = fun _ => 0 := funext fun a => by fin_cases a <;> rfl

/-- A middle step leaves in the accumulator what it held plus the step's partial product. -/
theorem sout_B (c : Dev nD) (i : grid2.Coords) (arg3 : Memref sig .tc .vmem S1024x512 .f32) (harg3 : arg3.IsWhole) (arg4 : Memref sig .tc .vmem S512x1024 .bf16) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x1024 .f32) (harg7 : arg7.IsWhole) (arg8 : Memref sig .tc .vmem S1024x1024 .f32) (harg8 : arg8.IsWhole) (arg9 : Memref sig .tc .vmem S1024x1024 .f32) (harg9 : arg9.IsWhole) (hc0 : ¬cond2_0 i) (hc1 : ¬cond2_1 i)
    (x0 : Vec F S1024x512 .f32) (x1 : Vec F S512x1024 .bf16) (x2 : Vec F S1x1024 .f32) (x3 : Vec F S1x1024 .f32) (x4 : Vec F S1024x1024 .f32) (xs0 : Vec F S1024x1024 .f32) :
    sout2_B c i arg3 harg3 arg4 harg4 arg5 harg5 arg6 harg6 arg7 harg7 arg8 harg8 arg9 harg9 hc0 hc1 x0 x1 x2 x3 x4 xs0 = k2_pay2 x0 xs0 x1 := by
  unfold sout2_B
  rw [View.read_writes_eq_canon _ _ _ (scover2_B c i arg3 harg3 arg4 harg4 arg5 harg5 arg6 harg6 arg7 harg7 arg8 harg8 arg9 harg9 hc0 hc1 x0 x1 x2 x3 x4 xs0)]
  unfold kernelRun2_B
  dsimp only
  sl_unfold_words
  rw [View.canon_unit_zero hz]
  simp only [View.readAt_eq_ld, harg3.read_unread, harg4.read_unread, harg5.read_unread, harg6.read_unread, harg7.read_unread, harg9.read_unread,
    View.ld_unit_zero (S := S1024x512) hz, View.ld_unit_zero (S := S512x1024) hz, View.ld_unit_zero (S := S1024x1024) hz,
    View.ld_unit_zero (S := S1x1024) hz]

/-- The last step leaves in the accumulator what it held plus the step's partial product … -/
theorem sout_C (c : Dev nD) (i : grid2.Coords) (arg3 : Memref sig .tc .vmem S1024x512 .f32) (harg3 : arg3.IsWhole) (arg4 : Memref sig .tc .vmem S512x1024 .bf16) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x1024 .f32) (harg7 : arg7.IsWhole) (arg8 : Memref sig .tc .vmem S1024x1024 .f32) (harg8 : arg8.IsWhole) (arg9 : Memref sig .tc .vmem S1024x1024 .f32) (harg9 : arg9.IsWhole) (hc0 : ¬cond2_0 i) (hc1 : cond2_1 i)
    (x0 : Vec F S1024x512 .f32) (x1 : Vec F S512x1024 .bf16) (x2 : Vec F S1x1024 .f32) (x3 : Vec F S1x1024 .f32) (x4 : Vec F S1024x1024 .f32) (xs0 : Vec F S1024x1024 .f32) :
    sout2_C c i arg3 harg3 arg4 harg4 arg5 harg5 arg6 harg6 arg7 harg7 arg8 harg8 arg9 harg9 hc0 hc1 x0 x1 x2 x3 x4 xs0 = k2_pay2 x0 xs0 x1 := by
  unfold sout2_C
  rw [View.read_writes_eq_canon _ _ _ (scover2_C c i arg3 harg3 arg4 harg4 arg5 harg5 arg6 harg6 arg7 harg7 arg8 harg8 arg9 harg9 hc0 hc1 x0 x1 x2 x3 x4 xs0)]
  unfold kernelRun2_C
  dsimp only
  sl_unfold_words
  rw [View.canon_unit_zero hz]
  simp only [View.readAt_eq_ld, harg3.read_unread, harg4.read_unread, harg5.read_unread, harg6.read_unread, harg7.read_unread, harg9.read_unread,
    View.ld_unit_zero (S := S1024x512) hz, View.ld_unit_zero (S := S512x1024) hz, View.ld_unit_zero (S := S1024x1024) hz,
    View.ld_unit_zero (S := S1x1024) hz]

/-- … and in the output block the epilogue of that sum: scaled, biased, clipped at zero, plus the residual block. -/
theorem out_C (c : Dev nD) (i : grid2.Coords) (arg3 : Memref sig .tc .vmem S1024x512 .f32) (harg3 : arg3.IsWhole) (arg4 : Memref sig .tc .vmem S512x1024 .bf16) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x1024 .f32) (harg7 : arg7.IsWhole) (arg8 : Memref sig .tc .vmem S1024x1024 .f32) (harg8 : arg8.IsWhole) (arg9 : Memref sig .tc .vmem S1024x1024 .f32) (harg9 : arg9.IsWhole) (hc0 : ¬cond2_0 i) (hc1 : cond2_1 i)
    (x0 : Vec F S1024x512 .f32) (x1 : Vec F S512x1024 .bf16) (x2 : Vec F S1x1024 .f32) (x3 : Vec F S1x1024 .f32) (x4 : Vec F S1024x1024 .f32) (xs0 : Vec F S1024x1024 .f32) :
    out2_C c i arg3 harg3 arg4 harg4 arg5 harg5 arg6 harg6 arg7 harg7 arg8 harg8 arg9 harg9 hc0 hc1 x0 x1 x2 x3 x4 xs0 = k2_pay3 (k2_pay2 x0 xs0 x1) x2 x3 x4 := by
  unfold out2_C
  rw [View.read_writes_eq_canon _ _ _ (cover2_C c i arg3 harg3 arg4 harg4 arg5 harg5 arg6 harg6 arg7 harg7 arg8 harg8 arg9 harg9 hc0 hc1 x0 x1 x2 x3 x4 xs0)]
  unfold kernelRun2_C
  dsimp only
  sl_unfold_words
  rw [View.canon_unit_zero hz, View.readCov_unit_zero (S := S1024x1024) _ hz]
  simp only [View.readAt_eq_ld, harg3.read_unread, harg4.read_unread, harg5.read_unread, harg6.read_unread, harg7.read_unread, harg9.read_unread,
    View.ld_unit_zero (S := S1024x512) hz, View.ld_unit_zero (S := S512x1024) hz, View.ld_unit_zero (S := S1024x1024) hz,
    View.ld_unit_zero (S := S1x1024) hz]

/-- The first step zeroes the accumulator and leaves in it the zero block plus the step's partial product. -/
theorem sout_A (c : Dev nD) (i : grid2.Coords) (arg3 : Memref sig .tc .vmem S1024x512 .f32) (harg3 : arg3.IsWhole) (arg4 : Memref sig .tc .vmem S512x1024 .bf16) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x1024 .f32) (harg7 : arg7.IsWhole) (arg8 : Memref sig .tc .vmem S1024x1024 .f32) (harg8 : arg8.IsWhole) (arg9 : Memref sig .tc .vmem S1024x1024 .f32) (harg9 : arg9.IsWhole) (hc0 : cond2_0 i) (hc1 : ¬cond2_1 i)
    (x0 : Vec F S1024x512 .f32) (x1 : Vec F S512x1024 .bf16) (x2 : Vec F S1x1024 .f32) (x3 : Vec F S1x1024 .f32) (x4 : Vec F S1024x1024 .f32) :
    sout2_A c i arg3 harg3 arg4 harg4 arg5 harg5 arg6 harg6 arg7 harg7 arg8 harg8 arg9 harg9 hc0 hc1 x0 x1 x2 x3 x4 = k2_pay2 x0 k2_pay1 x1 := by
  unfold sout2_A
  rw [View.read_writes_eq_canon _ _ _ (scover2_A c i arg3 harg3 arg4 harg4 arg5 harg5 arg6 harg6 arg7 harg7 arg8 harg8 arg9 harg9 hc0 hc1 x0 x1 x2 x3 x4)]
  unfold kernelRun2_A
  dsimp only
  sl_unfold_words
  rw [View.canon_cons_unit_zero (S := S1024x1024) hz, View.readCov_unit_zero (S := S1024x1024) _ hz]
  simp only [View.readAt_eq_ld, harg3.read_unread, harg4.read_unread, harg5.read_unread, harg6.read_unread, harg7.read_unread, harg9.read_unread,
    View.ld_unit_zero (S := S1024x512) hz, View.ld_unit_zero (S := S512x1024) hz, View.ld_unit_zero (S := S1024x1024) hz,
    View.ld_unit_zero (S := S1x1024) hz]

variable (V : (c : Dev nD) → (b : Ref sig .tc) → Buf (Elt F) ((c : Thread nD τ).loc b))

/-- After the first step of a block's contraction the accumulator holds the zero block plus the first partial product. -/
theorem acc_first (c : Dev nD) (t : Fin cfg2.N) (h0 : t.val % 16 = 0) :
    (outsAt2 V c t.val t.isLt).2 = k2_pay2 (iblk2 V c 0 t) k2_pay1 (iblk2 V c 1 t) := by
  have h1 : ¬t.val % 16 = 15 := by omega
  rw [outsAt2_A V c t h0 h1]
  dsimp only
  exact sout_A c (grid2.coords t) (ms2_0 t) (hs2_0 t) (ms2_1 t) (hs2_1 t) (ms2_2 t) (hs2_2 t) (ms2_3 t) (hs2_3 t) (ms2_4 t) (hs2_4 t) (ms2_5 t) (hs2_5 t)
      scM2 (Memref.isWhole_whole _) ((hcond2_0 t).mpr h0) (fun h => h1 ((hcond2_1 t).mp h))
    (iblk2 V c 0 t) (iblk2 V c 1 t) (iblk2 V c 2 t) (iblk2 V c 3 t) (iblk2 V c 4 t)

/-- After every later step it holds what the point before left plus the step's partial product. -/
theorem acc_step (c : Dev nD) (t : Fin cfg2.N) (h0 : ¬t.val % 16 = 0) :
    (outsAt2 V c t.val t.isLt).2
      = k2_pay2 (iblk2 V c 0 t) (outsAt2 V c (t.val - 1) (Nat.lt_of_le_of_lt (Nat.sub_le _ _) t.isLt)).2 (iblk2 V c 1 t) := by
  by_cases h1 : t.val % 16 = 15
  · rw [outsAt2_C V c t h0 h1]
    dsimp only
    exact sout_C c (grid2.coords t) (ms2_0 t) (hs2_0 t) (ms2_1 t) (hs2_1 t) (ms2_2 t) (hs2_2 t) (ms2_3 t) (hs2_3 t) (ms2_4 t) (hs2_4 t) (ms2_5 t) (hs2_5 t)
      scM2 (Memref.isWhole_whole _) (fun h => h0 ((hcond2_0 t).mp h)) ((hcond2_1 t).mpr h1)
      (iblk2 V c 0 t) (iblk2 V c 1 t) (iblk2 V c 2 t) (iblk2 V c 3 t) (iblk2 V c 4 t)
      (outsAt2 V c (t.val - 1) (Nat.lt_of_le_of_lt (Nat.sub_le _ _) t.isLt)).2
  · rw [outsAt2_B V c t h0 h1]
    dsimp only
    exact sout_B c (grid2.coords t) (ms2_0 t) (hs2_0 t) (ms2_1 t) (hs2_1 t) (ms2_2 t) (hs2_2 t) (ms2_3 t) (hs2_3 t) (ms2_4 t) (hs2_4 t) (ms2_5 t) (hs2_5 t)
      scM2 (Memref.isWhole_whole _) (fun h => h0 ((hcond2_0 t).mp h)) (fun h => h1 ((hcond2_1 t).mp h))
      (iblk2 V c 0 t) (iblk2 V c 1 t) (iblk2 V c 2 t) (iblk2 V c 3 t) (iblk2 V c 4 t)
      (outsAt2 V c (t.val - 1) (Nat.lt_of_le_of_lt (Nat.sub_le _ _) t.isLt)).2

/-- At the last step the output block is the epilogue of the accumulator as that step leaves it, over the residual block. -/
theorem out_last (c : Dev nD) (t : Fin cfg2.N) (h1 : t.val % 16 = 15) :
    (outsAt2 V c t.val t.isLt).1 = k2_pay3 (outsAt2 V c t.val t.isLt).2 (iblk2 V c 2 t) (iblk2 V c 3 t) (iblk2 V c 4 t) := by
  have h0 : ¬t.val % 16 = 0 := by omega
  rw [outsAt2_C V c t h0 h1]
  dsimp only
  rw [sout_C c (grid2.coords t) (ms2_0 t) (hs2_0 t) (ms2_1 t) (hs2_1 t) (ms2_2 t) (hs2_2 t) (ms2_3 t) (hs2_3 t) (ms2_4 t) (hs2_4 t) (ms2_5 t) (hs2_5 t)
      scM2 (Memref.isWhole_whole _) (fun h => h0 ((hcond2_0 t).mp h)) ((hcond2_1 t).mpr h1)
      (iblk2 V c 0 t) (iblk2 V c 1 t) (iblk2 V c 2 t) (iblk2 V c 3 t) (iblk2 V c 4 t)
      (outsAt2 V c (t.val - 1) (Nat.lt_of_le_of_lt (Nat.sub_le _ _) t.isLt)).2]
  exact out_C c (grid2.coords t) (ms2_0 t) (hs2_0 t) (ms2_1 t) (hs2_1 t) (ms2_2 t) (hs2_2 t) (ms2_3 t) (hs2_3 t) (ms2_4 t) (hs2_4 t) (ms2_5 t) (hs2_5 t)
      scM2 (Memref.isWhole_whole _) (fun h => h0 ((hcond2_0 t).mp h)) ((hcond2_1 t).mpr h1)
      (iblk2 V c 0 t) (iblk2 V c 1 t) (iblk2 V c 2 t) (iblk2 V c 3 t) (iblk2 V c 4 t)
      (outsAt2 V c (t.val - 1) (Nat.lt_of_le_of_lt (Nat.sub_le _ _) t.isLt)).2

end Cert.KernelIdeal.Val2

end
-- ==== Proof.I_V2b.lean ====
/-
  Region 2 on the extended reals: what the accumulator holds after a block's last step.

  The grid has 8 x 8 x 16 points; point t works on row block t / 128 and column block t / 16 % 8 of the output and
  on contraction chunk t % 16 (the printed index maps, decided once over the grid). A block read through its
  window is the array at block index times block size plus the coordinate inside the block, so at point t the
  left operand's block holds rows 1024 (t / 128) + p and columns 512 (t % 16) + k of the left array, the right
  operand's block rows 512 (t % 16) + k and columns 1024 (t / 16 % 8) + q of the right array, and the residual
  block rows 1024 (t / 128) + p and columns 1024 (t / 16 % 8) + q of the left array again.

  Hence at (p, q) the accumulator is, after the block's first step, zero plus the first chunk's sum of products
  of row R = 1024 bi + p of the left array with column C = 1024 bj + q of the right array, and each later step
  adds the next chunk's sum. Sixteen chunk sums of 512 added one after the other onto zero are the sum over all
  8192 contraction indices: only commutativity and associativity of the addition are used, nothing need be finite.
-/
import proofs.«159875_j41042707481000_2_alg».proof.Proof.I_V2a
import proofs.«159875_j41042707481000_2_alg».proof.Proof.KPay0
import proofs.«159875_j41042707481000_2_alg».proof.Proof.Spec
import proofs.«159875_j41042707481000_2_alg».proof.Proof.LibChunkFold
import Idealize.ShloMosaic.Lib.Pipeline.Value
import Idealize.ShloMosaic.Lib.ValueIdx
import Idealize.ShloMosaic.PureOps.Ideal.Laws
import Idealize.ShloMosaic.Lib.Tactic

set_option maxRecDepth 16384

noncomputable section

namespace Cert.KernelIdeal.Val2

open Cert.KernelIdeal Cert.KernelIdeal.Gen Cert.KernelIdeal.Hand Cert.KernelIdeal.Pay
open Idealize.ShloMosaic Idealize.ShloMosaic.TcCoe Idealize.ShloMosaic.Tactic Idealize.SL.Sem
open Idealize.ShloMosaic.Pipeline (Dat)
open Idealize.ShloMosaic.ValueIdx
open scoped BigOperators

variable {F : FTy → Type} [FloatOps F]
variable (V : (c : Dev nD) → (b : Ref sig .tc) → Buf (Elt F) ((c : Thread nD τ).loc b))

/-- The printed index maps, decided over the grid: point t works on row block t / 128, column block t / 16 % 8,
    contraction chunk t % 16. -/
theorem idx_facts2 : ∀ t : Fin cfg2.N,
    win2_0.index t (0 : Fin 2) = t.val / 128 ∧ win2_0.index t (1 : Fin 2) = t.val % 16
    ∧ win2_1.index t (0 : Fin 2) = t.val % 16 ∧ win2_1.index t (1 : Fin 2) = t.val / 16 % 8
    ∧ win2_2.index t (0 : Fin 2) = 0 ∧ win2_2.index t (1 : Fin 2) = t.val / 16 % 8
    ∧ win2_3.index t (0 : Fin 2) = 0 ∧ win2_3.index t (1 : Fin 2) = t.val / 16 % 8
    ∧ win2_4.index t (0 : Fin 2) = t.val / 128 ∧ win2_4.index t (1 : Fin 2) = t.val / 16 % 8
    ∧ win2_5.index t (0 : Fin 2) = t.val / 128 ∧ win2_5.index t (1 : Fin 2) = t.val / 16 % 8 :=
  (by decide +kernel : ∀ t : Fin grid2.N, _)

/-- The left operand's block at point t, at (p, k): the array at (1024 (t / 128) + p, 512 (t % 16) + k). -/
theorem iblk2_0_apply (c : Dev nD) (t : Fin cfg2.N) (p : Fin 1024) (k : Fin 512) (r : Fin 8192) (kk : Fin 8192)
    (hr : r.val = t.val / 128 * 1024 + p.val) (hk : kk.val = t.val % 16 * 512 + k.val) :
    (iblk2 V c 0 t : Vec F S1024x512 .f32) (ix2 p k) = V c main_v57 (ix2 r kk) := by
  obtain ⟨e0, e1, -⟩ := idx_facts2 t
  unfold iblk2
  rw [View.read_apply]
  show V c main_v57 (((cfg2.win 0).blk t).view.emb (ix2 p k)) = V c main_v57 (ix2 r kk)
  refine congrArg (V c main_v57) (funext fun ax => Fin.ext ?_)
  match ax with
  | ⟨0, _⟩ => show win2_0.index t (0 : Fin 2) * 1024 + 1 * p.val = r.val; rw [e0, hr]; omega
  | ⟨1, _⟩ => show win2_0.index t (1 : Fin 2) * 512 + 1 * k.val = kk.val; rw [e1, hk]; omega

/-- The right operand's block at point t, at (k, q): the array at (512 (t % 16) + k, 1024 (t / 16 % 8) + q). -/
theorem iblk2_1_apply (c : Dev nD) (t : Fin cfg2.N) (k : Fin 512) (q : Fin 1024) (kk : Fin 8192) (col : Fin 8192)
    (hk : kk.val = t.val % 16 * 512 + k.val) (hc : col.val = t.val / 16 % 8 * 1024 + q.val) :
    (iblk2 V c 1 t : Vec F S512x1024 .bf16) (ix2 k q) = V c main_v35 (ix2 kk col) := by
  obtain ⟨-, -, e0, e1, -⟩ := idx_facts2 t
  unfold iblk2
  rw [View.read_apply]
  show V c main_v35 (((cfg2.win 1).blk t).view.emb (ix2 k q)) = V c main_v35 (ix2 kk col)
  refine congrArg (V c main_v35) (funext fun ax => Fin.ext ?_)
  match ax with
  | ⟨0, _⟩ => show win2_1.index t (0 : Fin 2) * 512 + 1 * k.val = kk.val; rw [e0, hk]; omega
  | ⟨1, _⟩ => show win2_1.index t (1 : Fin 2) * 1024 + 1 * q.val = col.val; rw [e1, hc]; omega

/-- The scale row's block at point t, at (0, q): the row at column 1024 (t / 16 % 8) + q. -/
theorem iblk2_2_apply (c : Dev nD) (t : Fin cfg2.N) (q : Fin 1024) (col : Fin 8192)
    (hc : col.val = t.val / 16 % 8 * 1024 + q.val) :
    (iblk2 V c 2 t : Vec F S1x1024 .f32) (ix2 0 q) = V c main_v58 (ix2 0 col) := by
  obtain ⟨-, -, -, -, e0, e1, -⟩ := idx_facts2 t
  unfold iblk2
  rw [View.read_apply]
  show V c main_v58 (((cfg2.win 2).blk t).view.emb (ix2 0 q)) = V c main_v58 (ix2 0 col)
  refine congrArg (V c main_v58) (funext fun ax => Fin.ext ?_)
  match ax with
  | ⟨0, _⟩ => show win2_2.index t (0 : Fin 2) * 1 + 1 * 0 = 0; rw [e0]
  | ⟨1, _⟩ => show win2_2.index t (1 : Fin 2) * 1024 + 1 * q.val = col.val; rw [e1, hc]; omega

/-- The bias row's block likewise. -/
theorem iblk2_3_apply (c : Dev nD) (t : Fin cfg2.N) (q : Fin 1024) (col : Fin 8192)
    (hc : col.val = t.val / 16 % 8 * 1024 + q.val) :
    (iblk2 V c 3 t : Vec F S1x1024 .f32) (ix2 0 q) = V c main_v59 (ix2 0 col) := by
  obtain ⟨-, -, -, -, -, -, e0, e1, -⟩ := idx_facts2 t
  unfold iblk2
  rw [View.read_apply]
  show V c main_v59 (((cfg2.win 3).blk t).view.emb (ix2 0 q)) = V c main_v59 (ix2 0 col)
  refine congrArg (V c main_v59) (funext fun ax => Fin.ext ?_)
  match ax with
  | ⟨0, _⟩ => show win2_3.index t (0 : Fin 2) * 1 + 1 * 0 = 0; rw [e0]
  | ⟨1, _⟩ => show win2_3.index t (1 : Fin 2) * 1024 + 1 * q.val = col.val; rw [e1, hc]; omega

/-- The residual block at point t, at (p, q): the left array again, at (1024 (t / 128) + p, 1024 (t / 16 % 8) + q). -/
theorem iblk2_4_apply (c : Dev nD) (t : Fin cfg2.N) (p : Fin 1024) (q : Fin 1024) (r : Fin 8192) (col : Fin 8192)
    (hr : r.val = t.val / 128 * 1024 + p.val) (hc : col.val = t.val / 16 % 8 * 1024 + q.val) :
    (iblk2 V c 4 t : Vec F S1024x1024 .f32) (ix2 p q) = V c main_v57 (ix2 r col) := by
  obtain ⟨-, -, -, -, -, -, -, -, e0, e1, -⟩ := idx_facts2 t
  unfold iblk2
  rw [View.read_apply]
  show V c main_v57 (((cfg2.win 4).blk t).view.emb (ix2 p q)) = V c main_v57 (ix2 r col)
  refine congrArg (V c main_v57) (funext fun ax => Fin.ext ?_)
  match ax with
  | ⟨0, _⟩ => show win2_4.index t (0 : Fin 2) * 1024 + 1 * p.val = r.val; rw [e0, hr]; omega
  | ⟨1, _⟩ => show win2_4.index t (1 : Fin 2) * 1024 + 1 * q.val = col.val; rw [e1, hc]; omega

section AtIdeal

variable (VI : (c : Dev nD) → (b : Ref sig .tc) → Buf (Elt Ideal) ((c : Thread nD τ).loc b))

/-- The four arrays the region reads, by (row, column). -/
abbrev X2 (c : Dev nD) : Fin 8192 → Fin 8192 → EReal := fun r k => VI c main_v57 (ix2 r k)
abbrev W2 (c : Dev nD) : Fin 8192 → Fin 8192 → EReal := fun k j => VI c main_v35 (ix2 k j)
abbrev S2 (c : Dev nD) : Fin 8192 → EReal := fun j => VI c main_v58 (ix2 0 j)
abbrev B2 (c : Dev nD) : Fin 8192 → EReal := fun j => VI c main_v59 (ix2 0 j)

/-- After the first step of a block's contraction, the accumulator at (p, q) is zero plus the first chunk's sum of
    products of row R of the left array and column C of the right array. -/
theorem step_first (c : Dev nD) (n : ℕ) (hn : n < cfg2.N) (h0 : n % 16 = 0) (p q : Fin 1024) (R C : Fin 8192)
    (bi bj : ℕ) (hbi : n / 128 = bi) (hbj : n / 16 % 8 = bj)
    (hR : R.val = bi * 1024 + p.val) (hC : C.val = bj * 1024 + q.val)
    (g : Fin 512 → Fin 8192) (hg : ∀ k, (g k).val = 0 * 512 + k.val) :
    (outsAt2 VI c n hn).2 (ix2 p q) = 0 + ∑ k : Fin 512, X2 VI c R (g k) * W2 VI c (g k) C := by
  have hr' : R.val = n / 128 * 1024 + p.val := by rw [hbi]; exact hR
  have hc' : C.val = n / 16 % 8 * 1024 + q.val := by rw [hbj]; exact hC
  have hg' : ∀ k, (g k).val = n % 16 * 512 + k.val := fun k => by rw [h0]; exact hg k
  refine (congrFun (acc_first VI c ⟨n, hn⟩ h0) (ix2 p q)).trans ?_
  refine (pay2_acc (iblk2 VI c 0 ⟨n, hn⟩) (k2_pay1 (F := Ideal)) (iblk2 VI c 1 ⟨n, hn⟩) p q).trans ?_
  refine congrArg₂ (· + ·) ((pay2_zero p q).trans Ideal.ofBits_zero_f32) (Finset.sum_congr rfl fun k _ => ?_)
  exact congrArg₂ (· * ·) (iblk2_0_apply VI c ⟨n, hn⟩ p k R (g k) hr' (hg' k)) (iblk2_1_apply VI c ⟨n, hn⟩ k q (g k) C (hg' k) hc')

/-- After a later step it is what the point before left there plus that step's chunk's sum. -/
theorem step_next (c : Dev nD) (n : ℕ) (hn : n + 1 < cfg2.N) (h0 : ¬(n + 1) % 16 = 0) (p q : Fin 1024) (R C : Fin 8192)
    (bi bj ch : ℕ) (hbi : (n + 1) / 128 = bi) (hbj : (n + 1) / 16 % 8 = bj) (hch : (n + 1) % 16 = ch)
    (hR : R.val = bi * 1024 + p.val) (hC : C.val = bj * 1024 + q.val)
    (g : Fin 512 → Fin 8192) (hg : ∀ k, (g k).val = ch * 512 + k.val) :
    (outsAt2 VI c (n + 1) hn).2 (ix2 p q)
      = (outsAt2 VI c n (Nat.lt_of_succ_lt hn)).2 (ix2 p q) + ∑ k : Fin 512, X2 VI c R (g k) * W2 VI c (g k) C := by
  have hr' : R.val = (n + 1) / 128 * 1024 + p.val := by rw [hbi]; exact hR
  have hc' : C.val = (n + 1) / 16 % 8 * 1024 + q.val := by rw [hbj]; exact hC
  have hg' : ∀ k, (g k).val = (n + 1) % 16 * 512 + k.val := fun k => by rw [hch]; exact hg k
  refine (congrFun (acc_step VI c ⟨n + 1, hn⟩ h0) (ix2 p q)).trans ?_
  refine (pay2_acc (iblk2 VI c 0 ⟨n + 1, hn⟩) (outsAt2 VI c n (Nat.lt_of_succ_lt hn)).2 (iblk2 VI c 1 ⟨n + 1, hn⟩) p q).trans ?_
  refine congrArg (_ + ·) (Finset.sum_congr rfl fun k _ => ?_)
  exact congrArg₂ (· * ·) (iblk2_0_apply VI c ⟨n + 1, hn⟩ p k R (g k) hr' (hg' k)) (iblk2_1_apply VI c ⟨n + 1, hn⟩ k q (g k) C (hg' k) hc')

/-- The accumulator's entry (p, q) of block (bi, bj) after that block's step s, as a function of the step. -/
def accOf (c : Dev nD) (bi bj : Fin 8) (p q : Fin 1024) (s : ℕ) : EReal :=
  if hs : (bi.val * 8 + bj.val) * 16 + s < cfg2.N then (outsAt2 VI c ((bi.val * 8 + bj.val) * 16 + s) hs).2 (ix2 p q) else 0

theorem accOf_pos (c : Dev nD) (bi bj : Fin 8) (p q : Fin 1024) (s : ℕ) (hs : (bi.val * 8 + bj.val) * 16 + s < cfg2.N) :
    accOf VI c bi bj p q s = (outsAt2 VI c ((bi.val * 8 + bj.val) * 16 + s) hs).2 (ix2 p q) := dif_pos hs

/-- After a block's last step the accumulator holds the whole product's entry: the sixteen chunk sums, added one after
    the other onto zero, are the sum over all 8192 contraction indices. -/
theorem acc_block (c : Dev nD) (bi bj : Fin 8) (p q : Fin 1024) (R C : Fin 8192)
    (hR : R.val = bi.val * 1024 + p.val) (hC : C.val = bj.val * 1024 + q.val)
    (hlast : (bi.val * 8 + bj.val) * 16 + 15 < cfg2.N) :
    (outsAt2 VI c ((bi.val * 8 + bj.val) * 16 + 15) hlast).2 (ix2 p q) = ∑ k : Fin 8192, X2 VI c R k * W2 VI c k C := by
  have hN : cfg2.N = 1024 := N_2
  have hbi := bi.isLt
  have hbj := bj.isLt
  have hch : (15 + 1) * 512 = 8192 := rfl
  rw [← accOf_pos VI c bi bj p q 15 hlast]
  refine ChunkSum.fold_chunks hch (fun k => X2 VI c R k * W2 VI c k C) (accOf VI c bi bj p q) ?_ ?_
  · have h : (bi.val * 8 + bj.val) * 16 + 0 < cfg2.N := by omega
    rw [accOf_pos VI c bi bj p q 0 h]
    exact step_first VI c ((bi.val * 8 + bj.val) * 16 + 0) h (by omega) p q R C bi.val bj.val (by omega) (by omega) hR hC
      (fun k => ChunkSum.at_ hch ⟨0, Nat.succ_pos 15⟩ k) (fun k => rfl)
  · intro s hs
    have h1 : (bi.val * 8 + bj.val) * 16 + s + 1 < cfg2.N := by omega
    have h2 : (bi.val * 8 + bj.val) * 16 + s < cfg2.N := by omega
    have e1 : accOf VI c bi bj p q (s + 1) = (outsAt2 VI c ((bi.val * 8 + bj.val) * 16 + s + 1) h1).2 (ix2 p q) :=
      accOf_pos VI c bi bj p q (s + 1) h1
    rw [e1, accOf_pos VI c bi bj p q s h2]
    exact step_next VI c ((bi.val * 8 + bj.val) * 16 + s) h1 (by omega) p q R C bi.val bj.val (s + 1)
      (by omega) (by omega) (by omega) hR hC
      (fun k => ChunkSum.at_ hch ⟨s + 1, hs⟩ k) (fun k => rfl)

end AtIdeal

end Cert.KernelIdeal.Val2

end
-- ==== Proof.I_V2c.lean ====
/-
  Region 2 on the extended reals: the result array after the region's run.

  At a block's last step the stored output block is the epilogue of the accumulator over the residual block: at
  (p, q) the whole product's entry (R, C), R = 1024 (t / 128) + p, C = 1024 (t / 16 % 8) + q, times the scale of
  column C plus the bias of column C, clipped at zero, plus the left array's entry (R, C) — the second layer's
  entry (R, C) clipped at zero plus the layer's input there. Only the last steps write their block back; what
  such a point writes back is its 1024 x 1024 block of that one array, and entry (r, col) lies in the block of the
  last step of block (r / 1024, col / 1024), so the blocks written back cover the array and after the run the
  array holds the second layer clipped at zero plus its input, entry by entry.
-/
import proofs.«159875_j41042707481000_2_alg».proof.Proof.I_V2b
import proofs.«159875_j41042707481000_2_alg».proof.Proof.KPay0
import proofs.«159875_j41042707481000_2_alg».proof.Proof.Spec
import proofs.«159875_j41042707481000_2_alg».proof.Proof.LibChunkFold
import Idealize.ShloMosaic.Lib.Pipeline.Value
import Idealize.ShloMosaic.Lib.ValueIdx
import Idealize.ShloMosaic.PureOps.Ideal.Laws
import Idealize.ShloMosaic.Lib.Tactic

set_option maxRecDepth 16384

noncomputable section

namespace Cert.KernelIdeal.Val2

open Cert.KernelIdeal Cert.KernelIdeal.Gen Cert.KernelIdeal.Hand Cert.KernelIdeal.Pay
open Idealize.ShloMosaic Idealize.ShloMosaic.TcCoe Idealize.ShloMosaic.Tactic Idealize.SL.Sem
open Idealize.ShloMosaic.Pipeline (Dat)
open Idealize.ShloMosaic.ValueIdx
open scoped BigOperators

variable (VI : (c : Dev nD) → (b : Ref sig .tc) → Buf (Elt Ideal) ((c : Thread nD τ).loc b))

theorem outsAt2_congr (c : Dev nD) (n n' : ℕ) (h : n = n') (hn : n < cfg2.N) (hn' : n' < cfg2.N) :
    outsAt2 VI c n hn = outsAt2 VI c n' hn' := by
  subst h; rfl

/-- The output block the last step of block (t / 128, t / 16 % 8) stores, at (p, q): the layer's entry (R, C) clipped at
    zero — the whole product's entry, scaled by the column's scale, plus the column's bias — plus the left array's
    entry (R, C). -/
theorem out_block_apply (c : Dev nD) (t : Fin cfg2.N) (h15 : t.val % 16 = 15) (p q : Fin 1024) (R C : Fin 8192)
    (hR : R.val = t.val / 128 * 1024 + p.val) (hC : C.val = t.val / 16 % 8 * 1024 + q.val) :
    (outsAt2 VI c t.val t.isLt).1 (ix2 p q)
      = max (Cert.Spec.layer (X2 VI c) (W2 VI c) (S2 VI c) (B2 VI c) R C) Cert.Spec.wZero + X2 VI c R C := by
  have hN : cfg2.N = 1024 := N_2
  have ht := t.isLt
  refine (congrFun (out_last VI c t h15) (ix2 p q)).trans ?_
  refine (pay2_out (outsAt2 VI c t.val t.isLt).2 (iblk2 VI c 2 t) (iblk2 VI c 3 t) (iblk2 VI c 4 t) p q).trans ?_
  unfold Cert.Spec.layer
  have hb0 : t.val / 128 < 8 := by omega
  have hb1 : t.val / 16 % 8 < 8 := by omega
  have hlast : ((⟨t.val / 128, hb0⟩ : Fin 8).val * 8 + (⟨t.val / 16 % 8, hb1⟩ : Fin 8).val) * 16 + 15 < cfg2.N := by
    show (t.val / 128 * 8 + t.val / 16 % 8) * 16 + 15 < cfg2.N
    omega
  have hacc : (outsAt2 VI c t.val t.isLt).2 (ix2 p q) = ∑ k : Fin 8192, X2 VI c R k * W2 VI c k C := by
    rw [outsAt2_congr VI c t.val _ (by show t.val = (t.val / 128 * 8 + t.val / 16 % 8) * 16 + 15; omega) t.isLt hlast]
    exact acc_block VI c ⟨t.val / 128, hb0⟩ ⟨t.val / 16 % 8, hb1⟩ p q R C hR hC hlast
  rw [hacc, iblk2_2_apply VI c t q C hC, iblk2_3_apply VI c t q C hC, iblk2_4_apply VI c t p q R C hR hC]

/-- The region's result array, entry by entry: the second layer clipped at zero plus the layer's input. -/
def G2e (c : Dev nD) : (⟨2, ![8192, 8192]⟩ : Shape).Idx → EReal :=
  fun i => max (Cert.Spec.layer (X2 VI c) (W2 VI c) (S2 VI c) (B2 VI c) (i 0) (i 1)) Cert.Spec.wZero + X2 VI c (i 0) (i 1)

def G2 (c : Dev nD) : Buf (Elt Ideal) ((cfg2.win 5).arr.view.loc (c.tc : Thread nD τ)) := G2e VI c

/-- What a last step writes back is its block of that array. -/
theorem flushed2_eq (c : Dev nD) (t : Fin cfg2.N) (hf : (cfg2.win 5).flush t = true) :
    (dat2 VI c).flushed 5 t = ((cfg2.win 5).blk t).view.read (Elt Ideal) (G2 VI c) := by
  have h15 : t.val % 16 = 15 := (flush2_5 t).mp hf
  obtain ⟨-, -, -, -, -, -, -, -, -, -, e0, e1⟩ := idx_facts2 t
  show (cfg2.win 5).cut (grid2.coords t) ((dat2 VI c).after 5 t) = _
  rw [after2_5]
  funext j
  rw [View.read_apply]
  have hj : j = ix2 (n0 := 1024) (n1 := 1024) (j 0) (j 1) := eq_ix2 (n0 := 1024) (n1 := 1024) j
  show (outsAt2 VI c t.val t.isLt).1 j = G2e VI c (((cfg2.win 5).blk t).view.emb j)
  refine (congrArg (outsAt2 VI c t.val t.isLt).1 hj).trans ?_
  exact out_block_apply VI c t h15 (j 0) (j 1) (((cfg2.win 5).blk t).view.emb j 0) (((cfg2.win 5).blk t).view.emb j 1)
    (by show win2_5.index t (0 : Fin 2) * 1024 + 1 * (j 0).val = t.val / 128 * 1024 + (j 0).val; rw [e0]; omega)
    (by show win2_5.index t (1 : Fin 2) * 1024 + 1 * (j 1).val = t.val / 16 % 8 * 1024 + (j 1).val; rw [e1]; omega)

/-- Every entry (r, col) of the array is in the block of the last step of block (r / 1024, col / 1024). -/
theorem cover2 (c : Dev nD) (i : ((cfg2.win 5).arr.view.loc (c.tc : Thread nD τ)).2.ty.Idx) :
    ∃ t : Fin cfg2.N, (cfg2.win 5).flush t = true ∧ i ∈ ((cfg2.win 5).blk t).view.set := by
  have hN : cfg2.N = 1024 := N_2
  have h0 : (i 0 : Nat) < 8192 := (i 0).isLt
  have h1 : (i 1 : Nat) < 8192 := (i 1).isLt
  have ht : ((i 0 : Nat) / 1024 * 8 + (i 1 : Nat) / 1024) * 16 + 15 < cfg2.N := by omega
  obtain ⟨t, htv⟩ : ∃ t : Fin cfg2.N, t.val = ((i 0 : Nat) / 1024 * 8 + (i 1 : Nat) / 1024) * 16 + 15 := ⟨⟨_, ht⟩, rfl⟩
  obtain ⟨-, -, -, -, -, -, -, -, -, -, e0, e1⟩ := idx_facts2 t
  refine ⟨t, (flush2_5 t).mpr (by rw [htv]; omega), ?_⟩
  show i ∈ ((View.whole main_v60).slice (win2_5.rect t)).set
  rw [View.set_slice_whole, Rect.mem_set_unit]
  intro a
  match a with
  | ⟨0, _⟩ =>
    show win2_5.index t (0 : Fin 2) * 1024 ≤ (i 0 : Nat) ∧ (i 0 : Nat) < win2_5.index t (0 : Fin 2) * 1024 + 1024
    rw [e0, htv]; omega
  | ⟨1, _⟩ =>
    show win2_5.index t (1 : Fin 2) * 1024 ≤ (i 1 : Nat) ∧ (i 1 : Nat) < win2_5.index t (1 : Fin 2) * 1024 + 1024
    rw [e1, htv]; omega

/-- So after the region's run its result array is the second layer clipped at zero plus the layer's input, entry by entry. -/
theorem final2e (c : Dev nD) : (dat2 VI c).arrAt 5 cfg2.N = G2 VI c :=
  (dat2 VI c).arrAt_eq_of_cover 5 (G2 VI c) (flushed2_eq VI c) (cover2 c)

theorem final2 (c : Dev nD) :
    (dat2 VI c).arrAt 5 cfg2.N
      = fun i => (max (Cert.Spec.layer (fun r k => VI c main_v57 (ix2 r k)) (fun k j => VI c main_v35 (ix2 k j))
          (fun j => VI c main_v58 (ix2 0 j)) (fun j => VI c main_v59 (ix2 0 j)) (i 0) (i 1)) Cert.Spec.wZero
          + VI c main_v57 (ix2 (i 0) (i 1)) : EReal) :=
  final2e VI c

end Cert.KernelIdeal.Val2

end
-- ==== Proof.I_Net.lean ====
/-
  The program computes the network of the specification.

  Region by region, through the boundaries of @main: the first region leaves in its output array max(layer, 0) of the
  input array with the softSign weights, scale and bias (what it found in its input arrays, read back to the argument
  arrays); the second region normalises that array row by row with the first gain and offset — the first hidden
  activation; the third leaves max(layer, 0) of it with the softBin weights plus itself; the last normalises that with
  the second gain and offset and applies the head layer. Each region's statement is about whatever its input arrays
  hold on entry, and each input array is either written by the region before (and by nothing in between) or laid out
  by the host from an argument, so the result array is the specification's network on the argument arrays; every
  execution ends there, with the arguments as launched.
-/
import proofs.«159875_j41042707481000_2_alg».proof.Proof.I_NetHost
import proofs.«159875_j41042707481000_2_alg».proof.Proof.I_V0c
import proofs.«159875_j41042707481000_2_alg».proof.Proof.I_V2c

set_option maxRecDepth 16384

noncomputable section

open scoped BigOperators

namespace Cert.KernelNet

open Cert.KernelIdeal Cert.KernelIdeal.Gen Cert.KernelIdeal.Hand Cert.KernelIdeal.Val
open Idealize.ShloMosaic Idealize.ShloMosaic.TcCoe Idealize.ShloMosaic.StableHlo Idealize.ShloMosaic.ValueIdx Idealize.SL.Sem
open Idealize.ShloMosaic.Pipeline (Dat)

section
variable (m : (ℓ : Loc nD τ sig) → Buf (Elt Ideal) ℓ) (ρ : Dev nD → PrngReg) (c : Dev nD)

/-- The first activation before its normalisation, as the specification writes it on the argument arrays. -/
abbrev act1 : Fin 8192 → Fin 8192 → EReal := fun r j =>
  max (Cert.Spec.layer (fun r k => (m ((c : Thread nD τ).loc main_arg0)) (ix2 r k)) (fun k j => Cert.Spec.softSign ((m ((c : Thread nD τ).loc main_arg1)) (ix2 k j)))
    (fun j => (m ((c : Thread nD τ).loc main_arg3)) (ix1 j)) (fun j => (m ((c : Thread nD τ).loc main_arg2)) (ix1 j)) r j) Cert.Spec.wZero

/-- The first hidden activation. -/
abbrev hid1 : Fin 8192 → Fin 8192 → EReal :=
  Cert.Spec.norm (act1 m c) (fun j => (m ((c : Thread nD τ).loc main_arg4)) (ix1 j)) (fun j => (m ((c : Thread nD τ).loc main_arg5)) (ix1 j))

/-- The second activation before its normalisation. -/
abbrev act2 : Fin 8192 → Fin 8192 → EReal := fun r j =>
  max (Cert.Spec.layer (hid1 m c) (fun k j => Cert.Spec.softBin ((m ((c : Thread nD τ).loc main_arg6)) (ix2 k j)))
    (fun j => (m ((c : Thread nD τ).loc main_arg8)) (ix1 j)) (fun j => (m ((c : Thread nD τ).loc main_arg7)) (ix1 j)) r j) Cert.Spec.wZero + hid1 m c r j

/-- After the first region and the two rows laid out: the second region's input array is the first activation. -/
theorem V4_v54 : V4 m ρ c main_v54 = fun i => act1 m c (i 0) (i 1) :=
  (ops1_keep (W3 m ρ c) main_v54 (by decide)).trans <| (W3_arr m ρ c 4).trans <| (final0 (V2 m ρ) c).trans <|
    relu_layer_congr (a' := (fun r k => (m ((c : Thread nD τ).loc main_arg0)) (ix2 r k))) (w' := (fun k j => Cert.Spec.softSign ((m ((c : Thread nD τ).loc main_arg1)) (ix2 k j))))
      (s' := (fun j => (m ((c : Thread nD τ).loc main_arg3)) (ix1 j))) (b' := (fun j => (m ((c : Thread nD τ).loc main_arg2)) (ix1 j)))
      (funext fun r => funext fun k => congrFun (V2_arg0 m ρ c) (ix2 r k))
      (funext fun k => funext fun j => congrFun (V2_v19 m ρ c) (ix2 k j))
      (funext fun j => V2_v52 m ρ c j) (funext fun j => V2_v53 m ρ c j)

/-- After the second region: the first hidden activation. -/
theorem V6_v57 : V6 m ρ c main_v57 = fun i => hid1 m c (i 0) (i 1) :=
  (ops2_keep (W5 m ρ c) main_v57 (by decide)).trans <| (W5_arr m ρ c 3).trans <| (final1 (V4 m ρ) c).trans <|
    norm_congr (a' := act1 m c) (g' := (fun j => (m ((c : Thread nD τ).loc main_arg4)) (ix1 j))) (be' := (fun j => (m ((c : Thread nD τ).loc main_arg5)) (ix1 j)))
      (funext fun r => funext fun j => congrFun (V4_v54 m ρ c) (ix2 r j))
      (funext fun j => V4_v55 m ρ c j) (funext fun j => V4_v56 m ρ c j)

/-- After the third region: the second activation before its normalisation. -/
theorem V8_v60 : V8 m ρ c main_v60 = fun i => act2 m c (i 0) (i 1) :=
  (ops3_keep (W7 m ρ c) main_v60 (by decide)).trans <| (W7_out m ρ c).trans <| (Cert.KernelIdeal.Val2.final2 (V6 m ρ) c).trans <|
    res_layer_congr (a' := hid1 m c) (w' := (fun k j => Cert.Spec.softBin ((m ((c : Thread nD τ).loc main_arg6)) (ix2 k j))))
      (s' := (fun j => (m ((c : Thread nD τ).loc main_arg8)) (ix1 j))) (b' := (fun j => (m ((c : Thread nD τ).loc main_arg7)) (ix1 j)))
      (funext fun r => funext fun k => congrFun (V6_v57 m ρ c) (ix2 r k))
      (funext fun k => funext fun j => congrFun (V6_v35 m ρ c) (ix2 k j))
      (funext fun j => V6_v58 m ρ c j) (funext fun j => V6_v59 m ρ c j)

omit ρ in
/-- The head of the second normalised activation is the specification's network on the argument arrays. -/
theorem spec_eq : (fun i : S8192x10.Idx => Cert.Spec.layer (Cert.Spec.norm (act2 m c) (fun j => (m ((c : Thread nD τ).loc main_arg9)) (ix1 j)) (fun j => (m ((c : Thread nD τ).loc main_arg10)) (ix1 j)))
      (fun k o => Cert.Spec.softBin ((m ((c : Thread nD τ).loc main_arg11)) (ix2 k o))) (fun o => (m ((c : Thread nD τ).loc main_arg13)) (ix1 o)) (fun o => (m ((c : Thread nD τ).loc main_arg12)) (ix1 o)) (i 0) (i 1))
    = Cert.Spec.netArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) := by
  funext i
  unfold Cert.Spec.netArr Cert.Spec.net Cert.Spec.hidden2 Cert.Spec.hidden1
  rfl

/-- After the last region: the result array is the network of the specification on the argument arrays. -/
theorem W9_v65 : W9 m ρ c (Proc.devRef .tc main_v65)
    = Cert.Spec.netArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) :=
  (W9_arr m ρ c 6).trans <| (final3 (V8 m ρ) c).trans <|
    (head_congr (a' := act2 m c) (g' := (fun j => (m ((c : Thread nD τ).loc main_arg9)) (ix1 j))) (be' := (fun j => (m ((c : Thread nD τ).loc main_arg10)) (ix1 j)))
      (w' := (fun k o => Cert.Spec.softBin ((m ((c : Thread nD τ).loc main_arg11)) (ix2 k o)))) (s' := (fun o => (m ((c : Thread nD τ).loc main_arg13)) (ix1 o))) (b' := (fun o => (m ((c : Thread nD τ).loc main_arg12)) (ix1 o)))
      (funext fun r => funext fun j => congrFun (V8_v60 m ρ c) (ix2 r j))
      (funext fun j => V8_v61 m ρ c j) (funext fun j => V8_v62 m ρ c j)
      (funext fun k => funext fun o => congrFun (V8_v51 m ρ c) (ix2 k o))
      (funext fun o => V8_v63 m ρ c o) (funext fun o => V8_v64 m ρ c o)).trans (spec_eq m c)

omit m ρ c in
/-- Every execution of the program ends with its result at the network of the specification on the argument arrays,
    the arguments unchanged. -/
theorem run (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      r.2.mem ((c.tc : Thread nD τ).loc main_v65) = Cert.Spec.netArr (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run _ _ _).mono (fun r h c =>
    ⟨(h c _ (mem_uc main_v65 (by decide))).trans (W9_v65 m g c),
     (h c _ (mem_uc main_arg0 (by decide))).trans (W9_main_arg0 m g c),
     (h c _ (mem_uc main_arg1 (by decide))).trans (W9_main_arg1 m g c),
     (h c _ (mem_uc main_arg2 (by decide))).trans (W9_main_arg2 m g c),
     (h c _ (mem_uc main_arg3 (by decide))).trans (W9_main_arg3 m g c),
     (h c _ (mem_uc main_arg4 (by decide))).trans (W9_main_arg4 m g c),
     (h c _ (mem_uc main_arg5 (by decide))).trans (W9_main_arg5 m g c),
     (h c _ (mem_uc main_arg6 (by decide))).trans (W9_main_arg6 m g c),
     (h c _ (mem_uc main_arg7 (by decide))).trans (W9_main_arg7 m g c),
     (h c _ (mem_uc main_arg8 (by decide))).trans (W9_main_arg8 m g c),
     (h c _ (mem_uc main_arg9 (by decide))).trans (W9_main_arg9 m g c),
     (h c _ (mem_uc main_arg10 (by decide))).trans (W9_main_arg10 m g c),
     (h c _ (mem_uc main_arg11 (by decide))).trans (W9_main_arg11 m g c),
     (h c _ (mem_uc main_arg12 (by decide))).trans (W9_main_arg12 m g c),
     (h c _ (mem_uc main_arg13 (by decide))).trans (W9_main_arg13 m g c)⟩) (run_all m g)

end

end Cert.KernelNet

end
-- ==== Proof.RefSoft.lean ====
/-
  The softened weights of the reference, entry by entry: the reference's three weight preparations are
  softSign of the first weight matrix and softBin of the second and third.
-/
import proofs.«159875_j41042707481000_2_alg».proof.Proof.Gen.ReferenceIdeal.Read
import proofs.«159875_j41042707481000_2_alg».proof.Proof.Spec

noncomputable section

open scoped BigOperators

namespace Cert.RefNet

open Cert.ReferenceIdeal Cert.ReferenceIdeal.Gen Cert.ReferenceIdeal.Read Idealize.ShloMosaic Idealize.ShloMosaic.StableHlo

/-- The first layer's prepared weight at an entry is softSign of the weight there. -/
theorem soft1 (x1 : (⟨S3072x8192, .f32⟩ : BufTy).Contents (Elt Ideal)) (i : S3072x8192.Idx) :
    val_main_v18 (F := Ideal) x1 i = Cert.Spec.softSign (x1 i) := by
  rw [val_main_v18_apply, val_main_v1_apply, val_main_v0_apply, val_main_cst_apply,
    val_main_v17_apply, val_main_v16_apply, val_main_cst_6_apply, val_main_v15_apply,
    val_main_v14_apply, val_main_cst_5_apply, val_main_v13_apply, val_main_v12_apply, val_main_cst_4_apply,
    val_main_v11_apply, val_main_v10_apply, val_main_cst_3_apply, val_main_v9_apply, val_main_v8_apply,
    val_main_cst_2_apply, val_main_v7_apply, val_main_v6_apply, val_main_v5_apply, val_main_v4_apply,
    val_main_cst_1_apply, val_main_v3_apply, val_main_v2_apply, val_main_cst_0_apply]
  simp only [Ideal.ofBits_def, Ideal.addf_def, Ideal.subf_def, Ideal.mulf_def, Ideal.hostDivf_def,
    Ideal.hostNegf_def, Ideal.negf_def, Ideal.hostUnary_exp_def]
  rfl

/-- The second layer's prepared weight at an entry is softBin of the weight there. -/
theorem soft2 (x6 : (⟨S8192x8192, .f32⟩ : BufTy).Contents (Elt Ideal)) (i : S8192x8192.Idx) :
    val_main_v65 (F := Ideal) x6 i = Cert.Spec.softBin (x6 i) := by
  rw [val_main_v65_apply, val_main_v52_apply, val_main_v51_apply, val_main_cst_12_apply,
    val_main_v64_apply, val_main_v63_apply, val_main_cst_17_apply,
    val_main_v62_apply, val_main_v61_apply, val_main_cst_16_apply, val_main_v60_apply, val_main_v59_apply,
    val_main_cst_15_apply, val_main_v58_apply, val_main_v57_apply, val_main_v56_apply, val_main_v55_apply,
    val_main_cst_14_apply, val_main_v54_apply, val_main_v53_apply, val_main_cst_13_apply]
  simp only [Ideal.ofBits_def, Ideal.addf_def, Ideal.mulf_def, Ideal.hostDivf_def,
    Ideal.hostNegf_def, Ideal.negf_def, Ideal.hostUnary_exp_def]
  rfl

/-- The head's prepared weight at an entry is softBin of the weight there. -/
theorem soft3 (x11 : (⟨S8192x10, .f32⟩ : BufTy).Contents (Elt Ideal)) (i : S8192x10.Idx) :
    val_main_v113 (F := Ideal) x11 i = Cert.Spec.softBin (x11 i) := by
  rw [val_main_v113_apply, val_main_v100_apply, val_main_v99_apply, val_main_cst_23_apply,
    val_main_v112_apply, val_main_v111_apply, val_main_cst_28_apply,
    val_main_v110_apply, val_main_v109_apply, val_main_cst_27_apply, val_main_v108_apply, val_main_v107_apply,
    val_main_cst_26_apply, val_main_v106_apply, val_main_v105_apply, val_main_v104_apply, val_main_v103_apply,
    val_main_cst_25_apply, val_main_v102_apply, val_main_v101_apply, val_main_cst_24_apply]
  simp only [Ideal.ofBits_def, Ideal.addf_def, Ideal.mulf_def, Ideal.hostDivf_def,
    Ideal.hostNegf_def, Ideal.negf_def, Ideal.hostUnary_exp_def]
  rfl

end Cert.RefNet

end
-- ==== Proof.RefL1.lean ====
/-
  The reference's first layer followed by max(·, 0), entry by entry.
-/
import proofs.«159875_j41042707481000_2_alg».proof.Proof.RefSoft

noncomputable section

open scoped BigOperators

namespace Cert.RefNet

open Cert.ReferenceIdeal Cert.ReferenceIdeal.Gen Cert.ReferenceIdeal.Read Idealize.ShloMosaic Idealize.ShloMosaic.StableHlo

/-- A vector repeated down the rows, read at an entry: the first layer's scale. -/
theorem row21 (x3 : (⟨S8192, .f32⟩ : BufTy).Contents (Elt Ideal)) (r j : Fin 8192) :
    val_main_v21 (F := Ideal) x3 (ValueIdx.ix2 r j) = x3 (ValueIdx.ix1 j) := by
  rw [val_main_v21_apply, val_main_v20_apply]
  exact congrArg x3 (funext fun a => Fin.ext (by match a with | ⟨0, _⟩ => rfl))

/-- A vector repeated down the rows, read at an entry: the first layer's bias. -/
theorem row24 (x2 : (⟨S8192, .f32⟩ : BufTy).Contents (Elt Ideal)) (r j : Fin 8192) :
    val_main_v24 (F := Ideal) x2 (ValueIdx.ix2 r j) = x2 (ValueIdx.ix1 j) := by
  rw [val_main_v24_apply, val_main_v23_apply]
  exact congrArg x2 (funext fun a => Fin.ext (by match a with | ⟨0, _⟩ => rfl))

/-- The first product at an entry: row r of the input against column j of the softened weights. -/
theorem dot19 (x0 : (⟨S8192x3072, .f32⟩ : BufTy).Contents (Elt Ideal)) (x1 : (⟨S3072x8192, .f32⟩ : BufTy).Contents (Elt Ideal))
    (r j : Fin 8192) :
    val_main_v19 (F := Ideal) x0 x1 (ValueIdx.ix2 r j)
      = ∑ k : Fin 3072, x0 (ValueIdx.ix2 r k) * Cert.Spec.softSign (x1 (ValueIdx.ix2 k j)) := by
  rw [val_main_v19_apply]
  refine Finset.sum_congr rfl fun k _ => ?_
  rw [soft1]
  have el : lidx_main_v19 (ValueIdx.ix2 r j) k = ValueIdx.ix2 r k :=
    funext fun a => Fin.ext (by match a with | ⟨0, _⟩ => rfl | ⟨1, _⟩ => rfl)
  have er : ridx_main_v19 (ValueIdx.ix2 r j) k = ValueIdx.ix2 k j :=
    funext fun a => Fin.ext (by match a with | ⟨0, _⟩ => rfl | ⟨1, _⟩ => rfl)
  rw [el, er]

/-- The first layer followed by max(·, 0), at an entry. -/
theorem relu26 (x0 : (⟨S8192x3072, .f32⟩ : BufTy).Contents (Elt Ideal)) (x1 : (⟨S3072x8192, .f32⟩ : BufTy).Contents (Elt Ideal))
    (x2 x3 : (⟨S8192, .f32⟩ : BufTy).Contents (Elt Ideal)) (r j : Fin 8192) :
    val_main_v26 (F := Ideal) x0 x1 x2 x3 (ValueIdx.ix2 r j)
      = max (Cert.Spec.layer (fun r k => x0 (ValueIdx.ix2 r k)) (fun k j => Cert.Spec.softSign (x1 (ValueIdx.ix2 k j)))
          (fun j => x3 (ValueIdx.ix1 j)) (fun j => x2 (ValueIdx.ix1 j)) r j) Cert.Spec.wZero := by
  rw [val_main_v26_apply, val_main_v25_apply, val_main_v22_apply, dot19, row21, row24,
    val_main_call0_v0_apply, val_main_call0_cst_apply]
  simp only [Ideal.ofBits_def, Ideal.addf_def, Ideal.mulf_def, Ideal.maximumf_def]
  rfl

end Cert.RefNet

end
-- ==== Proof.RefNorm1.lean ====
/-
  The reference's first row normalisation, entry by entry, over whatever activation it is applied to:
  row sum, mean, deviations, variance, reciprocal root, gain and offset.
-/
import proofs.«159875_j41042707481000_2_alg».proof.Proof.Gen.ReferenceIdeal.Read
import proofs.«159875_j41042707481000_2_alg».proof.Proof.Spec

noncomputable section

open scoped BigOperators

namespace Cert.RefNet

open Cert.ReferenceIdeal Cert.ReferenceIdeal.Gen Cert.ReferenceIdeal.Read Idealize.ShloMosaic Idealize.ShloMosaic.StableHlo

section
variable (x0 : (⟨S8192x3072, .f32⟩ : BufTy).Contents (Elt Ideal)) (x1 : (⟨S3072x8192, .f32⟩ : BufTy).Contents (Elt Ideal)) (x2 x3 x4 x5 : (⟨S8192, .f32⟩ : BufTy).Contents (Elt Ideal))
  (a : Fin 8192 → Fin 8192 → EReal)

/-- A row's sum: the add-reduce along the columns starts from the zero word. -/
theorem sum27 (h26 : ∀ r j : Fin 8192, val_main_v26 (F := Ideal) x0 x1 x2 x3 (ValueIdx.ix2 r j) = a r j) (r : Fin 8192) :
    val_main_v27 (F := Ideal) x0 x1 x2 x3 (ValueIdx.ix1 r) = ∑ j : Fin 8192, a r j := by
  rw [val_main_v27_apply, val_main_cst_7_apply, Ideal.ofBits_def, Ideal.ofBits_zero_f32, zero_add]
  refine Finset.sum_congr rfl fun k _ => ?_
  refine (congrArg _ ?_).trans (h26 r k)
  exact funext fun d => Fin.ext (by match d with | ⟨0, _⟩ => rfl | ⟨1, _⟩ => rfl)

/-- The row means, kept as a column. -/
theorem mean30 (h26 : ∀ r j : Fin 8192, val_main_v26 (F := Ideal) x0 x1 x2 x3 (ValueIdx.ix2 r j) = a r j) (r : Fin 8192) (c : Fin 1) :
    val_main_v30 (F := Ideal) x0 x1 x2 x3 (ValueIdx.ix2 r c) = Cert.Spec.rowMean a r := by
  have e : idx_main_v28 (ValueIdx.ix2 r c) = ValueIdx.ix1 r :=
    funext fun d => Fin.ext (by match d with | ⟨0, _⟩ => rfl)
  rw [val_main_v30_apply, val_main_v28_apply, e, sum27 x0 x1 x2 x3 a h26, val_main_v29_apply, val_main_cst_8_apply]
  simp only [Ideal.ofBits_def, Ideal.hostDivf_def]
  rfl

/-- The row means repeated along the rows (first copy). -/
theorem mean31 (h26 : ∀ r j : Fin 8192, val_main_v26 (F := Ideal) x0 x1 x2 x3 (ValueIdx.ix2 r j) = a r j) (r j : Fin 8192) :
    val_main_v31 (F := Ideal) x0 x1 x2 x3 (ValueIdx.ix2 r j) = Cert.Spec.rowMean a r := by
  have e : idx_main_v31 (ValueIdx.ix2 r j) = ValueIdx.ix2 r (0 : Fin 1) :=
    funext fun d => Fin.ext (by match d with | ⟨0, _⟩ => rfl | ⟨1, _⟩ => rfl)
  rw [val_main_v31_apply, e, mean30 x0 x1 x2 x3 a h26]

/-- The row means repeated along the rows (second copy). -/
theorem mean38 (h26 : ∀ r j : Fin 8192, val_main_v26 (F := Ideal) x0 x1 x2 x3 (ValueIdx.ix2 r j) = a r j) (r j : Fin 8192) :
    val_main_v38 (F := Ideal) x0 x1 x2 x3 (ValueIdx.ix2 r j) = Cert.Spec.rowMean a r := by
  have e : idx_main_v38 (ValueIdx.ix2 r j) = ValueIdx.ix2 r (0 : Fin 1) :=
    funext fun d => Fin.ext (by match d with | ⟨0, _⟩ => rfl | ⟨1, _⟩ => rfl)
  rw [val_main_v38_apply, e, mean30 x0 x1 x2 x3 a h26]

/-- A row's sum of squared deviations. -/
theorem sum34 (h26 : ∀ r j : Fin 8192, val_main_v26 (F := Ideal) x0 x1 x2 x3 (ValueIdx.ix2 r j) = a r j) (r : Fin 8192) :
    val_main_v34 (F := Ideal) x0 x1 x2 x3 (ValueIdx.ix1 r)
      = ∑ j : Fin 8192, (a r j - Cert.Spec.rowMean a r) * (a r j - Cert.Spec.rowMean a r) := by
  rw [val_main_v34_apply, val_main_cst_9_apply, Ideal.ofBits_def, Ideal.ofBits_zero_f32, zero_add]
  refine Finset.sum_congr rfl fun k _ => ?_
  have e : idx_main_v34 (ValueIdx.ix1 r) k = ValueIdx.ix2 r k :=
    funext fun d => Fin.ext (by match d with | ⟨0, _⟩ => rfl | ⟨1, _⟩ => rfl)
  rw [e, val_main_v33_apply, val_main_v32_apply, h26, mean31 x0 x1 x2 x3 a h26]
  rfl

/-- The row variances, kept as a column. -/
theorem var37 (h26 : ∀ r j : Fin 8192, val_main_v26 (F := Ideal) x0 x1 x2 x3 (ValueIdx.ix2 r j) = a r j) (r : Fin 8192) (c : Fin 1) :
    val_main_v37 (F := Ideal) x0 x1 x2 x3 (ValueIdx.ix2 r c) = Cert.Spec.rowVar a r := by
  have e : idx_main_v35 (ValueIdx.ix2 r c) = ValueIdx.ix1 r :=
    funext fun d => Fin.ext (by match d with | ⟨0, _⟩ => rfl)
  rw [val_main_v37_apply, val_main_v35_apply, e, sum34 x0 x1 x2 x3 a h26, val_main_v36_apply, val_main_cst_10_apply]
  simp only [Ideal.ofBits_def, Ideal.hostDivf_def]
  rfl

/-- The reciprocal root of the variance plus ε, repeated along the rows. -/
theorem rs43 (h26 : ∀ r j : Fin 8192, val_main_v26 (F := Ideal) x0 x1 x2 x3 (ValueIdx.ix2 r j) = a r j) (r j : Fin 8192) :
    val_main_v43 (F := Ideal) x0 x1 x2 x3 (ValueIdx.ix2 r j) = Ideal.rsqrt (Cert.Spec.rowVar a r + Cert.Spec.wEps) := by
  have e : idx_main_v43 (ValueIdx.ix2 r j) = ValueIdx.ix2 r (0 : Fin 1) :=
    funext fun d => Fin.ext (by match d with | ⟨0, _⟩ => rfl | ⟨1, _⟩ => rfl)
  rw [val_main_v43_apply, e, val_main_v42_apply, val_main_v41_apply, var37 x0 x1 x2 x3 a h26, val_main_v40_apply,
    val_main_cst_11_apply]
  simp only [Ideal.ofBits_def, Ideal.addf_def, Ideal.hostUnary_rsqrt_def]

/-- The first normalisation's gain repeated down the rows. -/
theorem row46 (r j : Fin 8192) : val_main_v46 (F := Ideal) x4 (ValueIdx.ix2 r j) = x4 (ValueIdx.ix1 j) := by
  rw [val_main_v46_apply, val_main_v45_apply]
  exact congrArg x4 (funext fun d => Fin.ext (by match d with | ⟨0, _⟩ => rfl))

/-- The first normalisation's offset repeated down the rows. -/
theorem row49 (r j : Fin 8192) : val_main_v49 (F := Ideal) x5 (ValueIdx.ix2 r j) = x5 (ValueIdx.ix1 j) := by
  rw [val_main_v49_apply, val_main_v48_apply]
  exact congrArg x5 (funext fun d => Fin.ext (by match d with | ⟨0, _⟩ => rfl))

/-- The first row normalisation at an entry, over whatever the activation before it is. -/
theorem norm50 (h26 : ∀ r j : Fin 8192, val_main_v26 (F := Ideal) x0 x1 x2 x3 (ValueIdx.ix2 r j) = a r j) (r j : Fin 8192) :
    val_main_v50 (F := Ideal) x0 x1 x2 x3 x4 x5 (ValueIdx.ix2 r j)
      = Cert.Spec.norm a (fun j => x4 (ValueIdx.ix1 j)) (fun j => x5 (ValueIdx.ix1 j)) r j := by
  rw [val_main_v50_apply, val_main_v47_apply, val_main_v44_apply, val_main_v39_apply, h26, mean38 x0 x1 x2 x3 a h26,
    rs43 x0 x1 x2 x3 a h26, row46, row49]
  rfl

end

end Cert.RefNet

end
-- ==== Proof.RefL2.lean ====
/-
  The reference's second layer followed by max(·, 0) and the residual sum, entry by entry,
  over whatever the first activation is.
-/
import proofs.«159875_j41042707481000_2_alg».proof.Proof.RefSoft

noncomputable section

open scoped BigOperators

namespace Cert.RefNet

open Cert.ReferenceIdeal Cert.ReferenceIdeal.Gen Cert.ReferenceIdeal.Read Idealize.ShloMosaic Idealize.ShloMosaic.StableHlo

section
variable (x0 : (⟨S8192x3072, .f32⟩ : BufTy).Contents (Elt Ideal)) (x1 : (⟨S3072x8192, .f32⟩ : BufTy).Contents (Elt Ideal)) (x2 x3 x4 x5 : (⟨S8192, .f32⟩ : BufTy).Contents (Elt Ideal))
  (x6 : (⟨S8192x8192, .f32⟩ : BufTy).Contents (Elt Ideal)) (x7 x8 : (⟨S8192, .f32⟩ : BufTy).Contents (Elt Ideal)) (h1 : Fin 8192 → Fin 8192 → EReal)

/-- The second layer's scale repeated down the rows. -/
theorem row68 (r j : Fin 8192) : val_main_v68 (F := Ideal) x8 (ValueIdx.ix2 r j) = x8 (ValueIdx.ix1 j) := by
  rw [val_main_v68_apply, val_main_v67_apply]
  exact congrArg x8 (funext fun d => Fin.ext (by match d with | ⟨0, _⟩ => rfl))

/-- The second layer's bias repeated down the rows. -/
theorem row71 (r j : Fin 8192) : val_main_v71 (F := Ideal) x7 (ValueIdx.ix2 r j) = x7 (ValueIdx.ix1 j) := by
  rw [val_main_v71_apply, val_main_v70_apply]
  exact congrArg x7 (funext fun d => Fin.ext (by match d with | ⟨0, _⟩ => rfl))

/-- The second product at an entry: row r of the first activation against column j of the softened weights. -/
theorem dot66 (h50 : ∀ r j : Fin 8192, val_main_v50 (F := Ideal) x0 x1 x2 x3 x4 x5 (ValueIdx.ix2 r j) = h1 r j) (r j : Fin 8192) :
    val_main_v66 (F := Ideal) x0 x1 x2 x3 x4 x5 x6 (ValueIdx.ix2 r j)
      = ∑ k : Fin 8192, h1 r k * Cert.Spec.softBin (x6 (ValueIdx.ix2 k j)) := by
  rw [val_main_v66_apply]
  refine Finset.sum_congr rfl fun k _ => ?_
  rw [soft2]
  have el : lidx_main_v66 (ValueIdx.ix2 r j) k = ValueIdx.ix2 r k :=
    funext fun d => Fin.ext (by match d with | ⟨0, _⟩ => rfl | ⟨1, _⟩ => rfl)
  have er : ridx_main_v66 (ValueIdx.ix2 r j) k = ValueIdx.ix2 k j :=
    funext fun d => Fin.ext (by match d with | ⟨0, _⟩ => rfl | ⟨1, _⟩ => rfl)
  rw [el, er, h50]

/-- The second layer followed by max(·, 0), plus the first activation, at an entry. -/
theorem res74 (h50 : ∀ r j : Fin 8192, val_main_v50 (F := Ideal) x0 x1 x2 x3 x4 x5 (ValueIdx.ix2 r j) = h1 r j) (r j : Fin 8192) :
    val_main_v74 (F := Ideal) x0 x1 x2 x3 x4 x5 x6 x7 x8 (ValueIdx.ix2 r j)
      = max (Cert.Spec.layer h1 (fun k j => Cert.Spec.softBin (x6 (ValueIdx.ix2 k j)))
          (fun j => x8 (ValueIdx.ix1 j)) (fun j => x7 (ValueIdx.ix1 j)) r j) Cert.Spec.wZero + h1 r j := by
  rw [val_main_v74_apply, val_main_v73_apply, val_main_v72_apply, val_main_v69_apply, dot66 x0 x1 x2 x3 x4 x5 x6 h1 h50, row68, row71,
    val_main_call1_v0_apply, val_main_call1_cst_apply, h50]
  simp only [Ideal.ofBits_def, Ideal.addf_def, Ideal.mulf_def, Ideal.maximumf_def]
  rfl

end

end Cert.RefNet

end
-- ==== Proof.RefNorm2.lean ====
/-
  The reference's second row normalisation, entry by entry, over whatever activation it is applied to:
  row sum, mean, deviations, variance, reciprocal root, gain and offset.
-/
import proofs.«159875_j41042707481000_2_alg».proof.Proof.Gen.ReferenceIdeal.Read
import proofs.«159875_j41042707481000_2_alg».proof.Proof.Spec

noncomputable section

open scoped BigOperators

namespace Cert.RefNet

open Cert.ReferenceIdeal Cert.ReferenceIdeal.Gen Cert.ReferenceIdeal.Read Idealize.ShloMosaic Idealize.ShloMosaic.StableHlo

section
variable (x0 : (⟨S8192x3072, .f32⟩ : BufTy).Contents (Elt Ideal)) (x1 : (⟨S3072x8192, .f32⟩ : BufTy).Contents (Elt Ideal)) (x2 x3 x4 x5 : (⟨S8192, .f32⟩ : BufTy).Contents (Elt Ideal))
  (x6 : (⟨S8192x8192, .f32⟩ : BufTy).Contents (Elt Ideal)) (x7 x8 x9 x10 : (⟨S8192, .f32⟩ : BufTy).Contents (Elt Ideal))
  (a : Fin 8192 → Fin 8192 → EReal)

/-- A row's sum: the add-reduce along the columns starts from the zero word. -/
theorem sum75 (h74 : ∀ r j : Fin 8192, val_main_v74 (F := Ideal) x0 x1 x2 x3 x4 x5 x6 x7 x8 (ValueIdx.ix2 r j) = a r j) (r : Fin 8192) :
    val_main_v75 (F := Ideal) x0 x1 x2 x3 x4 x5 x6 x7 x8 (ValueIdx.ix1 r) = ∑ j : Fin 8192, a r j := by
  rw [val_main_v75_apply, val_main_cst_18_apply, Ideal.ofBits_def, Ideal.ofBits_zero_f32, zero_add]
  refine Finset.sum_congr rfl fun k _ => ?_
  refine (congrArg _ ?_).trans (h74 r k)
  exact funext fun d => Fin.ext (by match d with | ⟨0, _⟩ => rfl | ⟨1, _⟩ => rfl)

/-- The row means, kept as a column. -/
theorem mean78 (h74 : ∀ r j : Fin 8192, val_main_v74 (F := Ideal) x0 x1 x2 x3 x4 x5 x6 x7 x8 (ValueIdx.ix2 r j) = a r j) (r : Fin 8192) (c : Fin 1) :
    val_main_v78 (F := Ideal) x0 x1 x2 x3 x4 x5 x6 x7 x8 (ValueIdx.ix2 r c) = Cert.Spec.rowMean a r := by
  have e : idx_main_v76 (ValueIdx.ix2 r c) = ValueIdx.ix1 r :=
    funext fun d => Fin.ext (by match d with | ⟨0, _⟩ => rfl)
  rw [val_main_v78_apply, val_main_v76_apply, e, sum75 x0 x1 x2 x3 x4 x5 x6 x7 x8 a h74, val_main_v77_apply, val_main_cst_19_apply]
  simp only [Ideal.ofBits_def, Ideal.hostDivf_def]
  rfl

/-- The row means repeated along the rows (first copy). -/
theorem mean79 (h74 : ∀ r j : Fin 8192, val_main_v74 (F := Ideal) x0 x1 x2 x3 x4 x5 x6 x7 x8 (ValueIdx.ix2 r j) = a r j) (r j : Fin 8192) :
    val_main_v79 (F := Ideal) x0 x1 x2 x3 x4 x5 x6 x7 x8 (ValueIdx.ix2 r j) = Cert.Spec.rowMean a r := by
  have e : idx_main_v79 (ValueIdx.ix2 r j) = ValueIdx.ix2 r (0 : Fin 1) :=
    funext fun d => Fin.ext (by match d with | ⟨0, _⟩ => rfl | ⟨1, _⟩ => rfl)
  rw [val_main_v79_apply, e, mean78 x0 x1 x2 x3 x4 x5 x6 x7 x8 a h74]

/-- The row means repeated along the rows (second copy). -/
theorem mean86 (h74 : ∀ r j : Fin 8192, val_main_v74 (F := Ideal) x0 x1 x2 x3 x4 x5 x6 x7 x8 (ValueIdx.ix2 r j) = a r j) (r j : Fin 8192) :
    val_main_v86 (F := Ideal) x0 x1 x2 x3 x4 x5 x6 x7 x8 (ValueIdx.ix2 r j) = Cert.Spec.rowMean a r := by
  have e : idx_main_v86 (ValueIdx.ix2 r j) = ValueIdx.ix2 r (0 : Fin 1) :=
    funext fun d => Fin.ext (by match d with | ⟨0, _⟩ => rfl | ⟨1, _⟩ => rfl)
  rw [val_main_v86_apply, e, mean78 x0 x1 x2 x3 x4 x5 x6 x7 x8 a h74]

/-- A row's sum of squared deviations. -/
theorem sum82 (h74 : ∀ r j : Fin 8192, val_main_v74 (F := Ideal) x0 x1 x2 x3 x4 x5 x6 x7 x8 (ValueIdx.ix2 r j) = a r j) (r : Fin 8192) :
    val_main_v82 (F := Ideal) x0 x1 x2 x3 x4 x5 x6 x7 x8 (ValueIdx.ix1 r)
      = ∑ j : Fin 8192, (a r j - Cert.Spec.rowMean a r) * (a r j - Cert.Spec.rowMean a r) := by
  rw [val_main_v82_apply, val_main_cst_20_apply, Ideal.ofBits_def, Ideal.ofBits_zero_f32, zero_add]
  refine Finset.sum_congr rfl fun k _ => ?_
  have e : idx_main_v82 (ValueIdx.ix1 r) k = ValueIdx.ix2 r k :=
    funext fun d => Fin.ext (by match d with | ⟨0, _⟩ => rfl | ⟨1, _⟩ => rfl)
  rw [e, val_main_v81_apply, val_main_v80_apply, h74, mean79 x0 x1 x2 x3 x4 x5 x6 x7 x8 a h74]
  rfl

/-- The row variances, kept as a column. -/
theorem var85 (h74 : ∀ r j : Fin 8192, val_main_v74 (F := Ideal) x0 x1 x2 x3 x4 x5 x6 x7 x8 (ValueIdx.ix2 r j) = a r j) (r : Fin 8192) (c : Fin 1) :
    val_main_v85 (F := Ideal) x0 x1 x2 x3 x4 x5 x6 x7 x8 (ValueIdx.ix2 r c) = Cert.Spec.rowVar a r := by
  have e : idx_main_v83 (ValueIdx.ix2 r c) = ValueIdx.ix1 r :=
    funext fun d => Fin.ext (by match d with | ⟨0, _⟩ => rfl)
  rw [val_main_v85_apply, val_main_v83_apply, e, sum82 x0 x1 x2 x3 x4 x5 x6 x7 x8 a h74, val_main_v84_apply, val_main_cst_21_apply]
  simp only [Ideal.ofBits_def, Ideal.hostDivf_def]
  rfl

/-- The reciprocal root of the variance plus ε, repeated along the rows. -/
theorem rs91 (h74 : ∀ r j : Fin 8192, val_main_v74 (F := Ideal) x0 x1 x2 x3 x4 x5 x6 x7 x8 (ValueIdx.ix2 r j) = a r j) (r j : Fin 8192) :
    val_main_v91 (F := Ideal) x0 x1 x2 x3 x4 x5 x6 x7 x8 (ValueIdx.ix2 r j) = Ideal.rsqrt (Cert.Spec.rowVar a r + Cert.Spec.wEps) := by
  have e : idx_main_v91 (ValueIdx.ix2 r j) = ValueIdx.ix2 r (0 : Fin 1) :=
    funext fun d => Fin.ext (by match d with | ⟨0, _⟩ => rfl | ⟨1, _⟩ => rfl)
  rw [val_main_v91_apply, e, val_main_v90_apply, val_main_v89_apply, var85 x0 x1 x2 x3 x4 x5 x6 x7 x8 a h74, val_main_v88_apply,
    val_main_cst_22_apply]
  simp only [Ideal.ofBits_def, Ideal.addf_def, Ideal.hostUnary_rsqrt_def]

/-- The second normalisation's gain repeated down the rows. -/
theorem row94 (r j : Fin 8192) : val_main_v94 (F := Ideal) x9 (ValueIdx.ix2 r j) = x9 (ValueIdx.ix1 j) := by
  rw [val_main_v94_apply, val_main_v93_apply]
  exact congrArg x9 (funext fun d => Fin.ext (by match d with | ⟨0, _⟩ => rfl))

/-- The second normalisation's offset repeated down the rows. -/
theorem row97 (r j : Fin 8192) : val_main_v97 (F := Ideal) x10 (ValueIdx.ix2 r j) = x10 (ValueIdx.ix1 j) := by
  rw [val_main_v97_apply, val_main_v96_apply]
  exact congrArg x10 (funext fun d => Fin.ext (by match d with | ⟨0, _⟩ => rfl))

/-- The second row normalisation at an entry, over whatever the activation before it is. -/
theorem norm98 (h74 : ∀ r j : Fin 8192, val_main_v74 (F := Ideal) x0 x1 x2 x3 x4 x5 x6 x7 x8 (ValueIdx.ix2 r j) = a r j) (r j : Fin 8192) :
    val_main_v98 (F := Ideal) x0 x1 x2 x3 x4 x5 x6 x7 x8 x9 x10 (ValueIdx.ix2 r j)
      = Cert.Spec.norm a (fun j => x9 (ValueIdx.ix1 j)) (fun j => x10 (ValueIdx.ix1 j)) r j := by
  rw [val_main_v98_apply, val_main_v95_apply, val_main_v92_apply, val_main_v87_apply, h74, mean86 x0 x1 x2 x3 x4 x5 x6 x7 x8 a h74,
    rs91 x0 x1 x2 x3 x4 x5 x6 x7 x8 a h74, row94, row97]
  rfl

end

end Cert.RefNet

end
-- ==== Proof.RefHead.lean ====
/-
  The reference's head layer, entry by entry, over whatever the second activation is.
-/
import proofs.«159875_j41042707481000_2_alg».proof.Proof.RefSoft

noncomputable section

open scoped BigOperators

namespace Cert.RefNet

open Cert.ReferenceIdeal Cert.ReferenceIdeal.Gen Cert.ReferenceIdeal.Read Idealize.ShloMosaic Idealize.ShloMosaic.StableHlo

section
variable (x0 : (⟨S8192x3072, .f32⟩ : BufTy).Contents (Elt Ideal)) (x1 : (⟨S3072x8192, .f32⟩ : BufTy).Contents (Elt Ideal)) (x2 x3 x4 x5 : (⟨S8192, .f32⟩ : BufTy).Contents (Elt Ideal))
  (x6 : (⟨S8192x8192, .f32⟩ : BufTy).Contents (Elt Ideal)) (x7 x8 x9 x10 : (⟨S8192, .f32⟩ : BufTy).Contents (Elt Ideal)) (x11 : (⟨S8192x10, .f32⟩ : BufTy).Contents (Elt Ideal)) (x12 x13 : (⟨S10, .f32⟩ : BufTy).Contents (Elt Ideal))
  (h2 : Fin 8192 → Fin 8192 → EReal)

/-- The head's scale repeated down the rows. -/
theorem row116 (r : Fin 8192) (o : Fin 10) : val_main_v116 (F := Ideal) x13 (ValueIdx.ix2 r o) = x13 (ValueIdx.ix1 o) := by
  rw [val_main_v116_apply, val_main_v115_apply]
  exact congrArg x13 (funext fun d => Fin.ext (by match d with | ⟨0, _⟩ => rfl))

/-- The head's bias repeated down the rows. -/
theorem row119 (r : Fin 8192) (o : Fin 10) : val_main_v119 (F := Ideal) x12 (ValueIdx.ix2 r o) = x12 (ValueIdx.ix1 o) := by
  rw [val_main_v119_apply, val_main_v118_apply]
  exact congrArg x12 (funext fun d => Fin.ext (by match d with | ⟨0, _⟩ => rfl))

/-- The head's product at an entry: row r of the second activation against column o of the softened weights. -/
theorem dot114 (h98 : ∀ r j : Fin 8192, val_main_v98 (F := Ideal) x0 x1 x2 x3 x4 x5 x6 x7 x8 x9 x10 (ValueIdx.ix2 r j) = h2 r j)
    (r : Fin 8192) (o : Fin 10) :
    val_main_v114 (F := Ideal) x0 x1 x2 x3 x4 x5 x6 x7 x8 x9 x10 x11 (ValueIdx.ix2 r o)
      = ∑ k : Fin 8192, h2 r k * Cert.Spec.softBin (x11 (ValueIdx.ix2 k o)) := by
  rw [val_main_v114_apply]
  refine Finset.sum_congr rfl fun k _ => ?_
  rw [soft3]
  have el : lidx_main_v114 (ValueIdx.ix2 r o) k = ValueIdx.ix2 r k :=
    funext fun d => Fin.ext (by match d with | ⟨0, _⟩ => rfl | ⟨1, _⟩ => rfl)
  have er : ridx_main_v114 (ValueIdx.ix2 r o) k = ValueIdx.ix2 k o :=
    funext fun d => Fin.ext (by match d with | ⟨0, _⟩ => rfl | ⟨1, _⟩ => rfl)
  rw [el, er, h98]

/-- The head at an entry. -/
theorem head120 (h98 : ∀ r j : Fin 8192, val_main_v98 (F := Ideal) x0 x1 x2 x3 x4 x5 x6 x7 x8 x9 x10 (ValueIdx.ix2 r j) = h2 r j)
    (r : Fin 8192) (o : Fin 10) :
    val_main_v120 (F := Ideal) x0 x1 x2 x3 x4 x5 x6 x7 x8 x9 x10 x11 x12 x13 (ValueIdx.ix2 r o)
      = Cert.Spec.layer h2 (fun k o => Cert.Spec.softBin (x11 (ValueIdx.ix2 k o)))
          (fun o => x13 (ValueIdx.ix1 o)) (fun o => x12 (ValueIdx.ix1 o)) r o := by
  rw [val_main_v120_apply, val_main_v117_apply, dot114 x0 x1 x2 x3 x4 x5 x6 x7 x8 x9 x10 x11 h2 h98, row116, row119]
  rfl

end

end Cert.RefNet

end
-- ==== Proof.RefNet.lean ====
/-
  The reference computes the network of the specification: its composed term of the fourteen argument arrays
  is Spec.netArr, stage by stage (softened weights, first layer, first normalisation, second layer with the
  residual, second normalisation, head), and so every execution of the reference ends there.
-/
import proofs.«159875_j41042707481000_2_alg».proof.Proof.RefL1
import proofs.«159875_j41042707481000_2_alg».proof.Proof.RefNorm1
import proofs.«159875_j41042707481000_2_alg».proof.Proof.RefL2
import proofs.«159875_j41042707481000_2_alg».proof.Proof.RefNorm2
import proofs.«159875_j41042707481000_2_alg».proof.Proof.RefHead

noncomputable section

open scoped BigOperators

namespace Cert.RefNet

open Cert.ReferenceIdeal Cert.ReferenceIdeal.Gen Cert.ReferenceIdeal.Read Idealize.ShloMosaic Idealize.ShloMosaic.StableHlo

/-- The reference's composed term of its fourteen arguments is the network of the specification. -/
theorem term_eq (x0 : (⟨S8192x3072, .f32⟩ : BufTy).Contents (Elt Ideal)) (x1 : (⟨S3072x8192, .f32⟩ : BufTy).Contents (Elt Ideal)) (x2 x3 x4 x5 : (⟨S8192, .f32⟩ : BufTy).Contents (Elt Ideal))
    (x6 : (⟨S8192x8192, .f32⟩ : BufTy).Contents (Elt Ideal)) (x7 x8 x9 x10 : (⟨S8192, .f32⟩ : BufTy).Contents (Elt Ideal)) (x11 : (⟨S8192x10, .f32⟩ : BufTy).Contents (Elt Ideal)) (x12 x13 : (⟨S10, .f32⟩ : BufTy).Contents (Elt Ideal)) :
    val_main_v120 (F := Ideal) x0 x1 x2 x3 x4 x5 x6 x7 x8 x9 x10 x11 x12 x13 = Cert.Spec.netArr x0 x1 x2 x3 x4 x5 x6 x7 x8 x9 x10 x11 x12 x13 := by
  funext i
  obtain ⟨r, o, rfl⟩ : ∃ (r : Fin 8192) (o : Fin 10), i = ValueIdx.ix2 r o := ⟨i 0, i 1, ValueIdx.eq_ix2 i⟩
  have h26 := relu26 x0 x1 x2 x3
  have h50 := norm50 x0 x1 x2 x3 x4 x5 _ h26
  have h74 := res74 x0 x1 x2 x3 x4 x5 x6 x7 x8 _ h50
  have h98 := norm98 x0 x1 x2 x3 x4 x5 x6 x7 x8 x9 x10 _ h74
  exact head120 x0 x1 x2 x3 x4 x5 x6 x7 x8 x9 x10 x11 x12 x13 _ h98 r o

open Idealize.ShloMosaic.TcCoe Idealize.SL.Sem in
/-- Every execution of the reference ends with its result at the network of the specification on the argument arrays,
    the arguments unchanged. -/
theorem run (m' : (ℓ : Loc nD τ sig) → Buf (Elt Ideal) ℓ) (g' : Dev nD → PrngReg) :
    θ_run (defs (F := Ideal)) (onTc (τ := τ) (main (F := Ideal))) ⟨m', fun _ => 0, g'⟩ (fun r => ∀ c : Dev nD,
      r.2.mem ((c.tc : Thread nD τ).loc main_v120) = Cert.Spec.netArr (m' ((c.tc : Thread nD τ).loc main_arg0)) (m' ((c.tc : Thread nD τ).loc main_arg1)) (m' ((c.tc : Thread nD τ).loc main_arg2)) (m' ((c.tc : Thread nD τ).loc main_arg3)) (m' ((c.tc : Thread nD τ).loc main_arg4)) (m' ((c.tc : Thread nD τ).loc main_arg5)) (m' ((c.tc : Thread nD τ).loc main_arg6)) (m' ((c.tc : Thread nD τ).loc main_arg7)) (m' ((c.tc : Thread nD τ).loc main_arg8)) (m' ((c.tc : Thread nD τ).loc main_arg9)) (m' ((c.tc : Thread nD τ).loc main_arg10)) (m' ((c.tc : Thread nD τ).loc main_arg11)) (m' ((c.tc : Thread nD τ).loc main_arg12)) (m' ((c.tc : Thread nD τ).loc main_arg13))
      ∧ r.2.mem ((c.tc : Thread nD τ).loc main_arg0) = m' ((c.tc : Thread nD τ).loc main_arg0)
      ∧ r.2.mem ((c.tc : Thread nD τ).loc main_arg1) = m' ((c.tc : Thread nD τ).loc main_arg1)
      ∧ r.2.mem ((c.tc : Thread nD τ).loc main_arg2) = m' ((c.tc : Thread nD τ).loc main_arg2)
      ∧ r.2.mem ((c.tc : Thread nD τ).loc main_arg3) = m' ((c.tc : Thread nD τ).loc main_arg3)
      ∧ r.2.mem ((c.tc : Thread nD τ).loc main_arg4) = m' ((c.tc : Thread nD τ).loc main_arg4)
      ∧ r.2.mem ((c.tc : Thread nD τ).loc main_arg5) = m' ((c.tc : Thread nD τ).loc main_arg5)
      ∧ r.2.mem ((c.tc : Thread nD τ).loc main_arg6) = m' ((c.tc : Thread nD τ).loc main_arg6)
      ∧ r.2.mem ((c.tc : Thread nD τ).loc main_arg7) = m' ((c.tc : Thread nD τ).loc main_arg7)
      ∧ r.2.mem ((c.tc : Thread nD τ).loc main_arg8) = m' ((c.tc : Thread nD τ).loc main_arg8)
      ∧ r.2.mem ((c.tc : Thread nD τ).loc main_arg9) = m' ((c.tc : Thread nD τ).loc main_arg9)
      ∧ r.2.mem ((c.tc : Thread nD τ).loc main_arg10) = m' ((c.tc : Thread nD τ).loc main_arg10)
      ∧ r.2.mem ((c.tc : Thread nD τ).loc main_arg11) = m' ((c.tc : Thread nD τ).loc main_arg11)
      ∧ r.2.mem ((c.tc : Thread nD τ).loc main_arg12) = m' ((c.tc : Thread nD τ).loc main_arg12)
      ∧ r.2.mem ((c.tc : Thread nD τ).loc main_arg13) = m' ((c.tc : Thread nD τ).loc main_arg13)) :=
  (θ_run _ _ _).mono (fun _ h c => ⟨((h c).1.trans (val_main_v120_eq m' c)).trans (term_eq _ _ _ _ _ _ _ _ _ _ _ _ _ _), (h c).2⟩)
    (Cert.ReferenceIdeal.Value.run m' g')

end Cert.RefNet

end
-- ==== Proof.lean ====
/-
  Kernel against reference for a three-layer perceptron with softened weights, two row normalisations and a residual.

  Both programs compute, at every output entry (r, o), the network of Proof/Spec.lean on the fourteen argument arrays:
  the weights softened entry by entry; the first layer's products scaled, biased and clipped at zero, then normalised
  row by row; the second layer likewise plus the first activation, normalised again; the head's products scaled and
  biased. The reference does this in whole-array host operations; the kernel in four grid regions — two matrix
  products accumulated over a contraction axis in steps of 512, two row-wise regions of 128 rows per grid point —
  between stretches of host operations. On the extended reals the two are one function: a sum accumulated chunk by
  chunk from zero is the whole sum (addition there is associative and commutative; no finiteness is used), a change of
  float format is the identity, and the tilings only say which grid point writes which entry.

  The frames of the two kernel programs are the run of Proof/B_Run.lean and Proof/I_Run.lean (every unscoped buffer
  ends at a named contents; the arguments are read back through the boundaries to their launch contents); the
  reference's frame is its run with the result dropped. No rewrite was applied by the ideal pass, so the idealization
  claim is trivial. The value claim joins the kernel's run (Proof/I_Net.lean) and the reference's (Proof/RefNet.lean)
  at Spec.netArr of the common arguments.
-/
import proofs.«159875_j41042707481000_2_alg».proof.Defs
import proofs.«159875_j41042707481000_2_alg».proof.Proof.Gen.Kernel
import proofs.«159875_j41042707481000_2_alg».proof.Proof.Gen.KernelIdeal
import proofs.«159875_j41042707481000_2_alg».proof.Proof.Gen.ReferenceIdeal
import proofs.«159875_j41042707481000_2_alg».proof.Proof.Gen.Pre_finite_inputs
import proofs.«159875_j41042707481000_2_alg».proof.Proof.Gen.ReferenceIdeal.Run
import proofs.«159875_j41042707481000_2_alg».proof.Proof.B_Run
import proofs.«159875_j41042707481000_2_alg».proof.Proof.I_Run
import proofs.«159875_j41042707481000_2_alg».proof.Proof.I_Net
import proofs.«159875_j41042707481000_2_alg».proof.Proof.RefNet
import Idealize.ShloMosaic.Adequacy
import Idealize.ShloMosaic.Init

noncomputable section

namespace Cert.Proof

open Idealize.ShloMosaic Idealize.SL.Sem

theorem frame_k : Cert.frame_Kernel (hKernel := Cert.Kernel.Gen.facts) (hPre_finite_inputs := Cert.Pre_finite_inputs.Gen.facts) :=
  fun m ρ _ => Cert.Kernel.Hand.frame (F := Bits) m ρ

theorem frame_ki : Cert.frame_KernelIdeal (hKernelIdeal := Cert.KernelIdeal.Gen.facts) (hPre_finite_inputs := Cert.Pre_finite_inputs.Gen.facts) :=
  fun m ρ _ => Cert.KernelIdeal.Hand.frame (F := Ideal) m ρ

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- Both idealized programs end with the network's value on their (agreeing) arguments. -/
theorem algebraic : Cert.algebraic_KernelIdeal_ReferenceIdeal (hKernelIdeal := Cert.KernelIdeal.Gen.facts) (hReferenceIdeal := Cert.ReferenceIdeal.Gen.facts) (hPre_finite_inputs := Cert.Pre_finite_inputs.Gen.facts) := by
  intro m ρ m' ρ' _ hagree
  refine ⟨fun c => Cert.Spec.netArr (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)), Cert.KernelNet.run m ρ, ?_⟩
  refine (θ_run Cert.ReferenceIdeal.defs _ _).mono (fun _ h c => ⟨(h c).1.trans ?_, (h c).2⟩) (Cert.RefNet.run m' ρ')
  obtain ⟨h0, h1, h2, h3, h4, h5, h6, h7, h8, h9, h10, h11, h12, h13⟩ := hagree c
  rw [h0, h1, h2, h3, h4, h5, h6, h7, h8, h9, h10, h11, h12, h13]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
